-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x16x64 : Shape := ⟨4, ![4, 2048, 16, 64]⟩
abbrev S_ : Shape := ⟨0, ![]⟩

class Facts : Prop where
  bcast_S_S4x2048x16x64 : S_.BroadcastsInDim S4x2048x16x64 (![] : Fin 0 → Fin S4x2048x16x64.rank)
  reducesTo_S4x2048x16x64_S_d0_1_2_3 : S4x2048x16x64.ReducesTo [0, 1, 2, 3] S_
  h_S_ : 0 < S_.numel

variable [Facts]

def fn {F : FTy → Type} [FloatOps F] (main_arg0 : FVec F S4x2048x16x64 .f32) (main_arg1 : FVec F S4x2048x16x64 .f32) (main_arg2 : FVec F S4x2048x16x64 .f32) : IVec S_ 1 :=
  let main_v0 : FVec F S4x2048x16x64 .f32 := Host.absf main_arg0
  let main_cst : FVec F S_ .f32 := constant S_ .f32 0x7F800000#32
  let main_v1 : FVec F S4x2048x16x64 .f32 := broadcastInDim S4x2048x16x64 ![] bcast_S_S4x2048x16x64 main_cst
  let main_v2 : IVec S4x2048x16x64 1 := cmpf .olt main_v0 main_v1
  let main_c : IVec S_ 1 := constantI S_ 1 1#1
  let main_v3 : IVec S_ 1 := (fun x v => Host.reduce IntOp.andi x v reducesTo_S4x2048x16x64_S_d0_1_2_3 h_S_) main_v2 main_c
  let main_v4 : FVec F S4x2048x16x64 .f32 := Host.absf main_arg1
  let main_cst_0 : FVec F S_ .f32 := constant S_ .f32 0x7F800000#32
  let main_v5 : FVec F S4x2048x16x64 .f32 := broadcastInDim S4x2048x16x64 ![] bcast_S_S4x2048x16x64 main_cst_0
  let main_v6 : IVec S4x2048x16x64 1 := cmpf .olt main_v4 main_v5
  let main_c_1 : IVec S_ 1 := constantI S_ 1 1#1
  let main_v7 : IVec S_ 1 := (fun x v => Host.reduce IntOp.andi x v reducesTo_S4x2048x16x64_S_d0_1_2_3 h_S_) main_v6 main_c_1
  let main_v8 : IVec S_ 1 := andi main_v3 main_v7
  let main_v9 : FVec F S4x2048x16x64 .f32 := Host.absf main_arg2
  let main_cst_2 : FVec F S_ .f32 := constant S_ .f32 0x7F800000#32
  let main_v10 : FVec F S4x2048x16x64 .f32 := broadcastInDim S4x2048x16x64 ![] bcast_S_S4x2048x16x64 main_cst_2
  let main_v11 : IVec S4x2048x16x64 1 := cmpf .olt main_v9 main_v10
  let main_c_3 : IVec S_ 1 := constantI S_ 1 1#1
  let main_v12 : IVec S_ 1 := (fun x v => Host.reduce IntOp.andi x v reducesTo_S4x2048x16x64_S_d0_1_2_3 h_S_) main_v11 main_c_3
  let main_v13 : IVec S_ 1 := andi main_v8 main_v12
  main_v13
-- ==== Kernel.lean ====
abbrev S4x2048x16x64 : Shape := ⟨4, ![4, 2048, 16, 64]⟩
abbrev S4x2048x1024 : Shape := ⟨3, ![4, 2048, 1024]⟩
abbrev S1x512x1024 : Shape := ⟨3, ![1, 512, 1024]⟩
abbrev S512x16 : Shape := ⟨2, ![512, 16]⟩
abbrev S512x1024 : Shape := ⟨2, ![512, 1024]⟩
abbrev S1x512x64 : Shape := ⟨3, ![1, 512, 64]⟩
abbrev S512x64 : Shape := ⟨2, ![512, 64]⟩
abbrev S64x512 : Shape := ⟨2, ![64, 512]⟩
abbrev S512x512 : Shape := ⟨2, ![512, 512]⟩
abbrev S512x1 : Shape := ⟨2, ![512, 1]⟩
abbrev S512 : Shape := ⟨1, ![512]⟩

abbrev nBuf : Space → Nat
  | .hbm => 8
  | .vmem => 11
  | .smem => 0
  | _ => 0

abbrev bufTy : (tb : Table) → Fin (tcTables nBuf tb) → BufTy
  | .hbm, ⟨0, _⟩ => ⟨S4x2048x16x64, .f32⟩
  | .hbm, ⟨1, _⟩ => ⟨S4x2048x16x64, .f32⟩
  | .hbm, ⟨2, _⟩ => ⟨S4x2048x16x64, .f32⟩
  | .hbm, ⟨3, _⟩ => ⟨S4x2048x1024, .f32⟩
  | .hbm, ⟨4, _⟩ => ⟨S4x2048x1024, .f32⟩
  | .hbm, ⟨5, _⟩ => ⟨S4x2048x1024, .f32⟩
  | .hbm, ⟨6, _⟩ => ⟨S4x2048x1024, .f32⟩
  | .hbm, ⟨7, _⟩ => ⟨S4x2048x16x64, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x512x1024, .f32⟩
  | .local _ .vmem, ⟨7, _⟩ => ⟨S1x512x1024, .f32⟩
  | .local _ .vmem, ⟨8, _⟩ => ⟨S512x16, .f32⟩
  | .local _ .vmem, ⟨9, _⟩ => ⟨S512x16, .f32⟩
  | .local _ .vmem, ⟨10, _⟩ => ⟨S512x1024, .f32⟩
  | _, _ => ⟨S4x2048x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 4], ![false, false, false]⟩

def k0_cond4 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let c0_i32_0 : BitVec 32 := 0#32
  ![arg0.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let c0_i32_0 : BitVec 32 := 0#32
  ![arg0.toNat, v0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4x2048x16x64_S4x2048x1024 : S4x2048x16x64.ShapeCasts S4x2048x1024
  inb_S512x16_S512x16_0_0 : ∀ a, (![0, 0] : Fin 2 → Nat) a + S512x16.size a ≤ S512x16.size a
  h_S512x16 : 0 < S512x16.numel
  shapeCasts_S512x16_S512x16 : S512x16.ShapeCasts S512x16
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x512x1024_S1x512x64_0_0_0 : ∀ a, (![0, 0, 0] : Fin 3 → Nat) a + S1x512x64.size a ≤ S1x512x1024.size a
  h_S1x512x64 : 0 < S1x512x64.numel
  shapeCasts_S1x512x64_S512x64 : S1x512x64.ShapeCasts S512x64
  bitsLt_bf16_f32 : FTy.bits .bf16 < FTy.bits .f32
  transposes_S512x64_p1_0_S64x512 : S512x64.Transposes [1, 0] S64x512
  inb_S512x16_S512x1_0_0 : ∀ a, (![0, 0] : Fin 2 → Nat) a + S512x1.size a ≤ S512x16.size a
  h_S512x1 : 0 < S512x1.numel
  reduces_S512x512_S512 : S512x512.Reduces [1] S512
  shapeCasts_S512_S512x1 : S512.ShapeCasts S512x1
  broadcasts_S512x1_S512x512 : S512x1.Broadcasts S512x512
  shapeCasts_S512x1_S512x1 : S512x1.ShapeCasts S512x1
  inb_S512x1024_S512x64_0_0 : ∀ a, (![0, 0] : Fin 2 → Nat) a + S512x64.size a ≤ S512x1024.size a
  h_S512x64 : 0 < S512x64.numel
  broadcasts_S512x1_S512x64 : S512x1.Broadcasts S512x64
  shapeCasts_S512x64_S512x64 : S512x64.ShapeCasts S512x64
  inb_S1x512x1024_S1x512x64_0_0_64 : ∀ a, (![0, 0, 64] : Fin 3 → Nat) a + S1x512x64.size a ≤ S1x512x1024.size a
  inb_S512x16_S512x1_0_1 : ∀ a, (![0, 1] : Fin 2 → Nat) a + S512x1.size a ≤ S512x16.size a
  inb_S512x1024_S512x64_0_64 : ∀ a, (![0, 64] : Fin 2 → Nat) a + S512x64.size a ≤ S512x1024.size a
  inb_S1x512x1024_S1x512x64_0_0_128 : ∀ a, (![0, 0, 128] : Fin 3 → Nat) a + S1x512x64.size a ≤ S1x512x1024.size a
  inb_S512x16_S512x1_0_2 : ∀ a, (![0, 2] : Fin 2 → Nat) a + S512x1.size a ≤ S512x16.size a
  inb_S512x1024_S512x64_0_128 : ∀ a, (![0, 128] : Fin 2 → Nat) a + S512x64.size a ≤ S512x1024.size a
  inb_S1x512x1024_S1x512x64_0_0_192 : ∀ a, (![0, 0, 192] : Fin 3 → Nat) a + S1x512x64.size a ≤ S1x512x1024.size a
  inb_S512x16_S512x1_0_3 : ∀ a, (![0, 3] : Fin 2 → Nat) a + S512x1.size a ≤ S512x16.size a
  inb_S512x1024_S512x64_0_192 : ∀ a, (![0, 192] : Fin 2 → Nat) a + S512x64.size a ≤ S512x1024.size a
  inb_S1x512x1024_S1x512x64_0_0_256 : ∀ a, (![0, 0, 256] : Fin 3 → Nat) a + S1x512x64.size a ≤ S1x512x1024.size a
  inb_S512x16_S512x1_0_4 : ∀ a, (![0, 4] : Fin 2 → Nat) a + S512x1.size a ≤ S512x16.size a
  inb_S512x1024_S512x64_0_256 : ∀ a, (![0, 256] : Fin 2 → Nat) a + S512x64.size a ≤ S512x1024.size a
  inb_S1x512x1024_S1x512x64_0_0_320 : ∀ a, (![0, 0, 320] : Fin 3 → Nat) a + S1x512x64.size a ≤ S1x512x1024.size a
  inb_S512x16_S512x1_0_5 : ∀ a, (![0, 5] : Fin 2 → Nat) a + S512x1.size a ≤ S512x16.size a
  inb_S512x1024_S512x64_0_320 : ∀ a, (![0, 320] : Fin 2 → Nat) a + S512x64.size a ≤ S512x1024.size a
  inb_S1x512x1024_S1x512x64_0_0_384 : ∀ a, (![0, 0, 384] : Fin 3 → Nat) a + S1x512x64.size a ≤ S1x512x1024.size a
  inb_S512x16_S512x1_0_6 : ∀ a, (![0, 6] : Fin 2 → Nat) a + S512x1.size a ≤ S512x16.size a
  inb_S512x1024_S512x64_0_384 : ∀ a, (![0, 384] : Fin 2 → Nat) a + S512x64.size a ≤ S512x1024.size a
  inb_S1x512x1024_S1x512x64_0_0_448 : ∀ a, (![0, 0, 448] : Fin 3 → Nat) a + S1x512x64.size a ≤ S1x512x1024.size a
  inb_S512x16_S512x1_0_7 : ∀ a, (![0, 7] : Fin 2 → Nat) a + S512x1.size a ≤ S512x16.size a
  inb_S512x1024_S512x64_0_448 : ∀ a, (![0, 448] : Fin 2 → Nat) a + S512x64.size a ≤ S512x1024.size a
  inb_S1x512x1024_S1x512x64_0_0_512 : ∀ a, (![0, 0, 512] : Fin 3 → Nat) a + S1x512x64.size a ≤ S1x512x1024.size a
  inb_S512x16_S512x1_0_8 : ∀ a, (![0, 8] : Fin 2 → Nat) a + S512x1.size a ≤ S512x16.size a
  inb_S512x1024_S512x64_0_512 : ∀ a, (![0, 512] : Fin 2 → Nat) a + S512x64.size a ≤ S512x1024.size a
  inb_S1x512x1024_S1x512x64_0_0_576 : ∀ a, (![0, 0, 576] : Fin 3 → Nat) a + S1x512x64.size a ≤ S1x512x1024.size a
  inb_S512x16_S512x1_0_9 : ∀ a, (![0, 9] : Fin 2 → Nat) a + S512x1.size a ≤ S512x16.size a
  inb_S512x1024_S512x64_0_576 : ∀ a, (![0, 576] : Fin 2 → Nat) a + S512x64.size a ≤ S512x1024.size a
  inb_S1x512x1024_S1x512x64_0_0_640 : ∀ a, (![0, 0, 640] : Fin 3 → Nat) a + S1x512x64.size a ≤ S1x512x1024.size a
  inb_S512x16_S512x1_0_10 : ∀ a, (![0, 10] : Fin 2 → Nat) a + S512x1.size a ≤ S512x16.size a
  inb_S512x1024_S512x64_0_640 : ∀ a, (![0, 640] : Fin 2 → Nat) a + S512x64.size a ≤ S512x1024.size a
  inb_S1x512x1024_S1x512x64_0_0_704 : ∀ a, (![0, 0, 704] : Fin 3 → Nat) a + S1x512x64.size a ≤ S1x512x1024.size a
  inb_S512x16_S512x1_0_11 : ∀ a, (![0, 11] : Fin 2 → Nat) a + S512x1.size a ≤ S512x16.size a
  inb_S512x1024_S512x64_0_704 : ∀ a, (![0, 704] : Fin 2 → Nat) a + S512x64.size a ≤ S512x1024.size a
  inb_S1x512x1024_S1x512x64_0_0_768 : ∀ a, (![0, 0, 768] : Fin 3 → Nat) a + S1x512x64.size a ≤ S1x512x1024.size a
  inb_S512x16_S512x1_0_12 : ∀ a, (![0, 12] : Fin 2 → Nat) a + S512x1.size a ≤ S512x16.size a
  inb_S512x1024_S512x64_0_768 : ∀ a, (![0, 768] : Fin 2 → Nat) a + S512x64.size a ≤ S512x1024.size a
  inb_S1x512x1024_S1x512x64_0_0_832 : ∀ a, (![0, 0, 832] : Fin 3 → Nat) a + S1x512x64.size a ≤ S1x512x1024.size a
  inb_S512x16_S512x1_0_13 : ∀ a, (![0, 13] : Fin 2 → Nat) a + S512x1.size a ≤ S512x16.size a
  inb_S512x1024_S512x64_0_832 : ∀ a, (![0, 832] : Fin 2 → Nat) a + S512x64.size a ≤ S512x1024.size a
  inb_S1x512x1024_S1x512x64_0_0_896 : ∀ a, (![0, 0, 896] : Fin 3 → Nat) a + S1x512x64.size a ≤ S1x512x1024.size a
  inb_S512x16_S512x1_0_14 : ∀ a, (![0, 14] : Fin 2 → Nat) a + S512x1.size a ≤ S512x16.size a
  inb_S512x1024_S512x64_0_896 : ∀ a, (![0, 896] : Fin 2 → Nat) a + S512x64.size a ≤ S512x1024.size a
  inb_S1x512x1024_S1x512x64_0_0_960 : ∀ a, (![0, 0, 960] : Fin 3 → Nat) a + S1x512x64.size a ≤ S1x512x1024.size a
  inb_S512x16_S512x1_0_15 : ∀ a, (![0, 15] : Fin 2 → Nat) a + S512x1.size a ≤ S512x16.size a
  inb_S512x1024_S512x64_0_960 : ∀ a, (![0, 960] : Fin 2 → Nat) a + S512x64.size a ≤ S512x1024.size a
  iota_S512x512_d0_w32 : S512x512.Iotas .tc 32 [0]
  iota_S512x512_d1_w32 : S512x512.Iotas .tc 32 [1]
  shapeCasts_S512x64_S1x512x64 : S512x64.ShapeCasts S1x512x64
  shapeCasts_S4x2048x1024_S4x2048x16x64 : S4x2048x1024.ShapeCasts S4x2048x16x64
  dot_S512x64_S64x512_S512x512_1_0_0_1_n_n_wf : DotDims.WF S512x64 S64x512 S512x512 [1] [0] [0] [1] [] []
  dot_S512x512_S512x64_S512x64_1_0_0_1_n_n_wf : DotDims.WF S512x512 S512x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S4x2048x1024.size a
  hwx0_0 : ∀ i : grid0.Coords, EltTy.bits .f32 = 32 ∨ (Rect.block (s := S4x2048x1024) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S4x2048x1024.size a
  hwx0_1 : ∀ i : grid0.Coords, EltTy.bits .f32 = 32 ∨ (Rect.block (s := S4x2048x1024) S1x512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1024.size a ≤ S4x2048x1024.size a
  hwx0_2 : ∀ i : grid0.Coords, EltTy.bits .f32 = 32 ∨ (Rect.block (s := S4x2048x1024) S1x512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1024.size a ≤ S4x2048x1024.size a
  hwx0_3 : ∀ i : grid0.Coords, EltTy.bits .f32 = 32 ∨ (Rect.block (s := S4x2048x1024) S1x512x1024.size (cc0_transform_3 i) (hinb0_3 i)).WholeWords (EltTy.packing .f32)

variable [Facts₀]

def dot_S512x64_S64x512_S512x512_1_0_0_1_n_n : DotDims S512x64 S64x512 S512x512 where
  lhsContracting := [1]
  rhsContracting := [0]
  lhsNonContracting := [0]
  rhsNonContracting := [1]
  lhsBatch := []
  rhsBatch := []
  wf := dot_S512x64_S64x512_S512x512_1_0_0_1_n_n_wf
def dot_S512x512_S512x64_S512x64_1_0_0_1_n_n : DotDims S512x512 S512x64 S512x64 where
  lhsContracting := [1]
  rhsContracting := [0]
  lhsNonContracting := [0]
  rhsNonContracting := [1]
  lhsBatch := []
  rhsBatch := []
  wf := dot_S512x512_S512x64_S512x64_1_0_0_1_n_n_wf

abbrev win0_0 : Pipeline.Window sig grid0 :=
  Pipeline.Window.ofSpec (Memref.whole main_v0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond4 i == 1#1) | ⟨_ + 4, h⟩ => absurd h (Nat.not_lt.2 (Nat.le_add_left _ _))

class Facts : Prop extends Facts₀ where

variable [Facts]
-- ==== ReferenceIdeal.lean ====
abbrev S4x2048x16x64 : Shape := ⟨4, ![4, 2048, 16, 64]⟩
abbrev S4x16x2048x64 : Shape := ⟨4, ![4, 16, 2048, 64]⟩
abbrev S_ : Shape := ⟨0, ![]⟩
abbrev S4x16x2048x2048 : Shape := ⟨4, ![4, 16, 2048, 2048]⟩
abbrev S2048x2048 : Shape := ⟨2, ![2048, 2048]⟩
abbrev S1x1x2048x2048 : Shape := ⟨4, ![1, 1, 2048, 2048]⟩
abbrev S4x16x2048 : Shape := ⟨3, ![4, 16, 2048]⟩
abbrev S4x16x2048x1 : Shape := ⟨4, ![4, 16, 2048, 1]⟩

abbrev nBuf : Space → Nat
  | .hbm => 46
  | .vmem => 0
  | .smem => 0
  | _ => 0

abbrev bufTy : (tb : Table) → Fin (tcTables nBuf tb) → BufTy
  | .hbm, ⟨0, _⟩ => ⟨S4x2048x16x64, .f32⟩
  | .hbm, ⟨1, _⟩ => ⟨S4x2048x16x64, .f32⟩
  | .hbm, ⟨2, _⟩ => ⟨S4x2048x16x64, .f32⟩
  | .hbm, ⟨3, _⟩ => ⟨S4x16x2048x64, .f32⟩
  | .hbm, ⟨4, _⟩ => ⟨S4x16x2048x64, .f32⟩
  | .hbm, ⟨5, _⟩ => ⟨S4x16x2048x64, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S4x16x2048x2048, .f32⟩
  | .hbm, ⟨11, _⟩ => ⟨S4x16x2048x2048, .f32⟩
  | .hbm, ⟨12, _⟩ => ⟨S4x16x2048x2048, .f32⟩
  | .hbm, ⟨13, _⟩ => ⟨S_, .i1⟩
  | .hbm, ⟨14, _⟩ => ⟨S2048x2048, .i1⟩
  | .hbm, ⟨15, _⟩ => ⟨S2048x2048, .i32⟩
  | .hbm, ⟨16, _⟩ => ⟨S_, .i32⟩
  | .hbm, ⟨17, _⟩ => ⟨S2048x2048, .i32⟩
  | .hbm, ⟨18, _⟩ => ⟨S2048x2048, .i32⟩
  | .hbm, ⟨19, _⟩ => ⟨S2048x2048, .i32⟩
  | .hbm, ⟨20, _⟩ => ⟨S2048x2048, .i1⟩
  | .hbm, ⟨21, _⟩ => ⟨S_, .i1⟩
  | .hbm, ⟨22, _⟩ => ⟨S2048x2048, .i1⟩
  | .hbm, ⟨23, _⟩ => ⟨S2048x2048, .i1⟩
  | .hbm, ⟨24, _⟩ => ⟨S1x1x2048x2048, .i1⟩
  | .hbm, ⟨25, _⟩ => ⟨S_, .f32⟩
  | .hbm, ⟨26, _⟩ => ⟨S_, .f32⟩
  | .hbm, ⟨27, _⟩ => ⟨S4x16x2048x2048, .i1⟩
  | .hbm, ⟨28, _⟩ => ⟨S4x16x2048x2048, .f32⟩
  | .hbm, ⟨29, _⟩ => ⟨S4x16x2048x2048, .f32⟩
  | .hbm, ⟨30, _⟩ => ⟨S_, .f32⟩
  | .hbm, ⟨31, _⟩ => ⟨S4x16x2048, .f32⟩
  | .hbm, ⟨32, _⟩ => ⟨S_, .f32⟩
  | .hbm, ⟨33, _⟩ => ⟨S4x16x2048, .f32⟩
  | .hbm, ⟨34, _⟩ => ⟨S4x16x2048, .f32⟩
  | .hbm, ⟨35, _⟩ => ⟨S4x16x2048x1, .f32⟩
  | .hbm, ⟨36, _⟩ => ⟨S4x16x2048x2048, .f32⟩
  | .hbm, ⟨37, _⟩ => ⟨S4x16x2048x2048, .f32⟩
  | .hbm, ⟨38, _⟩ => ⟨S4x16x2048x2048, .f32⟩
  | .hbm, ⟨39, _⟩ => ⟨S_, .f32⟩
  | .hbm, ⟨40, _⟩ => ⟨S4x16x2048, .f32⟩
  | .hbm, ⟨41, _⟩ => ⟨S4x16x2048x1, .f32⟩
  | .hbm, ⟨42, _⟩ => ⟨S4x16x2048x2048, .f32⟩
  | .hbm, ⟨43, _⟩ => ⟨S4x16x2048x2048, .f32⟩
  | .hbm, ⟨44, _⟩ => ⟨S4x16x2048x64, .f32⟩
  | .hbm, ⟨45, _⟩ => ⟨S4x2048x16x64, .f32⟩
  | _, _ => ⟨S4x2048x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_call0_v0 : Ref sig .tc := ⟨.hbm, 15, rfl⟩
abbrev main_call0_c : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_c_0 : Ref sig .tc := ⟨.hbm, 21, rfl⟩
abbrev main_call0_v5 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v11 : Ref sig .tc := ⟨.hbm, 29, rfl⟩
abbrev main_cst_2 : Ref sig .tc := ⟨.hbm, 30, rfl⟩
abbrev main_v12 : Ref sig .tc := ⟨.hbm, 31, rfl⟩
abbrev main_cst_3 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_4 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩

abbrev nD : Nat := 1
abbrev τ : Topo := Topo.v7x

variable {F : FTy → Type} [FloatOps F]

class Facts₀ : Prop where
  transposes_S4x2048x16x64_S4x16x2048x64_0_2_1_3 : S4x2048x16x64.Transposes [0, 2, 1, 3] S4x16x2048x64
  bcast_S_S4x16x2048x2048 : S_.BroadcastsInDim S4x16x2048x2048 (![] : Fin 0 → Fin S4x16x2048x2048.rank)
  bcast_S_S2048x2048 : S_.BroadcastsInDim S2048x2048 (![] : Fin 0 → Fin S2048x2048.rank)
  bcast_S2048x2048_S1x1x2048x2048_2_3 : S2048x2048.BroadcastsInDim S1x1x2048x2048 (![2, 3] : Fin 2 → Fin S1x1x2048x2048.rank)
  bcast_S1x1x2048x2048_S4x16x2048x2048_0_1_2_3 : S1x1x2048x2048.BroadcastsInDim S4x16x2048x2048 (![0, 1, 2, 3] : Fin 4 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x64_S4x2048x16x64_0_2_1_3 : S4x16x2048x64.Transposes [0, 2, 1, 3] S4x2048x16x64
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.K.Conds.lean ====
/-
  The kernel body's four branches, as conditions on a grid point (batch, query tile, key tile), decided over the
  64 points: the accumulators are reset on the first key tile; a key tile strictly below the query tile is
  processed unmasked; the key tile ON the diagonal is processed under the causal mask; on the last key tile the
  normalised result is stored. Point t is (t / 16, t / 4 % 4, t % 4). The result's window is idle except on the
  last key tile, which is also where it is written back. The three accumulators (running maximum, running
  denominator, running numerator) are scratch buffers the kernel owns between points.
-/
import proofs.«178927_j55791625175600_2_alg».proof.Proof.Gen.Kernel.Launch
import proofs.«178927_j55791625175600_2_alg».proof.Proof.Gen.Kernel.Skeleton
import proofs.«178927_j55791625175600_2_alg».proof.Proof.Gen.Kernel.Points
import proofs.«178927_j55791625175600_2_alg».proof.Proof.Gen.Kernel.Frame
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions -/

/-- First key tile: the accumulators are reset. -/
abbrev cond1 (i : grid0.Coords) : Prop := (Scalar.cmpi .ne (Scalar.extui (Scalar.cmpi .eq (BitVec.ofNat 32 (i 2).val) 0#32)) 0#32) = 1#1
/-- Key tile strictly below the query tile: processed without a mask. -/
abbrev cond2 (i : grid0.Coords) : Prop := (Scalar.cmpi .ne (Scalar.extui (Scalar.cmpi .slt (BitVec.ofNat 32 (i 2).val) (BitVec.ofNat 32 (i 1).val))) 0#32) = 1#1
/-- Key tile on the diagonal: processed under the causal mask. -/
abbrev cond3 (i : grid0.Coords) : Prop := (Scalar.cmpi .ne (Scalar.extui (Scalar.cmpi .eq (BitVec.ofNat 32 (i 2).val) (BitVec.ofNat 32 (i 1).val))) 0#32) = 1#1
/-- Last key tile: the normalised result is stored. -/
abbrev cond4 (i : grid0.Coords) : Prop := k0_cond4 i = 1#1

theorem hcond1 : ∀ t : Fin cfg0.N, cond1 (grid0.coords t) ↔ t.val % 4 = 0 :=
  (by decide +kernel : ∀ t : Fin grid0.N, cond1 (grid0.coords t) ↔ t.val % 4 = 0)
theorem hcond2 : ∀ t : Fin cfg0.N, cond2 (grid0.coords t) ↔ t.val % 4 < t.val / 4 % 4 :=
  (by decide +kernel : ∀ t : Fin grid0.N, cond2 (grid0.coords t) ↔ t.val % 4 < t.val / 4 % 4)
theorem hcond3 : ∀ t : Fin cfg0.N, cond3 (grid0.coords t) ↔ t.val % 4 = t.val / 4 % 4 :=
  (by decide +kernel : ∀ t : Fin grid0.N, cond3 (grid0.coords t) ↔ t.val % 4 = t.val / 4 % 4)
theorem hcond4 : ∀ t : Fin cfg0.N, cond4 (grid0.coords t) ↔ t.val % 4 = 3 :=
  (by decide +kernel : ∀ t : Fin grid0.N, cond4 (grid0.coords t) ↔ t.val % 4 = 3)

/-! ## Where the windows are idle -/

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
/-- Off the last key tile nothing is stored into the result's block, and it is not written back. -/
theorem idleAt3 : ∀ t : Fin cfg0.N, ¬cond4 (grid0.coords t) → cfg0.idle 3 (grid0.coords t) = true := by decide +kernel
theorem noFlush3 : ∀ t : Fin cfg0.N, ¬cond4 (grid0.coords t) → (cfg0.win 3).flush t = false := by decide +kernel
/-- On the last key tile the block is stored whole. -/
theorem liveAt3 : ∀ t : Fin cfg0.N, cond4 (grid0.coords t) → cfg0.idle 3 (grid0.coords t) = false := by decide +kernel

/-! ## The staging memrefs at a point, and the scratch operands -/

abbrev ms0 (t : Fin cfg0.N) : Memref sig .tc .vmem S1x512x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x512x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x512x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512x1024 .f32 := win0_3.stage (cfg0.slots t 3)
abbrev hs3 (t : Fin cfg0.N) : (ms3 t).IsWhole := hstage0_3 ((cfg0.slots t 3).cast nbuf0_3)

/-- The running maximum, one column per head. -/
abbrev scM : Memref sig .tc .vmem S512x16 .f32 := Memref.whole cc0_scratch0
/-- The running denominator, one column per head. -/
abbrev scL : Memref sig .tc .vmem S512x16 .f32 := Memref.whole cc0_scratch1
/-- The running numerator, 64 columns per head. -/
abbrev scA : Memref sig .tc .vmem S512x1024 .f32 := Memref.whole cc0_scratch2
abbrev VM : View sig .tc .vmem S512x16 .f32 := (scM).view
abbrev VL : View sig .tc .vmem S512x16 .f32 := (scL).view
abbrev VA : View sig .tc .vmem S512x1024 .f32 := (scA).view
/-- One staging buffer of the result's window, through which its contents are stated. -/
abbrev VO : View sig .tc .vmem S1x512x1024 .f32 := (Memref.whole cc0_stg3_0 : Memref sig .tc .vmem S1x512x1024 .f32).view

/-- The region's invariant with the three accumulators as memrefs owned at some contents. -/
theorem PhiA_eq (c : Dev nD) :
    (Pipeline.ΦA spec0 c : sProp 𝕄)
      = iprop(iprop((∃ d, owns (c : Thread nD τ) scM fullShare d) ∗ (∃ d, owns (c : Thread nD τ) scL fullShare d) ∗ (∃ d, owns (c : Thread nD τ) scA fullShare d)) ∗ (∃ r, prngReg c r)) := by
  unfold Pipeline.ΦA; rw [scopedRest0_eq]; simp only [scM, scL, scA, owns_whole]; try rfl

end Cert.Kernel.Hand

end
-- ==== Proof.K.RunA.lean ====
/-
  The kernel body run once, symbolically, at a grid point of the kind: first key tile on the diagonal (query tile 0): reset, then the masked tile.
  The inputs' blocks are handed in and back unchanged; the result's block is not touched; each accumulator ends as the list of column slices the sixteen heads stored.
-/
import proofs.«178927_j55791625175600_2_alg».proof.Proof.K.Conds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
noncomputable def kernelRun_A (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc1 : cond1 i) (hc2 : ¬cond2 i) (hc3 : cond3 i) (hc4 : ¬cond4 i)
    (x0 x1 x2 : Vec F S1x512x1024 .f32) :
    Σ' (LS0 : List (View.Piece (Elt F) S512x16 .f32)) (LS1 : List (View.Piece (Elt F) S512x16 .f32)), { LS2 : List (View.Piece (Elt F) S512x1024 .f32) //
      ∀ (xi3 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0_kernel i arg3 harg3 arg4 harg4 arg5 harg5 arg6 harg6 arg7 harg7 arg8 harg8 arg9 harg9) K } := by
  refine ⟨?_, ?_, ?_, fun xi3 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
    obtain rfl := harg3.eq_unread hf0; obtain rfl := harg4.eq_unread hf1; obtain rfl := harg5.eq_unread hf2; obtain rfl := harg6.eq_unread hf3
    sl_exec_parts (disch := first | exact hc1 | exact hc2 | exact hc3 | exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; iexact H4
    isplitl [H5]
    · iexists _; iexact H5
    iexists _; iexact H6

end Cert.Kernel.Hand

end
-- ==== Proof.K.RunB.lean ====
/-
  The kernel body run once, symbolically, at a grid point of the kind: first key tile below the diagonal: reset, then the unmasked tile.
  The inputs' blocks are handed in and back unchanged; the result's block is not touched; each accumulator ends as the list of column slices the sixteen heads stored.
-/
import proofs.«178927_j55791625175600_2_alg».proof.Proof.K.Conds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
noncomputable def kernelRun_B (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc1 : cond1 i) (hc2 : cond2 i) (hc3 : ¬cond3 i) (hc4 : ¬cond4 i)
    (x0 x1 x2 : Vec F S1x512x1024 .f32) :
    Σ' (LS0 : List (View.Piece (Elt F) S512x16 .f32)) (LS1 : List (View.Piece (Elt F) S512x16 .f32)), { LS2 : List (View.Piece (Elt F) S512x1024 .f32) //
      ∀ (xi3 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0_kernel i arg3 harg3 arg4 harg4 arg5 harg5 arg6 harg6 arg7 harg7 arg8 harg8 arg9 harg9) K } := by
  refine ⟨?_, ?_, ?_, fun xi3 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
    obtain rfl := harg3.eq_unread hf0; obtain rfl := harg4.eq_unread hf1; obtain rfl := harg5.eq_unread hf2; obtain rfl := harg6.eq_unread hf3
    sl_exec_parts (disch := first | exact hc1 | exact hc2 | exact hc3 | exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; iexact H4
    isplitl [H5]
    · iexists _; iexact H5
    iexists _; iexact H6

end Cert.Kernel.Hand

end
-- ==== Proof.K.RunC.lean ====
/-
  The kernel body run once, symbolically, at a grid point of the kind: a later key tile below the diagonal: the unmasked tile.
  The inputs' blocks are handed in and back unchanged; the result's block is not touched; each accumulator ends as the list of column slices the sixteen heads stored.
-/
import proofs.«178927_j55791625175600_2_alg».proof.Proof.K.Conds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
noncomputable def kernelRun_C (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc1 : ¬cond1 i) (hc2 : cond2 i) (hc3 : ¬cond3 i) (hc4 : ¬cond4 i)
    (x0 x1 x2 : Vec F S1x512x1024 .f32) (xs0 xs1 : Vec F S512x16 .f32) (xs2 : Vec F S512x1024 .f32) :
    Σ' (LS0 : List (View.Piece (Elt F) S512x16 .f32)) (LS1 : List (View.Piece (Elt F) S512x16 .f32)), { LS2 : List (View.Piece (Elt F) S512x1024 .f32) //
      ∀ (xi3 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0_kernel i arg3 harg3 arg4 harg4 arg5 harg5 arg6 harg6 arg7 harg7 arg8 harg8 arg9 harg9) K } := by
  refine ⟨?_, ?_, ?_, fun xi3 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec_parts (disch := first | exact hc1 | exact hc2 | exact hc3 | exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; iexact H4
    isplitl [H5]
    · iexists _; iexact H5
    iexists _; iexact H6

end Cert.Kernel.Hand

end
-- ==== Proof.K.RunD.lean ====
/-
  The kernel body run once, symbolically, at a grid point of the kind: a later diagonal tile that is not the last key tile: the masked tile.
  The inputs' blocks are handed in and back unchanged; the result's block is not touched; each accumulator ends as the list of column slices the sixteen heads stored.
-/
import proofs.«178927_j55791625175600_2_alg».proof.Proof.K.Conds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
noncomputable def kernelRun_D (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc1 : ¬cond1 i) (hc2 : ¬cond2 i) (hc3 : cond3 i) (hc4 : ¬cond4 i)
    (x0 x1 x2 : Vec F S1x512x1024 .f32) (xs0 xs1 : Vec F S512x16 .f32) (xs2 : Vec F S512x1024 .f32) :
    Σ' (LS0 : List (View.Piece (Elt F) S512x16 .f32)) (LS1 : List (View.Piece (Elt F) S512x16 .f32)), { LS2 : List (View.Piece (Elt F) S512x1024 .f32) //
      ∀ (xi3 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0_kernel i arg3 harg3 arg4 harg4 arg5 harg5 arg6 harg6 arg7 harg7 arg8 harg8 arg9 harg9) K } := by
  refine ⟨?_, ?_, ?_, fun xi3 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec_parts (disch := first | exact hc1 | exact hc2 | exact hc3 | exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; iexact H4
    isplitl [H5]
    · iexists _; iexact H5
    iexists _; iexact H6

end Cert.Kernel.Hand

end
-- ==== Proof.K.RunE.lean ====
/-
  The kernel body run once, symbolically, at a grid point of the kind: the last key tile on the diagonal (query tile 3): the masked tile, then the result.
  The inputs' blocks are handed in and back unchanged; the result's block is stored whole (the pieces the run lists); each accumulator ends as the list of column slices the sixteen heads stored.
-/
import proofs.«178927_j55791625175600_2_alg».proof.Proof.K.Conds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
noncomputable def kernelRun_E (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc1 : ¬cond1 i) (hc2 : ¬cond2 i) (hc3 : cond3 i) (hc4 : cond4 i)
    (x0 x1 x2 : Vec F S1x512x1024 .f32) (xs0 xs1 : Vec F S512x16 .f32) (xs2 : Vec F S512x1024 .f32) :
    Σ' (L3 : List (View.Piece (Elt F) S1x512x1024 .f32)) (LS0 : List (View.Piece (Elt F) S512x16 .f32)) (LS1 : List (View.Piece (Elt F) S512x16 .f32)), { LS2 : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0_kernel i arg3 harg3 arg4 harg4 arg5 harg5 arg6 harg6 arg7 harg7 arg8 harg8 arg9 harg9) K } := by
  refine ⟨?_, ?_, ?_, ?_, fun E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%f6, %hf6, H6⟩, Hk⟩
    obtain rfl := harg3.eq_unread hf0; obtain rfl := harg4.eq_unread hf1; obtain rfl := harg5.eq_unread hf2; obtain rfl := harg7.eq_unread hf4; obtain rfl := harg8.eq_unread hf5; obtain rfl := harg9.eq_unread hf6
    sl_exec_parts (disch := first | exact hc1 | exact hc2 | exact hc3 | exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; iexact H3
    isplitl [H4]
    · iexists _; iexact H4
    isplitl [H5]
    · iexists _; iexact H5
    iexists _; iexact H6

end Cert.Kernel.Hand

end
-- ==== Proof.K.RunG.lean ====
/-
  The kernel body run once, symbolically, at a grid point of the kind: a key tile above the diagonal that is not the last: nothing.
  The inputs' blocks are handed in and back unchanged; the result's block is not touched; the accumulators are handed back as they came.
-/
import proofs.«178927_j55791625175600_2_alg».proof.Proof.K.Conds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
theorem kernelRun_G (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc1 : ¬cond1 i) (hc2 : ¬cond2 i) (hc3 : ¬cond3 i) (hc4 : ¬cond4 i)
    (x0 x1 x2 : Vec F S1x512x1024 .f32) (xs0 xs1 : Vec F S512x16 .f32) (xs2 : Vec F S512x1024 .f32) :
    ∀ (xi3 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1 ∗ owns (c : Thread nD τ) arg9 fullShare xs2) -∗ K ⟨⟩))
          ⊢ wp frame (wpE (defs₀ (F := F)) Variants.none c none) E (cc0_kernel i arg3 harg3 arg4 harg4 arg5 harg5 arg6 harg6 arg7 harg7 arg8 harg8 arg9 harg9) K := by
  intro xi3 E K
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
  sl_exec_parts (disch := first | exact hc1 | exact hc2 | exact hc3 | exact hc4)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  iexists _; isplitr; · ipureintro; exact harg9.read_unread _
  iexact H6

end Cert.Kernel.Hand

end
-- ==== Proof.K.RunH.lean ====
/-
  The kernel body run once, symbolically, at a grid point of the kind: the last key tile above the diagonal: the result only.
  The inputs' blocks are handed in and back unchanged; the result's block is stored whole (the pieces the run lists); the accumulators are handed back as they came.
-/
import proofs.«178927_j55791625175600_2_alg».proof.Proof.K.Conds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
noncomputable def kernelRun_H (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc1 : ¬cond1 i) (hc2 : ¬cond2 i) (hc3 : ¬cond3 i) (hc4 : cond4 i)
    (x0 x1 x2 : Vec F S1x512x1024 .f32) (xs0 xs1 : Vec F S512x16 .f32) (xs2 : Vec F S512x1024 .f32) :
    { L3 : List (View.Piece (Elt F) S1x512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ owns (c : Thread nD τ) arg7 fullShare xs0 ∗ owns (c : Thread nD τ) arg8 fullShare xs1 ∗ owns (c : Thread nD τ) arg9 fullShare xs2) -∗ K ⟨⟩))
          ⊢ wp frame (wpE (defs₀ (F := F)) Variants.none c none) E (cc0_kernel i arg3 harg3 arg4 harg4 arg5 harg5 arg6 harg6 arg7 harg7 arg8 harg8 arg9 harg9) K } := by
  refine ⟨?_, fun E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%f6, %hf6, H6⟩, Hk⟩
    obtain rfl := harg3.eq_unread hf0; obtain rfl := harg4.eq_unread hf1; obtain rfl := harg5.eq_unread hf2; obtain rfl := harg7.eq_unread hf4; obtain rfl := harg8.eq_unread hf5; obtain rfl := harg9.eq_unread hf6
    sl_exec_parts (disch := first | exact hc1 | exact hc2 | exact hc3 | exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; iexact H3
    isplitl [H4]
    · iexists _; isplitr; · ipureintro; exact harg7.read_unread _
      iexact H4
    isplitl [H5]
    · iexists _; isplitr; · ipureintro; exact harg8.read_unread _
      iexact H5
    iexists _; isplitr; · ipureintro; exact harg9.read_unread _
    iexact H6

end Cert.Kernel.Hand

end
-- ==== Proof.K.Frame.lean ====
/-
  The frame of the kernel: what the three accumulators and the result's block hold after each grid point, by
  iteration over the points; the region's invariant (the accumulators at what the point before left); the body's
  obligation at every point, by the kind of point it is; the run; the frame.
-/
import proofs.«178927_j55791625175600_2_alg».proof.Proof.K.RunA
import proofs.«178927_j55791625175600_2_alg».proof.Proof.K.RunB
import proofs.«178927_j55791625175600_2_alg».proof.Proof.K.RunC
import proofs.«178927_j55791625175600_2_alg».proof.Proof.K.RunD
import proofs.«178927_j55791625175600_2_alg».proof.Proof.K.RunE
import proofs.«178927_j55791625175600_2_alg».proof.Proof.K.RunG
import proofs.«178927_j55791625175600_2_alg».proof.Proof.K.RunH

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each kind of point leaves: (result block, running maximum, running denominator, running numerator) -/

/-- The result's block where nothing was stored: a placeholder nothing consults. -/
def junkO : Vec F S1x512x1024 .f32 := VO.read (Elt F) VO.junk

def res_A (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc1 : cond1 i) (hc2 : ¬cond2 i) (hc3 : cond3 i) (hc4 : ¬cond4 i) (x0 x1 x2 : Vec F S1x512x1024 .f32) : (Vec F S1x512x1024 .f32 × Vec F S512x16 .f32 × Vec F S512x16 .f32 × Vec F S512x1024 .f32) :=
  (junkO, VM.read (Elt F) (VM.writes (Elt F) VM.junk (kernelRun_A c i arg3 harg3 arg4 harg4 arg5 harg5 arg6 harg6 arg7 harg7 arg8 harg8 arg9 harg9 hc1 hc2 hc3 hc4 x0 x1 x2).1), VL.read (Elt F) (VL.writes (Elt F) VL.junk (kernelRun_A c i arg3 harg3 arg4 harg4 arg5 harg5 arg6 harg6 arg7 harg7 arg8 harg8 arg9 harg9 hc1 hc2 hc3 hc4 x0 x1 x2).2.1), VA.read (Elt F) (VA.writes (Elt F) VA.junk (kernelRun_A c i arg3 harg3 arg4 harg4 arg5 harg5 arg6 harg6 arg7 harg7 arg8 harg8 arg9 harg9 hc1 hc2 hc3 hc4 x0 x1 x2).2.2.1))

theorem coverM_A (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc1 : cond1 i) (hc2 : ¬cond2 i) (hc3 : cond3 i) (hc4 : ¬cond4 i) (x0 x1 x2 : Vec F S1x512x1024 .f32) (y : S512x16.Idx) : ∃ pc ∈ (kernelRun_A c i arg3 harg3 arg4 harg4 arg5 harg5 arg6 harg6 arg7 harg7 arg8 harg8 arg9 harg9 hc1 hc2 hc3 hc4 x0 x1 x2).1, y ∈ pc.1.set :=
  View.cover_of_tiledL (kernelRun_A c i arg3 harg3 arg4 harg4 arg5 harg5 arg6 harg6 arg7 harg7 arg8 harg8 arg9 harg9 hc1 hc2 hc3 hc4 x0 x1 x2).1 S512x1.size (by sl_kernel_rfl) y
theorem coverL_A (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc1 : cond1 i) (hc2 : ¬cond2 i) (hc3 : cond3 i) (hc4 : ¬cond4 i) (x0 x1 x2 : Vec F S1x512x1024 .f32) (y : S512x16.Idx) : ∃ pc ∈ (kernelRun_A c i arg3 harg3 arg4 harg4 arg5 harg5 arg6 harg6 arg7 harg7 arg8 harg8 arg9 harg9 hc1 hc2 hc3 hc4 x0 x1 x2).2.1, y ∈ pc.1.set :=
  View.cover_of_tiledL (kernelRun_A c i arg3 harg3 arg4 harg4 arg5 harg5 arg6 harg6 arg7 harg7 arg8 harg8 arg9 harg9 hc1 hc2 hc3 hc4 x0 x1 x2).2.1 S512x1.size (by sl_kernel_rfl) y
theorem coverA_A (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc1 : cond1 i) (hc2 : ¬cond2 i) (hc3 : cond3 i) (hc4 : ¬cond4 i) (x0 x1 x2 : Vec F S1x512x1024 .f32) (y : S512x1024.Idx) : ∃ pc ∈ (kernelRun_A c i arg3 harg3 arg4 harg4 arg5 harg5 arg6 harg6 arg7 harg7 arg8 harg8 arg9 harg9 hc1 hc2 hc3 hc4 x0 x1 x2).2.2.1, y ∈ pc.1.set :=
  View.cover_of_tiledL (kernelRun_A c i arg3 harg3 arg4 harg4 arg5 harg5 arg6 harg6 arg7 harg7 arg8 harg8 arg9 harg9 hc1 hc2 hc3 hc4 x0 x1 x2).2.2.1 S512x64.size (by sl_kernel_rfl) y

def res_B (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc1 : cond1 i) (hc2 : cond2 i) (hc3 : ¬cond3 i) (hc4 : ¬cond4 i) (x0 x1 x2 : Vec F S1x512x1024 .f32) : (Vec F S1x512x1024 .f32 × Vec F S512x16 .f32 × Vec F S512x16 .f32 × Vec F S512x1024 .f32) :=
  (junkO, VM.read (Elt F) (VM.writes (Elt F) VM.junk (kernelRun_B c i arg3 harg3 arg4 harg4 arg5 harg5 arg6 harg6 arg7 harg7 arg8 harg8 arg9 harg9 hc1 hc2 hc3 hc4 x0 x1 x2).1), VL.read (Elt F) (VL.writes (Elt F) VL.junk (kernelRun_B c i arg3 harg3 arg4 harg4 arg5 harg5 arg6 harg6 arg7 harg7 arg8 harg8 arg9 harg9 hc1 hc2 hc3 hc4 x0 x1 x2).2.1), VA.read (Elt F) (VA.writes (Elt F) VA.junk (kernelRun_B c i arg3 harg3 arg4 harg4 arg5 harg5 arg6 harg6 arg7 harg7 arg8 harg8 arg9 harg9 hc1 hc2 hc3 hc4 x0 x1 x2).2.2.1))

theorem coverM_B (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc1 : cond1 i) (hc2 : cond2 i) (hc3 : ¬cond3 i) (hc4 : ¬cond4 i) (x0 x1 x2 : Vec F S1x512x1024 .f32) (y : S512x16.Idx) : ∃ pc ∈ (kernelRun_B c i arg3 harg3 arg4 harg4 arg5 harg5 arg6 harg6 arg7 harg7 arg8 harg8 arg9 harg9 hc1 hc2 hc3 hc4 x0 x1 x2).1, y ∈ pc.1.set :=
  View.cover_of_tiledL (kernelRun_B c i arg3 harg3 arg4 harg4 arg5 harg5 arg6 harg6 arg7 harg7 arg8 harg8 arg9 harg9 hc1 hc2 hc3 hc4 x0 x1 x2).1 S512x1.size (by sl_kernel_rfl) y
theorem coverL_B (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc1 : cond1 i) (hc2 : cond2 i) (hc3 : ¬cond3 i) (hc4 : ¬cond4 i) (x0 x1 x2 : Vec F S1x512x1024 .f32) (y : S512x16.Idx) : ∃ pc ∈ (kernelRun_B c i arg3 harg3 arg4 harg4 arg5 harg5 arg6 harg6 arg7 harg7 arg8 harg8 arg9 harg9 hc1 hc2 hc3 hc4 x0 x1 x2).2.1, y ∈ pc.1.set :=
  View.cover_of_tiledL (kernelRun_B c i arg3 harg3 arg4 harg4 arg5 harg5 arg6 harg6 arg7 harg7 arg8 harg8 arg9 harg9 hc1 hc2 hc3 hc4 x0 x1 x2).2.1 S512x1.size (by sl_kernel_rfl) y
theorem coverA_B (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc1 : cond1 i) (hc2 : cond2 i) (hc3 : ¬cond3 i) (hc4 : ¬cond4 i) (x0 x1 x2 : Vec F S1x512x1024 .f32) (y : S512x1024.Idx) : ∃ pc ∈ (kernelRun_B c i arg3 harg3 arg4 harg4 arg5 harg5 arg6 harg6 arg7 harg7 arg8 harg8 arg9 harg9 hc1 hc2 hc3 hc4 x0 x1 x2).2.2.1, y ∈ pc.1.set :=
  View.cover_of_tiledL (kernelRun_B c i arg3 harg3 arg4 harg4 arg5 harg5 arg6 harg6 arg7 harg7 arg8 harg8 arg9 harg9 hc1 hc2 hc3 hc4 x0 x1 x2).2.2.1 S512x64.size (by sl_kernel_rfl) y

def res_C (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc1 : ¬cond1 i) (hc2 : cond2 i) (hc3 : ¬cond3 i) (hc4 : ¬cond4 i) (x0 x1 x2 : Vec F S1x512x1024 .f32) (xs0 xs1 : Vec F S512x16 .f32) (xs2 : Vec F S512x1024 .f32) : (Vec F S1x512x1024 .f32 × Vec F S512x16 .f32 × Vec F S512x16 .f32 × Vec F S512x1024 .f32) :=
  (junkO, VM.read (Elt F) (VM.writes (Elt F) VM.junk (kernelRun_C c i arg3 harg3 arg4 harg4 arg5 harg5 arg6 harg6 arg7 harg7 arg8 harg8 arg9 harg9 hc1 hc2 hc3 hc4 x0 x1 x2 xs0 xs1 xs2).1), VL.read (Elt F) (VL.writes (Elt F) VL.junk (kernelRun_C c i arg3 harg3 arg4 harg4 arg5 harg5 arg6 harg6 arg7 harg7 arg8 harg8 arg9 harg9 hc1 hc2 hc3 hc4 x0 x1 x2 xs0 xs1 xs2).2.1), VA.read (Elt F) (VA.writes (Elt F) VA.junk (kernelRun_C c i arg3 harg3 arg4 harg4 arg5 harg5 arg6 harg6 arg7 harg7 arg8 harg8 arg9 harg9 hc1 hc2 hc3 hc4 x0 x1 x2 xs0 xs1 xs2).2.2.1))

theorem coverM_C (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc1 : ¬cond1 i) (hc2 : cond2 i) (hc3 : ¬cond3 i) (hc4 : ¬cond4 i) (x0 x1 x2 : Vec F S1x512x1024 .f32) (xs0 xs1 : Vec F S512x16 .f32) (xs2 : Vec F S512x1024 .f32) (y : S512x16.Idx) : ∃ pc ∈ (kernelRun_C c i arg3 harg3 arg4 harg4 arg5 harg5 arg6 harg6 arg7 harg7 arg8 harg8 arg9 harg9 hc1 hc2 hc3 hc4 x0 x1 x2 xs0 xs1 xs2).1, y ∈ pc.1.set :=
  View.cover_of_tiledL (kernelRun_C c i arg3 harg3 arg4 harg4 arg5 harg5 arg6 harg6 arg7 harg7 arg8 harg8 arg9 harg9 hc1 hc2 hc3 hc4 x0 x1 x2 xs0 xs1 xs2).1 S512x1.size (by sl_kernel_rfl) y
theorem coverL_C (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc1 : ¬cond1 i) (hc2 : cond2 i) (hc3 : ¬cond3 i) (hc4 : ¬cond4 i) (x0 x1 x2 : Vec F S1x512x1024 .f32) (xs0 xs1 : Vec F S512x16 .f32) (xs2 : Vec F S512x1024 .f32) (y : S512x16.Idx) : ∃ pc ∈ (kernelRun_C c i arg3 harg3 arg4 harg4 arg5 harg5 arg6 harg6 arg7 harg7 arg8 harg8 arg9 harg9 hc1 hc2 hc3 hc4 x0 x1 x2 xs0 xs1 xs2).2.1, y ∈ pc.1.set :=
  View.cover_of_tiledL (kernelRun_C c i arg3 harg3 arg4 harg4 arg5 harg5 arg6 harg6 arg7 harg7 arg8 harg8 arg9 harg9 hc1 hc2 hc3 hc4 x0 x1 x2 xs0 xs1 xs2).2.1 S512x1.size (by sl_kernel_rfl) y
theorem coverA_C (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc1 : ¬cond1 i) (hc2 : cond2 i) (hc3 : ¬cond3 i) (hc4 : ¬cond4 i) (x0 x1 x2 : Vec F S1x512x1024 .f32) (xs0 xs1 : Vec F S512x16 .f32) (xs2 : Vec F S512x1024 .f32) (y : S512x1024.Idx) : ∃ pc ∈ (kernelRun_C c i arg3 harg3 arg4 harg4 arg5 harg5 arg6 harg6 arg7 harg7 arg8 harg8 arg9 harg9 hc1 hc2 hc3 hc4 x0 x1 x2 xs0 xs1 xs2).2.2.1, y ∈ pc.1.set :=
  View.cover_of_tiledL (kernelRun_C c i arg3 harg3 arg4 harg4 arg5 harg5 arg6 harg6 arg7 harg7 arg8 harg8 arg9 harg9 hc1 hc2 hc3 hc4 x0 x1 x2 xs0 xs1 xs2).2.2.1 S512x64.size (by sl_kernel_rfl) y

def res_D (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc1 : ¬cond1 i) (hc2 : ¬cond2 i) (hc3 : cond3 i) (hc4 : ¬cond4 i) (x0 x1 x2 : Vec F S1x512x1024 .f32) (xs0 xs1 : Vec F S512x16 .f32) (xs2 : Vec F S512x1024 .f32) : (Vec F S1x512x1024 .f32 × Vec F S512x16 .f32 × Vec F S512x16 .f32 × Vec F S512x1024 .f32) :=
  (junkO, VM.read (Elt F) (VM.writes (Elt F) VM.junk (kernelRun_D c i arg3 harg3 arg4 harg4 arg5 harg5 arg6 harg6 arg7 harg7 arg8 harg8 arg9 harg9 hc1 hc2 hc3 hc4 x0 x1 x2 xs0 xs1 xs2).1), VL.read (Elt F) (VL.writes (Elt F) VL.junk (kernelRun_D c i arg3 harg3 arg4 harg4 arg5 harg5 arg6 harg6 arg7 harg7 arg8 harg8 arg9 harg9 hc1 hc2 hc3 hc4 x0 x1 x2 xs0 xs1 xs2).2.1), VA.read (Elt F) (VA.writes (Elt F) VA.junk (kernelRun_D c i arg3 harg3 arg4 harg4 arg5 harg5 arg6 harg6 arg7 harg7 arg8 harg8 arg9 harg9 hc1 hc2 hc3 hc4 x0 x1 x2 xs0 xs1 xs2).2.2.1))

theorem coverM_D (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc1 : ¬cond1 i) (hc2 : ¬cond2 i) (hc3 : cond3 i) (hc4 : ¬cond4 i) (x0 x1 x2 : Vec F S1x512x1024 .f32) (xs0 xs1 : Vec F S512x16 .f32) (xs2 : Vec F S512x1024 .f32) (y : S512x16.Idx) : ∃ pc ∈ (kernelRun_D c i arg3 harg3 arg4 harg4 arg5 harg5 arg6 harg6 arg7 harg7 arg8 harg8 arg9 harg9 hc1 hc2 hc3 hc4 x0 x1 x2 xs0 xs1 xs2).1, y ∈ pc.1.set :=
  View.cover_of_tiledL (kernelRun_D c i arg3 harg3 arg4 harg4 arg5 harg5 arg6 harg6 arg7 harg7 arg8 harg8 arg9 harg9 hc1 hc2 hc3 hc4 x0 x1 x2 xs0 xs1 xs2).1 S512x1.size (by sl_kernel_rfl) y
theorem coverL_D (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc1 : ¬cond1 i) (hc2 : ¬cond2 i) (hc3 : cond3 i) (hc4 : ¬cond4 i) (x0 x1 x2 : Vec F S1x512x1024 .f32) (xs0 xs1 : Vec F S512x16 .f32) (xs2 : Vec F S512x1024 .f32) (y : S512x16.Idx) : ∃ pc ∈ (kernelRun_D c i arg3 harg3 arg4 harg4 arg5 harg5 arg6 harg6 arg7 harg7 arg8 harg8 arg9 harg9 hc1 hc2 hc3 hc4 x0 x1 x2 xs0 xs1 xs2).2.1, y ∈ pc.1.set :=
  View.cover_of_tiledL (kernelRun_D c i arg3 harg3 arg4 harg4 arg5 harg5 arg6 harg6 arg7 harg7 arg8 harg8 arg9 harg9 hc1 hc2 hc3 hc4 x0 x1 x2 xs0 xs1 xs2).2.1 S512x1.size (by sl_kernel_rfl) y
theorem coverA_D (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc1 : ¬cond1 i) (hc2 : ¬cond2 i) (hc3 : cond3 i) (hc4 : ¬cond4 i) (x0 x1 x2 : Vec F S1x512x1024 .f32) (xs0 xs1 : Vec F S512x16 .f32) (xs2 : Vec F S512x1024 .f32) (y : S512x1024.Idx) : ∃ pc ∈ (kernelRun_D c i arg3 harg3 arg4 harg4 arg5 harg5 arg6 harg6 arg7 harg7 arg8 harg8 arg9 harg9 hc1 hc2 hc3 hc4 x0 x1 x2 xs0 xs1 xs2).2.2.1, y ∈ pc.1.set :=
  View.cover_of_tiledL (kernelRun_D c i arg3 harg3 arg4 harg4 arg5 harg5 arg6 harg6 arg7 harg7 arg8 harg8 arg9 harg9 hc1 hc2 hc3 hc4 x0 x1 x2 xs0 xs1 xs2).2.2.1 S512x64.size (by sl_kernel_rfl) y

def res_E (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc1 : ¬cond1 i) (hc2 : ¬cond2 i) (hc3 : cond3 i) (hc4 : cond4 i) (x0 x1 x2 : Vec F S1x512x1024 .f32) (xs0 xs1 : Vec F S512x16 .f32) (xs2 : Vec F S512x1024 .f32) : (Vec F S1x512x1024 .f32 × Vec F S512x16 .f32 × Vec F S512x16 .f32 × Vec F S512x1024 .f32) :=
  (VO.read (Elt F) (VO.writes (Elt F) VO.junk (kernelRun_E c i arg3 harg3 arg4 harg4 arg5 harg5 arg6 harg6 arg7 harg7 arg8 harg8 arg9 harg9 hc1 hc2 hc3 hc4 x0 x1 x2 xs0 xs1 xs2).1), VM.read (Elt F) (VM.writes (Elt F) VM.junk (kernelRun_E c i arg3 harg3 arg4 harg4 arg5 harg5 arg6 harg6 arg7 harg7 arg8 harg8 arg9 harg9 hc1 hc2 hc3 hc4 x0 x1 x2 xs0 xs1 xs2).2.1), VL.read (Elt F) (VL.writes (Elt F) VL.junk (kernelRun_E c i arg3 harg3 arg4 harg4 arg5 harg5 arg6 harg6 arg7 harg7 arg8 harg8 arg9 harg9 hc1 hc2 hc3 hc4 x0 x1 x2 xs0 xs1 xs2).2.2.1), VA.read (Elt F) (VA.writes (Elt F) VA.junk (kernelRun_E c i arg3 harg3 arg4 harg4 arg5 harg5 arg6 harg6 arg7 harg7 arg8 harg8 arg9 harg9 hc1 hc2 hc3 hc4 x0 x1 x2 xs0 xs1 xs2).2.2.2.1))

theorem coverM_E (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc1 : ¬cond1 i) (hc2 : ¬cond2 i) (hc3 : cond3 i) (hc4 : cond4 i) (x0 x1 x2 : Vec F S1x512x1024 .f32) (xs0 xs1 : Vec F S512x16 .f32) (xs2 : Vec F S512x1024 .f32) (y : S512x16.Idx) : ∃ pc ∈ (kernelRun_E c i arg3 harg3 arg4 harg4 arg5 harg5 arg6 harg6 arg7 harg7 arg8 harg8 arg9 harg9 hc1 hc2 hc3 hc4 x0 x1 x2 xs0 xs1 xs2).2.1, y ∈ pc.1.set :=
  View.cover_of_tiledL (kernelRun_E c i arg3 harg3 arg4 harg4 arg5 harg5 arg6 harg6 arg7 harg7 arg8 harg8 arg9 harg9 hc1 hc2 hc3 hc4 x0 x1 x2 xs0 xs1 xs2).2.1 S512x1.size (by sl_kernel_rfl) y
theorem coverL_E (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc1 : ¬cond1 i) (hc2 : ¬cond2 i) (hc3 : cond3 i) (hc4 : cond4 i) (x0 x1 x2 : Vec F S1x512x1024 .f32) (xs0 xs1 : Vec F S512x16 .f32) (xs2 : Vec F S512x1024 .f32) (y : S512x16.Idx) : ∃ pc ∈ (kernelRun_E c i arg3 harg3 arg4 harg4 arg5 harg5 arg6 harg6 arg7 harg7 arg8 harg8 arg9 harg9 hc1 hc2 hc3 hc4 x0 x1 x2 xs0 xs1 xs2).2.2.1, y ∈ pc.1.set :=
  View.cover_of_tiledL (kernelRun_E c i arg3 harg3 arg4 harg4 arg5 harg5 arg6 harg6 arg7 harg7 arg8 harg8 arg9 harg9 hc1 hc2 hc3 hc4 x0 x1 x2 xs0 xs1 xs2).2.2.1 S512x1.size (by sl_kernel_rfl) y
theorem coverA_E (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc1 : ¬cond1 i) (hc2 : ¬cond2 i) (hc3 : cond3 i) (hc4 : cond4 i) (x0 x1 x2 : Vec F S1x512x1024 .f32) (xs0 xs1 : Vec F S512x16 .f32) (xs2 : Vec F S512x1024 .f32) (y : S512x1024.Idx) : ∃ pc ∈ (kernelRun_E c i arg3 harg3 arg4 harg4 arg5 harg5 arg6 harg6 arg7 harg7 arg8 harg8 arg9 harg9 hc1 hc2 hc3 hc4 x0 x1 x2 xs0 xs1 xs2).2.2.2.1, y ∈ pc.1.set :=
  View.cover_of_tiledL (kernelRun_E c i arg3 harg3 arg4 harg4 arg5 harg5 arg6 harg6 arg7 harg7 arg8 harg8 arg9 harg9 hc1 hc2 hc3 hc4 x0 x1 x2 xs0 xs1 xs2).2.2.2.1 S512x64.size (by sl_kernel_rfl) y

theorem coverO_E (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc1 : ¬cond1 i) (hc2 : ¬cond2 i) (hc3 : cond3 i) (hc4 : cond4 i) (x0 x1 x2 : Vec F S1x512x1024 .f32) (xs0 xs1 : Vec F S512x16 .f32) (xs2 : Vec F S512x1024 .f32) (y : S1x512x1024.Idx) : ∃ pc ∈ (kernelRun_E c i arg3 harg3 arg4 harg4 arg5 harg5 arg6 harg6 arg7 harg7 arg8 harg8 arg9 harg9 hc1 hc2 hc3 hc4 x0 x1 x2 xs0 xs1 xs2).1, y ∈ pc.1.set :=
  View.cover_of_tiledL (kernelRun_E c i arg3 harg3 arg4 harg4 arg5 harg5 arg6 harg6 arg7 harg7 arg8 harg8 arg9 harg9 hc1 hc2 hc3 hc4 x0 x1 x2 xs0 xs1 xs2).1 S1x512x64.size (by sl_kernel_rfl) y

def res_G (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc1 : ¬cond1 i) (hc2 : ¬cond2 i) (hc3 : ¬cond3 i) (hc4 : ¬cond4 i) (x0 x1 x2 : Vec F S1x512x1024 .f32) (xs0 xs1 : Vec F S512x16 .f32) (xs2 : Vec F S512x1024 .f32) : (Vec F S1x512x1024 .f32 × Vec F S512x16 .f32 × Vec F S512x16 .f32 × Vec F S512x1024 .f32) :=
  (junkO, xs0, xs1, xs2)

def res_H (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc1 : ¬cond1 i) (hc2 : ¬cond2 i) (hc3 : ¬cond3 i) (hc4 : cond4 i) (x0 x1 x2 : Vec F S1x512x1024 .f32) (xs0 xs1 : Vec F S512x16 .f32) (xs2 : Vec F S512x1024 .f32) : (Vec F S1x512x1024 .f32 × Vec F S512x16 .f32 × Vec F S512x16 .f32 × Vec F S512x1024 .f32) :=
  (VO.read (Elt F) (VO.writes (Elt F) VO.junk (kernelRun_H c i arg3 harg3 arg4 harg4 arg5 harg5 arg6 harg6 arg7 harg7 arg8 harg8 arg9 harg9 hc1 hc2 hc3 hc4 x0 x1 x2 xs0 xs1 xs2).1), xs0, xs1, xs2)

theorem coverO_H (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc1 : ¬cond1 i) (hc2 : ¬cond2 i) (hc3 : ¬cond3 i) (hc4 : cond4 i) (x0 x1 x2 : Vec F S1x512x1024 .f32) (xs0 xs1 : Vec F S512x16 .f32) (xs2 : Vec F S512x1024 .f32) (y : S1x512x1024.Idx) : ∃ pc ∈ (kernelRun_H c i arg3 harg3 arg4 harg4 arg5 harg5 arg6 harg6 arg7 harg7 arg8 harg8 arg9 harg9 hc1 hc2 hc3 hc4 x0 x1 x2 xs0 xs1 xs2).1, y ∈ pc.1.set :=
  View.cover_of_tiledL (kernelRun_H c i arg3 harg3 arg4 harg4 arg5 harg5 arg6 harg6 arg7 harg7 arg8 harg8 arg9 harg9 hc1 hc2 hc3 hc4 x0 x1 x2 xs0 xs1 xs2).1 S1x512x64.size (by sl_kernel_rfl) y

/-! ## The iteration over the points -/

/-- One point: which kind it is is read off its key-tile and query-tile numbers; the kinds that do not reset the
    accumulators take what the point before left (`p`). -/
def step (c : Dev nD) (t : Fin cfg0.N) (p : (Vec F S1x512x1024 .f32 × Vec F S512x16 .f32 × Vec F S512x16 .f32 × Vec F S512x1024 .f32)) : (Vec F S1x512x1024 .f32 × Vec F S512x16 .f32 × Vec F S512x16 .f32 × Vec F S512x1024 .f32) :=
  have hN : t.val < 64 := lt_of_lt_of_eq t.isLt (show cfg0.N = 64 from N_0)
  if h1 : t.val % 4 = 0 then
    if h3 : t.val % 4 = t.val / 4 % 4 then res_A c (grid0.coords t) (ms0 t) (hs0 t) (ms1 t) (hs1 t) (ms2 t) (hs2 t) (ms3 t) (hs3 t) scM (Memref.isWhole_whole _) scL (Memref.isWhole_whole _) scA (Memref.isWhole_whole _) ((hcond1 t).mpr h1) (fun h => by have := (hcond2 t).mp h; omega) ((hcond3 t).mpr h3) (fun h => by have := (hcond4 t).mp h; omega) (iblk m c 0 t) (iblk m c 1 t) (iblk m c 2 t)
    else res_B c (grid0.coords t) (ms0 t) (hs0 t) (ms1 t) (hs1 t) (ms2 t) (hs2 t) (ms3 t) (hs3 t) scM (Memref.isWhole_whole _) scL (Memref.isWhole_whole _) scA (Memref.isWhole_whole _) ((hcond1 t).mpr h1) ((hcond2 t).mpr (by omega)) (fun h => h3 ((hcond3 t).mp h)) (fun h => by have := (hcond4 t).mp h; omega) (iblk m c 0 t) (iblk m c 1 t) (iblk m c 2 t)
  else if h2 : t.val % 4 < t.val / 4 % 4 then res_C c (grid0.coords t) (ms0 t) (hs0 t) (ms1 t) (hs1 t) (ms2 t) (hs2 t) (ms3 t) (hs3 t) scM (Memref.isWhole_whole _) scL (Memref.isWhole_whole _) scA (Memref.isWhole_whole _) (fun h => h1 ((hcond1 t).mp h)) ((hcond2 t).mpr h2) (fun h => by have := (hcond3 t).mp h; omega) (fun h => by have := (hcond4 t).mp h; omega) (iblk m c 0 t) (iblk m c 1 t) (iblk m c 2 t) p.2.1 p.2.2.1 p.2.2.2
  else if h3 : t.val % 4 = t.val / 4 % 4 then
    if h4 : t.val % 4 = 3 then res_E c (grid0.coords t) (ms0 t) (hs0 t) (ms1 t) (hs1 t) (ms2 t) (hs2 t) (ms3 t) (hs3 t) scM (Memref.isWhole_whole _) scL (Memref.isWhole_whole _) scA (Memref.isWhole_whole _) (fun h => h1 ((hcond1 t).mp h)) (fun h => h2 ((hcond2 t).mp h)) ((hcond3 t).mpr h3) ((hcond4 t).mpr h4) (iblk m c 0 t) (iblk m c 1 t) (iblk m c 2 t) p.2.1 p.2.2.1 p.2.2.2
    else res_D c (grid0.coords t) (ms0 t) (hs0 t) (ms1 t) (hs1 t) (ms2 t) (hs2 t) (ms3 t) (hs3 t) scM (Memref.isWhole_whole _) scL (Memref.isWhole_whole _) scA (Memref.isWhole_whole _) (fun h => h1 ((hcond1 t).mp h)) (fun h => h2 ((hcond2 t).mp h)) ((hcond3 t).mpr h3) (fun h => h4 ((hcond4 t).mp h)) (iblk m c 0 t) (iblk m c 1 t) (iblk m c 2 t) p.2.1 p.2.2.1 p.2.2.2
  else if h4 : t.val % 4 = 3 then res_H c (grid0.coords t) (ms0 t) (hs0 t) (ms1 t) (hs1 t) (ms2 t) (hs2 t) (ms3 t) (hs3 t) scM (Memref.isWhole_whole _) scL (Memref.isWhole_whole _) scA (Memref.isWhole_whole _) (fun h => h1 ((hcond1 t).mp h)) (fun h => h2 ((hcond2 t).mp h)) (fun h => h3 ((hcond3 t).mp h)) ((hcond4 t).mpr h4) (iblk m c 0 t) (iblk m c 1 t) (iblk m c 2 t) p.2.1 p.2.2.1 p.2.2.2
  else res_G c (grid0.coords t) (ms0 t) (hs0 t) (ms1 t) (hs1 t) (ms2 t) (hs2 t) (ms3 t) (hs3 t) scM (Memref.isWhole_whole _) scL (Memref.isWhole_whole _) scA (Memref.isWhole_whole _) (fun h => h1 ((hcond1 t).mp h)) (fun h => h2 ((hcond2 t).mp h)) (fun h => h3 ((hcond3 t).mp h)) (fun h => h4 ((hcond4 t).mp h)) (iblk m c 0 t) (iblk m c 1 t) (iblk m c 2 t) p.2.1 p.2.2.1 p.2.2.2

/-- What the result's staging buffer and the accumulators hold after the body at position `n`. -/
def outsAt (c : Dev nD) : (n : ℕ) → n < cfg0.N → (Vec F S1x512x1024 .f32 × Vec F S512x16 .f32 × Vec F S512x16 .f32 × Vec F S512x1024 .f32)
  | 0, hn => step m c ⟨0, hn⟩ (junkO, VM.read (Elt F) VM.junk, VL.read (Elt F) VL.junk, VA.read (Elt F) VA.junk)
  | n + 1, hn => step m c ⟨n + 1, hn⟩ (outsAt c n (Nat.lt_of_succ_lt hn))

/-- What the point before `t` left (a placeholder before the first point, which resets the accumulators). -/
def prev (c : Dev nD) (t : Fin cfg0.N) : (Vec F S1x512x1024 .f32 × Vec F S512x16 .f32 × Vec F S512x16 .f32 × Vec F S512x1024 .f32) :=
  if h : t.val = 0 then (junkO, VM.read (Elt F) VM.junk, VL.read (Elt F) VL.junk, VA.read (Elt F) VA.junk)
  else outsAt m c (t.val - 1) (Nat.lt_of_le_of_lt (Nat.sub_le _ _) t.isLt)

theorem outsAt_eq (c : Dev nD) (t : Fin cfg0.N) : outsAt m c t.val t.isLt = step m c t (prev m c t) := by
  obtain ⟨n, hn⟩ := t
  cases n with
  | zero => rfl
  | succ n => rfl

theorem prev_pos (c : Dev nD) (t : Fin cfg0.N) (hz : t.val ≠ 0) :
    prev m c t = outsAt m c (t.val - 1) (Nat.lt_of_le_of_lt (Nat.sub_le _ _) t.isLt) := dif_neg hz

theorem step_A (c : Dev nD) (t : Fin cfg0.N) (p : (Vec F S1x512x1024 .f32 × Vec F S512x16 .f32 × Vec F S512x16 .f32 × Vec F S512x1024 .f32)) (hN : t.val < 64) (h1 : t.val % 4 = 0) (h3 : t.val % 4 = t.val / 4 % 4) :
    step m c t p = res_A c (grid0.coords t) (ms0 t) (hs0 t) (ms1 t) (hs1 t) (ms2 t) (hs2 t) (ms3 t) (hs3 t) scM (Memref.isWhole_whole _) scL (Memref.isWhole_whole _) scA (Memref.isWhole_whole _) ((hcond1 t).mpr h1) (fun h => by have := (hcond2 t).mp h; omega) ((hcond3 t).mpr h3) (fun h => by have := (hcond4 t).mp h; omega) (iblk m c 0 t) (iblk m c 1 t) (iblk m c 2 t) := by
  unfold step; dsimp only; rw [dif_pos h1, dif_pos h3]

theorem step_B (c : Dev nD) (t : Fin cfg0.N) (p : (Vec F S1x512x1024 .f32 × Vec F S512x16 .f32 × Vec F S512x16 .f32 × Vec F S512x1024 .f32)) (hN : t.val < 64) (h1 : t.val % 4 = 0) (h3 : ¬t.val % 4 = t.val / 4 % 4) :
    step m c t p = res_B c (grid0.coords t) (ms0 t) (hs0 t) (ms1 t) (hs1 t) (ms2 t) (hs2 t) (ms3 t) (hs3 t) scM (Memref.isWhole_whole _) scL (Memref.isWhole_whole _) scA (Memref.isWhole_whole _) ((hcond1 t).mpr h1) ((hcond2 t).mpr (by omega)) (fun h => h3 ((hcond3 t).mp h)) (fun h => by have := (hcond4 t).mp h; omega) (iblk m c 0 t) (iblk m c 1 t) (iblk m c 2 t) := by
  unfold step; dsimp only; rw [dif_pos h1, dif_neg h3]

theorem step_C (c : Dev nD) (t : Fin cfg0.N) (p : (Vec F S1x512x1024 .f32 × Vec F S512x16 .f32 × Vec F S512x16 .f32 × Vec F S512x1024 .f32)) (hN : t.val < 64) (h1 : ¬t.val % 4 = 0) (h2 : t.val % 4 < t.val / 4 % 4) :
    step m c t p = res_C c (grid0.coords t) (ms0 t) (hs0 t) (ms1 t) (hs1 t) (ms2 t) (hs2 t) (ms3 t) (hs3 t) scM (Memref.isWhole_whole _) scL (Memref.isWhole_whole _) scA (Memref.isWhole_whole _) (fun h => h1 ((hcond1 t).mp h)) ((hcond2 t).mpr h2) (fun h => by have := (hcond3 t).mp h; omega) (fun h => by have := (hcond4 t).mp h; omega) (iblk m c 0 t) (iblk m c 1 t) (iblk m c 2 t) p.2.1 p.2.2.1 p.2.2.2 := by
  unfold step; dsimp only; rw [dif_neg h1, dif_pos h2]

theorem step_D (c : Dev nD) (t : Fin cfg0.N) (p : (Vec F S1x512x1024 .f32 × Vec F S512x16 .f32 × Vec F S512x16 .f32 × Vec F S512x1024 .f32)) (hN : t.val < 64) (h1 : ¬t.val % 4 = 0) (h2 : ¬t.val % 4 < t.val / 4 % 4) (h3 : t.val % 4 = t.val / 4 % 4) (h4 : ¬t.val % 4 = 3) :
    step m c t p = res_D c (grid0.coords t) (ms0 t) (hs0 t) (ms1 t) (hs1 t) (ms2 t) (hs2 t) (ms3 t) (hs3 t) scM (Memref.isWhole_whole _) scL (Memref.isWhole_whole _) scA (Memref.isWhole_whole _) (fun h => h1 ((hcond1 t).mp h)) (fun h => h2 ((hcond2 t).mp h)) ((hcond3 t).mpr h3) (fun h => h4 ((hcond4 t).mp h)) (iblk m c 0 t) (iblk m c 1 t) (iblk m c 2 t) p.2.1 p.2.2.1 p.2.2.2 := by
  unfold step; dsimp only; rw [dif_neg h1, dif_neg h2, dif_pos h3, dif_neg h4]

theorem step_E (c : Dev nD) (t : Fin cfg0.N) (p : (Vec F S1x512x1024 .f32 × Vec F S512x16 .f32 × Vec F S512x16 .f32 × Vec F S512x1024 .f32)) (hN : t.val < 64) (h1 : ¬t.val % 4 = 0) (h2 : ¬t.val % 4 < t.val / 4 % 4) (h3 : t.val % 4 = t.val / 4 % 4) (h4 : t.val % 4 = 3) :
    step m c t p = res_E c (grid0.coords t) (ms0 t) (hs0 t) (ms1 t) (hs1 t) (ms2 t) (hs2 t) (ms3 t) (hs3 t) scM (Memref.isWhole_whole _) scL (Memref.isWhole_whole _) scA (Memref.isWhole_whole _) (fun h => h1 ((hcond1 t).mp h)) (fun h => h2 ((hcond2 t).mp h)) ((hcond3 t).mpr h3) ((hcond4 t).mpr h4) (iblk m c 0 t) (iblk m c 1 t) (iblk m c 2 t) p.2.1 p.2.2.1 p.2.2.2 := by
  unfold step; dsimp only; rw [dif_neg h1, dif_neg h2, dif_pos h3, dif_pos h4]

theorem step_G (c : Dev nD) (t : Fin cfg0.N) (p : (Vec F S1x512x1024 .f32 × Vec F S512x16 .f32 × Vec F S512x16 .f32 × Vec F S512x1024 .f32)) (hN : t.val < 64) (h1 : ¬t.val % 4 = 0) (h2 : ¬t.val % 4 < t.val / 4 % 4) (h3 : ¬t.val % 4 = t.val / 4 % 4) (h4 : ¬t.val % 4 = 3) :
    step m c t p = res_G c (grid0.coords t) (ms0 t) (hs0 t) (ms1 t) (hs1 t) (ms2 t) (hs2 t) (ms3 t) (hs3 t) scM (Memref.isWhole_whole _) scL (Memref.isWhole_whole _) scA (Memref.isWhole_whole _) (fun h => h1 ((hcond1 t).mp h)) (fun h => h2 ((hcond2 t).mp h)) (fun h => h3 ((hcond3 t).mp h)) (fun h => h4 ((hcond4 t).mp h)) (iblk m c 0 t) (iblk m c 1 t) (iblk m c 2 t) p.2.1 p.2.2.1 p.2.2.2 := by
  unfold step; dsimp only; rw [dif_neg h1, dif_neg h2, dif_neg h3, dif_neg h4]

theorem step_H (c : Dev nD) (t : Fin cfg0.N) (p : (Vec F S1x512x1024 .f32 × Vec F S512x16 .f32 × Vec F S512x16 .f32 × Vec F S512x1024 .f32)) (hN : t.val < 64) (h1 : ¬t.val % 4 = 0) (h2 : ¬t.val % 4 < t.val / 4 % 4) (h3 : ¬t.val % 4 = t.val / 4 % 4) (h4 : t.val % 4 = 3) :
    step m c t p = res_H c (grid0.coords t) (ms0 t) (hs0 t) (ms1 t) (hs1 t) (ms2 t) (hs2 t) (ms3 t) (hs3 t) scM (Memref.isWhole_whole _) scL (Memref.isWhole_whole _) scA (Memref.isWhole_whole _) (fun h => h1 ((hcond1 t).mp h)) (fun h => h2 ((hcond2 t).mp h)) (fun h => h3 ((hcond3 t).mp h)) ((hcond4 t).mpr h4) (iblk m c 0 t) (iblk m c 1 t) (iblk m c 2 t) p.2.1 p.2.2.1 p.2.2.2 := by
  unfold step; dsimp only; rw [dif_neg h1, dif_neg h2, dif_neg h3, dif_pos h4]

/-! ## The region's invariant -/

/-- Before the first point every accumulator is at anything; before a later point each is at what the point before left. -/
def PhiS (c : Dev nD) : (n : ℕ) → n ≤ cfg0.N → sProp 𝕄
  | 0, _ => Pipeline.ΦA spec0 c
  | n + 1, hn => iprop(iprop(owns (c : Thread nD τ) scM fullShare ((outsAt m c n hn).2.1) ∗ owns (c : Thread nD τ) scL fullShare ((outsAt m c n hn).2.2.1) ∗ owns (c : Thread nD τ) scA fullShare ((outsAt m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare ((outsAt m c n hn).2.1) ∗ owns (c : Thread nD τ) scL fullShare ((outsAt m c n hn).2.2.1) ∗ owns (c : Thread nD τ) scA fullShare ((outsAt m c n hn).2.2.2)) ∗ (∃ r, prngReg c r)) := rfl

theorem PhiS_pos (c : Dev nD) (n : ℕ) (h : n ≤ cfg0.N) (hz : n ≠ 0) :
    PhiS m c n h = iprop(iprop(owns (c : Thread nD τ) scM fullShare ((outsAt m c (n - 1) (by omega)).2.1) ∗ owns (c : Thread nD τ) scL fullShare ((outsAt m c (n - 1) (by omega)).2.2.1) ∗ owns (c : Thread nD τ) scA fullShare ((outsAt m c (n - 1) (by omega)).2.2.2)) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = (outsAt m c t.val t.isLt).1 := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem leaves_0 (c : Dev nD) (t : Fin cfg0.N) : (dats m 0 c).leavesExact 0 t = owns (c : Thread nD τ) (ms0 t) fullShare (iblk m c 0 t) := by
  unfold Dat.leavesExact; rw [liveAt0 t, after_0]
theorem leaves_1 (c : Dev nD) (t : Fin cfg0.N) : (dats m 0 c).leavesExact 1 t = owns (c : Thread nD τ) (ms1 t) fullShare (iblk m c 1 t) := by
  unfold Dat.leavesExact; rw [liveAt1 t, after_1]
theorem leaves_2 (c : Dev nD) (t : Fin cfg0.N) : (dats m 0 c).leavesExact 2 t = owns (c : Thread nD τ) (ms2 t) fullShare (iblk m c 2 t) := by
  unfold Dat.leavesExact; rw [liveAt2 t, after_2]
theorem leaves_3_live (c : Dev nD) (t : Fin cfg0.N) (h : cond4 (grid0.coords t)) : (dats m 0 c).leavesExact 3 t = owns (c : Thread nD τ) (ms3 t) fullShare ((outsAt m c t.val t.isLt).1) := by
  unfold Dat.leavesExact; rw [liveAt3 t h, after_3]

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl]
  rw [show (dats m 0 c).Φ t.succ = PhiS m c (t.val + 1) t.isLt from rfl, PhiS_succ]
  rw [leaves_0, leaves_1, leaves_2]
  have hN : t.val < 64 := lt_of_lt_of_eq t.isLt (show cfg0.N = 64 from N_0)
  by_cases h1 : t.val % 4 = 0
  · by_cases h3 : t.val % 4 = t.val / 4 % 4
    · -- first key tile, query tile 0
      by_cases hz : t.val = 0
      · rw [Dat.leavesExact_idle (dats m 0 c) 3 t (idleAt3 t (fun h => by have := (hcond4 t).mp h; omega)) (noFlush3 t (fun h => by have := (hcond4 t).mp h; omega))]
        rw [outsAt_eq m c t, step_A m c t _ hN h1 h3]
        unfold res_A; dsimp only
        rw [PhiS_castSucc m c t, PhiS_zero m c _ _ hz, PhiA_eq]
        iintro ⟨⟨⟨HM, HL, HA⟩, Hg⟩, Ho, ⟨%d0, H0⟩, ⟨%d1, H1⟩, ⟨%d2, H2⟩, ⟨%d3, H3⟩⟩
        iapply ((kernelRun_A c (grid0.coords t) _ _ _ _ _ _ _ _ _ _ _ _ _ _ ((hcond1 t).mpr h1) (fun h => by have := (hcond2 t).mp h; omega) ((hcond3 t).mpr h3) (fun h => by have := (hcond4 t).mp h; omega) (iblk m c 0 t) (iblk m c 1 t) (iblk m c 2 t)).2.2.2 _ Set.univ _)
        isplitl [H0]; · iexact H0
        isplitl [H1]; · iexact H1
        isplitl [H2]; · iexact H2
        isplitl [H3]; · iexact H3
        isplitl [HM]; · iexact HM
        isplitl [HL]; · iexact HL
        isplitl [HA]; · iexact HA
        iintro ⟨H0, H1, H2, H3, ⟨%eM, HM⟩, ⟨%eL, HL⟩, ⟨%eA, HA⟩⟩
        isplitl [HM HL HA Hg]
        · isplitl [HM HL HA]
          · isplitl [HM]
            · unfold owns; iexists _; isplitr
              swap; · iexact HM
              ipureintro; exact View.read_writes_of_cover _ _ _ _ _ (coverM_A c _ _ _ _ _ _ _ _ _ _ _ _ _ _ _ ((hcond1 t).mpr h1) (fun h => by have := (hcond2 t).mp h; omega) ((hcond3 t).mpr h3) (fun h => by have := (hcond4 t).mp h; omega) _ _ _)
            isplitl [HL]
            · unfold owns; iexists _; isplitr
              swap; · iexact HL
              ipureintro; exact View.read_writes_of_cover _ _ _ _ _ (coverL_A c _ _ _ _ _ _ _ _ _ _ _ _ _ _ _ ((hcond1 t).mpr h1) (fun h => by have := (hcond2 t).mp h; omega) ((hcond3 t).mpr h3) (fun h => by have := (hcond4 t).mp h; omega) _ _ _)
            unfold owns; iexists _; isplitr
            swap; · iexact HA
            ipureintro; exact View.read_writes_of_cover _ _ _ _ _ (coverA_A c _ _ _ _ _ _ _ _ _ _ _ _ _ _ _ ((hcond1 t).mpr h1) (fun h => by have := (hcond2 t).mp h; omega) ((hcond3 t).mpr h3) (fun h => by have := (hcond4 t).mp h; omega) _ _ _)
          iexact Hg
        isplitl [Ho]; · iexact Ho
        isplitl [H0]; · iexact H0
        isplitl [H1]; · iexact H1
        isplitl [H2]; · iexact H2
        iexists _; iexact H3
      · rw [Dat.leavesExact_idle (dats m 0 c) 3 t (idleAt3 t (fun h => by have := (hcond4 t).mp h; omega)) (noFlush3 t (fun h => by have := (hcond4 t).mp h; omega))]
        rw [outsAt_eq m c t, step_A m c t _ hN h1 h3]
        unfold res_A; dsimp only
        rw [PhiS_castSucc m c t, PhiS_pos m c _ _ hz]
        iintro ⟨⟨⟨HM, HL, HA⟩, Hg⟩, Ho, ⟨%d0, H0⟩, ⟨%d1, H1⟩, ⟨%d2, H2⟩, ⟨%d3, H3⟩⟩
        iapply ((kernelRun_A c (grid0.coords t) _ _ _ _ _ _ _ _ _ _ _ _ _ _ ((hcond1 t).mpr h1) (fun h => by have := (hcond2 t).mp h; omega) ((hcond3 t).mpr h3) (fun h => by have := (hcond4 t).mp h; omega) (iblk m c 0 t) (iblk m c 1 t) (iblk m c 2 t)).2.2.2 _ Set.univ _)
        isplitl [H0]; · iexact H0
        isplitl [H1]; · iexact H1
        isplitl [H2]; · iexact H2
        isplitl [H3]; · iexact H3
        isplitl [HM]; · iexists _; iexact HM
        isplitl [HL]; · iexists _; iexact HL
        isplitl [HA]; · iexists _; iexact HA
        iintro ⟨H0, H1, H2, H3, ⟨%eM, HM⟩, ⟨%eL, HL⟩, ⟨%eA, HA⟩⟩
        isplitl [HM HL HA Hg]
        · isplitl [HM HL HA]
          · isplitl [HM]
            · unfold owns; iexists _; isplitr
              swap; · iexact HM
              ipureintro; exact View.read_writes_of_cover _ _ _ _ _ (coverM_A c _ _ _ _ _ _ _ _ _ _ _ _ _ _ _ ((hcond1 t).mpr h1) (fun h => by have := (hcond2 t).mp h; omega) ((hcond3 t).mpr h3) (fun h => by have := (hcond4 t).mp h; omega) _ _ _)
            isplitl [HL]
            · unfold owns; iexists _; isplitr
              swap; · iexact HL
              ipureintro; exact View.read_writes_of_cover _ _ _ _ _ (coverL_A c _ _ _ _ _ _ _ _ _ _ _ _ _ _ _ ((hcond1 t).mpr h1) (fun h => by have := (hcond2 t).mp h; omega) ((hcond3 t).mpr h3) (fun h => by have := (hcond4 t).mp h; omega) _ _ _)
            unfold owns; iexists _; isplitr
            swap; · iexact HA
            ipureintro; exact View.read_writes_of_cover _ _ _ _ _ (coverA_A c _ _ _ _ _ _ _ _ _ _ _ _ _ _ _ ((hcond1 t).mpr h1) (fun h => by have := (hcond2 t).mp h; omega) ((hcond3 t).mpr h3) (fun h => by have := (hcond4 t).mp h; omega) _ _ _)
          iexact Hg
        isplitl [Ho]; · iexact Ho
        isplitl [H0]; · iexact H0
        isplitl [H1]; · iexact H1
        isplitl [H2]; · iexact H2
        iexists _; iexact H3
    · -- first key tile below the diagonal
      have hz : t.val ≠ 0 := by omega
      rw [Dat.leavesExact_idle (dats m 0 c) 3 t (idleAt3 t (fun h => by have := (hcond4 t).mp h; omega)) (noFlush3 t (fun h => by have := (hcond4 t).mp h; omega))]
      rw [outsAt_eq m c t, step_B m c t _ hN h1 h3]
      unfold res_B; dsimp only
      rw [PhiS_castSucc m c t, PhiS_pos m c _ _ hz]
      iintro ⟨⟨⟨HM, HL, HA⟩, Hg⟩, Ho, ⟨%d0, H0⟩, ⟨%d1, H1⟩, ⟨%d2, H2⟩, ⟨%d3, H3⟩⟩
      iapply ((kernelRun_B c (grid0.coords t) _ _ _ _ _ _ _ _ _ _ _ _ _ _ ((hcond1 t).mpr h1) ((hcond2 t).mpr (by omega)) (fun h => h3 ((hcond3 t).mp h)) (fun h => by have := (hcond4 t).mp h; omega) (iblk m c 0 t) (iblk m c 1 t) (iblk m c 2 t)).2.2.2 _ Set.univ _)
      isplitl [H0]; · iexact H0
      isplitl [H1]; · iexact H1
      isplitl [H2]; · iexact H2
      isplitl [H3]; · iexact H3
      isplitl [HM]; · iexists _; iexact HM
      isplitl [HL]; · iexists _; iexact HL
      isplitl [HA]; · iexists _; iexact HA
      iintro ⟨H0, H1, H2, H3, ⟨%eM, HM⟩, ⟨%eL, HL⟩, ⟨%eA, HA⟩⟩
      isplitl [HM HL HA Hg]
      · isplitl [HM HL HA]
        · isplitl [HM]
          · unfold owns; iexists _; isplitr
            swap; · iexact HM
            ipureintro; exact View.read_writes_of_cover _ _ _ _ _ (coverM_B c _ _ _ _ _ _ _ _ _ _ _ _ _ _ _ ((hcond1 t).mpr h1) ((hcond2 t).mpr (by omega)) (fun h => h3 ((hcond3 t).mp h)) (fun h => by have := (hcond4 t).mp h; omega) _ _ _)
          isplitl [HL]
          · unfold owns; iexists _; isplitr
            swap; · iexact HL
            ipureintro; exact View.read_writes_of_cover _ _ _ _ _ (coverL_B c _ _ _ _ _ _ _ _ _ _ _ _ _ _ _ ((hcond1 t).mpr h1) ((hcond2 t).mpr (by omega)) (fun h => h3 ((hcond3 t).mp h)) (fun h => by have := (hcond4 t).mp h; omega) _ _ _)
          unfold owns; iexists _; isplitr
          swap; · iexact HA
          ipureintro; exact View.read_writes_of_cover _ _ _ _ _ (coverA_B c _ _ _ _ _ _ _ _ _ _ _ _ _ _ _ ((hcond1 t).mpr h1) ((hcond2 t).mpr (by omega)) (fun h => h3 ((hcond3 t).mp h)) (fun h => by have := (hcond4 t).mp h; omega) _ _ _)
        iexact Hg
      isplitl [Ho]; · iexact Ho
      isplitl [H0]; · iexact H0
      isplitl [H1]; · iexact H1
      isplitl [H2]; · iexact H2
      iexists _; iexact H3
  · by_cases h2 : t.val % 4 < t.val / 4 % 4
    · -- a later key tile below the diagonal
      have hz : t.val ≠ 0 := by omega
      rw [Dat.leavesExact_idle (dats m 0 c) 3 t (idleAt3 t (fun h => by have := (hcond4 t).mp h; omega)) (noFlush3 t (fun h => by have := (hcond4 t).mp h; omega))]
      rw [outsAt_eq m c t, step_C m c t _ hN h1 h2]
      unfold res_C; dsimp only
      rw [PhiS_castSucc m c t, PhiS_pos m c _ _ hz, prev_pos m c t hz]
      iintro ⟨⟨⟨HM, HL, HA⟩, Hg⟩, Ho, ⟨%d0, H0⟩, ⟨%d1, H1⟩, ⟨%d2, H2⟩, ⟨%d3, H3⟩⟩
      iapply ((kernelRun_C c (grid0.coords t) _ _ _ _ _ _ _ _ _ _ _ _ _ _ (fun h => h1 ((hcond1 t).mp h)) ((hcond2 t).mpr h2) (fun h => by have := (hcond3 t).mp h; omega) (fun h => by have := (hcond4 t).mp h; omega) (iblk m c 0 t) (iblk m c 1 t) (iblk m c 2 t) _ _ _).2.2.2 _ Set.univ _)
      isplitl [H0]; · iexact H0
      isplitl [H1]; · iexact H1
      isplitl [H2]; · iexact H2
      isplitl [H3]; · iexact H3
      isplitl [HM]; · iexact HM
      isplitl [HL]; · iexact HL
      isplitl [HA]; · iexact HA
      iintro ⟨H0, H1, H2, H3, ⟨%eM, HM⟩, ⟨%eL, HL⟩, ⟨%eA, HA⟩⟩
      isplitl [HM HL HA Hg]
      · isplitl [HM HL HA]
        · isplitl [HM]
          · unfold owns; iexists _; isplitr
            swap; · iexact HM
            ipureintro; exact View.read_writes_of_cover _ _ _ _ _ (coverM_C c _ _ _ _ _ _ _ _ _ _ _ _ _ _ _ (fun h => h1 ((hcond1 t).mp h)) ((hcond2 t).mpr h2) (fun h => by have := (hcond3 t).mp h; omega) (fun h => by have := (hcond4 t).mp h; omega) _ _ _ _ _ _)
          isplitl [HL]
          · unfold owns; iexists _; isplitr
            swap; · iexact HL
            ipureintro; exact View.read_writes_of_cover _ _ _ _ _ (coverL_C c _ _ _ _ _ _ _ _ _ _ _ _ _ _ _ (fun h => h1 ((hcond1 t).mp h)) ((hcond2 t).mpr h2) (fun h => by have := (hcond3 t).mp h; omega) (fun h => by have := (hcond4 t).mp h; omega) _ _ _ _ _ _)
          unfold owns; iexists _; isplitr
          swap; · iexact HA
          ipureintro; exact View.read_writes_of_cover _ _ _ _ _ (coverA_C c _ _ _ _ _ _ _ _ _ _ _ _ _ _ _ (fun h => h1 ((hcond1 t).mp h)) ((hcond2 t).mpr h2) (fun h => by have := (hcond3 t).mp h; omega) (fun h => by have := (hcond4 t).mp h; omega) _ _ _ _ _ _)
        iexact Hg
      isplitl [Ho]; · iexact Ho
      isplitl [H0]; · iexact H0
      isplitl [H1]; · iexact H1
      isplitl [H2]; · iexact H2
      iexists _; iexact H3
    · by_cases h3 : t.val % 4 = t.val / 4 % 4
      · by_cases h4 : t.val % 4 = 3
        · -- the last key tile, on the diagonal
          have hz : t.val ≠ 0 := by omega
          rw [leaves_3_live m c t ((hcond4 t).mpr h4)]
          rw [outsAt_eq m c t, step_E m c t _ hN h1 h2 h3 h4]
          unfold res_E; dsimp only
          rw [PhiS_castSucc m c t, PhiS_pos m c _ _ hz, prev_pos m c t hz]
          iintro ⟨⟨⟨HM, HL, HA⟩, Hg⟩, Ho, ⟨%d0, H0⟩, ⟨%d1, H1⟩, ⟨%d2, H2⟩, ⟨%d3, H3⟩⟩
          iapply ((kernelRun_E c (grid0.coords t) _ _ _ _ _ _ _ _ _ _ _ _ _ _ (fun h => h1 ((hcond1 t).mp h)) (fun h => h2 ((hcond2 t).mp h)) ((hcond3 t).mpr h3) ((hcond4 t).mpr h4) (iblk m c 0 t) (iblk m c 1 t) (iblk m c 2 t) _ _ _).2.2.2.2 Set.univ _)
          isplitl [H0]; · iexact H0
          isplitl [H1]; · iexact H1
          isplitl [H2]; · iexact H2
          isplitl [H3]; · iexists _; iexact H3
          isplitl [HM]; · iexact HM
          isplitl [HL]; · iexact HL
          isplitl [HA]; · iexact HA
          iintro ⟨H0, H1, H2, ⟨%e3, H3⟩, ⟨%eM, HM⟩, ⟨%eL, HL⟩, ⟨%eA, HA⟩⟩
          isplitl [HM HL HA Hg]
          · isplitl [HM HL HA]
            · isplitl [HM]
              · unfold owns; iexists _; isplitr
                swap; · iexact HM
                ipureintro; exact View.read_writes_of_cover _ _ _ _ _ (coverM_E c _ _ _ _ _ _ _ _ _ _ _ _ _ _ _ (fun h => h1 ((hcond1 t).mp h)) (fun h => h2 ((hcond2 t).mp h)) ((hcond3 t).mpr h3) ((hcond4 t).mpr h4) _ _ _ _ _ _)
              isplitl [HL]
              · unfold owns; iexists _; isplitr
                swap; · iexact HL
                ipureintro; exact View.read_writes_of_cover _ _ _ _ _ (coverL_E c _ _ _ _ _ _ _ _ _ _ _ _ _ _ _ (fun h => h1 ((hcond1 t).mp h)) (fun h => h2 ((hcond2 t).mp h)) ((hcond3 t).mpr h3) ((hcond4 t).mpr h4) _ _ _ _ _ _)
              unfold owns; iexists _; isplitr
              swap; · iexact HA
              ipureintro; exact View.read_writes_of_cover _ _ _ _ _ (coverA_E c _ _ _ _ _ _ _ _ _ _ _ _ _ _ _ (fun h => h1 ((hcond1 t).mp h)) (fun h => h2 ((hcond2 t).mp h)) ((hcond3 t).mpr h3) ((hcond4 t).mpr h4) _ _ _ _ _ _)
            iexact Hg
          isplitl [Ho]; · iexact Ho
          isplitl [H0]; · iexact H0
          isplitl [H1]; · iexact H1
          isplitl [H2]; · iexact H2
          unfold owns; iexists _; isplitr
          swap; · iexact H3
          ipureintro; exact View.read_writes_of_cover _ _ _ _ _ (coverO_E c _ _ _ _ _ _ _ _ _ _ _ _ _ _ _ (fun h => h1 ((hcond1 t).mp h)) (fun h => h2 ((hcond2 t).mp h)) ((hcond3 t).mpr h3) ((hcond4 t).mpr h4) _ _ _ _ _ _)
        · -- a later diagonal tile
          have hz : t.val ≠ 0 := by omega
          rw [Dat.leavesExact_idle (dats m 0 c) 3 t (idleAt3 t (fun h => by have := (hcond4 t).mp h; omega)) (noFlush3 t (fun h => by have := (hcond4 t).mp h; omega))]
          rw [outsAt_eq m c t, step_D m c t _ hN h1 h2 h3 h4]
          unfold res_D; dsimp only
          rw [PhiS_castSucc m c t, PhiS_pos m c _ _ hz, prev_pos m c t hz]
          iintro ⟨⟨⟨HM, HL, HA⟩, Hg⟩, Ho, ⟨%d0, H0⟩, ⟨%d1, H1⟩, ⟨%d2, H2⟩, ⟨%d3, H3⟩⟩
          iapply ((kernelRun_D c (grid0.coords t) _ _ _ _ _ _ _ _ _ _ _ _ _ _ (fun h => h1 ((hcond1 t).mp h)) (fun h => h2 ((hcond2 t).mp h)) ((hcond3 t).mpr h3) (fun h => h4 ((hcond4 t).mp h)) (iblk m c 0 t) (iblk m c 1 t) (iblk m c 2 t) _ _ _).2.2.2 _ Set.univ _)
          isplitl [H0]; · iexact H0
          isplitl [H1]; · iexact H1
          isplitl [H2]; · iexact H2
          isplitl [H3]; · iexact H3
          isplitl [HM]; · iexact HM
          isplitl [HL]; · iexact HL
          isplitl [HA]; · iexact HA
          iintro ⟨H0, H1, H2, H3, ⟨%eM, HM⟩, ⟨%eL, HL⟩, ⟨%eA, HA⟩⟩
          isplitl [HM HL HA Hg]
          · isplitl [HM HL HA]
            · isplitl [HM]
              · unfold owns; iexists _; isplitr
                swap; · iexact HM
                ipureintro; exact View.read_writes_of_cover _ _ _ _ _ (coverM_D c _ _ _ _ _ _ _ _ _ _ _ _ _ _ _ (fun h => h1 ((hcond1 t).mp h)) (fun h => h2 ((hcond2 t).mp h)) ((hcond3 t).mpr h3) (fun h => h4 ((hcond4 t).mp h)) _ _ _ _ _ _)
              isplitl [HL]
              · unfold owns; iexists _; isplitr
                swap; · iexact HL
                ipureintro; exact View.read_writes_of_cover _ _ _ _ _ (coverL_D c _ _ _ _ _ _ _ _ _ _ _ _ _ _ _ (fun h => h1 ((hcond1 t).mp h)) (fun h => h2 ((hcond2 t).mp h)) ((hcond3 t).mpr h3) (fun h => h4 ((hcond4 t).mp h)) _ _ _ _ _ _)
              unfold owns; iexists _; isplitr
              swap; · iexact HA
              ipureintro; exact View.read_writes_of_cover _ _ _ _ _ (coverA_D c _ _ _ _ _ _ _ _ _ _ _ _ _ _ _ (fun h => h1 ((hcond1 t).mp h)) (fun h => h2 ((hcond2 t).mp h)) ((hcond3 t).mpr h3) (fun h => h4 ((hcond4 t).mp h)) _ _ _ _ _ _)
            iexact Hg
          isplitl [Ho]; · iexact Ho
          isplitl [H0]; · iexact H0
          isplitl [H1]; · iexact H1
          isplitl [H2]; · iexact H2
          iexists _; iexact H3
      · by_cases h4 : t.val % 4 = 3
        · -- the last key tile, above the diagonal
          have hz : t.val ≠ 0 := by omega
          rw [leaves_3_live m c t ((hcond4 t).mpr h4)]
          rw [outsAt_eq m c t, step_H m c t _ hN h1 h2 h3 h4]
          unfold res_H; dsimp only
          rw [PhiS_castSucc m c t, PhiS_pos m c _ _ hz, prev_pos m c t hz]
          iintro ⟨⟨⟨HM, HL, HA⟩, Hg⟩, Ho, ⟨%d0, H0⟩, ⟨%d1, H1⟩, ⟨%d2, H2⟩, ⟨%d3, H3⟩⟩
          iapply ((kernelRun_H c (grid0.coords t) _ _ _ _ _ _ _ _ _ _ _ _ _ _ (fun h => h1 ((hcond1 t).mp h)) (fun h => h2 ((hcond2 t).mp h)) (fun h => h3 ((hcond3 t).mp h)) ((hcond4 t).mpr h4) (iblk m c 0 t) (iblk m c 1 t) (iblk m c 2 t) _ _ _).2 Set.univ _)
          isplitl [H0]; · iexact H0
          isplitl [H1]; · iexact H1
          isplitl [H2]; · iexact H2
          isplitl [H3]; · iexists _; iexact H3
          isplitl [HM]; · iexact HM
          isplitl [HL]; · iexact HL
          isplitl [HA]; · iexact HA
          iintro ⟨H0, H1, H2, ⟨%e3, H3⟩, HM, HL, HA⟩
          isplitl [HM HL HA Hg]
          · isplitl [HM HL HA]
            · isplitl [HM]; · iexact HM
              isplitl [HL]; · iexact HL
              iexact HA
            iexact Hg
          isplitl [Ho]; · iexact Ho
          isplitl [H0]; · iexact H0
          isplitl [H1]; · iexact H1
          isplitl [H2]; · iexact H2
          unfold owns; iexists _; isplitr
          swap; · iexact H3
          ipureintro; exact View.read_writes_of_cover _ _ _ _ _ (coverO_H c _ _ _ _ _ _ _ _ _ _ _ _ _ _ _ (fun h => h1 ((hcond1 t).mp h)) (fun h => h2 ((hcond2 t).mp h)) (fun h => h3 ((hcond3 t).mp h)) ((hcond4 t).mpr h4) _ _ _ _ _ _)
        · -- above the diagonal, not last
          have hz : t.val ≠ 0 := by omega
          rw [Dat.leavesExact_idle (dats m 0 c) 3 t (idleAt3 t (fun h => by have := (hcond4 t).mp h; omega)) (noFlush3 t (fun h => by have := (hcond4 t).mp h; omega))]
          rw [outsAt_eq m c t, step_G m c t _ hN h1 h2 h3 h4]
          unfold res_G; dsimp only
          rw [PhiS_castSucc m c t, PhiS_pos m c _ _ hz, prev_pos m c t hz]
          iintro ⟨⟨⟨HM, HL, HA⟩, Hg⟩, Ho, ⟨%d0, H0⟩, ⟨%d1, H1⟩, ⟨%d2, H2⟩, ⟨%d3, H3⟩⟩
          iapply ((kernelRun_G c (grid0.coords t) _ _ _ _ _ _ _ _ _ _ _ _ _ _ (fun h => h1 ((hcond1 t).mp h)) (fun h => h2 ((hcond2 t).mp h)) (fun h => h3 ((hcond3 t).mp h)) (fun h => h4 ((hcond4 t).mp h)) (iblk m c 0 t) (iblk m c 1 t) (iblk m c 2 t) _ _ _) _ Set.univ _)
          isplitl [H0]; · iexact H0
          isplitl [H1]; · iexact H1
          isplitl [H2]; · iexact H2
          isplitl [H3]; · iexact H3
          isplitl [HM]; · iexact HM
          isplitl [HL]; · iexact HL
          isplitl [HA]; · iexact HA
          iintro ⟨H0, H1, H2, H3, HM, HL, HA⟩
          isplitl [HM HL HA Hg]
          · isplitl [HM HL HA]
            · isplitl [HM]; · iexact HM
              isplitl [HL]; · iexact HL
              iexact HA
            iexact Hg
          isplitl [Ho]; · iexact Ho
          isplitl [H0]; · iexact H0
          isplitl [H1]; · iexact H1
          isplitl [H2]; · iexact H2
          iexists _; iexact H3

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨HM, HL, HA⟩, Hg⟩
  isplitl [HM HL HA]
  · isplitl [HM]; · iexists _; iexact HM
    isplitl [HL]; · iexists _; iexact HL
    iexists _; iexact HA
  iexact Hg

theorem hout (c : Dev nD) : (dats m 0 c).Φ (Fin.last cfg0.N) ⊢ Pipeline.ΦA spec0 c :=
  Phi_out m c _ (by rw [Fin.val_last]; have : cfg0.N = 64 := N_0; omega)

/-! ## The run and the frame -/

set_option backward.isDefEq.respectTransparency.types false in
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: every weakly fair execution terminates, faults nowhere, and leaves the three argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Hand

end
-- ==== Proof.KI.Conds.lean ====
/-
  The kernel body's four branches, as conditions on a grid point (batch, query tile, key tile), decided over the
  64 points: the accumulators are reset on the first key tile; a key tile strictly below the query tile is
  processed unmasked; the key tile ON the diagonal is processed under the causal mask; on the last key tile the
  normalised result is stored. Point t is (t / 16, t / 4 % 4, t % 4). The result's window is idle except on the
  last key tile, which is also where it is written back. The three accumulators (running maximum, running
  denominator, running numerator) are scratch buffers the kernel owns between points.
-/
import proofs.«178927_j55791625175600_2_alg».proof.Proof.Gen.KernelIdeal.Launch
import proofs.«178927_j55791625175600_2_alg».proof.Proof.Gen.KernelIdeal.Skeleton
import proofs.«178927_j55791625175600_2_alg».proof.Proof.Gen.KernelIdeal.Points
import proofs.«178927_j55791625175600_2_alg».proof.Proof.Gen.KernelIdeal.Frame
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The branch conditions -/

/-- First key tile: the accumulators are reset. -/
abbrev cond1 (i : grid0.Coords) : Prop := (Scalar.cmpi .ne (Scalar.extui (Scalar.cmpi .eq (BitVec.ofNat 32 (i 2).val) 0#32)) 0#32) = 1#1
/-- Key tile strictly below the query tile: processed without a mask. -/
abbrev cond2 (i : grid0.Coords) : Prop := (Scalar.cmpi .ne (Scalar.extui (Scalar.cmpi .slt (BitVec.ofNat 32 (i 2).val) (BitVec.ofNat 32 (i 1).val))) 0#32) = 1#1
/-- Key tile on the diagonal: processed under the causal mask. -/
abbrev cond3 (i : grid0.Coords) : Prop := (Scalar.cmpi .ne (Scalar.extui (Scalar.cmpi .eq (BitVec.ofNat 32 (i 2).val) (BitVec.ofNat 32 (i 1).val))) 0#32) = 1#1
/-- Last key tile: the normalised result is stored. -/
abbrev cond4 (i : grid0.Coords) : Prop := k0_cond4 i = 1#1

theorem hcond1 : ∀ t : Fin cfg0.N, cond1 (grid0.coords t) ↔ t.val % 4 = 0 :=
  (by decide +kernel : ∀ t : Fin grid0.N, cond1 (grid0.coords t) ↔ t.val % 4 = 0)
theorem hcond2 : ∀ t : Fin cfg0.N, cond2 (grid0.coords t) ↔ t.val % 4 < t.val / 4 % 4 :=
  (by decide +kernel : ∀ t : Fin grid0.N, cond2 (grid0.coords t) ↔ t.val % 4 < t.val / 4 % 4)
theorem hcond3 : ∀ t : Fin cfg0.N, cond3 (grid0.coords t) ↔ t.val % 4 = t.val / 4 % 4 :=
  (by decide +kernel : ∀ t : Fin grid0.N, cond3 (grid0.coords t) ↔ t.val % 4 = t.val / 4 % 4)
theorem hcond4 : ∀ t : Fin cfg0.N, cond4 (grid0.coords t) ↔ t.val % 4 = 3 :=
  (by decide +kernel : ∀ t : Fin grid0.N, cond4 (grid0.coords t) ↔ t.val % 4 = 3)

/-! ## Where the windows are idle -/

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
/-- Off the last key tile nothing is stored into the result's block, and it is not written back. -/
theorem idleAt3 : ∀ t : Fin cfg0.N, ¬cond4 (grid0.coords t) → cfg0.idle 3 (grid0.coords t) = true := by decide +kernel
theorem noFlush3 : ∀ t : Fin cfg0.N, ¬cond4 (grid0.coords t) → (cfg0.win 3).flush t = false := by decide +kernel
/-- On the last key tile the block is stored whole. -/
theorem liveAt3 : ∀ t : Fin cfg0.N, cond4 (grid0.coords t) → cfg0.idle 3 (grid0.coords t) = false := by decide +kernel

/-! ## The staging memrefs at a point, and the scratch operands -/

abbrev ms0 (t : Fin cfg0.N) : Memref sig .tc .vmem S1x512x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x512x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x512x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512x1024 .f32 := win0_3.stage (cfg0.slots t 3)
abbrev hs3 (t : Fin cfg0.N) : (ms3 t).IsWhole := hstage0_3 ((cfg0.slots t 3).cast nbuf0_3)

/-- The running maximum, one column per head. -/
abbrev scM : Memref sig .tc .vmem S512x16 .f32 := Memref.whole cc0_scratch0
/-- The running denominator, one column per head. -/
abbrev scL : Memref sig .tc .vmem S512x16 .f32 := Memref.whole cc0_scratch1
/-- The running numerator, 64 columns per head. -/
abbrev scA : Memref sig .tc .vmem S512x1024 .f32 := Memref.whole cc0_scratch2
abbrev VM : View sig .tc .vmem S512x16 .f32 := (scM).view
abbrev VL : View sig .tc .vmem S512x16 .f32 := (scL).view
abbrev VA : View sig .tc .vmem S512x1024 .f32 := (scA).view
/-- One staging buffer of the result's window, through which its contents are stated. -/
abbrev VO : View sig .tc .vmem S1x512x1024 .f32 := (Memref.whole cc0_stg3_0 : Memref sig .tc .vmem S1x512x1024 .f32).view

/-- The region's invariant with the three accumulators as memrefs owned at some contents. -/
theorem PhiA_eq (c : Dev nD) :
    (Pipeline.ΦA spec0 c : sProp 𝕄)
      = iprop(iprop((∃ d, owns (c : Thread nD τ) scM fullShare d) ∗ (∃ d, owns (c : Thread nD τ) scL fullShare d) ∗ (∃ d, owns (c : Thread nD τ) scA fullShare d)) ∗ (∃ r, prngReg c r)) := by
  unfold Pipeline.ΦA; rw [scopedRest0_eq]; simp only [scM, scL, scA, owns_whole]; try rfl

end Cert.KernelIdeal.Hand

end
-- ==== Proof.KI.RunA.lean ====
/-
  The kernel body run once, symbolically, at a grid point of the kind: first key tile on the diagonal (query tile 0): reset, then the masked tile.
  The inputs' blocks are handed in and back unchanged; the result's block is not touched; each accumulator ends as the list of column slices the sixteen heads stored.
-/
import proofs.«178927_j55791625175600_2_alg».proof.Proof.KI.Conds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
noncomputable def kernelRun_A (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc1 : cond1 i) (hc2 : ¬cond2 i) (hc3 : cond3 i) (hc4 : ¬cond4 i)
    (x0 x1 x2 : Vec F S1x512x1024 .f32) :
    Σ' (LS0 : List (View.Piece (Elt F) S512x16 .f32)) (LS1 : List (View.Piece (Elt F) S512x16 .f32)), { LS2 : List (View.Piece (Elt F) S512x1024 .f32) //
      ∀ (xi3 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0_kernel i arg3 harg3 arg4 harg4 arg5 harg5 arg6 harg6 arg7 harg7 arg8 harg8 arg9 harg9) K } := by
  refine ⟨?_, ?_, ?_, fun xi3 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
    obtain rfl := harg3.eq_unread hf0; obtain rfl := harg4.eq_unread hf1; obtain rfl := harg5.eq_unread hf2; obtain rfl := harg6.eq_unread hf3
    sl_exec_parts (disch := first | exact hc1 | exact hc2 | exact hc3 | exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; iexact H4
    isplitl [H5]
    · iexists _; iexact H5
    iexists _; iexact H6

end Cert.KernelIdeal.Hand

end
-- ==== Proof.KI.RunB.lean ====
/-
  The kernel body run once, symbolically, at a grid point of the kind: first key tile below the diagonal: reset, then the unmasked tile.
  The inputs' blocks are handed in and back unchanged; the result's block is not touched; each accumulator ends as the list of column slices the sixteen heads stored.
-/
import proofs.«178927_j55791625175600_2_alg».proof.Proof.KI.Conds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
noncomputable def kernelRun_B (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc1 : cond1 i) (hc2 : cond2 i) (hc3 : ¬cond3 i) (hc4 : ¬cond4 i)
    (x0 x1 x2 : Vec F S1x512x1024 .f32) :
    Σ' (LS0 : List (View.Piece (Elt F) S512x16 .f32)) (LS1 : List (View.Piece (Elt F) S512x16 .f32)), { LS2 : List (View.Piece (Elt F) S512x1024 .f32) //
      ∀ (xi3 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0_kernel i arg3 harg3 arg4 harg4 arg5 harg5 arg6 harg6 arg7 harg7 arg8 harg8 arg9 harg9) K } := by
  refine ⟨?_, ?_, ?_, fun xi3 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
    obtain rfl := harg3.eq_unread hf0; obtain rfl := harg4.eq_unread hf1; obtain rfl := harg5.eq_unread hf2; obtain rfl := harg6.eq_unread hf3
    sl_exec_parts (disch := first | exact hc1 | exact hc2 | exact hc3 | exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; iexact H4
    isplitl [H5]
    · iexists _; iexact H5
    iexists _; iexact H6

end Cert.KernelIdeal.Hand

end
-- ==== Proof.KI.RunC.lean ====
/-
  The kernel body run once, symbolically, at a grid point of the kind: a later key tile below the diagonal: the unmasked tile.
  The inputs' blocks are handed in and back unchanged; the result's block is not touched; each accumulator ends as the list of column slices the sixteen heads stored.
-/
import proofs.«178927_j55791625175600_2_alg».proof.Proof.KI.Conds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
noncomputable def kernelRun_C (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc1 : ¬cond1 i) (hc2 : cond2 i) (hc3 : ¬cond3 i) (hc4 : ¬cond4 i)
    (x0 x1 x2 : Vec F S1x512x1024 .f32) (xs0 xs1 : Vec F S512x16 .f32) (xs2 : Vec F S512x1024 .f32) :
    Σ' (LS0 : List (View.Piece (Elt F) S512x16 .f32)) (LS1 : List (View.Piece (Elt F) S512x16 .f32)), { LS2 : List (View.Piece (Elt F) S512x1024 .f32) //
      ∀ (xi3 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0_kernel i arg3 harg3 arg4 harg4 arg5 harg5 arg6 harg6 arg7 harg7 arg8 harg8 arg9 harg9) K } := by
  refine ⟨?_, ?_, ?_, fun xi3 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec_parts (disch := first | exact hc1 | exact hc2 | exact hc3 | exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; iexact H4
    isplitl [H5]
    · iexists _; iexact H5
    iexists _; iexact H6

end Cert.KernelIdeal.Hand

end
-- ==== Proof.KI.RunD.lean ====
/-
  The kernel body run once, symbolically, at a grid point of the kind: a later diagonal tile that is not the last key tile: the masked tile.
  The inputs' blocks are handed in and back unchanged; the result's block is not touched; each accumulator ends as the list of column slices the sixteen heads stored.
-/
import proofs.«178927_j55791625175600_2_alg».proof.Proof.KI.Conds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
noncomputable def kernelRun_D (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc1 : ¬cond1 i) (hc2 : ¬cond2 i) (hc3 : cond3 i) (hc4 : ¬cond4 i)
    (x0 x1 x2 : Vec F S1x512x1024 .f32) (xs0 xs1 : Vec F S512x16 .f32) (xs2 : Vec F S512x1024 .f32) :
    Σ' (LS0 : List (View.Piece (Elt F) S512x16 .f32)) (LS1 : List (View.Piece (Elt F) S512x16 .f32)), { LS2 : List (View.Piece (Elt F) S512x1024 .f32) //
      ∀ (xi3 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0_kernel i arg3 harg3 arg4 harg4 arg5 harg5 arg6 harg6 arg7 harg7 arg8 harg8 arg9 harg9) K } := by
  refine ⟨?_, ?_, ?_, fun xi3 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec_parts (disch := first | exact hc1 | exact hc2 | exact hc3 | exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; iexact H4
    isplitl [H5]
    · iexists _; iexact H5
    iexists _; iexact H6

end Cert.KernelIdeal.Hand

end
-- ==== Proof.KI.RunE.lean ====
/-
  The kernel body run once, symbolically, at a grid point of the kind: the last key tile on the diagonal (query tile 3): the masked tile, then the result.
  The inputs' blocks are handed in and back unchanged; the result's block is stored whole (the pieces the run lists); each accumulator ends as the list of column slices the sixteen heads stored.
-/
import proofs.«178927_j55791625175600_2_alg».proof.Proof.KI.Conds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
noncomputable def kernelRun_E (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc1 : ¬cond1 i) (hc2 : ¬cond2 i) (hc3 : cond3 i) (hc4 : cond4 i)
    (x0 x1 x2 : Vec F S1x512x1024 .f32) (xs0 xs1 : Vec F S512x16 .f32) (xs2 : Vec F S512x1024 .f32) :
    Σ' (L3 : List (View.Piece (Elt F) S1x512x1024 .f32)) (LS0 : List (View.Piece (Elt F) S512x16 .f32)) (LS1 : List (View.Piece (Elt F) S512x16 .f32)), { LS2 : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0_kernel i arg3 harg3 arg4 harg4 arg5 harg5 arg6 harg6 arg7 harg7 arg8 harg8 arg9 harg9) K } := by
  refine ⟨?_, ?_, ?_, ?_, fun E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%f6, %hf6, H6⟩, Hk⟩
    obtain rfl := harg3.eq_unread hf0; obtain rfl := harg4.eq_unread hf1; obtain rfl := harg5.eq_unread hf2; obtain rfl := harg7.eq_unread hf4; obtain rfl := harg8.eq_unread hf5; obtain rfl := harg9.eq_unread hf6
    sl_exec_parts (disch := first | exact hc1 | exact hc2 | exact hc3 | exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; iexact H3
    isplitl [H4]
    · iexists _; iexact H4
    isplitl [H5]
    · iexists _; iexact H5
    iexists _; iexact H6

end Cert.KernelIdeal.Hand

end
-- ==== Proof.KI.RunG.lean ====
/-
  The kernel body run once, symbolically, at a grid point of the kind: a key tile above the diagonal that is not the last: nothing.
  The inputs' blocks are handed in and back unchanged; the result's block is not touched; the accumulators are handed back as they came.
-/
import proofs.«178927_j55791625175600_2_alg».proof.Proof.KI.Conds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
theorem kernelRun_G (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc1 : ¬cond1 i) (hc2 : ¬cond2 i) (hc3 : ¬cond3 i) (hc4 : ¬cond4 i)
    (x0 x1 x2 : Vec F S1x512x1024 .f32) (xs0 xs1 : Vec F S512x16 .f32) (xs2 : Vec F S512x1024 .f32) :
    ∀ (xi3 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1 ∗ owns (c : Thread nD τ) arg9 fullShare xs2) -∗ K ⟨⟩))
          ⊢ wp frame (wpE (defs₀ (F := F)) Variants.none c none) E (cc0_kernel i arg3 harg3 arg4 harg4 arg5 harg5 arg6 harg6 arg7 harg7 arg8 harg8 arg9 harg9) K := by
  intro xi3 E K
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
  sl_exec_parts (disch := first | exact hc1 | exact hc2 | exact hc3 | exact hc4)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  iexists _; isplitr; · ipureintro; exact harg9.read_unread _
  iexact H6

end Cert.KernelIdeal.Hand

end
-- ==== Proof.KI.RunH.lean ====
/-
  The kernel body run once, symbolically, at a grid point of the kind: the last key tile above the diagonal: the result only.
  The inputs' blocks are handed in and back unchanged; the result's block is stored whole (the pieces the run lists); the accumulators are handed back as they came.
-/
import proofs.«178927_j55791625175600_2_alg».proof.Proof.KI.Conds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
noncomputable def kernelRun_H (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc1 : ¬cond1 i) (hc2 : ¬cond2 i) (hc3 : ¬cond3 i) (hc4 : cond4 i)
    (x0 x1 x2 : Vec F S1x512x1024 .f32) (xs0 xs1 : Vec F S512x16 .f32) (xs2 : Vec F S512x1024 .f32) :
    { L3 : List (View.Piece (Elt F) S1x512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ owns (c : Thread nD τ) arg7 fullShare xs0 ∗ owns (c : Thread nD τ) arg8 fullShare xs1 ∗ owns (c : Thread nD τ) arg9 fullShare xs2) -∗ K ⟨⟩))
          ⊢ wp frame (wpE (defs₀ (F := F)) Variants.none c none) E (cc0_kernel i arg3 harg3 arg4 harg4 arg5 harg5 arg6 harg6 arg7 harg7 arg8 harg8 arg9 harg9) K } := by
  refine ⟨?_, fun E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%f6, %hf6, H6⟩, Hk⟩
    obtain rfl := harg3.eq_unread hf0; obtain rfl := harg4.eq_unread hf1; obtain rfl := harg5.eq_unread hf2; obtain rfl := harg7.eq_unread hf4; obtain rfl := harg8.eq_unread hf5; obtain rfl := harg9.eq_unread hf6
    sl_exec_parts (disch := first | exact hc1 | exact hc2 | exact hc3 | exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; iexact H3
    isplitl [H4]
    · iexists _; isplitr; · ipureintro; exact harg7.read_unread _
      iexact H4
    isplitl [H5]
    · iexists _; isplitr; · ipureintro; exact harg8.read_unread _
      iexact H5
    iexists _; isplitr; · ipureintro; exact harg9.read_unread _
    iexact H6

end Cert.KernelIdeal.Hand

end
-- ==== Proof.KI.Frame.lean ====
/-
  The frame of the kernel: what the three accumulators and the result's block hold after each grid point, by
  iteration over the points; the region's invariant (the accumulators at what the point before left); the body's
  obligation at every point, by the kind of point it is; the run; the frame.
-/
import proofs.«178927_j55791625175600_2_alg».proof.Proof.KI.RunA
import proofs.«178927_j55791625175600_2_alg».proof.Proof.KI.RunB
import proofs.«178927_j55791625175600_2_alg».proof.Proof.KI.RunC
import proofs.«178927_j55791625175600_2_alg».proof.Proof.KI.RunD
import proofs.«178927_j55791625175600_2_alg».proof.Proof.KI.RunE
import proofs.«178927_j55791625175600_2_alg».proof.Proof.KI.RunG
import proofs.«178927_j55791625175600_2_alg».proof.Proof.KI.RunH

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What each kind of point leaves: (result block, running maximum, running denominator, running numerator) -/

/-- The result's block where nothing was stored: a placeholder nothing consults. -/
def junkO : Vec F S1x512x1024 .f32 := VO.read (Elt F) VO.junk

def res_A (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc1 : cond1 i) (hc2 : ¬cond2 i) (hc3 : cond3 i) (hc4 : ¬cond4 i) (x0 x1 x2 : Vec F S1x512x1024 .f32) : (Vec F S1x512x1024 .f32 × Vec F S512x16 .f32 × Vec F S512x16 .f32 × Vec F S512x1024 .f32) :=
  (junkO, VM.read (Elt F) (VM.writes (Elt F) VM.junk (kernelRun_A c i arg3 harg3 arg4 harg4 arg5 harg5 arg6 harg6 arg7 harg7 arg8 harg8 arg9 harg9 hc1 hc2 hc3 hc4 x0 x1 x2).1), VL.read (Elt F) (VL.writes (Elt F) VL.junk (kernelRun_A c i arg3 harg3 arg4 harg4 arg5 harg5 arg6 harg6 arg7 harg7 arg8 harg8 arg9 harg9 hc1 hc2 hc3 hc4 x0 x1 x2).2.1), VA.read (Elt F) (VA.writes (Elt F) VA.junk (kernelRun_A c i arg3 harg3 arg4 harg4 arg5 harg5 arg6 harg6 arg7 harg7 arg8 harg8 arg9 harg9 hc1 hc2 hc3 hc4 x0 x1 x2).2.2.1))

theorem coverM_A (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc1 : cond1 i) (hc2 : ¬cond2 i) (hc3 : cond3 i) (hc4 : ¬cond4 i) (x0 x1 x2 : Vec F S1x512x1024 .f32) (y : S512x16.Idx) : ∃ pc ∈ (kernelRun_A c i arg3 harg3 arg4 harg4 arg5 harg5 arg6 harg6 arg7 harg7 arg8 harg8 arg9 harg9 hc1 hc2 hc3 hc4 x0 x1 x2).1, y ∈ pc.1.set :=
  View.cover_of_tiledL (kernelRun_A c i arg3 harg3 arg4 harg4 arg5 harg5 arg6 harg6 arg7 harg7 arg8 harg8 arg9 harg9 hc1 hc2 hc3 hc4 x0 x1 x2).1 S512x1.size (by sl_kernel_rfl) y
theorem coverL_A (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc1 : cond1 i) (hc2 : ¬cond2 i) (hc3 : cond3 i) (hc4 : ¬cond4 i) (x0 x1 x2 : Vec F S1x512x1024 .f32) (y : S512x16.Idx) : ∃ pc ∈ (kernelRun_A c i arg3 harg3 arg4 harg4 arg5 harg5 arg6 harg6 arg7 harg7 arg8 harg8 arg9 harg9 hc1 hc2 hc3 hc4 x0 x1 x2).2.1, y ∈ pc.1.set :=
  View.cover_of_tiledL (kernelRun_A c i arg3 harg3 arg4 harg4 arg5 harg5 arg6 harg6 arg7 harg7 arg8 harg8 arg9 harg9 hc1 hc2 hc3 hc4 x0 x1 x2).2.1 S512x1.size (by sl_kernel_rfl) y
theorem coverA_A (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc1 : cond1 i) (hc2 : ¬cond2 i) (hc3 : cond3 i) (hc4 : ¬cond4 i) (x0 x1 x2 : Vec F S1x512x1024 .f32) (y : S512x1024.Idx) : ∃ pc ∈ (kernelRun_A c i arg3 harg3 arg4 harg4 arg5 harg5 arg6 harg6 arg7 harg7 arg8 harg8 arg9 harg9 hc1 hc2 hc3 hc4 x0 x1 x2).2.2.1, y ∈ pc.1.set :=
  View.cover_of_tiledL (kernelRun_A c i arg3 harg3 arg4 harg4 arg5 harg5 arg6 harg6 arg7 harg7 arg8 harg8 arg9 harg9 hc1 hc2 hc3 hc4 x0 x1 x2).2.2.1 S512x64.size (by sl_kernel_rfl) y

def res_B (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc1 : cond1 i) (hc2 : cond2 i) (hc3 : ¬cond3 i) (hc4 : ¬cond4 i) (x0 x1 x2 : Vec F S1x512x1024 .f32) : (Vec F S1x512x1024 .f32 × Vec F S512x16 .f32 × Vec F S512x16 .f32 × Vec F S512x1024 .f32) :=
  (junkO, VM.read (Elt F) (VM.writes (Elt F) VM.junk (kernelRun_B c i arg3 harg3 arg4 harg4 arg5 harg5 arg6 harg6 arg7 harg7 arg8 harg8 arg9 harg9 hc1 hc2 hc3 hc4 x0 x1 x2).1), VL.read (Elt F) (VL.writes (Elt F) VL.junk (kernelRun_B c i arg3 harg3 arg4 harg4 arg5 harg5 arg6 harg6 arg7 harg7 arg8 harg8 arg9 harg9 hc1 hc2 hc3 hc4 x0 x1 x2).2.1), VA.read (Elt F) (VA.writes (Elt F) VA.junk (kernelRun_B c i arg3 harg3 arg4 harg4 arg5 harg5 arg6 harg6 arg7 harg7 arg8 harg8 arg9 harg9 hc1 hc2 hc3 hc4 x0 x1 x2).2.2.1))

theorem coverM_B (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc1 : cond1 i) (hc2 : cond2 i) (hc3 : ¬cond3 i) (hc4 : ¬cond4 i) (x0 x1 x2 : Vec F S1x512x1024 .f32) (y : S512x16.Idx) : ∃ pc ∈ (kernelRun_B c i arg3 harg3 arg4 harg4 arg5 harg5 arg6 harg6 arg7 harg7 arg8 harg8 arg9 harg9 hc1 hc2 hc3 hc4 x0 x1 x2).1, y ∈ pc.1.set :=
  View.cover_of_tiledL (kernelRun_B c i arg3 harg3 arg4 harg4 arg5 harg5 arg6 harg6 arg7 harg7 arg8 harg8 arg9 harg9 hc1 hc2 hc3 hc4 x0 x1 x2).1 S512x1.size (by sl_kernel_rfl) y
theorem coverL_B (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc1 : cond1 i) (hc2 : cond2 i) (hc3 : ¬cond3 i) (hc4 : ¬cond4 i) (x0 x1 x2 : Vec F S1x512x1024 .f32) (y : S512x16.Idx) : ∃ pc ∈ (kernelRun_B c i arg3 harg3 arg4 harg4 arg5 harg5 arg6 harg6 arg7 harg7 arg8 harg8 arg9 harg9 hc1 hc2 hc3 hc4 x0 x1 x2).2.1, y ∈ pc.1.set :=
  View.cover_of_tiledL (kernelRun_B c i arg3 harg3 arg4 harg4 arg5 harg5 arg6 harg6 arg7 harg7 arg8 harg8 arg9 harg9 hc1 hc2 hc3 hc4 x0 x1 x2).2.1 S512x1.size (by sl_kernel_rfl) y
theorem coverA_B (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc1 : cond1 i) (hc2 : cond2 i) (hc3 : ¬cond3 i) (hc4 : ¬cond4 i) (x0 x1 x2 : Vec F S1x512x1024 .f32) (y : S512x1024.Idx) : ∃ pc ∈ (kernelRun_B c i arg3 harg3 arg4 harg4 arg5 harg5 arg6 harg6 arg7 harg7 arg8 harg8 arg9 harg9 hc1 hc2 hc3 hc4 x0 x1 x2).2.2.1, y ∈ pc.1.set :=
  View.cover_of_tiledL (kernelRun_B c i arg3 harg3 arg4 harg4 arg5 harg5 arg6 harg6 arg7 harg7 arg8 harg8 arg9 harg9 hc1 hc2 hc3 hc4 x0 x1 x2).2.2.1 S512x64.size (by sl_kernel_rfl) y

def res_C (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc1 : ¬cond1 i) (hc2 : cond2 i) (hc3 : ¬cond3 i) (hc4 : ¬cond4 i) (x0 x1 x2 : Vec F S1x512x1024 .f32) (xs0 xs1 : Vec F S512x16 .f32) (xs2 : Vec F S512x1024 .f32) : (Vec F S1x512x1024 .f32 × Vec F S512x16 .f32 × Vec F S512x16 .f32 × Vec F S512x1024 .f32) :=
  (junkO, VM.read (Elt F) (VM.writes (Elt F) VM.junk (kernelRun_C c i arg3 harg3 arg4 harg4 arg5 harg5 arg6 harg6 arg7 harg7 arg8 harg8 arg9 harg9 hc1 hc2 hc3 hc4 x0 x1 x2 xs0 xs1 xs2).1), VL.read (Elt F) (VL.writes (Elt F) VL.junk (kernelRun_C c i arg3 harg3 arg4 harg4 arg5 harg5 arg6 harg6 arg7 harg7 arg8 harg8 arg9 harg9 hc1 hc2 hc3 hc4 x0 x1 x2 xs0 xs1 xs2).2.1), VA.read (Elt F) (VA.writes (Elt F) VA.junk (kernelRun_C c i arg3 harg3 arg4 harg4 arg5 harg5 arg6 harg6 arg7 harg7 arg8 harg8 arg9 harg9 hc1 hc2 hc3 hc4 x0 x1 x2 xs0 xs1 xs2).2.2.1))

theorem coverM_C (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc1 : ¬cond1 i) (hc2 : cond2 i) (hc3 : ¬cond3 i) (hc4 : ¬cond4 i) (x0 x1 x2 : Vec F S1x512x1024 .f32) (xs0 xs1 : Vec F S512x16 .f32) (xs2 : Vec F S512x1024 .f32) (y : S512x16.Idx) : ∃ pc ∈ (kernelRun_C c i arg3 harg3 arg4 harg4 arg5 harg5 arg6 harg6 arg7 harg7 arg8 harg8 arg9 harg9 hc1 hc2 hc3 hc4 x0 x1 x2 xs0 xs1 xs2).1, y ∈ pc.1.set :=
  View.cover_of_tiledL (kernelRun_C c i arg3 harg3 arg4 harg4 arg5 harg5 arg6 harg6 arg7 harg7 arg8 harg8 arg9 harg9 hc1 hc2 hc3 hc4 x0 x1 x2 xs0 xs1 xs2).1 S512x1.size (by sl_kernel_rfl) y
theorem coverL_C (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc1 : ¬cond1 i) (hc2 : cond2 i) (hc3 : ¬cond3 i) (hc4 : ¬cond4 i) (x0 x1 x2 : Vec F S1x512x1024 .f32) (xs0 xs1 : Vec F S512x16 .f32) (xs2 : Vec F S512x1024 .f32) (y : S512x16.Idx) : ∃ pc ∈ (kernelRun_C c i arg3 harg3 arg4 harg4 arg5 harg5 arg6 harg6 arg7 harg7 arg8 harg8 arg9 harg9 hc1 hc2 hc3 hc4 x0 x1 x2 xs0 xs1 xs2).2.1, y ∈ pc.1.set :=
  View.cover_of_tiledL (kernelRun_C c i arg3 harg3 arg4 harg4 arg5 harg5 arg6 harg6 arg7 harg7 arg8 harg8 arg9 harg9 hc1 hc2 hc3 hc4 x0 x1 x2 xs0 xs1 xs2).2.1 S512x1.size (by sl_kernel_rfl) y
theorem coverA_C (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc1 : ¬cond1 i) (hc2 : cond2 i) (hc3 : ¬cond3 i) (hc4 : ¬cond4 i) (x0 x1 x2 : Vec F S1x512x1024 .f32) (xs0 xs1 : Vec F S512x16 .f32) (xs2 : Vec F S512x1024 .f32) (y : S512x1024.Idx) : ∃ pc ∈ (kernelRun_C c i arg3 harg3 arg4 harg4 arg5 harg5 arg6 harg6 arg7 harg7 arg8 harg8 arg9 harg9 hc1 hc2 hc3 hc4 x0 x1 x2 xs0 xs1 xs2).2.2.1, y ∈ pc.1.set :=
  View.cover_of_tiledL (kernelRun_C c i arg3 harg3 arg4 harg4 arg5 harg5 arg6 harg6 arg7 harg7 arg8 harg8 arg9 harg9 hc1 hc2 hc3 hc4 x0 x1 x2 xs0 xs1 xs2).2.2.1 S512x64.size (by sl_kernel_rfl) y

def res_D (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc1 : ¬cond1 i) (hc2 : ¬cond2 i) (hc3 : cond3 i) (hc4 : ¬cond4 i) (x0 x1 x2 : Vec F S1x512x1024 .f32) (xs0 xs1 : Vec F S512x16 .f32) (xs2 : Vec F S512x1024 .f32) : (Vec F S1x512x1024 .f32 × Vec F S512x16 .f32 × Vec F S512x16 .f32 × Vec F S512x1024 .f32) :=
  (junkO, VM.read (Elt F) (VM.writes (Elt F) VM.junk (kernelRun_D c i arg3 harg3 arg4 harg4 arg5 harg5 arg6 harg6 arg7 harg7 arg8 harg8 arg9 harg9 hc1 hc2 hc3 hc4 x0 x1 x2 xs0 xs1 xs2).1), VL.read (Elt F) (VL.writes (Elt F) VL.junk (kernelRun_D c i arg3 harg3 arg4 harg4 arg5 harg5 arg6 harg6 arg7 harg7 arg8 harg8 arg9 harg9 hc1 hc2 hc3 hc4 x0 x1 x2 xs0 xs1 xs2).2.1), VA.read (Elt F) (VA.writes (Elt F) VA.junk (kernelRun_D c i arg3 harg3 arg4 harg4 arg5 harg5 arg6 harg6 arg7 harg7 arg8 harg8 arg9 harg9 hc1 hc2 hc3 hc4 x0 x1 x2 xs0 xs1 xs2).2.2.1))

theorem coverM_D (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc1 : ¬cond1 i) (hc2 : ¬cond2 i) (hc3 : cond3 i) (hc4 : ¬cond4 i) (x0 x1 x2 : Vec F S1x512x1024 .f32) (xs0 xs1 : Vec F S512x16 .f32) (xs2 : Vec F S512x1024 .f32) (y : S512x16.Idx) : ∃ pc ∈ (kernelRun_D c i arg3 harg3 arg4 harg4 arg5 harg5 arg6 harg6 arg7 harg7 arg8 harg8 arg9 harg9 hc1 hc2 hc3 hc4 x0 x1 x2 xs0 xs1 xs2).1, y ∈ pc.1.set :=
  View.cover_of_tiledL (kernelRun_D c i arg3 harg3 arg4 harg4 arg5 harg5 arg6 harg6 arg7 harg7 arg8 harg8 arg9 harg9 hc1 hc2 hc3 hc4 x0 x1 x2 xs0 xs1 xs2).1 S512x1.size (by sl_kernel_rfl) y
theorem coverL_D (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc1 : ¬cond1 i) (hc2 : ¬cond2 i) (hc3 : cond3 i) (hc4 : ¬cond4 i) (x0 x1 x2 : Vec F S1x512x1024 .f32) (xs0 xs1 : Vec F S512x16 .f32) (xs2 : Vec F S512x1024 .f32) (y : S512x16.Idx) : ∃ pc ∈ (kernelRun_D c i arg3 harg3 arg4 harg4 arg5 harg5 arg6 harg6 arg7 harg7 arg8 harg8 arg9 harg9 hc1 hc2 hc3 hc4 x0 x1 x2 xs0 xs1 xs2).2.1, y ∈ pc.1.set :=
  View.cover_of_tiledL (kernelRun_D c i arg3 harg3 arg4 harg4 arg5 harg5 arg6 harg6 arg7 harg7 arg8 harg8 arg9 harg9 hc1 hc2 hc3 hc4 x0 x1 x2 xs0 xs1 xs2).2.1 S512x1.size (by sl_kernel_rfl) y
theorem coverA_D (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc1 : ¬cond1 i) (hc2 : ¬cond2 i) (hc3 : cond3 i) (hc4 : ¬cond4 i) (x0 x1 x2 : Vec F S1x512x1024 .f32) (xs0 xs1 : Vec F S512x16 .f32) (xs2 : Vec F S512x1024 .f32) (y : S512x1024.Idx) : ∃ pc ∈ (kernelRun_D c i arg3 harg3 arg4 harg4 arg5 harg5 arg6 harg6 arg7 harg7 arg8 harg8 arg9 harg9 hc1 hc2 hc3 hc4 x0 x1 x2 xs0 xs1 xs2).2.2.1, y ∈ pc.1.set :=
  View.cover_of_tiledL (kernelRun_D c i arg3 harg3 arg4 harg4 arg5 harg5 arg6 harg6 arg7 harg7 arg8 harg8 arg9 harg9 hc1 hc2 hc3 hc4 x0 x1 x2 xs0 xs1 xs2).2.2.1 S512x64.size (by sl_kernel_rfl) y

def res_E (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc1 : ¬cond1 i) (hc2 : ¬cond2 i) (hc3 : cond3 i) (hc4 : cond4 i) (x0 x1 x2 : Vec F S1x512x1024 .f32) (xs0 xs1 : Vec F S512x16 .f32) (xs2 : Vec F S512x1024 .f32) : (Vec F S1x512x1024 .f32 × Vec F S512x16 .f32 × Vec F S512x16 .f32 × Vec F S512x1024 .f32) :=
  (VO.read (Elt F) (VO.writes (Elt F) VO.junk (kernelRun_E c i arg3 harg3 arg4 harg4 arg5 harg5 arg6 harg6 arg7 harg7 arg8 harg8 arg9 harg9 hc1 hc2 hc3 hc4 x0 x1 x2 xs0 xs1 xs2).1), VM.read (Elt F) (VM.writes (Elt F) VM.junk (kernelRun_E c i arg3 harg3 arg4 harg4 arg5 harg5 arg6 harg6 arg7 harg7 arg8 harg8 arg9 harg9 hc1 hc2 hc3 hc4 x0 x1 x2 xs0 xs1 xs2).2.1), VL.read (Elt F) (VL.writes (Elt F) VL.junk (kernelRun_E c i arg3 harg3 arg4 harg4 arg5 harg5 arg6 harg6 arg7 harg7 arg8 harg8 arg9 harg9 hc1 hc2 hc3 hc4 x0 x1 x2 xs0 xs1 xs2).2.2.1), VA.read (Elt F) (VA.writes (Elt F) VA.junk (kernelRun_E c i arg3 harg3 arg4 harg4 arg5 harg5 arg6 harg6 arg7 harg7 arg8 harg8 arg9 harg9 hc1 hc2 hc3 hc4 x0 x1 x2 xs0 xs1 xs2).2.2.2.1))

theorem coverM_E (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc1 : ¬cond1 i) (hc2 : ¬cond2 i) (hc3 : cond3 i) (hc4 : cond4 i) (x0 x1 x2 : Vec F S1x512x1024 .f32) (xs0 xs1 : Vec F S512x16 .f32) (xs2 : Vec F S512x1024 .f32) (y : S512x16.Idx) : ∃ pc ∈ (kernelRun_E c i arg3 harg3 arg4 harg4 arg5 harg5 arg6 harg6 arg7 harg7 arg8 harg8 arg9 harg9 hc1 hc2 hc3 hc4 x0 x1 x2 xs0 xs1 xs2).2.1, y ∈ pc.1.set :=
  View.cover_of_tiledL (kernelRun_E c i arg3 harg3 arg4 harg4 arg5 harg5 arg6 harg6 arg7 harg7 arg8 harg8 arg9 harg9 hc1 hc2 hc3 hc4 x0 x1 x2 xs0 xs1 xs2).2.1 S512x1.size (by sl_kernel_rfl) y
theorem coverL_E (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc1 : ¬cond1 i) (hc2 : ¬cond2 i) (hc3 : cond3 i) (hc4 : cond4 i) (x0 x1 x2 : Vec F S1x512x1024 .f32) (xs0 xs1 : Vec F S512x16 .f32) (xs2 : Vec F S512x1024 .f32) (y : S512x16.Idx) : ∃ pc ∈ (kernelRun_E c i arg3 harg3 arg4 harg4 arg5 harg5 arg6 harg6 arg7 harg7 arg8 harg8 arg9 harg9 hc1 hc2 hc3 hc4 x0 x1 x2 xs0 xs1 xs2).2.2.1, y ∈ pc.1.set :=
  View.cover_of_tiledL (kernelRun_E c i arg3 harg3 arg4 harg4 arg5 harg5 arg6 harg6 arg7 harg7 arg8 harg8 arg9 harg9 hc1 hc2 hc3 hc4 x0 x1 x2 xs0 xs1 xs2).2.2.1 S512x1.size (by sl_kernel_rfl) y
theorem coverA_E (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc1 : ¬cond1 i) (hc2 : ¬cond2 i) (hc3 : cond3 i) (hc4 : cond4 i) (x0 x1 x2 : Vec F S1x512x1024 .f32) (xs0 xs1 : Vec F S512x16 .f32) (xs2 : Vec F S512x1024 .f32) (y : S512x1024.Idx) : ∃ pc ∈ (kernelRun_E c i arg3 harg3 arg4 harg4 arg5 harg5 arg6 harg6 arg7 harg7 arg8 harg8 arg9 harg9 hc1 hc2 hc3 hc4 x0 x1 x2 xs0 xs1 xs2).2.2.2.1, y ∈ pc.1.set :=
  View.cover_of_tiledL (kernelRun_E c i arg3 harg3 arg4 harg4 arg5 harg5 arg6 harg6 arg7 harg7 arg8 harg8 arg9 harg9 hc1 hc2 hc3 hc4 x0 x1 x2 xs0 xs1 xs2).2.2.2.1 S512x64.size (by sl_kernel_rfl) y

theorem coverO_E (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc1 : ¬cond1 i) (hc2 : ¬cond2 i) (hc3 : cond3 i) (hc4 : cond4 i) (x0 x1 x2 : Vec F S1x512x1024 .f32) (xs0 xs1 : Vec F S512x16 .f32) (xs2 : Vec F S512x1024 .f32) (y : S1x512x1024.Idx) : ∃ pc ∈ (kernelRun_E c i arg3 harg3 arg4 harg4 arg5 harg5 arg6 harg6 arg7 harg7 arg8 harg8 arg9 harg9 hc1 hc2 hc3 hc4 x0 x1 x2 xs0 xs1 xs2).1, y ∈ pc.1.set :=
  View.cover_of_tiledL (kernelRun_E c i arg3 harg3 arg4 harg4 arg5 harg5 arg6 harg6 arg7 harg7 arg8 harg8 arg9 harg9 hc1 hc2 hc3 hc4 x0 x1 x2 xs0 xs1 xs2).1 S1x512x64.size (by sl_kernel_rfl) y

def res_G (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc1 : ¬cond1 i) (hc2 : ¬cond2 i) (hc3 : ¬cond3 i) (hc4 : ¬cond4 i) (x0 x1 x2 : Vec F S1x512x1024 .f32) (xs0 xs1 : Vec F S512x16 .f32) (xs2 : Vec F S512x1024 .f32) : (Vec F S1x512x1024 .f32 × Vec F S512x16 .f32 × Vec F S512x16 .f32 × Vec F S512x1024 .f32) :=
  (junkO, xs0, xs1, xs2)

def res_H (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc1 : ¬cond1 i) (hc2 : ¬cond2 i) (hc3 : ¬cond3 i) (hc4 : cond4 i) (x0 x1 x2 : Vec F S1x512x1024 .f32) (xs0 xs1 : Vec F S512x16 .f32) (xs2 : Vec F S512x1024 .f32) : (Vec F S1x512x1024 .f32 × Vec F S512x16 .f32 × Vec F S512x16 .f32 × Vec F S512x1024 .f32) :=
  (VO.read (Elt F) (VO.writes (Elt F) VO.junk (kernelRun_H c i arg3 harg3 arg4 harg4 arg5 harg5 arg6 harg6 arg7 harg7 arg8 harg8 arg9 harg9 hc1 hc2 hc3 hc4 x0 x1 x2 xs0 xs1 xs2).1), xs0, xs1, xs2)

theorem coverO_H (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc1 : ¬cond1 i) (hc2 : ¬cond2 i) (hc3 : ¬cond3 i) (hc4 : cond4 i) (x0 x1 x2 : Vec F S1x512x1024 .f32) (xs0 xs1 : Vec F S512x16 .f32) (xs2 : Vec F S512x1024 .f32) (y : S1x512x1024.Idx) : ∃ pc ∈ (kernelRun_H c i arg3 harg3 arg4 harg4 arg5 harg5 arg6 harg6 arg7 harg7 arg8 harg8 arg9 harg9 hc1 hc2 hc3 hc4 x0 x1 x2 xs0 xs1 xs2).1, y ∈ pc.1.set :=
  View.cover_of_tiledL (kernelRun_H c i arg3 harg3 arg4 harg4 arg5 harg5 arg6 harg6 arg7 harg7 arg8 harg8 arg9 harg9 hc1 hc2 hc3 hc4 x0 x1 x2 xs0 xs1 xs2).1 S1x512x64.size (by sl_kernel_rfl) y

/-! ## The iteration over the points -/

/-- One point: which kind it is is read off its key-tile and query-tile numbers; the kinds that do not reset the
    accumulators take what the point before left (`p`). -/
def step (c : Dev nD) (t : Fin cfg0.N) (p : (Vec F S1x512x1024 .f32 × Vec F S512x16 .f32 × Vec F S512x16 .f32 × Vec F S512x1024 .f32)) : (Vec F S1x512x1024 .f32 × Vec F S512x16 .f32 × Vec F S512x16 .f32 × Vec F S512x1024 .f32) :=
  have hN : t.val < 64 := lt_of_lt_of_eq t.isLt (show cfg0.N = 64 from N_0)
  if h1 : t.val % 4 = 0 then
    if h3 : t.val % 4 = t.val / 4 % 4 then res_A c (grid0.coords t) (ms0 t) (hs0 t) (ms1 t) (hs1 t) (ms2 t) (hs2 t) (ms3 t) (hs3 t) scM (Memref.isWhole_whole _) scL (Memref.isWhole_whole _) scA (Memref.isWhole_whole _) ((hcond1 t).mpr h1) (fun h => by have := (hcond2 t).mp h; omega) ((hcond3 t).mpr h3) (fun h => by have := (hcond4 t).mp h; omega) (iblk m c 0 t) (iblk m c 1 t) (iblk m c 2 t)
    else res_B c (grid0.coords t) (ms0 t) (hs0 t) (ms1 t) (hs1 t) (ms2 t) (hs2 t) (ms3 t) (hs3 t) scM (Memref.isWhole_whole _) scL (Memref.isWhole_whole _) scA (Memref.isWhole_whole _) ((hcond1 t).mpr h1) ((hcond2 t).mpr (by omega)) (fun h => h3 ((hcond3 t).mp h)) (fun h => by have := (hcond4 t).mp h; omega) (iblk m c 0 t) (iblk m c 1 t) (iblk m c 2 t)
  else if h2 : t.val % 4 < t.val / 4 % 4 then res_C c (grid0.coords t) (ms0 t) (hs0 t) (ms1 t) (hs1 t) (ms2 t) (hs2 t) (ms3 t) (hs3 t) scM (Memref.isWhole_whole _) scL (Memref.isWhole_whole _) scA (Memref.isWhole_whole _) (fun h => h1 ((hcond1 t).mp h)) ((hcond2 t).mpr h2) (fun h => by have := (hcond3 t).mp h; omega) (fun h => by have := (hcond4 t).mp h; omega) (iblk m c 0 t) (iblk m c 1 t) (iblk m c 2 t) p.2.1 p.2.2.1 p.2.2.2
  else if h3 : t.val % 4 = t.val / 4 % 4 then
    if h4 : t.val % 4 = 3 then res_E c (grid0.coords t) (ms0 t) (hs0 t) (ms1 t) (hs1 t) (ms2 t) (hs2 t) (ms3 t) (hs3 t) scM (Memref.isWhole_whole _) scL (Memref.isWhole_whole _) scA (Memref.isWhole_whole _) (fun h => h1 ((hcond1 t).mp h)) (fun h => h2 ((hcond2 t).mp h)) ((hcond3 t).mpr h3) ((hcond4 t).mpr h4) (iblk m c 0 t) (iblk m c 1 t) (iblk m c 2 t) p.2.1 p.2.2.1 p.2.2.2
    else res_D c (grid0.coords t) (ms0 t) (hs0 t) (ms1 t) (hs1 t) (ms2 t) (hs2 t) (ms3 t) (hs3 t) scM (Memref.isWhole_whole _) scL (Memref.isWhole_whole _) scA (Memref.isWhole_whole _) (fun h => h1 ((hcond1 t).mp h)) (fun h => h2 ((hcond2 t).mp h)) ((hcond3 t).mpr h3) (fun h => h4 ((hcond4 t).mp h)) (iblk m c 0 t) (iblk m c 1 t) (iblk m c 2 t) p.2.1 p.2.2.1 p.2.2.2
  else if h4 : t.val % 4 = 3 then res_H c (grid0.coords t) (ms0 t) (hs0 t) (ms1 t) (hs1 t) (ms2 t) (hs2 t) (ms3 t) (hs3 t) scM (Memref.isWhole_whole _) scL (Memref.isWhole_whole _) scA (Memref.isWhole_whole _) (fun h => h1 ((hcond1 t).mp h)) (fun h => h2 ((hcond2 t).mp h)) (fun h => h3 ((hcond3 t).mp h)) ((hcond4 t).mpr h4) (iblk m c 0 t) (iblk m c 1 t) (iblk m c 2 t) p.2.1 p.2.2.1 p.2.2.2
  else res_G c (grid0.coords t) (ms0 t) (hs0 t) (ms1 t) (hs1 t) (ms2 t) (hs2 t) (ms3 t) (hs3 t) scM (Memref.isWhole_whole _) scL (Memref.isWhole_whole _) scA (Memref.isWhole_whole _) (fun h => h1 ((hcond1 t).mp h)) (fun h => h2 ((hcond2 t).mp h)) (fun h => h3 ((hcond3 t).mp h)) (fun h => h4 ((hcond4 t).mp h)) (iblk m c 0 t) (iblk m c 1 t) (iblk m c 2 t) p.2.1 p.2.2.1 p.2.2.2

/-- What the result's staging buffer and the accumulators hold after the body at position `n`. -/
def outsAt (c : Dev nD) : (n : ℕ) → n < cfg0.N → (Vec F S1x512x1024 .f32 × Vec F S512x16 .f32 × Vec F S512x16 .f32 × Vec F S512x1024 .f32)
  | 0, hn => step m c ⟨0, hn⟩ (junkO, VM.read (Elt F) VM.junk, VL.read (Elt F) VL.junk, VA.read (Elt F) VA.junk)
  | n + 1, hn => step m c ⟨n + 1, hn⟩ (outsAt c n (Nat.lt_of_succ_lt hn))

/-- What the point before `t` left (a placeholder before the first point, which resets the accumulators). -/
def prev (c : Dev nD) (t : Fin cfg0.N) : (Vec F S1x512x1024 .f32 × Vec F S512x16 .f32 × Vec F S512x16 .f32 × Vec F S512x1024 .f32) :=
  if h : t.val = 0 then (junkO, VM.read (Elt F) VM.junk, VL.read (Elt F) VL.junk, VA.read (Elt F) VA.junk)
  else outsAt m c (t.val - 1) (Nat.lt_of_le_of_lt (Nat.sub_le _ _) t.isLt)

theorem outsAt_eq (c : Dev nD) (t : Fin cfg0.N) : outsAt m c t.val t.isLt = step m c t (prev m c t) := by
  obtain ⟨n, hn⟩ := t
  cases n with
  | zero => rfl
  | succ n => rfl

theorem prev_pos (c : Dev nD) (t : Fin cfg0.N) (hz : t.val ≠ 0) :
    prev m c t = outsAt m c (t.val - 1) (Nat.lt_of_le_of_lt (Nat.sub_le _ _) t.isLt) := dif_neg hz

theorem step_A (c : Dev nD) (t : Fin cfg0.N) (p : (Vec F S1x512x1024 .f32 × Vec F S512x16 .f32 × Vec F S512x16 .f32 × Vec F S512x1024 .f32)) (hN : t.val < 64) (h1 : t.val % 4 = 0) (h3 : t.val % 4 = t.val / 4 % 4) :
    step m c t p = res_A c (grid0.coords t) (ms0 t) (hs0 t) (ms1 t) (hs1 t) (ms2 t) (hs2 t) (ms3 t) (hs3 t) scM (Memref.isWhole_whole _) scL (Memref.isWhole_whole _) scA (Memref.isWhole_whole _) ((hcond1 t).mpr h1) (fun h => by have := (hcond2 t).mp h; omega) ((hcond3 t).mpr h3) (fun h => by have := (hcond4 t).mp h; omega) (iblk m c 0 t) (iblk m c 1 t) (iblk m c 2 t) := by
  unfold step; dsimp only; rw [dif_pos h1, dif_pos h3]

theorem step_B (c : Dev nD) (t : Fin cfg0.N) (p : (Vec F S1x512x1024 .f32 × Vec F S512x16 .f32 × Vec F S512x16 .f32 × Vec F S512x1024 .f32)) (hN : t.val < 64) (h1 : t.val % 4 = 0) (h3 : ¬t.val % 4 = t.val / 4 % 4) :
    step m c t p = res_B c (grid0.coords t) (ms0 t) (hs0 t) (ms1 t) (hs1 t) (ms2 t) (hs2 t) (ms3 t) (hs3 t) scM (Memref.isWhole_whole _) scL (Memref.isWhole_whole _) scA (Memref.isWhole_whole _) ((hcond1 t).mpr h1) ((hcond2 t).mpr (by omega)) (fun h => h3 ((hcond3 t).mp h)) (fun h => by have := (hcond4 t).mp h; omega) (iblk m c 0 t) (iblk m c 1 t) (iblk m c 2 t) := by
  unfold step; dsimp only; rw [dif_pos h1, dif_neg h3]

theorem step_C (c : Dev nD) (t : Fin cfg0.N) (p : (Vec F S1x512x1024 .f32 × Vec F S512x16 .f32 × Vec F S512x16 .f32 × Vec F S512x1024 .f32)) (hN : t.val < 64) (h1 : ¬t.val % 4 = 0) (h2 : t.val % 4 < t.val / 4 % 4) :
    step m c t p = res_C c (grid0.coords t) (ms0 t) (hs0 t) (ms1 t) (hs1 t) (ms2 t) (hs2 t) (ms3 t) (hs3 t) scM (Memref.isWhole_whole _) scL (Memref.isWhole_whole _) scA (Memref.isWhole_whole _) (fun h => h1 ((hcond1 t).mp h)) ((hcond2 t).mpr h2) (fun h => by have := (hcond3 t).mp h; omega) (fun h => by have := (hcond4 t).mp h; omega) (iblk m c 0 t) (iblk m c 1 t) (iblk m c 2 t) p.2.1 p.2.2.1 p.2.2.2 := by
  unfold step; dsimp only; rw [dif_neg h1, dif_pos h2]

theorem step_D (c : Dev nD) (t : Fin cfg0.N) (p : (Vec F S1x512x1024 .f32 × Vec F S512x16 .f32 × Vec F S512x16 .f32 × Vec F S512x1024 .f32)) (hN : t.val < 64) (h1 : ¬t.val % 4 = 0) (h2 : ¬t.val % 4 < t.val / 4 % 4) (h3 : t.val % 4 = t.val / 4 % 4) (h4 : ¬t.val % 4 = 3) :
    step m c t p = res_D c (grid0.coords t) (ms0 t) (hs0 t) (ms1 t) (hs1 t) (ms2 t) (hs2 t) (ms3 t) (hs3 t) scM (Memref.isWhole_whole _) scL (Memref.isWhole_whole _) scA (Memref.isWhole_whole _) (fun h => h1 ((hcond1 t).mp h)) (fun h => h2 ((hcond2 t).mp h)) ((hcond3 t).mpr h3) (fun h => h4 ((hcond4 t).mp h)) (iblk m c 0 t) (iblk m c 1 t) (iblk m c 2 t) p.2.1 p.2.2.1 p.2.2.2 := by
  unfold step; dsimp only; rw [dif_neg h1, dif_neg h2, dif_pos h3, dif_neg h4]

theorem step_E (c : Dev nD) (t : Fin cfg0.N) (p : (Vec F S1x512x1024 .f32 × Vec F S512x16 .f32 × Vec F S512x16 .f32 × Vec F S512x1024 .f32)) (hN : t.val < 64) (h1 : ¬t.val % 4 = 0) (h2 : ¬t.val % 4 < t.val / 4 % 4) (h3 : t.val % 4 = t.val / 4 % 4) (h4 : t.val % 4 = 3) :
    step m c t p = res_E c (grid0.coords t) (ms0 t) (hs0 t) (ms1 t) (hs1 t) (ms2 t) (hs2 t) (ms3 t) (hs3 t) scM (Memref.isWhole_whole _) scL (Memref.isWhole_whole _) scA (Memref.isWhole_whole _) (fun h => h1 ((hcond1 t).mp h)) (fun h => h2 ((hcond2 t).mp h)) ((hcond3 t).mpr h3) ((hcond4 t).mpr h4) (iblk m c 0 t) (iblk m c 1 t) (iblk m c 2 t) p.2.1 p.2.2.1 p.2.2.2 := by
  unfold step; dsimp only; rw [dif_neg h1, dif_neg h2, dif_pos h3, dif_pos h4]

theorem step_G (c : Dev nD) (t : Fin cfg0.N) (p : (Vec F S1x512x1024 .f32 × Vec F S512x16 .f32 × Vec F S512x16 .f32 × Vec F S512x1024 .f32)) (hN : t.val < 64) (h1 : ¬t.val % 4 = 0) (h2 : ¬t.val % 4 < t.val / 4 % 4) (h3 : ¬t.val % 4 = t.val / 4 % 4) (h4 : ¬t.val % 4 = 3) :
    step m c t p = res_G c (grid0.coords t) (ms0 t) (hs0 t) (ms1 t) (hs1 t) (ms2 t) (hs2 t) (ms3 t) (hs3 t) scM (Memref.isWhole_whole _) scL (Memref.isWhole_whole _) scA (Memref.isWhole_whole _) (fun h => h1 ((hcond1 t).mp h)) (fun h => h2 ((hcond2 t).mp h)) (fun h => h3 ((hcond3 t).mp h)) (fun h => h4 ((hcond4 t).mp h)) (iblk m c 0 t) (iblk m c 1 t) (iblk m c 2 t) p.2.1 p.2.2.1 p.2.2.2 := by
  unfold step; dsimp only; rw [dif_neg h1, dif_neg h2, dif_neg h3, dif_neg h4]

theorem step_H (c : Dev nD) (t : Fin cfg0.N) (p : (Vec F S1x512x1024 .f32 × Vec F S512x16 .f32 × Vec F S512x16 .f32 × Vec F S512x1024 .f32)) (hN : t.val < 64) (h1 : ¬t.val % 4 = 0) (h2 : ¬t.val % 4 < t.val / 4 % 4) (h3 : ¬t.val % 4 = t.val / 4 % 4) (h4 : t.val % 4 = 3) :
    step m c t p = res_H c (grid0.coords t) (ms0 t) (hs0 t) (ms1 t) (hs1 t) (ms2 t) (hs2 t) (ms3 t) (hs3 t) scM (Memref.isWhole_whole _) scL (Memref.isWhole_whole _) scA (Memref.isWhole_whole _) (fun h => h1 ((hcond1 t).mp h)) (fun h => h2 ((hcond2 t).mp h)) (fun h => h3 ((hcond3 t).mp h)) ((hcond4 t).mpr h4) (iblk m c 0 t) (iblk m c 1 t) (iblk m c 2 t) p.2.1 p.2.2.1 p.2.2.2 := by
  unfold step; dsimp only; rw [dif_neg h1, dif_neg h2, dif_neg h3, dif_pos h4]

/-! ## The region's invariant -/

/-- Before the first point every accumulator is at anything; before a later point each is at what the point before left. -/
def PhiS (c : Dev nD) : (n : ℕ) → n ≤ cfg0.N → sProp 𝕄
  | 0, _ => Pipeline.ΦA spec0 c
  | n + 1, hn => iprop(iprop(owns (c : Thread nD τ) scM fullShare ((outsAt m c n hn).2.1) ∗ owns (c : Thread nD τ) scL fullShare ((outsAt m c n hn).2.2.1) ∗ owns (c : Thread nD τ) scA fullShare ((outsAt m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare ((outsAt m c n hn).2.1) ∗ owns (c : Thread nD τ) scL fullShare ((outsAt m c n hn).2.2.1) ∗ owns (c : Thread nD τ) scA fullShare ((outsAt m c n hn).2.2.2)) ∗ (∃ r, prngReg c r)) := rfl

theorem PhiS_pos (c : Dev nD) (n : ℕ) (h : n ≤ cfg0.N) (hz : n ≠ 0) :
    PhiS m c n h = iprop(iprop(owns (c : Thread nD τ) scM fullShare ((outsAt m c (n - 1) (by omega)).2.1) ∗ owns (c : Thread nD τ) scL fullShare ((outsAt m c (n - 1) (by omega)).2.2.1) ∗ owns (c : Thread nD τ) scA fullShare ((outsAt m c (n - 1) (by omega)).2.2.2)) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = (outsAt m c t.val t.isLt).1 := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem leaves_0 (c : Dev nD) (t : Fin cfg0.N) : (dats m 0 c).leavesExact 0 t = owns (c : Thread nD τ) (ms0 t) fullShare (iblk m c 0 t) := by
  unfold Dat.leavesExact; rw [liveAt0 t, after_0]
theorem leaves_1 (c : Dev nD) (t : Fin cfg0.N) : (dats m 0 c).leavesExact 1 t = owns (c : Thread nD τ) (ms1 t) fullShare (iblk m c 1 t) := by
  unfold Dat.leavesExact; rw [liveAt1 t, after_1]
theorem leaves_2 (c : Dev nD) (t : Fin cfg0.N) : (dats m 0 c).leavesExact 2 t = owns (c : Thread nD τ) (ms2 t) fullShare (iblk m c 2 t) := by
  unfold Dat.leavesExact; rw [liveAt2 t, after_2]
theorem leaves_3_live (c : Dev nD) (t : Fin cfg0.N) (h : cond4 (grid0.coords t)) : (dats m 0 c).leavesExact 3 t = owns (c : Thread nD τ) (ms3 t) fullShare ((outsAt m c t.val t.isLt).1) := by
  unfold Dat.leavesExact; rw [liveAt3 t h, after_3]

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl]
  rw [show (dats m 0 c).Φ t.succ = PhiS m c (t.val + 1) t.isLt from rfl, PhiS_succ]
  rw [leaves_0, leaves_1, leaves_2]
  have hN : t.val < 64 := lt_of_lt_of_eq t.isLt (show cfg0.N = 64 from N_0)
  by_cases h1 : t.val % 4 = 0
  · by_cases h3 : t.val % 4 = t.val / 4 % 4
    · -- first key tile, query tile 0
      by_cases hz : t.val = 0
      · rw [Dat.leavesExact_idle (dats m 0 c) 3 t (idleAt3 t (fun h => by have := (hcond4 t).mp h; omega)) (noFlush3 t (fun h => by have := (hcond4 t).mp h; omega))]
        rw [outsAt_eq m c t, step_A m c t _ hN h1 h3]
        unfold res_A; dsimp only
        rw [PhiS_castSucc m c t, PhiS_zero m c _ _ hz, PhiA_eq]
        iintro ⟨⟨⟨HM, HL, HA⟩, Hg⟩, Ho, ⟨%d0, H0⟩, ⟨%d1, H1⟩, ⟨%d2, H2⟩, ⟨%d3, H3⟩⟩
        iapply ((kernelRun_A c (grid0.coords t) _ _ _ _ _ _ _ _ _ _ _ _ _ _ ((hcond1 t).mpr h1) (fun h => by have := (hcond2 t).mp h; omega) ((hcond3 t).mpr h3) (fun h => by have := (hcond4 t).mp h; omega) (iblk m c 0 t) (iblk m c 1 t) (iblk m c 2 t)).2.2.2 _ Set.univ _)
        isplitl [H0]; · iexact H0
        isplitl [H1]; · iexact H1
        isplitl [H2]; · iexact H2
        isplitl [H3]; · iexact H3
        isplitl [HM]; · iexact HM
        isplitl [HL]; · iexact HL
        isplitl [HA]; · iexact HA
        iintro ⟨H0, H1, H2, H3, ⟨%eM, HM⟩, ⟨%eL, HL⟩, ⟨%eA, HA⟩⟩
        isplitl [HM HL HA Hg]
        · isplitl [HM HL HA]
          · isplitl [HM]
            · unfold owns; iexists _; isplitr
              swap; · iexact HM
              ipureintro; exact View.read_writes_of_cover _ _ _ _ _ (coverM_A c _ _ _ _ _ _ _ _ _ _ _ _ _ _ _ ((hcond1 t).mpr h1) (fun h => by have := (hcond2 t).mp h; omega) ((hcond3 t).mpr h3) (fun h => by have := (hcond4 t).mp h; omega) _ _ _)
            isplitl [HL]
            · unfold owns; iexists _; isplitr
              swap; · iexact HL
              ipureintro; exact View.read_writes_of_cover _ _ _ _ _ (coverL_A c _ _ _ _ _ _ _ _ _ _ _ _ _ _ _ ((hcond1 t).mpr h1) (fun h => by have := (hcond2 t).mp h; omega) ((hcond3 t).mpr h3) (fun h => by have := (hcond4 t).mp h; omega) _ _ _)
            unfold owns; iexists _; isplitr
            swap; · iexact HA
            ipureintro; exact View.read_writes_of_cover _ _ _ _ _ (coverA_A c _ _ _ _ _ _ _ _ _ _ _ _ _ _ _ ((hcond1 t).mpr h1) (fun h => by have := (hcond2 t).mp h; omega) ((hcond3 t).mpr h3) (fun h => by have := (hcond4 t).mp h; omega) _ _ _)
          iexact Hg
        isplitl [Ho]; · iexact Ho
        isplitl [H0]; · iexact H0
        isplitl [H1]; · iexact H1
        isplitl [H2]; · iexact H2
        iexists _; iexact H3
      · rw [Dat.leavesExact_idle (dats m 0 c) 3 t (idleAt3 t (fun h => by have := (hcond4 t).mp h; omega)) (noFlush3 t (fun h => by have := (hcond4 t).mp h; omega))]
        rw [outsAt_eq m c t, step_A m c t _ hN h1 h3]
        unfold res_A; dsimp only
        rw [PhiS_castSucc m c t, PhiS_pos m c _ _ hz]
        iintro ⟨⟨⟨HM, HL, HA⟩, Hg⟩, Ho, ⟨%d0, H0⟩, ⟨%d1, H1⟩, ⟨%d2, H2⟩, ⟨%d3, H3⟩⟩
        iapply ((kernelRun_A c (grid0.coords t) _ _ _ _ _ _ _ _ _ _ _ _ _ _ ((hcond1 t).mpr h1) (fun h => by have := (hcond2 t).mp h; omega) ((hcond3 t).mpr h3) (fun h => by have := (hcond4 t).mp h; omega) (iblk m c 0 t) (iblk m c 1 t) (iblk m c 2 t)).2.2.2 _ Set.univ _)
        isplitl [H0]; · iexact H0
        isplitl [H1]; · iexact H1
        isplitl [H2]; · iexact H2
        isplitl [H3]; · iexact H3
        isplitl [HM]; · iexists _; iexact HM
        isplitl [HL]; · iexists _; iexact HL
        isplitl [HA]; · iexists _; iexact HA
        iintro ⟨H0, H1, H2, H3, ⟨%eM, HM⟩, ⟨%eL, HL⟩, ⟨%eA, HA⟩⟩
        isplitl [HM HL HA Hg]
        · isplitl [HM HL HA]
          · isplitl [HM]
            · unfold owns; iexists _; isplitr
              swap; · iexact HM
              ipureintro; exact View.read_writes_of_cover _ _ _ _ _ (coverM_A c _ _ _ _ _ _ _ _ _ _ _ _ _ _ _ ((hcond1 t).mpr h1) (fun h => by have := (hcond2 t).mp h; omega) ((hcond3 t).mpr h3) (fun h => by have := (hcond4 t).mp h; omega) _ _ _)
            isplitl [HL]
            · unfold owns; iexists _; isplitr
              swap; · iexact HL
              ipureintro; exact View.read_writes_of_cover _ _ _ _ _ (coverL_A c _ _ _ _ _ _ _ _ _ _ _ _ _ _ _ ((hcond1 t).mpr h1) (fun h => by have := (hcond2 t).mp h; omega) ((hcond3 t).mpr h3) (fun h => by have := (hcond4 t).mp h; omega) _ _ _)
            unfold owns; iexists _; isplitr
            swap; · iexact HA
            ipureintro; exact View.read_writes_of_cover _ _ _ _ _ (coverA_A c _ _ _ _ _ _ _ _ _ _ _ _ _ _ _ ((hcond1 t).mpr h1) (fun h => by have := (hcond2 t).mp h; omega) ((hcond3 t).mpr h3) (fun h => by have := (hcond4 t).mp h; omega) _ _ _)
          iexact Hg
        isplitl [Ho]; · iexact Ho
        isplitl [H0]; · iexact H0
        isplitl [H1]; · iexact H1
        isplitl [H2]; · iexact H2
        iexists _; iexact H3
    · -- first key tile below the diagonal
      have hz : t.val ≠ 0 := by omega
      rw [Dat.leavesExact_idle (dats m 0 c) 3 t (idleAt3 t (fun h => by have := (hcond4 t).mp h; omega)) (noFlush3 t (fun h => by have := (hcond4 t).mp h; omega))]
      rw [outsAt_eq m c t, step_B m c t _ hN h1 h3]
      unfold res_B; dsimp only
      rw [PhiS_castSucc m c t, PhiS_pos m c _ _ hz]
      iintro ⟨⟨⟨HM, HL, HA⟩, Hg⟩, Ho, ⟨%d0, H0⟩, ⟨%d1, H1⟩, ⟨%d2, H2⟩, ⟨%d3, H3⟩⟩
      iapply ((kernelRun_B c (grid0.coords t) _ _ _ _ _ _ _ _ _ _ _ _ _ _ ((hcond1 t).mpr h1) ((hcond2 t).mpr (by omega)) (fun h => h3 ((hcond3 t).mp h)) (fun h => by have := (hcond4 t).mp h; omega) (iblk m c 0 t) (iblk m c 1 t) (iblk m c 2 t)).2.2.2 _ Set.univ _)
      isplitl [H0]; · iexact H0
      isplitl [H1]; · iexact H1
      isplitl [H2]; · iexact H2
      isplitl [H3]; · iexact H3
      isplitl [HM]; · iexists _; iexact HM
      isplitl [HL]; · iexists _; iexact HL
      isplitl [HA]; · iexists _; iexact HA
      iintro ⟨H0, H1, H2, H3, ⟨%eM, HM⟩, ⟨%eL, HL⟩, ⟨%eA, HA⟩⟩
      isplitl [HM HL HA Hg]
      · isplitl [HM HL HA]
        · isplitl [HM]
          · unfold owns; iexists _; isplitr
            swap; · iexact HM
            ipureintro; exact View.read_writes_of_cover _ _ _ _ _ (coverM_B c _ _ _ _ _ _ _ _ _ _ _ _ _ _ _ ((hcond1 t).mpr h1) ((hcond2 t).mpr (by omega)) (fun h => h3 ((hcond3 t).mp h)) (fun h => by have := (hcond4 t).mp h; omega) _ _ _)
          isplitl [HL]
          · unfold owns; iexists _; isplitr
            swap; · iexact HL
            ipureintro; exact View.read_writes_of_cover _ _ _ _ _ (coverL_B c _ _ _ _ _ _ _ _ _ _ _ _ _ _ _ ((hcond1 t).mpr h1) ((hcond2 t).mpr (by omega)) (fun h => h3 ((hcond3 t).mp h)) (fun h => by have := (hcond4 t).mp h; omega) _ _ _)
          unfold owns; iexists _; isplitr
          swap; · iexact HA
          ipureintro; exact View.read_writes_of_cover _ _ _ _ _ (coverA_B c _ _ _ _ _ _ _ _ _ _ _ _ _ _ _ ((hcond1 t).mpr h1) ((hcond2 t).mpr (by omega)) (fun h => h3 ((hcond3 t).mp h)) (fun h => by have := (hcond4 t).mp h; omega) _ _ _)
        iexact Hg
      isplitl [Ho]; · iexact Ho
      isplitl [H0]; · iexact H0
      isplitl [H1]; · iexact H1
      isplitl [H2]; · iexact H2
      iexists _; iexact H3
  · by_cases h2 : t.val % 4 < t.val / 4 % 4
    · -- a later key tile below the diagonal
      have hz : t.val ≠ 0 := by omega
      rw [Dat.leavesExact_idle (dats m 0 c) 3 t (idleAt3 t (fun h => by have := (hcond4 t).mp h; omega)) (noFlush3 t (fun h => by have := (hcond4 t).mp h; omega))]
      rw [outsAt_eq m c t, step_C m c t _ hN h1 h2]
      unfold res_C; dsimp only
      rw [PhiS_castSucc m c t, PhiS_pos m c _ _ hz, prev_pos m c t hz]
      iintro ⟨⟨⟨HM, HL, HA⟩, Hg⟩, Ho, ⟨%d0, H0⟩, ⟨%d1, H1⟩, ⟨%d2, H2⟩, ⟨%d3, H3⟩⟩
      iapply ((kernelRun_C c (grid0.coords t) _ _ _ _ _ _ _ _ _ _ _ _ _ _ (fun h => h1 ((hcond1 t).mp h)) ((hcond2 t).mpr h2) (fun h => by have := (hcond3 t).mp h; omega) (fun h => by have := (hcond4 t).mp h; omega) (iblk m c 0 t) (iblk m c 1 t) (iblk m c 2 t) _ _ _).2.2.2 _ Set.univ _)
      isplitl [H0]; · iexact H0
      isplitl [H1]; · iexact H1
      isplitl [H2]; · iexact H2
      isplitl [H3]; · iexact H3
      isplitl [HM]; · iexact HM
      isplitl [HL]; · iexact HL
      isplitl [HA]; · iexact HA
      iintro ⟨H0, H1, H2, H3, ⟨%eM, HM⟩, ⟨%eL, HL⟩, ⟨%eA, HA⟩⟩
      isplitl [HM HL HA Hg]
      · isplitl [HM HL HA]
        · isplitl [HM]
          · unfold owns; iexists _; isplitr
            swap; · iexact HM
            ipureintro; exact View.read_writes_of_cover _ _ _ _ _ (coverM_C c _ _ _ _ _ _ _ _ _ _ _ _ _ _ _ (fun h => h1 ((hcond1 t).mp h)) ((hcond2 t).mpr h2) (fun h => by have := (hcond3 t).mp h; omega) (fun h => by have := (hcond4 t).mp h; omega) _ _ _ _ _ _)
          isplitl [HL]
          · unfold owns; iexists _; isplitr
            swap; · iexact HL
            ipureintro; exact View.read_writes_of_cover _ _ _ _ _ (coverL_C c _ _ _ _ _ _ _ _ _ _ _ _ _ _ _ (fun h => h1 ((hcond1 t).mp h)) ((hcond2 t).mpr h2) (fun h => by have := (hcond3 t).mp h; omega) (fun h => by have := (hcond4 t).mp h; omega) _ _ _ _ _ _)
          unfold owns; iexists _; isplitr
          swap; · iexact HA
          ipureintro; exact View.read_writes_of_cover _ _ _ _ _ (coverA_C c _ _ _ _ _ _ _ _ _ _ _ _ _ _ _ (fun h => h1 ((hcond1 t).mp h)) ((hcond2 t).mpr h2) (fun h => by have := (hcond3 t).mp h; omega) (fun h => by have := (hcond4 t).mp h; omega) _ _ _ _ _ _)
        iexact Hg
      isplitl [Ho]; · iexact Ho
      isplitl [H0]; · iexact H0
      isplitl [H1]; · iexact H1
      isplitl [H2]; · iexact H2
      iexists _; iexact H3
    · by_cases h3 : t.val % 4 = t.val / 4 % 4
      · by_cases h4 : t.val % 4 = 3
        · -- the last key tile, on the diagonal
          have hz : t.val ≠ 0 := by omega
          rw [leaves_3_live m c t ((hcond4 t).mpr h4)]
          rw [outsAt_eq m c t, step_E m c t _ hN h1 h2 h3 h4]
          unfold res_E; dsimp only
          rw [PhiS_castSucc m c t, PhiS_pos m c _ _ hz, prev_pos m c t hz]
          iintro ⟨⟨⟨HM, HL, HA⟩, Hg⟩, Ho, ⟨%d0, H0⟩, ⟨%d1, H1⟩, ⟨%d2, H2⟩, ⟨%d3, H3⟩⟩
          iapply ((kernelRun_E c (grid0.coords t) _ _ _ _ _ _ _ _ _ _ _ _ _ _ (fun h => h1 ((hcond1 t).mp h)) (fun h => h2 ((hcond2 t).mp h)) ((hcond3 t).mpr h3) ((hcond4 t).mpr h4) (iblk m c 0 t) (iblk m c 1 t) (iblk m c 2 t) _ _ _).2.2.2.2 Set.univ _)
          isplitl [H0]; · iexact H0
          isplitl [H1]; · iexact H1
          isplitl [H2]; · iexact H2
          isplitl [H3]; · iexists _; iexact H3
          isplitl [HM]; · iexact HM
          isplitl [HL]; · iexact HL
          isplitl [HA]; · iexact HA
          iintro ⟨H0, H1, H2, ⟨%e3, H3⟩, ⟨%eM, HM⟩, ⟨%eL, HL⟩, ⟨%eA, HA⟩⟩
          isplitl [HM HL HA Hg]
          · isplitl [HM HL HA]
            · isplitl [HM]
              · unfold owns; iexists _; isplitr
                swap; · iexact HM
                ipureintro; exact View.read_writes_of_cover _ _ _ _ _ (coverM_E c _ _ _ _ _ _ _ _ _ _ _ _ _ _ _ (fun h => h1 ((hcond1 t).mp h)) (fun h => h2 ((hcond2 t).mp h)) ((hcond3 t).mpr h3) ((hcond4 t).mpr h4) _ _ _ _ _ _)
              isplitl [HL]
              · unfold owns; iexists _; isplitr
                swap; · iexact HL
                ipureintro; exact View.read_writes_of_cover _ _ _ _ _ (coverL_E c _ _ _ _ _ _ _ _ _ _ _ _ _ _ _ (fun h => h1 ((hcond1 t).mp h)) (fun h => h2 ((hcond2 t).mp h)) ((hcond3 t).mpr h3) ((hcond4 t).mpr h4) _ _ _ _ _ _)
              unfold owns; iexists _; isplitr
              swap; · iexact HA
              ipureintro; exact View.read_writes_of_cover _ _ _ _ _ (coverA_E c _ _ _ _ _ _ _ _ _ _ _ _ _ _ _ (fun h => h1 ((hcond1 t).mp h)) (fun h => h2 ((hcond2 t).mp h)) ((hcond3 t).mpr h3) ((hcond4 t).mpr h4) _ _ _ _ _ _)
            iexact Hg
          isplitl [Ho]; · iexact Ho
          isplitl [H0]; · iexact H0
          isplitl [H1]; · iexact H1
          isplitl [H2]; · iexact H2
          unfold owns; iexists _; isplitr
          swap; · iexact H3
          ipureintro; exact View.read_writes_of_cover _ _ _ _ _ (coverO_E c _ _ _ _ _ _ _ _ _ _ _ _ _ _ _ (fun h => h1 ((hcond1 t).mp h)) (fun h => h2 ((hcond2 t).mp h)) ((hcond3 t).mpr h3) ((hcond4 t).mpr h4) _ _ _ _ _ _)
        · -- a later diagonal tile
          have hz : t.val ≠ 0 := by omega
          rw [Dat.leavesExact_idle (dats m 0 c) 3 t (idleAt3 t (fun h => by have := (hcond4 t).mp h; omega)) (noFlush3 t (fun h => by have := (hcond4 t).mp h; omega))]
          rw [outsAt_eq m c t, step_D m c t _ hN h1 h2 h3 h4]
          unfold res_D; dsimp only
          rw [PhiS_castSucc m c t, PhiS_pos m c _ _ hz, prev_pos m c t hz]
          iintro ⟨⟨⟨HM, HL, HA⟩, Hg⟩, Ho, ⟨%d0, H0⟩, ⟨%d1, H1⟩, ⟨%d2, H2⟩, ⟨%d3, H3⟩⟩
          iapply ((kernelRun_D c (grid0.coords t) _ _ _ _ _ _ _ _ _ _ _ _ _ _ (fun h => h1 ((hcond1 t).mp h)) (fun h => h2 ((hcond2 t).mp h)) ((hcond3 t).mpr h3) (fun h => h4 ((hcond4 t).mp h)) (iblk m c 0 t) (iblk m c 1 t) (iblk m c 2 t) _ _ _).2.2.2 _ Set.univ _)
          isplitl [H0]; · iexact H0
          isplitl [H1]; · iexact H1
          isplitl [H2]; · iexact H2
          isplitl [H3]; · iexact H3
          isplitl [HM]; · iexact HM
          isplitl [HL]; · iexact HL
          isplitl [HA]; · iexact HA
          iintro ⟨H0, H1, H2, H3, ⟨%eM, HM⟩, ⟨%eL, HL⟩, ⟨%eA, HA⟩⟩
          isplitl [HM HL HA Hg]
          · isplitl [HM HL HA]
            · isplitl [HM]
              · unfold owns; iexists _; isplitr
                swap; · iexact HM
                ipureintro; exact View.read_writes_of_cover _ _ _ _ _ (coverM_D c _ _ _ _ _ _ _ _ _ _ _ _ _ _ _ (fun h => h1 ((hcond1 t).mp h)) (fun h => h2 ((hcond2 t).mp h)) ((hcond3 t).mpr h3) (fun h => h4 ((hcond4 t).mp h)) _ _ _ _ _ _)
              isplitl [HL]
              · unfold owns; iexists _; isplitr
                swap; · iexact HL
                ipureintro; exact View.read_writes_of_cover _ _ _ _ _ (coverL_D c _ _ _ _ _ _ _ _ _ _ _ _ _ _ _ (fun h => h1 ((hcond1 t).mp h)) (fun h => h2 ((hcond2 t).mp h)) ((hcond3 t).mpr h3) (fun h => h4 ((hcond4 t).mp h)) _ _ _ _ _ _)
              unfold owns; iexists _; isplitr
              swap; · iexact HA
              ipureintro; exact View.read_writes_of_cover _ _ _ _ _ (coverA_D c _ _ _ _ _ _ _ _ _ _ _ _ _ _ _ (fun h => h1 ((hcond1 t).mp h)) (fun h => h2 ((hcond2 t).mp h)) ((hcond3 t).mpr h3) (fun h => h4 ((hcond4 t).mp h)) _ _ _ _ _ _)
            iexact Hg
          isplitl [Ho]; · iexact Ho
          isplitl [H0]; · iexact H0
          isplitl [H1]; · iexact H1
          isplitl [H2]; · iexact H2
          iexists _; iexact H3
      · by_cases h4 : t.val % 4 = 3
        · -- the last key tile, above the diagonal
          have hz : t.val ≠ 0 := by omega
          rw [leaves_3_live m c t ((hcond4 t).mpr h4)]
          rw [outsAt_eq m c t, step_H m c t _ hN h1 h2 h3 h4]
          unfold res_H; dsimp only
          rw [PhiS_castSucc m c t, PhiS_pos m c _ _ hz, prev_pos m c t hz]
          iintro ⟨⟨⟨HM, HL, HA⟩, Hg⟩, Ho, ⟨%d0, H0⟩, ⟨%d1, H1⟩, ⟨%d2, H2⟩, ⟨%d3, H3⟩⟩
          iapply ((kernelRun_H c (grid0.coords t) _ _ _ _ _ _ _ _ _ _ _ _ _ _ (fun h => h1 ((hcond1 t).mp h)) (fun h => h2 ((hcond2 t).mp h)) (fun h => h3 ((hcond3 t).mp h)) ((hcond4 t).mpr h4) (iblk m c 0 t) (iblk m c 1 t) (iblk m c 2 t) _ _ _).2 Set.univ _)
          isplitl [H0]; · iexact H0
          isplitl [H1]; · iexact H1
          isplitl [H2]; · iexact H2
          isplitl [H3]; · iexists _; iexact H3
          isplitl [HM]; · iexact HM
          isplitl [HL]; · iexact HL
          isplitl [HA]; · iexact HA
          iintro ⟨H0, H1, H2, ⟨%e3, H3⟩, HM, HL, HA⟩
          isplitl [HM HL HA Hg]
          · isplitl [HM HL HA]
            · isplitl [HM]; · iexact HM
              isplitl [HL]; · iexact HL
              iexact HA
            iexact Hg
          isplitl [Ho]; · iexact Ho
          isplitl [H0]; · iexact H0
          isplitl [H1]; · iexact H1
          isplitl [H2]; · iexact H2
          unfold owns; iexists _; isplitr
          swap; · iexact H3
          ipureintro; exact View.read_writes_of_cover _ _ _ _ _ (coverO_H c _ _ _ _ _ _ _ _ _ _ _ _ _ _ _ (fun h => h1 ((hcond1 t).mp h)) (fun h => h2 ((hcond2 t).mp h)) (fun h => h3 ((hcond3 t).mp h)) ((hcond4 t).mpr h4) _ _ _ _ _ _)
        · -- above the diagonal, not last
          have hz : t.val ≠ 0 := by omega
          rw [Dat.leavesExact_idle (dats m 0 c) 3 t (idleAt3 t (fun h => by have := (hcond4 t).mp h; omega)) (noFlush3 t (fun h => by have := (hcond4 t).mp h; omega))]
          rw [outsAt_eq m c t, step_G m c t _ hN h1 h2 h3 h4]
          unfold res_G; dsimp only
          rw [PhiS_castSucc m c t, PhiS_pos m c _ _ hz, prev_pos m c t hz]
          iintro ⟨⟨⟨HM, HL, HA⟩, Hg⟩, Ho, ⟨%d0, H0⟩, ⟨%d1, H1⟩, ⟨%d2, H2⟩, ⟨%d3, H3⟩⟩
          iapply ((kernelRun_G c (grid0.coords t) _ _ _ _ _ _ _ _ _ _ _ _ _ _ (fun h => h1 ((hcond1 t).mp h)) (fun h => h2 ((hcond2 t).mp h)) (fun h => h3 ((hcond3 t).mp h)) (fun h => h4 ((hcond4 t).mp h)) (iblk m c 0 t) (iblk m c 1 t) (iblk m c 2 t) _ _ _) _ Set.univ _)
          isplitl [H0]; · iexact H0
          isplitl [H1]; · iexact H1
          isplitl [H2]; · iexact H2
          isplitl [H3]; · iexact H3
          isplitl [HM]; · iexact HM
          isplitl [HL]; · iexact HL
          isplitl [HA]; · iexact HA
          iintro ⟨H0, H1, H2, H3, HM, HL, HA⟩
          isplitl [HM HL HA Hg]
          · isplitl [HM HL HA]
            · isplitl [HM]; · iexact HM
              isplitl [HL]; · iexact HL
              iexact HA
            iexact Hg
          isplitl [Ho]; · iexact Ho
          isplitl [H0]; · iexact H0
          isplitl [H1]; · iexact H1
          isplitl [H2]; · iexact H2
          iexists _; iexact H3

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨HM, HL, HA⟩, Hg⟩
  isplitl [HM HL HA]
  · isplitl [HM]; · iexists _; iexact HM
    isplitl [HL]; · iexists _; iexact HL
    iexists _; iexact HA
  iexact Hg

theorem hout (c : Dev nD) : (dats m 0 c).Φ (Fin.last cfg0.N) ⊢ Pipeline.ΦA spec0 c :=
  Phi_out m c _ (by rw [Fin.val_last]; have : cfg0.N = 64 := N_0; omega)

/-! ## The run and the frame -/

set_option backward.isDefEq.respectTransparency.types false in
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: every weakly fair execution terminates, faults nowhere, and leaves the three argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Hand

end
-- ==== Proof.KI.Spec.lean ====
/-
  One head's arithmetic on one key tile, as pure functions of the head's 64 columns of the query, key and value
  blocks and of the head's columns of the three accumulators — what the body computes sixteen times over at
  literal column offsets. s = (q kᵀ) / 8, masked on the diagonal tile where the key position exceeds the query
  position; m' = max(m, rowmax s); α = exp(m - m'); p = exp(s - m'); l' = α l + rowsum p; acc' = α acc + p v;
  and on the last key tile o = acc · (1 / l).
-/
import proofs.«178927_j55791625175600_2_alg».proof.Proof.KI.Conds

noncomputable section

namespace Cert.KernelIdeal.Hand

open Cert.KernelIdeal Cert.KernelIdeal.Gen
open Idealize.ShloMosaic Idealize.ShloMosaic.TcCoe

variable {F : FTy → Type} [FloatOps F] [Named F]

/-- The scaled scores of one head: query rows against key rows, over the head's 64 columns, times 1/8. -/
def scOff (q k : Vec F S1x512x64 .f32) : FVec F S512x512 .f32 :=
  mulf (matmul dot_S512x64_S64x512_S512x512_1_0_0_1_n_n none
      (truncf .bf16 (shapeCast S512x64 q shapeCasts_S1x512x64_S512x64) bitsLt_bf16_f32)
      (transpose S64x512 [1, 0] (truncf .bf16 (shapeCast S512x64 k shapeCasts_S1x512x64_S512x64) bitsLt_bf16_f32) transposes_S512x64_p1_0_S64x512)
      (constant S512x512 .f32 0x00000000#32))
    (broadcast S512x512 (Scalar.ofBits .f32 0x3E000000#32))

/-- The same under the causal mask: where the key position (tile `a2`) exceeds the query position (tile `a1`) the
    score is the mask's fill value. -/
def scDiag (a1 a2 : BitVec 32) (q k : Vec F S1x512x64 .f32) : FVec F S512x512 .f32 :=
  select (cmpi .sge (addi (broadcast S512x512 (Scalar.muli a1 512#32)) (iota .tc S512x512 32 [0] iota_S512x512_d0_w32))
                    (addi (broadcast S512x512 (Scalar.muli a2 512#32)) (iota .tc S512x512 32 [1] iota_S512x512_d1_w32)))
    (scOff q k) (broadcast S512x512 (Named.named κ "neg_big" 0xFF333332#32))

/-- The new running maximum. -/
def mNew (S : FVec F S512x512 .f32) (mo : Vec F S512x1 .f32) : FVec F S512x1 .f32 :=
  maximumf mo (shapeCast S512x1 (multiReduction .maximumf [1] S512 S 0xFF800000#32 reduces_S512x512_S512 (.inl rfl) rfl) shapeCasts_S512_S512x1)

/-- The factor that rescales what was accumulated under the old maximum. -/
def alpha (S : FVec F S512x512 .f32) (mo : Vec F S512x1 .f32) : FVec F S512x1 .f32 :=
  exp (subf mo (mNew S mo))

/-- The tile's weights under the new maximum. -/
def pMat (S : FVec F S512x512 .f32) (mo : Vec F S512x1 .f32) : FVec F S512x512 .f32 :=
  exp (subf S (broadcastTo S512x512 (mNew S mo) broadcasts_S512x1_S512x512))

/-- The new running denominator. -/
def lNew (S : FVec F S512x512 .f32) (mo lo : Vec F S512x1 .f32) : FVec F S512x1 .f32 :=
  addf (mulf (alpha S mo) lo)
    (shapeCast S512x1 (multiReduction .add [1] S512 (pMat S mo) 0x00000000#32 reduces_S512x512_S512 (.inl rfl) rfl) shapeCasts_S512_S512x1)

/-- The new running numerator. -/
def accNew (S : FVec F S512x512 .f32) (mo : Vec F S512x1 .f32) (v : Vec F S1x512x64 .f32) (ao : Vec F S512x64 .f32) : FVec F S512x64 .f32 :=
  addf (mulf (broadcastTo S512x64 (alpha S mo) broadcasts_S512x1_S512x64) ao)
    (matmul dot_S512x512_S512x64_S512x64_1_0_0_1_n_n none (truncf .bf16 (pMat S mo) bitsLt_bf16_f32)
      (truncf .bf16 (shapeCast S512x64 v shapeCasts_S1x512x64_S512x64) bitsLt_bf16_f32) (constant S512x64 .f32 0x00000000#32))

/-- The normalised result. -/
def outNew (l : Vec F S512x1 .f32) (a : Vec F S512x64 .f32) : FVec F S1x512x64 .f32 :=
  shapeCast S1x512x64 (mulf a (broadcastTo S512x64 (divf (broadcast S512x1 (Scalar.ofBits .f32 0x3F800000#32)) l) broadcasts_S512x1_S512x64)) shapeCasts_S512x64_S1x512x64

/-! ## The columns of head `h` -/

theorem inbM (h : Fin 16) : ∀ a, (![0, h.val] : Fin 2 → Nat) a + S512x1.size a ≤ S512x16.size a := by
  intro a; have := h.isLt; fin_cases a <;> simp <;> omega
theorem inbA (h : Fin 16) : ∀ a, (![0, 64 * h.val] : Fin 2 → Nat) a + S512x64.size a ≤ S512x1024.size a := by
  intro a; have := h.isLt; fin_cases a <;> simp <;> omega
theorem inbQ (h : Fin 16) : ∀ a, (![0, 0, 64 * h.val] : Fin 3 → Nat) a + S1x512x64.size a ≤ S1x512x1024.size a := by
  intro a; have := h.isLt; fin_cases a <;> simp <;> omega

/-- Column `h` of the running maximum / denominator. -/
abbrev rM (h : Fin 16) : Rect S512x16 := Rect.unit (s := S512x16) ![0, h.val] S512x1.size (inbM h)
/-- Columns 64h … 64h+63 of the running numerator. -/
abbrev rA (h : Fin 16) : Rect S512x1024 := Rect.unit (s := S512x1024) ![0, 64 * h.val] S512x64.size (inbA h)
/-- Columns 64h … 64h+63 of a staged block (query, key, value or result). -/
abbrev rQ (h : Fin 16) : Rect S1x512x1024 := Rect.unit (s := S1x512x1024) ![0, 0, 64 * h.val] S1x512x64.size (inbQ h)

/-- Head `h`'s scores on an unmasked tile, from the staged query and key blocks. -/
abbrev sOff (x0 x1 : Vec F S1x512x1024 .f32) (h : Fin 16) : FVec F S512x512 .f32 :=
  scOff (View.ld x0 (rQ h)) (View.ld x1 (rQ h))
/-- and on the diagonal tile. -/
abbrev sDiag (a1 a2 : BitVec 32) (x0 x1 : Vec F S1x512x1024 .f32) (h : Fin 16) : FVec F S512x512 .f32 :=
  scDiag a1 a2 (View.ld x0 (rQ h)) (View.ld x1 (rQ h))

/-- What one head stores into each accumulator, as a piece: the head's columns, the new value. -/
def pieceM (S : Fin 16 → FVec F S512x512 .f32) (mo : Fin 16 → Vec F S512x1 .f32) (h : Fin 16) : View.Piece (Elt F) S512x16 .f32 :=
  ⟨rM h, shapeCast S512x1 (mNew (S h) (mo h)) shapeCasts_S512x1_S512x1⟩
def pieceL (S : Fin 16 → FVec F S512x512 .f32) (mo lo : Fin 16 → Vec F S512x1 .f32) (h : Fin 16) : View.Piece (Elt F) S512x16 .f32 :=
  ⟨rM h, shapeCast S512x1 (lNew (S h) (mo h) (lo h)) shapeCasts_S512x1_S512x1⟩
def pieceA (S : Fin 16 → FVec F S512x512 .f32) (mo : Fin 16 → Vec F S512x1 .f32) (x2 : Vec F S1x512x1024 .f32) (ao : Fin 16 → Vec F S512x64 .f32) (h : Fin 16) : View.Piece (Elt F) S512x1024 .f32 :=
  ⟨rA h, shapeCast S512x64 (accNew (S h) (mo h) (View.ld x2 (rQ h)) (ao h)) shapeCasts_S512x64_S512x64⟩
def pieceO (l : Fin 16 → Vec F S512x1 .f32) (a : Fin 16 → Vec F S512x64 .f32) (h : Fin 16) : View.Piece (Elt F) S1x512x1024 .f32 :=
  ⟨rQ h, outNew (l h) (a h)⟩

end Cert.KernelIdeal.Hand

end
-- ==== Proof.KI.First.lean ====
/-
  The first key tile of a query tile. The three accumulators are first filled (-∞, 0, 0); then head 0, 1, …
  each read their own columns back — through the fills and the earlier heads' stores — and store their update.
  The lists of stores, latest first, by recursion on the number of heads done.
-/
import proofs.«178927_j55791625175600_2_alg».proof.Proof.KI.Spec

noncomputable section

namespace Cert.KernelIdeal.Hand

open Cert.KernelIdeal Cert.KernelIdeal.Gen
open Idealize.ShloMosaic Idealize.ShloMosaic.TcCoe

variable {F : FTy → Type} [FloatOps F] [Named F]

/-- The fills. -/
def initM : View.Piece (Elt F) S512x16 .f32 := ⟨Rect.unit (s := S512x16) ![0, 0] S512x16.size inb_S512x16_S512x16_0_0, k0_pay1⟩
def initL : View.Piece (Elt F) S512x16 .f32 := ⟨Rect.unit (s := S512x16) ![0, 0] S512x16.size inb_S512x16_S512x16_0_0, k0_pay2⟩
def initA : View.Piece (Elt F) S512x1024 .f32 := ⟨Rect.unit (s := S512x1024) ![0, 0] S512x1024.size inb_S512x1024_S512x1024_0_0, k0_pay3⟩

variable (vM vL : View sig .tc .vmem S512x16 .f32) (vA : View sig .tc .vmem S512x1024 .f32)
variable (S : Fin 16 → FVec F S512x512 .f32) (x2 : Vec F S1x512x1024 .f32)

/-- The running maximum's stores after `n` heads. -/
def firstM : ℕ → List (View.Piece (Elt F) S512x16 .f32)
  | 0 => [initM]
  | n + 1 => if h : n < 16 then pieceM S (fun _ => vM.readCov (firstM n) (rM ⟨n, h⟩).toLoadRect) ⟨n, h⟩ :: firstM n else firstM n

/-- The running denominator's. -/
def firstL : ℕ → List (View.Piece (Elt F) S512x16 .f32)
  | 0 => [initL]
  | n + 1 => if h : n < 16 then pieceL S (fun _ => vM.readCov (firstM vM S n) (rM ⟨n, h⟩).toLoadRect) (fun _ => vL.readCov (firstL n) (rM ⟨n, h⟩).toLoadRect) ⟨n, h⟩ :: firstL n else firstL n

/-- The running numerator's. -/
def firstA : ℕ → List (View.Piece (Elt F) S512x1024 .f32)
  | 0 => [initA]
  | n + 1 => if h : n < 16 then pieceA S (fun _ => vM.readCov (firstM vM S n) (rM ⟨n, h⟩).toLoadRect) x2 (fun _ => vA.readCov (firstA n) (rA ⟨n, h⟩).toLoadRect) ⟨n, h⟩ :: firstA n else firstA n

end Cert.KernelIdeal.Hand

end
-- ==== Proof.KI.PiecesA.lean ====
/-
  The first key tile of query tile 0 (on the diagonal): the fills, then the sixteen heads' masked updates.
-/
import proofs.«178927_j55791625175600_2_alg».proof.Proof.KI.RunA
import proofs.«178927_j55791625175600_2_alg».proof.Proof.KI.First

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

set_option maxHeartbeats 4000000 in
theorem piecesM_A (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc1 : cond1 i) (hc2 : ¬cond2 i) (hc3 : cond3 i) (hc4 : ¬cond4 i) (x0 x1 x2 : Vec F S1x512x1024 .f32) :
    (kernelRun_A c i arg3 harg3 arg4 harg4 arg5 harg5 arg6 harg6 arg7 harg7 arg8 harg8 arg9 harg9 hc1 hc2 hc3 hc4 x0 x1 x2).1 = firstM arg7.view (sDiag (BitVec.ofNat 32 (i 1).val) (BitVec.ofNat 32 (i 2).val) x0 x1) 16 := by
  have hraw : (kernelRun_A c i arg3 harg3 arg4 harg4 arg5 harg5 arg6 harg6 arg7 harg7 arg8 harg8 arg9 harg9 hc1 hc2 hc3 hc4 x0 x1 x2).1 = firstM arg7.view (fun h => scDiag (BitVec.ofNat 32 (i 1).val) (BitVec.ofNat 32 (i 2).val) (View.readAt (Elt F) arg3.view (rQ h).toLoadRect (harg3.unread x0)) (View.readAt (Elt F) arg4.view (rQ h).toLoadRect (harg4.unread x1))) 16 := by
    unfold kernelRun_A
    exact rfl
  rw [hraw]
  have hS : (fun h => scDiag (BitVec.ofNat 32 (i 1).val) (BitVec.ofNat 32 (i 2).val) (View.readAt (Elt F) arg3.view (rQ h).toLoadRect (harg3.unread x0)) (View.readAt (Elt F) arg4.view (rQ h).toLoadRect (harg4.unread x1))) = (sDiag (BitVec.ofNat 32 (i 1).val) (BitVec.ofNat 32 (i 2).val) x0 x1) := by
    funext h
    simp only [View.readAt_eq_ld, harg3.read_unread, harg4.read_unread]
  rw [hS]

set_option maxHeartbeats 4000000 in
theorem piecesL_A (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc1 : cond1 i) (hc2 : ¬cond2 i) (hc3 : cond3 i) (hc4 : ¬cond4 i) (x0 x1 x2 : Vec F S1x512x1024 .f32) :
    (kernelRun_A c i arg3 harg3 arg4 harg4 arg5 harg5 arg6 harg6 arg7 harg7 arg8 harg8 arg9 harg9 hc1 hc2 hc3 hc4 x0 x1 x2).2.1 = firstL arg7.view arg8.view (sDiag (BitVec.ofNat 32 (i 1).val) (BitVec.ofNat 32 (i 2).val) x0 x1) 16 := by
  have hraw : (kernelRun_A c i arg3 harg3 arg4 harg4 arg5 harg5 arg6 harg6 arg7 harg7 arg8 harg8 arg9 harg9 hc1 hc2 hc3 hc4 x0 x1 x2).2.1 = firstL arg7.view arg8.view (fun h => scDiag (BitVec.ofNat 32 (i 1).val) (BitVec.ofNat 32 (i 2).val) (View.readAt (Elt F) arg3.view (rQ h).toLoadRect (harg3.unread x0)) (View.readAt (Elt F) arg4.view (rQ h).toLoadRect (harg4.unread x1))) 16 := by
    unfold kernelRun_A
    exact rfl
  rw [hraw]
  have hS : (fun h => scDiag (BitVec.ofNat 32 (i 1).val) (BitVec.ofNat 32 (i 2).val) (View.readAt (Elt F) arg3.view (rQ h).toLoadRect (harg3.unread x0)) (View.readAt (Elt F) arg4.view (rQ h).toLoadRect (harg4.unread x1))) = (sDiag (BitVec.ofNat 32 (i 1).val) (BitVec.ofNat 32 (i 2).val) x0 x1) := by
    funext h
    simp only [View.readAt_eq_ld, harg3.read_unread, harg4.read_unread]
  rw [hS]

set_option maxHeartbeats 4000000 in
theorem piecesA_A (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc1 : cond1 i) (hc2 : ¬cond2 i) (hc3 : cond3 i) (hc4 : ¬cond4 i) (x0 x1 x2 : Vec F S1x512x1024 .f32) :
    (kernelRun_A c i arg3 harg3 arg4 harg4 arg5 harg5 arg6 harg6 arg7 harg7 arg8 harg8 arg9 harg9 hc1 hc2 hc3 hc4 x0 x1 x2).2.2.1 = firstA arg7.view arg9.view (sDiag (BitVec.ofNat 32 (i 1).val) (BitVec.ofNat 32 (i 2).val) x0 x1) x2 16 := by
  have hraw : (kernelRun_A c i arg3 harg3 arg4 harg4 arg5 harg5 arg6 harg6 arg7 harg7 arg8 harg8 arg9 harg9 hc1 hc2 hc3 hc4 x0 x1 x2).2.2.1 = firstA arg7.view arg9.view (fun h => scDiag (BitVec.ofNat 32 (i 1).val) (BitVec.ofNat 32 (i 2).val) (View.readAt (Elt F) arg3.view (rQ h).toLoadRect (harg3.unread x0)) (View.readAt (Elt F) arg4.view (rQ h).toLoadRect (harg4.unread x1))) (arg5.view.read (Elt F) (harg5.unread x2)) 16 := by
    unfold kernelRun_A
    exact rfl
  rw [hraw]
  have hS : (fun h => scDiag (BitVec.ofNat 32 (i 1).val) (BitVec.ofNat 32 (i 2).val) (View.readAt (Elt F) arg3.view (rQ h).toLoadRect (harg3.unread x0)) (View.readAt (Elt F) arg4.view (rQ h).toLoadRect (harg4.unread x1))) = (sDiag (BitVec.ofNat 32 (i 1).val) (BitVec.ofNat 32 (i 2).val) x0 x1) := by
    funext h
    simp only [View.readAt_eq_ld, harg3.read_unread, harg4.read_unread]
  rw [hS, harg5.read_unread]

end Cert.KernelIdeal.Hand

end
-- ==== Proof.KI.PiecesB.lean ====
/-
  The first key tile below the diagonal: the fills, then the sixteen heads' unmasked updates.
-/
import proofs.«178927_j55791625175600_2_alg».proof.Proof.KI.RunB
import proofs.«178927_j55791625175600_2_alg».proof.Proof.KI.First

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

set_option maxHeartbeats 4000000 in
theorem piecesM_B (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc1 : cond1 i) (hc2 : cond2 i) (hc3 : ¬cond3 i) (hc4 : ¬cond4 i) (x0 x1 x2 : Vec F S1x512x1024 .f32) :
    (kernelRun_B c i arg3 harg3 arg4 harg4 arg5 harg5 arg6 harg6 arg7 harg7 arg8 harg8 arg9 harg9 hc1 hc2 hc3 hc4 x0 x1 x2).1 = firstM arg7.view (sOff x0 x1) 16 := by
  have hraw : (kernelRun_B c i arg3 harg3 arg4 harg4 arg5 harg5 arg6 harg6 arg7 harg7 arg8 harg8 arg9 harg9 hc1 hc2 hc3 hc4 x0 x1 x2).1 = firstM arg7.view (fun h => scOff (View.readAt (Elt F) arg3.view (rQ h).toLoadRect (harg3.unread x0)) (View.readAt (Elt F) arg4.view (rQ h).toLoadRect (harg4.unread x1))) 16 := by
    unfold kernelRun_B
    exact rfl
  rw [hraw]
  have hS : (fun h => scOff (View.readAt (Elt F) arg3.view (rQ h).toLoadRect (harg3.unread x0)) (View.readAt (Elt F) arg4.view (rQ h).toLoadRect (harg4.unread x1))) = (sOff x0 x1) := by
    funext h
    simp only [View.readAt_eq_ld, harg3.read_unread, harg4.read_unread]
  rw [hS]

set_option maxHeartbeats 4000000 in
theorem piecesL_B (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc1 : cond1 i) (hc2 : cond2 i) (hc3 : ¬cond3 i) (hc4 : ¬cond4 i) (x0 x1 x2 : Vec F S1x512x1024 .f32) :
    (kernelRun_B c i arg3 harg3 arg4 harg4 arg5 harg5 arg6 harg6 arg7 harg7 arg8 harg8 arg9 harg9 hc1 hc2 hc3 hc4 x0 x1 x2).2.1 = firstL arg7.view arg8.view (sOff x0 x1) 16 := by
  have hraw : (kernelRun_B c i arg3 harg3 arg4 harg4 arg5 harg5 arg6 harg6 arg7 harg7 arg8 harg8 arg9 harg9 hc1 hc2 hc3 hc4 x0 x1 x2).2.1 = firstL arg7.view arg8.view (fun h => scOff (View.readAt (Elt F) arg3.view (rQ h).toLoadRect (harg3.unread x0)) (View.readAt (Elt F) arg4.view (rQ h).toLoadRect (harg4.unread x1))) 16 := by
    unfold kernelRun_B
    exact rfl
  rw [hraw]
  have hS : (fun h => scOff (View.readAt (Elt F) arg3.view (rQ h).toLoadRect (harg3.unread x0)) (View.readAt (Elt F) arg4.view (rQ h).toLoadRect (harg4.unread x1))) = (sOff x0 x1) := by
    funext h
    simp only [View.readAt_eq_ld, harg3.read_unread, harg4.read_unread]
  rw [hS]

set_option maxHeartbeats 4000000 in
theorem piecesA_B (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc1 : cond1 i) (hc2 : cond2 i) (hc3 : ¬cond3 i) (hc4 : ¬cond4 i) (x0 x1 x2 : Vec F S1x512x1024 .f32) :
    (kernelRun_B c i arg3 harg3 arg4 harg4 arg5 harg5 arg6 harg6 arg7 harg7 arg8 harg8 arg9 harg9 hc1 hc2 hc3 hc4 x0 x1 x2).2.2.1 = firstA arg7.view arg9.view (sOff x0 x1) x2 16 := by
  have hraw : (kernelRun_B c i arg3 harg3 arg4 harg4 arg5 harg5 arg6 harg6 arg7 harg7 arg8 harg8 arg9 harg9 hc1 hc2 hc3 hc4 x0 x1 x2).2.2.1 = firstA arg7.view arg9.view (fun h => scOff (View.readAt (Elt F) arg3.view (rQ h).toLoadRect (harg3.unread x0)) (View.readAt (Elt F) arg4.view (rQ h).toLoadRect (harg4.unread x1))) (arg5.view.read (Elt F) (harg5.unread x2)) 16 := by
    unfold kernelRun_B
    exact rfl
  rw [hraw]
  have hS : (fun h => scOff (View.readAt (Elt F) arg3.view (rQ h).toLoadRect (harg3.unread x0)) (View.readAt (Elt F) arg4.view (rQ h).toLoadRect (harg4.unread x1))) = (sOff x0 x1) := by
    funext h
    simp only [View.readAt_eq_ld, harg3.read_unread, harg4.read_unread]
  rw [hS, harg5.read_unread]

end Cert.KernelIdeal.Hand

end
-- ==== Proof.KI.PiecesC.lean ====
/-
  A later key tile below the diagonal: what the sixteen heads store into the three accumulators is, head by head,
  the online-softmax update of the head's columns.
-/
import proofs.«178927_j55791625175600_2_alg».proof.Proof.KI.RunC
import proofs.«178927_j55791625175600_2_alg».proof.Proof.KI.Spec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

set_option maxHeartbeats 4000000 in
theorem piecesM_C (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc1 : ¬cond1 i) (hc2 : cond2 i) (hc3 : ¬cond3 i) (hc4 : ¬cond4 i) (x0 x1 x2 : Vec F S1x512x1024 .f32) (xs0 xs1 : Vec F S512x16 .f32) (xs2 : Vec F S512x1024 .f32) :
    (kernelRun_C c i arg3 harg3 arg4 harg4 arg5 harg5 arg6 harg6 arg7 harg7 arg8 harg8 arg9 harg9 hc1 hc2 hc3 hc4 x0 x1 x2 xs0 xs1 xs2).1 = List.ofFn (fun k : Fin 16 => pieceM (sOff x0 x1) (fun h => View.ld xs0 (rM h)) k.rev) := by
  unfold kernelRun_C
  dsimp only
  sl_unfold_words
  simp only [View.readAt_eq_ld, harg3.read_unread, harg4.read_unread, harg5.read_unread, harg7.read_unread, harg8.read_unread, harg9.read_unread]
  rfl

set_option maxHeartbeats 4000000 in
theorem piecesL_C (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc1 : ¬cond1 i) (hc2 : cond2 i) (hc3 : ¬cond3 i) (hc4 : ¬cond4 i) (x0 x1 x2 : Vec F S1x512x1024 .f32) (xs0 xs1 : Vec F S512x16 .f32) (xs2 : Vec F S512x1024 .f32) :
    (kernelRun_C c i arg3 harg3 arg4 harg4 arg5 harg5 arg6 harg6 arg7 harg7 arg8 harg8 arg9 harg9 hc1 hc2 hc3 hc4 x0 x1 x2 xs0 xs1 xs2).2.1 = List.ofFn (fun k : Fin 16 => pieceL (sOff x0 x1) (fun h => View.ld xs0 (rM h)) (fun h => View.ld xs1 (rM h)) k.rev) := by
  unfold kernelRun_C
  dsimp only
  sl_unfold_words
  simp only [View.readAt_eq_ld, harg3.read_unread, harg4.read_unread, harg5.read_unread, harg7.read_unread, harg8.read_unread, harg9.read_unread]
  rfl

set_option maxHeartbeats 4000000 in
theorem piecesA_C (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc1 : ¬cond1 i) (hc2 : cond2 i) (hc3 : ¬cond3 i) (hc4 : ¬cond4 i) (x0 x1 x2 : Vec F S1x512x1024 .f32) (xs0 xs1 : Vec F S512x16 .f32) (xs2 : Vec F S512x1024 .f32) :
    (kernelRun_C c i arg3 harg3 arg4 harg4 arg5 harg5 arg6 harg6 arg7 harg7 arg8 harg8 arg9 harg9 hc1 hc2 hc3 hc4 x0 x1 x2 xs0 xs1 xs2).2.2.1 = List.ofFn (fun k : Fin 16 => pieceA (sOff x0 x1) (fun h => View.ld xs0 (rM h)) x2 (fun h => View.ld xs2 (rA h)) k.rev) := by
  unfold kernelRun_C
  dsimp only
  sl_unfold_words
  simp only [View.readAt_eq_ld, harg3.read_unread, harg4.read_unread, harg5.read_unread, harg7.read_unread, harg8.read_unread, harg9.read_unread]
  rfl

end Cert.KernelIdeal.Hand

end
-- ==== Proof.KI.PiecesD.lean ====
/-
  A diagonal key tile: the sixteen heads' updates under the causal mask.
-/
import proofs.«178927_j55791625175600_2_alg».proof.Proof.KI.RunD
import proofs.«178927_j55791625175600_2_alg».proof.Proof.KI.Spec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

set_option maxHeartbeats 4000000 in
theorem piecesM_D (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc1 : ¬cond1 i) (hc2 : ¬cond2 i) (hc3 : cond3 i) (hc4 : ¬cond4 i) (x0 x1 x2 : Vec F S1x512x1024 .f32) (xs0 xs1 : Vec F S512x16 .f32) (xs2 : Vec F S512x1024 .f32) :
    (kernelRun_D c i arg3 harg3 arg4 harg4 arg5 harg5 arg6 harg6 arg7 harg7 arg8 harg8 arg9 harg9 hc1 hc2 hc3 hc4 x0 x1 x2 xs0 xs1 xs2).1 = List.ofFn (fun k : Fin 16 => pieceM (sDiag (BitVec.ofNat 32 (i 1).val) (BitVec.ofNat 32 (i 2).val) x0 x1) (fun h => View.ld xs0 (rM h)) k.rev) := by
  unfold kernelRun_D
  dsimp only
  sl_unfold_words
  simp only [View.readAt_eq_ld, harg3.read_unread, harg4.read_unread, harg5.read_unread, harg7.read_unread, harg8.read_unread, harg9.read_unread]
  rfl

set_option maxHeartbeats 4000000 in
theorem piecesL_D (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc1 : ¬cond1 i) (hc2 : ¬cond2 i) (hc3 : cond3 i) (hc4 : ¬cond4 i) (x0 x1 x2 : Vec F S1x512x1024 .f32) (xs0 xs1 : Vec F S512x16 .f32) (xs2 : Vec F S512x1024 .f32) :
    (kernelRun_D c i arg3 harg3 arg4 harg4 arg5 harg5 arg6 harg6 arg7 harg7 arg8 harg8 arg9 harg9 hc1 hc2 hc3 hc4 x0 x1 x2 xs0 xs1 xs2).2.1 = List.ofFn (fun k : Fin 16 => pieceL (sDiag (BitVec.ofNat 32 (i 1).val) (BitVec.ofNat 32 (i 2).val) x0 x1) (fun h => View.ld xs0 (rM h)) (fun h => View.ld xs1 (rM h)) k.rev) := by
  unfold kernelRun_D
  dsimp only
  sl_unfold_words
  simp only [View.readAt_eq_ld, harg3.read_unread, harg4.read_unread, harg5.read_unread, harg7.read_unread, harg8.read_unread, harg9.read_unread]
  rfl

set_option maxHeartbeats 4000000 in
theorem piecesA_D (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc1 : ¬cond1 i) (hc2 : ¬cond2 i) (hc3 : cond3 i) (hc4 : ¬cond4 i) (x0 x1 x2 : Vec F S1x512x1024 .f32) (xs0 xs1 : Vec F S512x16 .f32) (xs2 : Vec F S512x1024 .f32) :
    (kernelRun_D c i arg3 harg3 arg4 harg4 arg5 harg5 arg6 harg6 arg7 harg7 arg8 harg8 arg9 harg9 hc1 hc2 hc3 hc4 x0 x1 x2 xs0 xs1 xs2).2.2.1 = List.ofFn (fun k : Fin 16 => pieceA (sDiag (BitVec.ofNat 32 (i 1).val) (BitVec.ofNat 32 (i 2).val) x0 x1) (fun h => View.ld xs0 (rM h)) x2 (fun h => View.ld xs2 (rA h)) k.rev) := by
  unfold kernelRun_D
  dsimp only
  sl_unfold_words
  simp only [View.readAt_eq_ld, harg3.read_unread, harg4.read_unread, harg5.read_unread, harg7.read_unread, harg8.read_unread, harg9.read_unread]
  rfl

end Cert.KernelIdeal.Hand

end
-- ==== Proof.KI.PiecesE.lean ====
/-
  The last key tile on the diagonal: the masked updates, then each head's result from the denominator and
  numerator columns the heads have just stored.
-/
import proofs.«178927_j55791625175600_2_alg».proof.Proof.KI.RunE
import proofs.«178927_j55791625175600_2_alg».proof.Proof.KI.Spec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

set_option maxHeartbeats 4000000 in
theorem piecesM_E (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc1 : ¬cond1 i) (hc2 : ¬cond2 i) (hc3 : cond3 i) (hc4 : cond4 i) (x0 x1 x2 : Vec F S1x512x1024 .f32) (xs0 xs1 : Vec F S512x16 .f32) (xs2 : Vec F S512x1024 .f32) :
    (kernelRun_E c i arg3 harg3 arg4 harg4 arg5 harg5 arg6 harg6 arg7 harg7 arg8 harg8 arg9 harg9 hc1 hc2 hc3 hc4 x0 x1 x2 xs0 xs1 xs2).2.1 = List.ofFn (fun k : Fin 16 => pieceM (sDiag (BitVec.ofNat 32 (i 1).val) (BitVec.ofNat 32 (i 2).val) x0 x1) (fun h => View.ld xs0 (rM h)) k.rev) := by
  unfold kernelRun_E
  dsimp only
  sl_unfold_words
  simp only [View.readAt_eq_ld, harg3.read_unread, harg4.read_unread, harg5.read_unread, harg7.read_unread, harg8.read_unread, harg9.read_unread]
  rfl

set_option maxHeartbeats 4000000 in
theorem piecesL_E (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc1 : ¬cond1 i) (hc2 : ¬cond2 i) (hc3 : cond3 i) (hc4 : cond4 i) (x0 x1 x2 : Vec F S1x512x1024 .f32) (xs0 xs1 : Vec F S512x16 .f32) (xs2 : Vec F S512x1024 .f32) :
    (kernelRun_E c i arg3 harg3 arg4 harg4 arg5 harg5 arg6 harg6 arg7 harg7 arg8 harg8 arg9 harg9 hc1 hc2 hc3 hc4 x0 x1 x2 xs0 xs1 xs2).2.2.1 = List.ofFn (fun k : Fin 16 => pieceL (sDiag (BitVec.ofNat 32 (i 1).val) (BitVec.ofNat 32 (i 2).val) x0 x1) (fun h => View.ld xs0 (rM h)) (fun h => View.ld xs1 (rM h)) k.rev) := by
  unfold kernelRun_E
  dsimp only
  sl_unfold_words
  simp only [View.readAt_eq_ld, harg3.read_unread, harg4.read_unread, harg5.read_unread, harg7.read_unread, harg8.read_unread, harg9.read_unread]
  rfl

set_option maxHeartbeats 4000000 in
theorem piecesA_E (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc1 : ¬cond1 i) (hc2 : ¬cond2 i) (hc3 : cond3 i) (hc4 : cond4 i) (x0 x1 x2 : Vec F S1x512x1024 .f32) (xs0 xs1 : Vec F S512x16 .f32) (xs2 : Vec F S512x1024 .f32) :
    (kernelRun_E c i arg3 harg3 arg4 harg4 arg5 harg5 arg6 harg6 arg7 harg7 arg8 harg8 arg9 harg9 hc1 hc2 hc3 hc4 x0 x1 x2 xs0 xs1 xs2).2.2.2.1 = List.ofFn (fun k : Fin 16 => pieceA (sDiag (BitVec.ofNat 32 (i 1).val) (BitVec.ofNat 32 (i 2).val) x0 x1) (fun h => View.ld xs0 (rM h)) x2 (fun h => View.ld xs2 (rA h)) k.rev) := by
  unfold kernelRun_E
  dsimp only
  sl_unfold_words
  simp only [View.readAt_eq_ld, harg3.read_unread, harg4.read_unread, harg5.read_unread, harg7.read_unread, harg8.read_unread, harg9.read_unread]
  rfl

set_option maxHeartbeats 4000000 in
theorem piecesO_E (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc1 : ¬cond1 i) (hc2 : ¬cond2 i) (hc3 : cond3 i) (hc4 : cond4 i) (x0 x1 x2 : Vec F S1x512x1024 .f32) (xs0 xs1 : Vec F S512x16 .f32) (xs2 : Vec F S512x1024 .f32) :
    (kernelRun_E c i arg3 harg3 arg4 harg4 arg5 harg5 arg6 harg6 arg7 harg7 arg8 harg8 arg9 harg9 hc1 hc2 hc3 hc4 x0 x1 x2 xs0 xs1 xs2).1 = List.ofFn (fun k : Fin 16 => pieceO (fun h => arg8.view.readCov (List.ofFn (fun k : Fin 16 => pieceL (sDiag (BitVec.ofNat 32 (i 1).val) (BitVec.ofNat 32 (i 2).val) x0 x1) (fun h => View.ld xs0 (rM h)) (fun h => View.ld xs1 (rM h)) k.rev)) (rM h).toLoadRect) (fun h => arg9.view.readCov (List.ofFn (fun k : Fin 16 => pieceA (sDiag (BitVec.ofNat 32 (i 1).val) (BitVec.ofNat 32 (i 2).val) x0 x1) (fun h => View.ld xs0 (rM h)) x2 (fun h => View.ld xs2 (rA h)) k.rev)) (rA h).toLoadRect) k.rev) := by
  unfold kernelRun_E
  dsimp only
  sl_unfold_words
  simp only [View.readAt_eq_ld, harg3.read_unread, harg4.read_unread, harg5.read_unread, harg7.read_unread, harg8.read_unread, harg9.read_unread]
  rfl

end Cert.KernelIdeal.Hand

end
-- ==== Proof.KI.PiecesH.lean ====
/-
  The last key tile above the diagonal: each head's result from the accumulators as the point before left them.
-/
import proofs.«178927_j55791625175600_2_alg».proof.Proof.KI.RunH
import proofs.«178927_j55791625175600_2_alg».proof.Proof.KI.Spec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

set_option maxHeartbeats 4000000 in
theorem piecesO_H (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc1 : ¬cond1 i) (hc2 : ¬cond2 i) (hc3 : ¬cond3 i) (hc4 : cond4 i) (x0 x1 x2 : Vec F S1x512x1024 .f32) (xs0 xs1 : Vec F S512x16 .f32) (xs2 : Vec F S512x1024 .f32) :
    (kernelRun_H c i arg3 harg3 arg4 harg4 arg5 harg5 arg6 harg6 arg7 harg7 arg8 harg8 arg9 harg9 hc1 hc2 hc3 hc4 x0 x1 x2 xs0 xs1 xs2).1 = List.ofFn (fun k : Fin 16 => pieceO (fun h => View.ld xs1 (rM h)) (fun h => View.ld xs2 (rA h)) k.rev) := by
  unfold kernelRun_H
  dsimp only
  sl_unfold_words
  simp only [View.readAt_eq_ld, harg3.read_unread, harg4.read_unread, harg5.read_unread, harg7.read_unread, harg8.read_unread, harg9.read_unread]
  rfl

end Cert.KernelIdeal.Hand

end
-- ==== Proof.LibCanon.lean ====
/-
  Reading back a buffer that was filled piece by piece.

  A list of writes (latest first) leaves, at an index, the payload of the first piece whose rectangle holds the
  index. When the pieces' rectangles are pairwise disjoint the order does not matter: an index of piece p's
  rectangle reads p's payload. When no piece of a first stretch holds the index, the stretch is skipped.
  For a family of pieces P 0 … P (n-1) listed latest first (P (n-1) at the head), on pairwise disjoint
  rectangles: the canonical contents at an index of P h's rectangle are P h's payload there.
-/
import Idealize.ShloMosaic.Lib.Pipeline.FrameBody

noncomputable section

namespace Idealize.ShloMosaic.View

variable {s : Shape} {e : EltTy} {Val : EltTy → Type} [∀ e, Nonempty (Val e)]

/-- A rectangle's own indices lie in it. -/
theorem rect_emb_mem_set (r : Rect s) (x : r.shape.Idx) : r.emb x ∈ r.set := by
  rw [← Rect.map_emb_univ]; exact Finset.mem_map_of_mem _ (Finset.mem_univ _)

/-- Among pieces on rectangles disjoint from `r`'s (other than the piece itself), an index of `r` reads the
    piece's payload, whatever follows in the list. -/
theorem canon_append_of_mem (L L' : List (Piece Val s e)) (r : Rect s) (w : r.shape.Idx → Val e)
    (hp : (⟨r, w⟩ : Piece Val s e) ∈ L)
    (hd : ∀ q ∈ L, q ≠ (⟨r, w⟩ : Piece Val s e) → Disjoint q.1.set r.set) (x : r.shape.Idx) :
    canon (L ++ L') (r.emb x) = w x := by
  induction L with
  | nil => exact absurd hp List.not_mem_nil
  | cons q L ih =>
    by_cases hq : q = (⟨r, w⟩ : Piece Val s e)
    · rw [hq, List.cons_append]; exact canon_cons_emb r w _ x
    · have hm : (⟨r, w⟩ : Piece Val s e) ∈ L := by
        rcases List.mem_cons.mp hp with h | h
        · exact absurd h.symm hq
        · exact h
      have hnot : r.emb x ∉ q.1.set := fun hin =>
        (Finset.disjoint_left.mp (hd q List.mem_cons_self hq)) hin (rect_emb_mem_set r x)
      rw [List.cons_append, canon_cons_of_not_mem q _ hnot]
      exact ih hm (fun q' hq' hne => hd q' (List.mem_cons_of_mem _ hq') hne)

/-- An index no piece of the first stretch holds reads what follows it. -/
theorem canon_append_of_not_mem (L L' : List (Piece Val s e)) (y : s.Idx) (h : ∀ q ∈ L, y ∉ q.1.set) :
    canon (L ++ L') y = canon L' y := by
  induction L with
  | nil => rfl
  | cons q L ih =>
    rw [List.cons_append, canon_cons_of_not_mem q _ (h q List.mem_cons_self)]
    exact ih (fun q' hq' => h q' (List.mem_cons_of_mem _ hq'))

/-- A family of pieces on pairwise disjoint rectangles, listed latest first: an index of piece `h`'s rectangle
    reads piece `h`'s payload. -/
theorem canon_ofFn_rev {n : ℕ} (P : Fin n → Piece Val s e)
    (hd : ∀ i j, i ≠ j → Disjoint (P i).1.set (P j).1.set) (L' : List (Piece Val s e)) (h : Fin n)
    (x : (P h).1.shape.Idx) :
    canon (List.ofFn (fun k : Fin n => P k.rev) ++ L') ((P h).1.emb x) = (P h).2 x := by
  refine canon_append_of_mem _ L' (P h).1 (P h).2 ?_ ?_ x
  · rw [List.mem_ofFn]; exact ⟨h.rev, by simp only [Fin.rev_rev]⟩
  · intro q hq hne
    rw [List.mem_ofFn] at hq
    obtain ⟨k, rfl⟩ := hq
    have hk : k.rev ≠ h := fun hk => hne (by rw [hk])
    exact hd _ _ hk

/-- The same with nothing after the family. -/
theorem canon_ofFn_rev' {n : ℕ} (P : Fin n → Piece Val s e)
    (hd : ∀ i j, i ≠ j → Disjoint (P i).1.set (P j).1.set) (h : Fin n) (x : (P h).1.shape.Idx) :
    canon (List.ofFn (fun k : Fin n => P k.rev)) ((P h).1.emb x) = (P h).2 x := by
  have := canon_ofFn_rev P hd [] h x
  rwa [List.append_nil] at this

end Idealize.ShloMosaic.View

end
-- ==== Proof.KI.Upd.lean ====
/-
  One key tile's update of the three accumulators as functions on whole arrays: the entry at (row, head) of the
  running maximum and denominator, and at (row, 64·head + d) of the running numerator, is head `head`'s update
  of the head's own columns, read at the row. And the result block from the denominator and numerator.
-/
import proofs.«178927_j55791625175600_2_alg».proof.Proof.KI.First
import proofs.«178927_j55791625175600_2_alg».proof.Proof.LibCanon
import Idealize.ShloMosaic.Lib.ValueIdx
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.ValueIdx

variable {F : FTy → Type} [FloatOps F] [Named F]

/-! ## Coordinates -/

/-- The head of an entry of the running maximum / denominator: its column. -/
abbrev colM (y : S512x16.Idx) : Fin 16 := ⟨(y 1).val, (y 1).isLt⟩
/-- Its row, as an index of one column. -/
abbrev rowM (y : S512x16.Idx) : S512x1.Idx := ix2 (⟨(y 0).val, (y 0).isLt⟩ : Fin 512) (0 : Fin 1)
theorem emb_rowM (y : S512x16.Idx) : (rM (colM y)).emb (rowM y) = y := by
  funext a; apply Fin.ext; fin_cases a <;> simp [Rect.emb_apply, ix2]

/-- The head of an entry of the running numerator: its column block of 64. -/
abbrev colA (y : S512x1024.Idx) : Fin 16 := ⟨(y 1).val / 64, by have := (y 1).isLt; simp at this; omega⟩
/-- Its row and column inside the block. -/
abbrev rowA (y : S512x1024.Idx) : S512x64.Idx := ix2 (⟨(y 0).val, (y 0).isLt⟩ : Fin 512) (⟨(y 1).val % 64, Nat.mod_lt _ (by decide)⟩ : Fin 64)
theorem emb_rowA (y : S512x1024.Idx) : (rA (colA y)).emb (rowA y) = y := by
  funext a; apply Fin.ext; fin_cases a <;> simp [Rect.emb_apply, ix2, Nat.div_add_mod]

/-- The head of an entry of a staged block. -/
abbrev colQ (y : S1x512x1024.Idx) : Fin 16 := ⟨(y 2).val / 64, by have := (y 2).isLt; simp at this; omega⟩
abbrev rowQ (y : S1x512x1024.Idx) : S1x512x64.Idx := ix3 (0 : Fin 1) (⟨(y 1).val, (y 1).isLt⟩ : Fin 512) (⟨(y 2).val % 64, Nat.mod_lt _ (by decide)⟩ : Fin 64)
theorem emb_rowQ (y : S1x512x1024.Idx) : (rQ (colQ y)).emb (rowQ y) = y := by
  funext a; apply Fin.ext
  have h0 : (y 0).val = 0 := by have := (y 0).isLt; simp at this; omega
  fin_cases a <;> simp [Rect.emb_apply, ix3, Nat.div_add_mod, h0]

/-! ## Different heads own disjoint columns -/

theorem rM_disjoint (i j : Fin 16) (h : i ≠ j) : Disjoint (rM i).set (rM j).set :=
  Rect.unit_disjoint 1 (by have := Fin.val_ne_of_ne h; simp; omega)
theorem rA_disjoint (i j : Fin 16) (h : i ≠ j) : Disjoint (rA i).set (rA j).set :=
  Rect.unit_disjoint 1 (by have := Fin.val_ne_of_ne h; simp; omega)
theorem rQ_disjoint (i j : Fin 16) (h : i ≠ j) : Disjoint (rQ i).set (rQ j).set :=
  Rect.unit_disjoint 2 (by have := Fin.val_ne_of_ne h; simp; omega)

/-! ## The update on whole arrays -/

def updM (S : Fin 16 → FVec F S512x512 .f32) (M : Vec F S512x16 .f32) : Vec F S512x16 .f32 :=
  fun y => mNew (S (colM y)) (View.ld M (rM (colM y))) (rowM y)
def updL (S : Fin 16 → FVec F S512x512 .f32) (M L : Vec F S512x16 .f32) : Vec F S512x16 .f32 :=
  fun y => lNew (S (colM y)) (View.ld M (rM (colM y))) (View.ld L (rM (colM y))) (rowM y)
def updA (S : Fin 16 → FVec F S512x512 .f32) (M : Vec F S512x16 .f32) (x2 : Vec F S1x512x1024 .f32) (A : Vec F S512x1024 .f32) : Vec F S512x1024 .f32 :=
  fun y => accNew (S (colA y)) (View.ld M (rM (colA y))) (View.ld x2 (rQ (colA y))) (View.ld A (rA (colA y))) (rowA y)
def outO (L : Vec F S512x16 .f32) (A : Vec F S512x1024 .f32) : Vec F S1x512x1024 .f32 :=
  fun y => outNew (View.ld L (rM (colQ y))) (View.ld A (rA (colQ y))) (rowQ y)

/-! ## A list of the sixteen heads' stores, read back -/

theorem canon_piecesM (S : Fin 16 → FVec F S512x512 .f32) (M : Vec F S512x16 .f32) :
    View.canon (List.ofFn (fun k : Fin 16 => pieceM S (fun h => View.ld M (rM h)) k.rev)) = updM S M := by
  funext y
  conv_lhs => rw [← emb_rowM y]
  refine (View.canon_ofFn_rev' (pieceM S (fun h => View.ld M (rM h))) (fun i j h => rM_disjoint i j h) (colM y) (rowM y)).trans ?_
  show shapeCast S512x1 (mNew (S (colM y)) (View.ld M (rM (colM y)))) shapeCasts_S512x1_S512x1 (rowM y) = _
  rw [shapeCast_self]; rfl

theorem canon_piecesL (S : Fin 16 → FVec F S512x512 .f32) (M L : Vec F S512x16 .f32) :
    View.canon (List.ofFn (fun k : Fin 16 => pieceL S (fun h => View.ld M (rM h)) (fun h => View.ld L (rM h)) k.rev)) = updL S M L := by
  funext y
  conv_lhs => rw [← emb_rowM y]
  refine (View.canon_ofFn_rev' (pieceL S (fun h => View.ld M (rM h)) (fun h => View.ld L (rM h))) (fun i j h => rM_disjoint i j h) (colM y) (rowM y)).trans ?_
  show shapeCast S512x1 (lNew (S (colM y)) (View.ld M (rM (colM y))) (View.ld L (rM (colM y)))) shapeCasts_S512x1_S512x1 (rowM y) = _
  rw [shapeCast_self]; rfl

theorem canon_piecesA (S : Fin 16 → FVec F S512x512 .f32) (M : Vec F S512x16 .f32) (x2 : Vec F S1x512x1024 .f32) (A : Vec F S512x1024 .f32) :
    View.canon (List.ofFn (fun k : Fin 16 => pieceA S (fun h => View.ld M (rM h)) x2 (fun h => View.ld A (rA h)) k.rev)) = updA S M x2 A := by
  funext y
  conv_lhs => rw [← emb_rowA y]
  refine (View.canon_ofFn_rev' (pieceA S (fun h => View.ld M (rM h)) x2 (fun h => View.ld A (rA h))) (fun i j h => rA_disjoint i j h) (colA y) (rowA y)).trans ?_
  show shapeCast S512x64 (accNew (S (colA y)) (View.ld M (rM (colA y))) (View.ld x2 (rQ (colA y))) (View.ld A (rA (colA y)))) shapeCasts_S512x64_S512x64 (rowA y) = _
  rw [shapeCast_self]; rfl

theorem canon_piecesO (L : Vec F S512x16 .f32) (A : Vec F S512x1024 .f32) :
    View.canon (List.ofFn (fun k : Fin 16 => pieceO (fun h => View.ld L (rM h)) (fun h => View.ld A (rA h)) k.rev)) = outO L A := by
  funext y
  conv_lhs => rw [← emb_rowQ y]
  exact View.canon_ofFn_rev' (pieceO (fun h => View.ld L (rM h)) (fun h => View.ld A (rA h))) (fun i j h => rQ_disjoint i j h) (colQ y) (rowQ y)

end Cert.KernelIdeal.Hand

end
-- ==== Proof.KI.FirstRead.lean ====
/-
  The first key tile read back. While heads 0 … n-1 have stored, the columns of a head h ≥ n still hold the
  fills; so head n's loads read the fills, and after all sixteen heads the accumulators are the one-tile
  update of the fill arrays.
-/
import proofs.«178927_j55791625175600_2_alg».proof.Proof.KI.Upd

noncomputable section

namespace Cert.KernelIdeal.Hand

open Cert.KernelIdeal Cert.KernelIdeal.Gen
open Idealize.ShloMosaic Idealize.ShloMosaic.TcCoe Idealize.ShloMosaic.ValueIdx

variable {F : FTy → Type} [FloatOps F] [Named F]

variable (vM vL : View sig .tc .vmem S512x16 .f32) (vA : View sig .tc .vmem S512x1024 .f32)
variable (S : Fin 16 → FVec F S512x512 .f32) (x2 : Vec F S1x512x1024 .f32)

/-- The fill arrays. -/
abbrev fillM : Vec F S512x16 .f32 := k0_pay1
abbrev fillL : Vec F S512x16 .f32 := k0_pay2
abbrev fillA : Vec F S512x1024 .f32 := k0_pay3

theorem hz2 : (![0, 0] : Fin 2 → Nat) = fun _ => 0 := by funext a; fin_cases a <;> rfl
theorem canon_initM (y : S512x16.Idx) : View.canon [(initM : View.Piece (Elt F) S512x16 .f32)] y = fillM y := by
  unfold initM; rw [View.canon_unit_zero hz2]
theorem canon_initL (y : S512x16.Idx) : View.canon [(initL : View.Piece (Elt F) S512x16 .f32)] y = fillL y := by
  unfold initL; rw [View.canon_unit_zero hz2]
theorem canon_initA (y : S512x1024.Idx) : View.canon [(initA : View.Piece (Elt F) S512x1024 .f32)] y = fillA y := by
  unfold initA; rw [View.canon_unit_zero hz2]

theorem not_mem_rM {n : ℕ} (hn : n < 16) (h : Fin 16) (hne : h.val ≠ n) (x : (rM h).shape.Idx) : (rM h).emb x ∉ (rM ⟨n, hn⟩).set :=
  fun hin => (Finset.disjoint_left.mp (rM_disjoint ⟨n, hn⟩ h (fun e => hne (by rw [← e])))) hin (View.rect_emb_mem_set _ x)
theorem not_mem_rA {n : ℕ} (hn : n < 16) (h : Fin 16) (hne : h.val ≠ n) (x : (rA h).shape.Idx) : (rA h).emb x ∉ (rA ⟨n, hn⟩).set :=
  fun hin => (Finset.disjoint_left.mp (rA_disjoint ⟨n, hn⟩ h (fun e => hne (by rw [← e])))) hin (View.rect_emb_mem_set _ x)

/-! ## The running maximum -/

theorem firstM_fill : ∀ n, n ≤ 16 → ∀ h : Fin 16, n ≤ h.val → ∀ x : (rM h).shape.Idx,
    View.canon (firstM vM S n) ((rM h).emb x) = fillM ((rM h).emb x)
  | 0, _, h, _, x => by unfold firstM; exact canon_initM _
  | n + 1, hn, h, hh, x => by
    have hn' : n < 16 := by omega
    unfold firstM; rw [dif_pos hn']
    rw [View.canon_cons_of_not_mem _ _ (by unfold pieceM; exact not_mem_rM hn' h (by omega) x)]
    exact firstM_fill n (by omega) h (by omega) x

theorem readCov_firstM (h : Fin 16) : vM.readCov (firstM vM S h.val) (rM h).toLoadRect = View.ld fillM (rM h) := by
  rw [View.readCov_eq_canon']
  funext j
  exact firstM_fill vM S h.val (by have := h.isLt; omega) h le_rfl j

theorem firstM_done : ∀ n, n ≤ 16 → ∀ h : Fin 16, h.val < n → ∀ x : (rM h).shape.Idx,
    View.canon (firstM vM S n) ((rM h).emb x) = mNew (S h) (View.ld fillM (rM h)) x
  | 0, _, h, hh, x => absurd hh (Nat.not_lt_zero _)
  | n + 1, hn, h, hh, x => by
    have hn' : n < 16 := by omega
    unfold firstM; rw [dif_pos hn']
    by_cases e : h.val = n
    · obtain rfl : h = ⟨n, hn'⟩ := Fin.ext e
      unfold pieceM
      rw [View.canon_cons_emb, shapeCast_self, readCov_firstM vM S ⟨n, hn'⟩]
    · rw [View.canon_cons_of_not_mem _ _ (by unfold pieceM; exact not_mem_rM hn' h e x)]
      exact firstM_done n (by omega) h (by omega) x

theorem canon_firstM : View.canon (firstM vM S 16) = updM S fillM := by
  funext y
  conv_lhs => rw [← emb_rowM y]
  exact firstM_done vM S 16 le_rfl (colM y) (colM y).isLt (rowM y)

/-! ## The running denominator -/

theorem firstL_fill : ∀ n, n ≤ 16 → ∀ h : Fin 16, n ≤ h.val → ∀ x : (rM h).shape.Idx,
    View.canon (firstL vM vL S n) ((rM h).emb x) = fillL ((rM h).emb x)
  | 0, _, h, _, x => by unfold firstL; exact canon_initL _
  | n + 1, hn, h, hh, x => by
    have hn' : n < 16 := by omega
    unfold firstL; rw [dif_pos hn']
    rw [View.canon_cons_of_not_mem _ _ (by unfold pieceL; exact not_mem_rM hn' h (by omega) x)]
    exact firstL_fill n (by omega) h (by omega) x

theorem readCov_firstL (h : Fin 16) : vL.readCov (firstL vM vL S h.val) (rM h).toLoadRect = View.ld fillL (rM h) := by
  rw [View.readCov_eq_canon']
  funext j
  exact firstL_fill vM vL S h.val (by have := h.isLt; omega) h le_rfl j

theorem firstL_done : ∀ n, n ≤ 16 → ∀ h : Fin 16, h.val < n → ∀ x : (rM h).shape.Idx,
    View.canon (firstL vM vL S n) ((rM h).emb x) = lNew (S h) (View.ld fillM (rM h)) (View.ld fillL (rM h)) x
  | 0, _, h, hh, x => absurd hh (Nat.not_lt_zero _)
  | n + 1, hn, h, hh, x => by
    have hn' : n < 16 := by omega
    unfold firstL; rw [dif_pos hn']
    by_cases e : h.val = n
    · obtain rfl : h = ⟨n, hn'⟩ := Fin.ext e
      unfold pieceL
      rw [View.canon_cons_emb, shapeCast_self, readCov_firstM vM S ⟨n, hn'⟩, readCov_firstL vM vL S ⟨n, hn'⟩]
    · rw [View.canon_cons_of_not_mem _ _ (by unfold pieceL; exact not_mem_rM hn' h e x)]
      exact firstL_done n (by omega) h (by omega) x

theorem canon_firstL : View.canon (firstL vM vL S 16) = updL S fillM fillL := by
  funext y
  conv_lhs => rw [← emb_rowM y]
  exact firstL_done vM vL S 16 le_rfl (colM y) (colM y).isLt (rowM y)

/-! ## The running numerator -/

theorem firstA_fill : ∀ n, n ≤ 16 → ∀ h : Fin 16, n ≤ h.val → ∀ x : (rA h).shape.Idx,
    View.canon (firstA vM vA S x2 n) ((rA h).emb x) = fillA ((rA h).emb x)
  | 0, _, h, _, x => by unfold firstA; exact canon_initA _
  | n + 1, hn, h, hh, x => by
    have hn' : n < 16 := by omega
    unfold firstA; rw [dif_pos hn']
    rw [View.canon_cons_of_not_mem _ _ (by unfold pieceA; exact not_mem_rA hn' h (by omega) x)]
    exact firstA_fill n (by omega) h (by omega) x

theorem readCov_firstA (h : Fin 16) : vA.readCov (firstA vM vA S x2 h.val) (rA h).toLoadRect = View.ld fillA (rA h) := by
  rw [View.readCov_eq_canon']
  funext j
  exact firstA_fill vM vA S x2 h.val (by have := h.isLt; omega) h le_rfl j

theorem firstA_done : ∀ n, n ≤ 16 → ∀ h : Fin 16, h.val < n → ∀ x : (rA h).shape.Idx,
    View.canon (firstA vM vA S x2 n) ((rA h).emb x) = accNew (S h) (View.ld fillM (rM h)) (View.ld x2 (rQ h)) (View.ld fillA (rA h)) x
  | 0, _, h, hh, x => absurd hh (Nat.not_lt_zero _)
  | n + 1, hn, h, hh, x => by
    have hn' : n < 16 := by omega
    unfold firstA; rw [dif_pos hn']
    by_cases e : h.val = n
    · obtain rfl : h = ⟨n, hn'⟩ := Fin.ext e
      unfold pieceA
      rw [View.canon_cons_emb, shapeCast_self, readCov_firstM vM S ⟨n, hn'⟩, readCov_firstA vM vA S x2 ⟨n, hn'⟩]
    · rw [View.canon_cons_of_not_mem _ _ (by unfold pieceA; exact not_mem_rA hn' h e x)]
      exact firstA_done n (by omega) h (by omega) x

theorem canon_firstA : View.canon (firstA vM vA S x2 16) = updA S fillM x2 fillA := by
  funext y
  conv_lhs => rw [← emb_rowA y]
  exact firstA_done vM vA S x2 16 le_rfl (colA y) (colA y).isLt (rowA y)

end Cert.KernelIdeal.Hand

end
-- ==== Proof.KI.Read.lean ====
/-
  What each kind of grid point leaves, as one key tile's update of what it found: the kinds that reset first
  update the fills; the kinds that process a tile update what the point before left; the others leave it; and on
  the last key tile the result block is the numerator over the denominator as they then stand.
-/
import proofs.«178927_j55791625175600_2_alg».proof.Proof.KI.Frame
import proofs.«178927_j55791625175600_2_alg».proof.Proof.KI.PiecesA
import proofs.«178927_j55791625175600_2_alg».proof.Proof.KI.PiecesB
import proofs.«178927_j55791625175600_2_alg».proof.Proof.KI.PiecesC
import proofs.«178927_j55791625175600_2_alg».proof.Proof.KI.PiecesD
import proofs.«178927_j55791625175600_2_alg».proof.Proof.KI.PiecesE
import proofs.«178927_j55791625175600_2_alg».proof.Proof.KI.PiecesH
import proofs.«178927_j55791625175600_2_alg».proof.Proof.KI.FirstRead

noncomputable section

namespace Cert.KernelIdeal.Hand

open Cert.KernelIdeal Cert.KernelIdeal.Gen
open Idealize.ShloMosaic Idealize.ShloMosaic.TcCoe Idealize.ShloMosaic.ValueIdx

variable {F : FTy → Type} [FloatOps F] [Named F]

theorem compM_A (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc1 : cond1 i) (hc2 : ¬cond2 i) (hc3 : cond3 i) (hc4 : ¬cond4 i) (x0 x1 x2 : Vec F S1x512x1024 .f32) :
    VM.read (Elt F) (VM.writes (Elt F) VM.junk (kernelRun_A c i arg3 harg3 arg4 harg4 arg5 harg5 arg6 harg6 arg7 harg7 arg8 harg8 arg9 harg9 hc1 hc2 hc3 hc4 x0 x1 x2).1) = updM (sDiag (BitVec.ofNat 32 (i 1).val) (BitVec.ofNat 32 (i 2).val) x0 x1) fillM :=
  (View.read_writes_junk_eq_canon (Val := Elt F) VM _).trans ((congrArg View.canon (piecesM_A c i arg3 harg3 arg4 harg4 arg5 harg5 arg6 harg6 arg7 harg7 arg8 harg8 arg9 harg9 hc1 hc2 hc3 hc4 x0 x1 x2)).trans (canon_firstM arg7.view (sDiag (BitVec.ofNat 32 (i 1).val) (BitVec.ofNat 32 (i 2).val) x0 x1)))

theorem compL_A (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc1 : cond1 i) (hc2 : ¬cond2 i) (hc3 : cond3 i) (hc4 : ¬cond4 i) (x0 x1 x2 : Vec F S1x512x1024 .f32) :
    VL.read (Elt F) (VL.writes (Elt F) VL.junk (kernelRun_A c i arg3 harg3 arg4 harg4 arg5 harg5 arg6 harg6 arg7 harg7 arg8 harg8 arg9 harg9 hc1 hc2 hc3 hc4 x0 x1 x2).2.1) = updL (sDiag (BitVec.ofNat 32 (i 1).val) (BitVec.ofNat 32 (i 2).val) x0 x1) fillM fillL :=
  (View.read_writes_junk_eq_canon (Val := Elt F) VL _).trans ((congrArg View.canon (piecesL_A c i arg3 harg3 arg4 harg4 arg5 harg5 arg6 harg6 arg7 harg7 arg8 harg8 arg9 harg9 hc1 hc2 hc3 hc4 x0 x1 x2)).trans (canon_firstL arg7.view arg8.view (sDiag (BitVec.ofNat 32 (i 1).val) (BitVec.ofNat 32 (i 2).val) x0 x1)))

theorem compA_A (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc1 : cond1 i) (hc2 : ¬cond2 i) (hc3 : cond3 i) (hc4 : ¬cond4 i) (x0 x1 x2 : Vec F S1x512x1024 .f32) :
    VA.read (Elt F) (VA.writes (Elt F) VA.junk (kernelRun_A c i arg3 harg3 arg4 harg4 arg5 harg5 arg6 harg6 arg7 harg7 arg8 harg8 arg9 harg9 hc1 hc2 hc3 hc4 x0 x1 x2).2.2.1) = updA (sDiag (BitVec.ofNat 32 (i 1).val) (BitVec.ofNat 32 (i 2).val) x0 x1) fillM x2 fillA :=
  (View.read_writes_junk_eq_canon (Val := Elt F) VA _).trans ((congrArg View.canon (piecesA_A c i arg3 harg3 arg4 harg4 arg5 harg5 arg6 harg6 arg7 harg7 arg8 harg8 arg9 harg9 hc1 hc2 hc3 hc4 x0 x1 x2)).trans (canon_firstA arg7.view arg9.view (sDiag (BitVec.ofNat 32 (i 1).val) (BitVec.ofNat 32 (i 2).val) x0 x1) x2))

theorem res_A_eq (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc1 : cond1 i) (hc2 : ¬cond2 i) (hc3 : cond3 i) (hc4 : ¬cond4 i) (x0 x1 x2 : Vec F S1x512x1024 .f32) :
    res_A c i arg3 harg3 arg4 harg4 arg5 harg5 arg6 harg6 arg7 harg7 arg8 harg8 arg9 harg9 hc1 hc2 hc3 hc4 x0 x1 x2 = (junkO, updM (sDiag (BitVec.ofNat 32 (i 1).val) (BitVec.ofNat 32 (i 2).val) x0 x1) fillM, updL (sDiag (BitVec.ofNat 32 (i 1).val) (BitVec.ofNat 32 (i 2).val) x0 x1) fillM fillL, updA (sDiag (BitVec.ofNat 32 (i 1).val) (BitVec.ofNat 32 (i 2).val) x0 x1) fillM x2 fillA) := by
  unfold res_A
  rw [compM_A c i arg3 harg3 arg4 harg4 arg5 harg5 arg6 harg6 arg7 harg7 arg8 harg8 arg9 harg9 hc1 hc2 hc3 hc4 x0 x1 x2, compL_A c i arg3 harg3 arg4 harg4 arg5 harg5 arg6 harg6 arg7 harg7 arg8 harg8 arg9 harg9 hc1 hc2 hc3 hc4 x0 x1 x2, compA_A c i arg3 harg3 arg4 harg4 arg5 harg5 arg6 harg6 arg7 harg7 arg8 harg8 arg9 harg9 hc1 hc2 hc3 hc4 x0 x1 x2]

theorem compM_B (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc1 : cond1 i) (hc2 : cond2 i) (hc3 : ¬cond3 i) (hc4 : ¬cond4 i) (x0 x1 x2 : Vec F S1x512x1024 .f32) :
    VM.read (Elt F) (VM.writes (Elt F) VM.junk (kernelRun_B c i arg3 harg3 arg4 harg4 arg5 harg5 arg6 harg6 arg7 harg7 arg8 harg8 arg9 harg9 hc1 hc2 hc3 hc4 x0 x1 x2).1) = updM (sOff x0 x1) fillM :=
  (View.read_writes_junk_eq_canon (Val := Elt F) VM _).trans ((congrArg View.canon (piecesM_B c i arg3 harg3 arg4 harg4 arg5 harg5 arg6 harg6 arg7 harg7 arg8 harg8 arg9 harg9 hc1 hc2 hc3 hc4 x0 x1 x2)).trans (canon_firstM arg7.view (sOff x0 x1)))

theorem compL_B (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc1 : cond1 i) (hc2 : cond2 i) (hc3 : ¬cond3 i) (hc4 : ¬cond4 i) (x0 x1 x2 : Vec F S1x512x1024 .f32) :
    VL.read (Elt F) (VL.writes (Elt F) VL.junk (kernelRun_B c i arg3 harg3 arg4 harg4 arg5 harg5 arg6 harg6 arg7 harg7 arg8 harg8 arg9 harg9 hc1 hc2 hc3 hc4 x0 x1 x2).2.1) = updL (sOff x0 x1) fillM fillL :=
  (View.read_writes_junk_eq_canon (Val := Elt F) VL _).trans ((congrArg View.canon (piecesL_B c i arg3 harg3 arg4 harg4 arg5 harg5 arg6 harg6 arg7 harg7 arg8 harg8 arg9 harg9 hc1 hc2 hc3 hc4 x0 x1 x2)).trans (canon_firstL arg7.view arg8.view (sOff x0 x1)))

theorem compA_B (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc1 : cond1 i) (hc2 : cond2 i) (hc3 : ¬cond3 i) (hc4 : ¬cond4 i) (x0 x1 x2 : Vec F S1x512x1024 .f32) :
    VA.read (Elt F) (VA.writes (Elt F) VA.junk (kernelRun_B c i arg3 harg3 arg4 harg4 arg5 harg5 arg6 harg6 arg7 harg7 arg8 harg8 arg9 harg9 hc1 hc2 hc3 hc4 x0 x1 x2).2.2.1) = updA (sOff x0 x1) fillM x2 fillA :=
  (View.read_writes_junk_eq_canon (Val := Elt F) VA _).trans ((congrArg View.canon (piecesA_B c i arg3 harg3 arg4 harg4 arg5 harg5 arg6 harg6 arg7 harg7 arg8 harg8 arg9 harg9 hc1 hc2 hc3 hc4 x0 x1 x2)).trans (canon_firstA arg7.view arg9.view (sOff x0 x1) x2))

theorem res_B_eq (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc1 : cond1 i) (hc2 : cond2 i) (hc3 : ¬cond3 i) (hc4 : ¬cond4 i) (x0 x1 x2 : Vec F S1x512x1024 .f32) :
    res_B c i arg3 harg3 arg4 harg4 arg5 harg5 arg6 harg6 arg7 harg7 arg8 harg8 arg9 harg9 hc1 hc2 hc3 hc4 x0 x1 x2 = (junkO, updM (sOff x0 x1) fillM, updL (sOff x0 x1) fillM fillL, updA (sOff x0 x1) fillM x2 fillA) := by
  unfold res_B
  rw [compM_B c i arg3 harg3 arg4 harg4 arg5 harg5 arg6 harg6 arg7 harg7 arg8 harg8 arg9 harg9 hc1 hc2 hc3 hc4 x0 x1 x2, compL_B c i arg3 harg3 arg4 harg4 arg5 harg5 arg6 harg6 arg7 harg7 arg8 harg8 arg9 harg9 hc1 hc2 hc3 hc4 x0 x1 x2, compA_B c i arg3 harg3 arg4 harg4 arg5 harg5 arg6 harg6 arg7 harg7 arg8 harg8 arg9 harg9 hc1 hc2 hc3 hc4 x0 x1 x2]

theorem compM_C (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc1 : ¬cond1 i) (hc2 : cond2 i) (hc3 : ¬cond3 i) (hc4 : ¬cond4 i) (x0 x1 x2 : Vec F S1x512x1024 .f32) (xs0 xs1 : Vec F S512x16 .f32) (xs2 : Vec F S512x1024 .f32) :
    VM.read (Elt F) (VM.writes (Elt F) VM.junk (kernelRun_C c i arg3 harg3 arg4 harg4 arg5 harg5 arg6 harg6 arg7 harg7 arg8 harg8 arg9 harg9 hc1 hc2 hc3 hc4 x0 x1 x2 xs0 xs1 xs2).1) = updM (sOff x0 x1) xs0 :=
  (View.read_writes_junk_eq_canon (Val := Elt F) VM _).trans ((congrArg View.canon (piecesM_C c i arg3 harg3 arg4 harg4 arg5 harg5 arg6 harg6 arg7 harg7 arg8 harg8 arg9 harg9 hc1 hc2 hc3 hc4 x0 x1 x2 xs0 xs1 xs2)).trans (canon_piecesM (sOff x0 x1) xs0))

theorem compL_C (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc1 : ¬cond1 i) (hc2 : cond2 i) (hc3 : ¬cond3 i) (hc4 : ¬cond4 i) (x0 x1 x2 : Vec F S1x512x1024 .f32) (xs0 xs1 : Vec F S512x16 .f32) (xs2 : Vec F S512x1024 .f32) :
    VL.read (Elt F) (VL.writes (Elt F) VL.junk (kernelRun_C c i arg3 harg3 arg4 harg4 arg5 harg5 arg6 harg6 arg7 harg7 arg8 harg8 arg9 harg9 hc1 hc2 hc3 hc4 x0 x1 x2 xs0 xs1 xs2).2.1) = updL (sOff x0 x1) xs0 xs1 :=
  (View.read_writes_junk_eq_canon (Val := Elt F) VL _).trans ((congrArg View.canon (piecesL_C c i arg3 harg3 arg4 harg4 arg5 harg5 arg6 harg6 arg7 harg7 arg8 harg8 arg9 harg9 hc1 hc2 hc3 hc4 x0 x1 x2 xs0 xs1 xs2)).trans (canon_piecesL (sOff x0 x1) xs0 xs1))

theorem compA_C (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc1 : ¬cond1 i) (hc2 : cond2 i) (hc3 : ¬cond3 i) (hc4 : ¬cond4 i) (x0 x1 x2 : Vec F S1x512x1024 .f32) (xs0 xs1 : Vec F S512x16 .f32) (xs2 : Vec F S512x1024 .f32) :
    VA.read (Elt F) (VA.writes (Elt F) VA.junk (kernelRun_C c i arg3 harg3 arg4 harg4 arg5 harg5 arg6 harg6 arg7 harg7 arg8 harg8 arg9 harg9 hc1 hc2 hc3 hc4 x0 x1 x2 xs0 xs1 xs2).2.2.1) = updA (sOff x0 x1) xs0 x2 xs2 :=
  (View.read_writes_junk_eq_canon (Val := Elt F) VA _).trans ((congrArg View.canon (piecesA_C c i arg3 harg3 arg4 harg4 arg5 harg5 arg6 harg6 arg7 harg7 arg8 harg8 arg9 harg9 hc1 hc2 hc3 hc4 x0 x1 x2 xs0 xs1 xs2)).trans (canon_piecesA (sOff x0 x1) xs0 x2 xs2))

theorem res_C_eq (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc1 : ¬cond1 i) (hc2 : cond2 i) (hc3 : ¬cond3 i) (hc4 : ¬cond4 i) (x0 x1 x2 : Vec F S1x512x1024 .f32) (xs0 xs1 : Vec F S512x16 .f32) (xs2 : Vec F S512x1024 .f32) :
    res_C c i arg3 harg3 arg4 harg4 arg5 harg5 arg6 harg6 arg7 harg7 arg8 harg8 arg9 harg9 hc1 hc2 hc3 hc4 x0 x1 x2 xs0 xs1 xs2 = (junkO, updM (sOff x0 x1) xs0, updL (sOff x0 x1) xs0 xs1, updA (sOff x0 x1) xs0 x2 xs2) := by
  unfold res_C
  rw [compM_C c i arg3 harg3 arg4 harg4 arg5 harg5 arg6 harg6 arg7 harg7 arg8 harg8 arg9 harg9 hc1 hc2 hc3 hc4 x0 x1 x2 xs0 xs1 xs2, compL_C c i arg3 harg3 arg4 harg4 arg5 harg5 arg6 harg6 arg7 harg7 arg8 harg8 arg9 harg9 hc1 hc2 hc3 hc4 x0 x1 x2 xs0 xs1 xs2, compA_C c i arg3 harg3 arg4 harg4 arg5 harg5 arg6 harg6 arg7 harg7 arg8 harg8 arg9 harg9 hc1 hc2 hc3 hc4 x0 x1 x2 xs0 xs1 xs2]

theorem compM_D (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc1 : ¬cond1 i) (hc2 : ¬cond2 i) (hc3 : cond3 i) (hc4 : ¬cond4 i) (x0 x1 x2 : Vec F S1x512x1024 .f32) (xs0 xs1 : Vec F S512x16 .f32) (xs2 : Vec F S512x1024 .f32) :
    VM.read (Elt F) (VM.writes (Elt F) VM.junk (kernelRun_D c i arg3 harg3 arg4 harg4 arg5 harg5 arg6 harg6 arg7 harg7 arg8 harg8 arg9 harg9 hc1 hc2 hc3 hc4 x0 x1 x2 xs0 xs1 xs2).1) = updM (sDiag (BitVec.ofNat 32 (i 1).val) (BitVec.ofNat 32 (i 2).val) x0 x1) xs0 :=
  (View.read_writes_junk_eq_canon (Val := Elt F) VM _).trans ((congrArg View.canon (piecesM_D c i arg3 harg3 arg4 harg4 arg5 harg5 arg6 harg6 arg7 harg7 arg8 harg8 arg9 harg9 hc1 hc2 hc3 hc4 x0 x1 x2 xs0 xs1 xs2)).trans (canon_piecesM (sDiag (BitVec.ofNat 32 (i 1).val) (BitVec.ofNat 32 (i 2).val) x0 x1) xs0))

theorem compL_D (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc1 : ¬cond1 i) (hc2 : ¬cond2 i) (hc3 : cond3 i) (hc4 : ¬cond4 i) (x0 x1 x2 : Vec F S1x512x1024 .f32) (xs0 xs1 : Vec F S512x16 .f32) (xs2 : Vec F S512x1024 .f32) :
    VL.read (Elt F) (VL.writes (Elt F) VL.junk (kernelRun_D c i arg3 harg3 arg4 harg4 arg5 harg5 arg6 harg6 arg7 harg7 arg8 harg8 arg9 harg9 hc1 hc2 hc3 hc4 x0 x1 x2 xs0 xs1 xs2).2.1) = updL (sDiag (BitVec.ofNat 32 (i 1).val) (BitVec.ofNat 32 (i 2).val) x0 x1) xs0 xs1 :=
  (View.read_writes_junk_eq_canon (Val := Elt F) VL _).trans ((congrArg View.canon (piecesL_D c i arg3 harg3 arg4 harg4 arg5 harg5 arg6 harg6 arg7 harg7 arg8 harg8 arg9 harg9 hc1 hc2 hc3 hc4 x0 x1 x2 xs0 xs1 xs2)).trans (canon_piecesL (sDiag (BitVec.ofNat 32 (i 1).val) (BitVec.ofNat 32 (i 2).val) x0 x1) xs0 xs1))

theorem compA_D (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc1 : ¬cond1 i) (hc2 : ¬cond2 i) (hc3 : cond3 i) (hc4 : ¬cond4 i) (x0 x1 x2 : Vec F S1x512x1024 .f32) (xs0 xs1 : Vec F S512x16 .f32) (xs2 : Vec F S512x1024 .f32) :
    VA.read (Elt F) (VA.writes (Elt F) VA.junk (kernelRun_D c i arg3 harg3 arg4 harg4 arg5 harg5 arg6 harg6 arg7 harg7 arg8 harg8 arg9 harg9 hc1 hc2 hc3 hc4 x0 x1 x2 xs0 xs1 xs2).2.2.1) = updA (sDiag (BitVec.ofNat 32 (i 1).val) (BitVec.ofNat 32 (i 2).val) x0 x1) xs0 x2 xs2 :=
  (View.read_writes_junk_eq_canon (Val := Elt F) VA _).trans ((congrArg View.canon (piecesA_D c i arg3 harg3 arg4 harg4 arg5 harg5 arg6 harg6 arg7 harg7 arg8 harg8 arg9 harg9 hc1 hc2 hc3 hc4 x0 x1 x2 xs0 xs1 xs2)).trans (canon_piecesA (sDiag (BitVec.ofNat 32 (i 1).val) (BitVec.ofNat 32 (i 2).val) x0 x1) xs0 x2 xs2))

theorem res_D_eq (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc1 : ¬cond1 i) (hc2 : ¬cond2 i) (hc3 : cond3 i) (hc4 : ¬cond4 i) (x0 x1 x2 : Vec F S1x512x1024 .f32) (xs0 xs1 : Vec F S512x16 .f32) (xs2 : Vec F S512x1024 .f32) :
    res_D c i arg3 harg3 arg4 harg4 arg5 harg5 arg6 harg6 arg7 harg7 arg8 harg8 arg9 harg9 hc1 hc2 hc3 hc4 x0 x1 x2 xs0 xs1 xs2 = (junkO, updM (sDiag (BitVec.ofNat 32 (i 1).val) (BitVec.ofNat 32 (i 2).val) x0 x1) xs0, updL (sDiag (BitVec.ofNat 32 (i 1).val) (BitVec.ofNat 32 (i 2).val) x0 x1) xs0 xs1, updA (sDiag (BitVec.ofNat 32 (i 1).val) (BitVec.ofNat 32 (i 2).val) x0 x1) xs0 x2 xs2) := by
  unfold res_D
  rw [compM_D c i arg3 harg3 arg4 harg4 arg5 harg5 arg6 harg6 arg7 harg7 arg8 harg8 arg9 harg9 hc1 hc2 hc3 hc4 x0 x1 x2 xs0 xs1 xs2, compL_D c i arg3 harg3 arg4 harg4 arg5 harg5 arg6 harg6 arg7 harg7 arg8 harg8 arg9 harg9 hc1 hc2 hc3 hc4 x0 x1 x2 xs0 xs1 xs2, compA_D c i arg3 harg3 arg4 harg4 arg5 harg5 arg6 harg6 arg7 harg7 arg8 harg8 arg9 harg9 hc1 hc2 hc3 hc4 x0 x1 x2 xs0 xs1 xs2]

theorem compM_E (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc1 : ¬cond1 i) (hc2 : ¬cond2 i) (hc3 : cond3 i) (hc4 : cond4 i) (x0 x1 x2 : Vec F S1x512x1024 .f32) (xs0 xs1 : Vec F S512x16 .f32) (xs2 : Vec F S512x1024 .f32) :
    VM.read (Elt F) (VM.writes (Elt F) VM.junk (kernelRun_E c i arg3 harg3 arg4 harg4 arg5 harg5 arg6 harg6 arg7 harg7 arg8 harg8 arg9 harg9 hc1 hc2 hc3 hc4 x0 x1 x2 xs0 xs1 xs2).2.1) = updM (sDiag (BitVec.ofNat 32 (i 1).val) (BitVec.ofNat 32 (i 2).val) x0 x1) xs0 :=
  (View.read_writes_junk_eq_canon (Val := Elt F) VM _).trans ((congrArg View.canon (piecesM_E c i arg3 harg3 arg4 harg4 arg5 harg5 arg6 harg6 arg7 harg7 arg8 harg8 arg9 harg9 hc1 hc2 hc3 hc4 x0 x1 x2 xs0 xs1 xs2)).trans (canon_piecesM (sDiag (BitVec.ofNat 32 (i 1).val) (BitVec.ofNat 32 (i 2).val) x0 x1) xs0))

theorem compL_E (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc1 : ¬cond1 i) (hc2 : ¬cond2 i) (hc3 : cond3 i) (hc4 : cond4 i) (x0 x1 x2 : Vec F S1x512x1024 .f32) (xs0 xs1 : Vec F S512x16 .f32) (xs2 : Vec F S512x1024 .f32) :
    VL.read (Elt F) (VL.writes (Elt F) VL.junk (kernelRun_E c i arg3 harg3 arg4 harg4 arg5 harg5 arg6 harg6 arg7 harg7 arg8 harg8 arg9 harg9 hc1 hc2 hc3 hc4 x0 x1 x2 xs0 xs1 xs2).2.2.1) = updL (sDiag (BitVec.ofNat 32 (i 1).val) (BitVec.ofNat 32 (i 2).val) x0 x1) xs0 xs1 :=
  (View.read_writes_junk_eq_canon (Val := Elt F) VL _).trans ((congrArg View.canon (piecesL_E c i arg3 harg3 arg4 harg4 arg5 harg5 arg6 harg6 arg7 harg7 arg8 harg8 arg9 harg9 hc1 hc2 hc3 hc4 x0 x1 x2 xs0 xs1 xs2)).trans (canon_piecesL (sDiag (BitVec.ofNat 32 (i 1).val) (BitVec.ofNat 32 (i 2).val) x0 x1) xs0 xs1))

theorem compA_E (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc1 : ¬cond1 i) (hc2 : ¬cond2 i) (hc3 : cond3 i) (hc4 : cond4 i) (x0 x1 x2 : Vec F S1x512x1024 .f32) (xs0 xs1 : Vec F S512x16 .f32) (xs2 : Vec F S512x1024 .f32) :
    VA.read (Elt F) (VA.writes (Elt F) VA.junk (kernelRun_E c i arg3 harg3 arg4 harg4 arg5 harg5 arg6 harg6 arg7 harg7 arg8 harg8 arg9 harg9 hc1 hc2 hc3 hc4 x0 x1 x2 xs0 xs1 xs2).2.2.2.1) = updA (sDiag (BitVec.ofNat 32 (i 1).val) (BitVec.ofNat 32 (i 2).val) x0 x1) xs0 x2 xs2 :=
  (View.read_writes_junk_eq_canon (Val := Elt F) VA _).trans ((congrArg View.canon (piecesA_E c i arg3 harg3 arg4 harg4 arg5 harg5 arg6 harg6 arg7 harg7 arg8 harg8 arg9 harg9 hc1 hc2 hc3 hc4 x0 x1 x2 xs0 xs1 xs2)).trans (canon_piecesA (sDiag (BitVec.ofNat 32 (i 1).val) (BitVec.ofNat 32 (i 2).val) x0 x1) xs0 x2 xs2))

/-- A load of head `h`'s columns through what the sixteen heads have just stored reads the updated columns. -/
theorem readBackL (v : View sig .tc .vmem S512x16 .f32) (S : Fin 16 → FVec F S512x512 .f32) (M L : Vec F S512x16 .f32) :
    (fun h : Fin 16 => v.readCov (List.ofFn (fun k : Fin 16 => pieceL S (fun h => View.ld M (rM h)) (fun h => View.ld L (rM h)) k.rev)) (rM h).toLoadRect)
      = fun h => View.ld (updL S M L) (rM h) := by
  funext h; rw [View.readCov_eq_canon', canon_piecesL]
theorem readBackA (v : View sig .tc .vmem S512x1024 .f32) (S : Fin 16 → FVec F S512x512 .f32) (M : Vec F S512x16 .f32) (x2 : Vec F S1x512x1024 .f32) (A : Vec F S512x1024 .f32) :
    (fun h : Fin 16 => v.readCov (List.ofFn (fun k : Fin 16 => pieceA S (fun h => View.ld M (rM h)) x2 (fun h => View.ld A (rA h)) k.rev)) (rA h).toLoadRect)
      = fun h => View.ld (updA S M x2 A) (rA h) := by
  funext h; rw [View.readCov_eq_canon', canon_piecesA]

theorem compO_E (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc1 : ¬cond1 i) (hc2 : ¬cond2 i) (hc3 : cond3 i) (hc4 : cond4 i) (x0 x1 x2 : Vec F S1x512x1024 .f32) (xs0 xs1 : Vec F S512x16 .f32) (xs2 : Vec F S512x1024 .f32) :
    VO.read (Elt F) (VO.writes (Elt F) VO.junk (kernelRun_E c i arg3 harg3 arg4 harg4 arg5 harg5 arg6 harg6 arg7 harg7 arg8 harg8 arg9 harg9 hc1 hc2 hc3 hc4 x0 x1 x2 xs0 xs1 xs2).1) = outO (updL (sDiag (BitVec.ofNat 32 (i 1).val) (BitVec.ofNat 32 (i 2).val) x0 x1) xs0 xs1) (updA (sDiag (BitVec.ofNat 32 (i 1).val) (BitVec.ofNat 32 (i 2).val) x0 x1) xs0 x2 xs2) :=
  (View.read_writes_junk_eq_canon (Val := Elt F) VO _).trans ((congrArg View.canon (piecesO_E c i arg3 harg3 arg4 harg4 arg5 harg5 arg6 harg6 arg7 harg7 arg8 harg8 arg9 harg9 hc1 hc2 hc3 hc4 x0 x1 x2 xs0 xs1 xs2)).trans (by
      rw [readBackL, readBackA]; exact canon_piecesO _ _))

theorem res_E_eq (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc1 : ¬cond1 i) (hc2 : ¬cond2 i) (hc3 : cond3 i) (hc4 : cond4 i) (x0 x1 x2 : Vec F S1x512x1024 .f32) (xs0 xs1 : Vec F S512x16 .f32) (xs2 : Vec F S512x1024 .f32) :
    res_E c i arg3 harg3 arg4 harg4 arg5 harg5 arg6 harg6 arg7 harg7 arg8 harg8 arg9 harg9 hc1 hc2 hc3 hc4 x0 x1 x2 xs0 xs1 xs2 = (outO (updL (sDiag (BitVec.ofNat 32 (i 1).val) (BitVec.ofNat 32 (i 2).val) x0 x1) xs0 xs1) (updA (sDiag (BitVec.ofNat 32 (i 1).val) (BitVec.ofNat 32 (i 2).val) x0 x1) xs0 x2 xs2), updM (sDiag (BitVec.ofNat 32 (i 1).val) (BitVec.ofNat 32 (i 2).val) x0 x1) xs0, updL (sDiag (BitVec.ofNat 32 (i 1).val) (BitVec.ofNat 32 (i 2).val) x0 x1) xs0 xs1, updA (sDiag (BitVec.ofNat 32 (i 1).val) (BitVec.ofNat 32 (i 2).val) x0 x1) xs0 x2 xs2) := by
  unfold res_E
  rw [compO_E c i arg3 harg3 arg4 harg4 arg5 harg5 arg6 harg6 arg7 harg7 arg8 harg8 arg9 harg9 hc1 hc2 hc3 hc4 x0 x1 x2 xs0 xs1 xs2, compM_E c i arg3 harg3 arg4 harg4 arg5 harg5 arg6 harg6 arg7 harg7 arg8 harg8 arg9 harg9 hc1 hc2 hc3 hc4 x0 x1 x2 xs0 xs1 xs2, compL_E c i arg3 harg3 arg4 harg4 arg5 harg5 arg6 harg6 arg7 harg7 arg8 harg8 arg9 harg9 hc1 hc2 hc3 hc4 x0 x1 x2 xs0 xs1 xs2, compA_E c i arg3 harg3 arg4 harg4 arg5 harg5 arg6 harg6 arg7 harg7 arg8 harg8 arg9 harg9 hc1 hc2 hc3 hc4 x0 x1 x2 xs0 xs1 xs2]

theorem compO_H (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc1 : ¬cond1 i) (hc2 : ¬cond2 i) (hc3 : ¬cond3 i) (hc4 : cond4 i) (x0 x1 x2 : Vec F S1x512x1024 .f32) (xs0 xs1 : Vec F S512x16 .f32) (xs2 : Vec F S512x1024 .f32) :
    VO.read (Elt F) (VO.writes (Elt F) VO.junk (kernelRun_H c i arg3 harg3 arg4 harg4 arg5 harg5 arg6 harg6 arg7 harg7 arg8 harg8 arg9 harg9 hc1 hc2 hc3 hc4 x0 x1 x2 xs0 xs1 xs2).1) = outO xs1 xs2 :=
  (View.read_writes_junk_eq_canon (Val := Elt F) VO _).trans ((congrArg View.canon (piecesO_H c i arg3 harg3 arg4 harg4 arg5 harg5 arg6 harg6 arg7 harg7 arg8 harg8 arg9 harg9 hc1 hc2 hc3 hc4 x0 x1 x2 xs0 xs1 xs2)).trans (canon_piecesO xs1 xs2))

theorem res_H_eq (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc1 : ¬cond1 i) (hc2 : ¬cond2 i) (hc3 : ¬cond3 i) (hc4 : cond4 i) (x0 x1 x2 : Vec F S1x512x1024 .f32) (xs0 xs1 : Vec F S512x16 .f32) (xs2 : Vec F S512x1024 .f32) :
    res_H c i arg3 harg3 arg4 harg4 arg5 harg5 arg6 harg6 arg7 harg7 arg8 harg8 arg9 harg9 hc1 hc2 hc3 hc4 x0 x1 x2 xs0 xs1 xs2 = (outO xs1 xs2, xs0, xs1, xs2) := by
  unfold res_H
  rw [compO_H c i arg3 harg3 arg4 harg4 arg5 harg5 arg6 harg6 arg7 harg7 arg8 harg8 arg9 harg9 hc1 hc2 hc3 hc4 x0 x1 x2 xs0 xs1 xs2]

theorem res_G_eq (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x16 .f32) (harg7 : arg7.IsWhole) (arg8 : Memref sig .tc .vmem S512x16 .f32) (harg8 : arg8.IsWhole) (arg9 : Memref sig .tc .vmem S512x1024 .f32) (harg9 : arg9.IsWhole) (hc1 : ¬cond1 i) (hc2 : ¬cond2 i) (hc3 : ¬cond3 i) (hc4 : ¬cond4 i) (x0 x1 x2 : Vec F S1x512x1024 .f32) (xs0 xs1 : Vec F S512x16 .f32) (xs2 : Vec F S512x1024 .f32) :
    res_G c i arg3 harg3 arg4 harg4 arg5 harg5 arg6 harg6 arg7 harg7 arg8 harg8 arg9 harg9 hc1 hc2 hc3 hc4 x0 x1 x2 xs0 xs1 xs2 = (junkO, xs0, xs1, xs2) := rfl

end Cert.KernelIdeal.Hand

end
-- ==== Proof.KI.State.lean ====
/-
  What the accumulators and the result block hold after each grid point, by the kind of point: on the first key
  tile the one-tile update of the fills; on a later tile at or below the diagonal the update of what the point
  before left; above the diagonal what the point before left; on the last key tile the result block is the
  numerator over the denominator as they stand after the point.
-/
import proofs.«178927_j55791625175600_2_alg».proof.Proof.KI.Read

noncomputable section

namespace Cert.KernelIdeal.Hand

open Cert.KernelIdeal Cert.KernelIdeal.Gen
open Idealize.ShloMosaic Idealize.ShloMosaic.TcCoe Idealize.ShloMosaic.ValueIdx

variable {F : FTy → Type} [FloatOps F] [Named F]
variable (m : (ℓ : Loc nD τ sig) → Buf (Elt F) ℓ)

/-- The sixteen heads' scores at point `t`, unmasked and masked. -/
abbrev Soff (c : Dev nD) (t : Fin cfg0.N) : Fin 16 → FVec F S512x512 .f32 := sOff (iblk m c 0 t) (iblk m c 1 t)
abbrev Sdg (c : Dev nD) (t : Fin cfg0.N) : Fin 16 → FVec F S512x512 .f32 :=
  sDiag (BitVec.ofNat 32 ((grid0.coords t) 1).val) (BitVec.ofNat 32 ((grid0.coords t) 2).val) (iblk m c 0 t) (iblk m c 1 t)

theorem outsAt_A (c : Dev nD) (t : Fin cfg0.N) (hN : t.val < 64) (h1 : t.val % 4 = 0) (h3 : t.val % 4 = t.val / 4 % 4) :
    outsAt m c t.val t.isLt = (junkO, updM (Sdg m c t) fillM, updL (Sdg m c t) fillM fillL, updA (Sdg m c t) fillM (iblk m c 2 t) fillA) := by
  rw [outsAt_eq m c t, step_A m c t _ hN h1 h3]; exact res_A_eq ..

theorem outsAt_B (c : Dev nD) (t : Fin cfg0.N) (hN : t.val < 64) (h1 : t.val % 4 = 0) (h3 : ¬t.val % 4 = t.val / 4 % 4) :
    outsAt m c t.val t.isLt = (junkO, updM (Soff m c t) fillM, updL (Soff m c t) fillM fillL, updA (Soff m c t) fillM (iblk m c 2 t) fillA) := by
  rw [outsAt_eq m c t, step_B m c t _ hN h1 h3]; exact res_B_eq ..

theorem outsAt_C (c : Dev nD) (t : Fin cfg0.N) (hN : t.val < 64) (h1 : ¬t.val % 4 = 0) (h2 : t.val % 4 < t.val / 4 % 4) :
    outsAt m c t.val t.isLt = (junkO, updM (Soff m c t) (prev m c t).2.1, updL (Soff m c t) (prev m c t).2.1 (prev m c t).2.2.1,
      updA (Soff m c t) (prev m c t).2.1 (iblk m c 2 t) (prev m c t).2.2.2) := by
  rw [outsAt_eq m c t, step_C m c t _ hN h1 h2]; exact res_C_eq ..

theorem outsAt_D (c : Dev nD) (t : Fin cfg0.N) (hN : t.val < 64) (h1 : ¬t.val % 4 = 0) (h2 : ¬t.val % 4 < t.val / 4 % 4)
    (h3 : t.val % 4 = t.val / 4 % 4) (h4 : ¬t.val % 4 = 3) :
    outsAt m c t.val t.isLt = (junkO, updM (Sdg m c t) (prev m c t).2.1, updL (Sdg m c t) (prev m c t).2.1 (prev m c t).2.2.1,
      updA (Sdg m c t) (prev m c t).2.1 (iblk m c 2 t) (prev m c t).2.2.2) := by
  rw [outsAt_eq m c t, step_D m c t _ hN h1 h2 h3 h4]; exact res_D_eq ..

theorem outsAt_E (c : Dev nD) (t : Fin cfg0.N) (hN : t.val < 64) (h1 : ¬t.val % 4 = 0) (h2 : ¬t.val % 4 < t.val / 4 % 4)
    (h3 : t.val % 4 = t.val / 4 % 4) (h4 : t.val % 4 = 3) :
    outsAt m c t.val t.isLt =
      (outO (updL (Sdg m c t) (prev m c t).2.1 (prev m c t).2.2.1) (updA (Sdg m c t) (prev m c t).2.1 (iblk m c 2 t) (prev m c t).2.2.2),
        updM (Sdg m c t) (prev m c t).2.1, updL (Sdg m c t) (prev m c t).2.1 (prev m c t).2.2.1,
        updA (Sdg m c t) (prev m c t).2.1 (iblk m c 2 t) (prev m c t).2.2.2) := by
  rw [outsAt_eq m c t, step_E m c t _ hN h1 h2 h3 h4]; exact res_E_eq ..

theorem outsAt_G (c : Dev nD) (t : Fin cfg0.N) (hN : t.val < 64) (h1 : ¬t.val % 4 = 0) (h2 : ¬t.val % 4 < t.val / 4 % 4)
    (h3 : ¬t.val % 4 = t.val / 4 % 4) (h4 : ¬t.val % 4 = 3) :
    outsAt m c t.val t.isLt = (junkO, (prev m c t).2.1, (prev m c t).2.2.1, (prev m c t).2.2.2) := by
  rw [outsAt_eq m c t, step_G m c t _ hN h1 h2 h3 h4]; exact res_G_eq ..

theorem outsAt_H (c : Dev nD) (t : Fin cfg0.N) (hN : t.val < 64) (h1 : ¬t.val % 4 = 0) (h2 : ¬t.val % 4 < t.val / 4 % 4)
    (h3 : ¬t.val % 4 = t.val / 4 % 4) (h4 : t.val % 4 = 3) :
    outsAt m c t.val t.isLt = (outO (prev m c t).2.2.1 (prev m c t).2.2.2, (prev m c t).2.1, (prev m c t).2.2.1, (prev m c t).2.2.2) := by
  rw [outsAt_eq m c t, step_H m c t _ hN h1 h2 h3 h4]; exact res_H_eq ..

end Cert.KernelIdeal.Hand

end
-- ==== Proof.LibDot.lean ====
/-
  A plain matrix product read at an entry. For the dimension numbers "rows × contraction by contraction × columns"
  (`DotDims.plain M K N`) the sum over the contraction index, of the left operand at the dot's left index times the
  right operand at its right index, is the textbook sum `∑ i, l (p, i) · r (i, q)` at output entry `(p, q)`: the
  contraction shape has one axis of extent `K`, and the two operand indices at contraction position `i` are
  `(p, i)` and `(i, q)`. Both a `tpu.matmul` into a zero accumulator and a host `dot_general` are this sum at the
  exact values, so each reads at an entry as the textbook sum.
-/
import Idealize.ShloMosaic.PureOps.Ideal.Laws
import Idealize.ShloMosaic.Lib.ValueIdx

noncomputable section

namespace Cert.LibDot

open Idealize.ShloMosaic Idealize.ShloMosaic.ValueIdx

/-- The left index of a plain product at output `(p, q)` and contraction position `i` is `(p, i)`. -/
theorem plain_lhsIdx (M K N : Nat) (p : Fin M) (q : Fin N) (i : Fin K) :
    (DotDims.plain M K N).lhsIdx (ix2 p q) ((contrEquiv1 (DotDims.plain M K N) K rfl rfl).symm i) = ix2 p i := by
  funext a
  apply Fin.ext
  match a with
  | ⟨0, _⟩ => rfl
  | ⟨1, _⟩ =>
    refine ((DotDims.plain M K N).lhsIdx_val_of_single (cl := (1 : Fin 2)) rfl (ix2 p q) _).trans ?_
    exact contrEquiv1_symm_val (DotDims.plain M K N) K rfl rfl i

/-- The right index of a plain product at output `(p, q)` and contraction position `i` is `(i, q)`. -/
theorem plain_rhsIdx (M K N : Nat) (p : Fin M) (q : Fin N) (i : Fin K) :
    (DotDims.plain M K N).rhsIdx (ix2 p q) ((contrEquiv1 (DotDims.plain M K N) K rfl rfl).symm i) = ix2 i q := by
  funext a
  apply Fin.ext
  match a with
  | ⟨0, _⟩ =>
    refine ((DotDims.plain M K N).rhsIdx_val_of_single (cr := (0 : Fin 2)) rfl (ix2 p q) _).trans ?_
    exact contrEquiv1_symm_val (DotDims.plain M K N) K rfl rfl i
  | ⟨1, _⟩ => rfl

/-- The contraction sum of a plain product at output `(p, q)` is `∑ i, l (p, i) · r (i, q)`. -/
theorem plain_sum (M K N : Nat) (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ i : Fin K, l (ix2 p i) * r (ix2 i q) := by
  rw [← Equiv.sum_comp (contrEquiv1 (DotDims.plain M K N) K rfl rfl).symm]
  refine Finset.sum_congr rfl fun i _ => ?_
  rw [plain_lhsIdx, plain_rhsIdx]

end Cert.LibDot

end
-- ==== Proof.LibRows.lean ====
/-
  Rows of dense layers, read entry by entry on the extended reals. A matrix product with the plain dimension
  numbers (rows × contraction by contraction × columns), taken by the matrix unit into a zero accumulator or by the
  host, is the textbook sum `∑ i, l (p, i) · r (i, q)` at entry `(p, q)`; a bias vector made a row and repeated down
  the rows reads its entry `q` at `(p, q)`, in the kernel's spelling and in the host's; a scalar broadcast reads the
  scalar everywhere; two 64-column arrays side by side read the first below column 64 and the second from there on.
  With these one entry of a two-layer perceptron's output depends on one row of its input (`mlpRow`).
-/
import proofs.«178927_j55791625175600_2_alg».proof.Proof.LibDot
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

noncomputable section

namespace Cert.LibRows

open Idealize.ShloMosaic Idealize.ShloMosaic.ValueIdx

/-- A product into a zero accumulator, for dimension numbers that are the plain ones, read at an entry. -/
theorem matmul_plain_apply {M K N : Nat} {φ₁ φ₂ : FTy} (D : DotDims ⟨2, ![M, K]⟩ ⟨2, ![K, N]⟩ ⟨2, ![M, N]⟩)
    (hD : D = DotDims.plain M K N) (prec : Option ContractPrecision)
    (l : FVec Ideal ⟨2, ![M, K]⟩ φ₁) (r : FVec Ideal ⟨2, ![K, N]⟩ φ₂) (p : Fin M) (q : Fin N) :
    matmul D prec l r (constant ⟨2, ![M, N]⟩ .f32 0x00000000#32) (ix2 p q) = ∑ i : Fin K, l (ix2 p i) * r (ix2 i q) := by
  subst hD
  refine (Ideal.matmul_constant_zero_apply (DotDims.plain M K N) prec l r (ix2 p q)).trans ?_
  exact Cert.LibDot.plain_sum M K N l r p q

/-- The host's product with the plain dimension numbers, read at an entry: the same sum. -/
theorem dotGeneral_plain_apply {M K N : Nat} {φ₁ φ₂ : FTy} (D : DotDims ⟨2, ![M, K]⟩ ⟨2, ![K, N]⟩ ⟨2, ![M, N]⟩)
    (hD : D = DotDims.plain M K N) (prec : Option ContractPrecision)
    (l : FVec Ideal ⟨2, ![M, K]⟩ φ₁) (r : FVec Ideal ⟨2, ![K, N]⟩ φ₂) (p : Fin M) (q : Fin N) :
    Host.dotGeneral D prec l r (ix2 p q) = ∑ i : Fin K, l (ix2 p i) * r (ix2 i q) := by
  subst hD
  refine (Ideal.dotGeneral_apply (DotDims.plain M K N) prec .single l r (ix2 p q)).trans ?_
  exact Cert.LibDot.plain_sum M K N l r p q

/-- A vector of `b` entries made a row and repeated down `a` rows reads, at `(p, c)`, the vector's entry `c`. -/
theorem rowBias_apply {α : Type} {a b : Nat} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) := by
  rw [broadcastTo_1b_ab_apply, shapeCast_a_1a_apply]

/-- The host's spelling of the same: a `[b]` vector broadcast along axis 1 to `[1, b]`, then along both to `[a, b]`. -/
theorem rowBiasInDim_apply {α : Type} {a b : Nat} (v : (⟨1, ![b]⟩ : Shape).Idx → α)
    (h1 : (⟨1, ![b]⟩ : Shape).BroadcastsInDim ⟨2, ![1, b]⟩ ![1])
    (h2 : (⟨2, ![1, b]⟩ : Shape).BroadcastsInDim ⟨2, ![a, b]⟩ ![0, 1]) (p : Fin a) (c : Fin b) :
    broadcastInDim ⟨2, ![a, b]⟩ ![0, 1] h2 (broadcastInDim ⟨2, ![1, b]⟩ ![1] h1 v) (ix2 p c) = v (ix1 c) := by
  rw [broadcastInDim_apply ![0, 1] h2 _ (ix2 p c) (ix2 (0 : Fin 1) c) (fun ax => by
    match ax with
    | ⟨0, _⟩ => rfl
    | ⟨1, _⟩ =>
      show c.val = if b = 1 then 0 else c.val
      split
      · have := c.isLt; omega
      · rfl)]
  rw [broadcastInDim_apply ![1] h1 v (ix2 (0 : Fin 1) c) (ix1 c) (fun ax => by
    match ax with
    | ⟨0, _⟩ =>
      show c.val = if b = 1 then 0 else c.val
      split
      · have := c.isLt; omega
      · rfl)]

/-- A scalar broadcast to any shape reads the scalar at every index. -/
theorem scalarInDim_apply {α : Type} {s : Shape} (x : (⟨0, ![]⟩ : Shape).Idx → α) (h : (⟨0, ![]⟩ : Shape).BroadcastsInDim s ![]) (j : s.Idx) :
    broadcastInDim s ![] h x j = x ix0 := by
  rw [broadcastInDim_apply ![] h x j ix0 (fun ax => ax.elim0)]

/-- The leaky rectifier on one extended real. -/
def lk (x : Ideal .f32) : Ideal .f32 :=
  Scalar.select (FloatOps.cmpf .oge x (Ideal.ofBits .f32 0x00000000#32)) x (Ideal.ofBits .f32 0x3C23D70A#32 * x)

/-- One entry of a two-layer perceptron's row: from the row `A` of the input. -/
def mlpRow {K H N : Nat} (A : Fin K → EReal) (w1 : (⟨2, ![K, H]⟩ : Shape).Idx → EReal) (b1 : (⟨1, ![H]⟩ : Shape).Idx → EReal)
    (w2 : (⟨2, ![H, N]⟩ : Shape).Idx → EReal) (b2 : (⟨1, ![N]⟩ : Shape).Idx → EReal) (q : Fin N) : EReal :=
  (∑ k : Fin H, lk ((∑ i : Fin K, A i * w1 (ix2 i k)) + b1 (ix1 k)) * w2 (ix2 k q)) + b2 (ix1 q)

/-- Two arrays of 64 columns side by side: column `i` is the first array's below 64 and the second's column `i - 64` from there on. -/
theorem cat_apply {α : Type} {M : Nat} (a b : (⟨2, ![M, 64]⟩ : Shape).Idx → α)
    (h : Shape.Concatenates [⟨2, ![M, 64]⟩, ⟨2, ![M, 64]⟩] ⟨2, ![M, 128]⟩ 1) (p : Fin M) (i : Fin 128) :
    concatenate ⟨2, ![M, 128]⟩ 1 [⟨⟨2, ![M, 64]⟩, a⟩, ⟨⟨2, ![M, 64]⟩, b⟩] h (ix2 p i)
      = if hi : i.val < 64 then a (ix2 p ⟨i.val, hi⟩) else b (ix2 p ⟨i.val - 64, by have := i.isLt; omega⟩) := by
  split
  · next hi =>
    refine concatenate_pair_apply_left 1 a b h (ix2 p i) rfl (ix2 p ⟨i.val, hi⟩) fun bb => ?_
    match bb with
    | ⟨0, _⟩ => rfl
    | ⟨1, _⟩ => rfl
  · next hi =>
    refine concatenate_pair_apply_right 1 a b h (ix2 p i) rfl rfl (ix2 p ⟨i.val - 64, by have := i.isLt; omega⟩) (fun bb hb => ?_) ?_
    · match bb with
      | ⟨0, _⟩ => rfl
      | ⟨1, _⟩ => exact absurd rfl hb
    · show i.val - 64 + 64 = i.val
      omega

end Cert.LibRows

end
-- ==== Proof.KI.SpecIdeal.lean ====
/-
  The one-head arithmetic read entry by entry over the extended reals: the scores are the dot products of the
  query and key rows over the head's 64 columns, times 1/8; the new maximum is the larger of the old one and the
  row's greatest score; the rescaling factor and the weights are exponentials of differences; the new
  denominator and numerator are the rescaled old ones plus the row sums of the weights, alone and against the
  value rows; the result is the numerator times the reciprocal of the denominator.
-/
import proofs.«178927_j55791625175600_2_alg».proof.Proof.KI.Spec
import proofs.«178927_j55791625175600_2_alg».proof.Proof.LibRows
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx

/-! ## Layout steps -/

theorem drop_unit_apply {α : Type} (x : S1x512x64.Idx → α) (r : Fin 512) (d : Fin 64) :
    shapeCast S512x64 x shapeCasts_S1x512x64_S512x64 (ix2 r d) = x (ix3 (0 : Fin 1) r d) :=
  shapeCast_apply x _ (ix2 r d) (ix3 (0 : Fin 1) r d) (by rw [Shape.rowMajor_val_three, Shape.rowMajor_val_two]; simp)

theorem add_unit_apply {α : Type} (x : S512x64.Idx → α) (r : Fin 512) (d : Fin 64) :
    shapeCast S1x512x64 x shapeCasts_S512x64_S1x512x64 (ix3 (0 : Fin 1) r d) = x (ix2 r d) :=
  shapeCast_apply x _ (ix3 (0 : Fin 1) r d) (ix2 r d) (by rw [Shape.rowMajor_val_three, Shape.rowMajor_val_two]; simp)

theorem col_of_vec_apply {α : Type} (x : S512.Idx → α) (r : Fin 512) :
    shapeCast S512x1 x shapeCasts_S512_S512x1 (ix2 r (0 : Fin 1)) = x (ix1 r) :=
  shapeCast_apply x _ (ix2 r (0 : Fin 1)) (ix1 r) (by rw [Shape.rowMajor_val_one, Shape.rowMajor_val_two]; simp)

theorem swap_apply {α : Type} (x : S512x64.Idx → α) (d : Fin 64) (c : Fin 512) :
    transpose S64x512 [1, 0] x transposes_S512x64_p1_0_S64x512 (ix2 d c) = x (ix2 c d) :=
  transpose_apply [1, 0] x _ (ix2 d c) (ix2 c d) (fun b => by fin_cases b <;> rfl)

theorem col_to_rows_apply {α : Type} (x : S512x1.Idx → α) (r c : Fin 512) :
    broadcastTo S512x512 x broadcasts_S512x1_S512x512 (ix2 r c) = x (ix2 r (0 : Fin 1)) :=
  broadcastTo_apply x _ (ix2 r c) (ix2 r (0 : Fin 1)) (fun a => by fin_cases a <;> simp)

theorem col_to_rows64_apply {α : Type} (x : S512x1.Idx → α) (r : Fin 512) (d : Fin 64) :
    broadcastTo S512x64 x broadcasts_S512x1_S512x64 (ix2 r d) = x (ix2 r (0 : Fin 1)) :=
  broadcastTo_apply x _ (ix2 r d) (ix2 r (0 : Fin 1)) (fun a => by fin_cases a <;> simp)

theorem lift_row (r : Fin 512) (c : Fin (S512x512.size 1)) : reduces_S512x512_S512.lift (ix1 r) c = ix2 r (⟨c.val, c.isLt⟩ : Fin 512) := by
  funext b; apply Fin.ext; rw [Shape.Reduces.lift_val]; unfold Shape.Reduces.liftVal
  fin_cases b <;> simp

theorem neg_inf_word : Ideal.ofBits .f32 0xFF800000#32 = ⊥ := by simp [Ideal.ofBits, Ideal.ieee]
theorem one_word : Ideal.ofBits .f32 0x3F800000#32 = 1 := by
  simp [Ideal.ofBits, Ideal.ieee]
  first
    | (norm_cast; norm_num)
    | (rw [← EReal.coe_mul]; norm_num)
    | norm_num

/-! ## The arithmetic -/

theorem scOff_apply (q k : Vec Ideal S1x512x64 .f32) (r c : Fin 512) :
    scOff q k (ix2 r c) = (∑ d : Fin 64, q (ix3 (0 : Fin 1) r d) * k (ix3 (0 : Fin 1) c d)) * Ideal.ofBits .f32 0x3E000000#32 := by
  unfold scOff
  rw [mulf_apply, Cert.LibRows.matmul_plain_apply dot_S512x64_S64x512_S512x512_1_0_0_1_n_n rfl none _ _ r c, broadcast_apply]
  refine congrArg₂ (· * ·) (Finset.sum_congr rfl fun d _ => ?_) rfl
  have h1 := drop_unit_apply q r d
  have h2 := swap_apply (truncf (F := Ideal) .bf16 (shapeCast S512x64 k shapeCasts_S1x512x64_S512x64) bitsLt_bf16_f32) d c
  have h3 := drop_unit_apply k c d
  exact congrArg₂ (· * ·) h1 (h2.trans h3)

theorem mNew_apply (S : FVec Ideal S512x512 .f32) (mo : Vec Ideal S512x1 .f32) (r : Fin 512) :
    mNew S mo (ix2 r (0 : Fin 1)) = max (mo (ix2 r (0 : Fin 1))) ((Finset.univ : Finset (Fin 512)).sup fun c => S (ix2 r c)) := by
  unfold mNew
  rw [maximumf_apply, col_of_vec_apply]
  refine congrArg (max (mo (ix2 r (0 : Fin 1)))) ?_
  refine (Ideal.multiReduction_maximumf_single (a := (1 : Fin S512x512.rank)) S 0xFF800000#32 reduces_S512x512_S512 (.inl rfl) rfl (ix1 r)).trans ?_
  have e : (S ∘ reduces_S512x512_S512.lift (ix1 r)) = fun c : Fin (S512x512.size 1) => S (ix2 r (⟨c.val, c.isLt⟩ : Fin 512)) :=
    funext fun c => by rw [Function.comp_apply, lift_row]
  rw [e, Ideal.ofBits_def, neg_inf_word]
  rfl

theorem alpha_apply (S : FVec Ideal S512x512 .f32) (mo : Vec Ideal S512x1 .f32) (r : Fin 512) :
    alpha S mo (ix2 r (0 : Fin 1)) = Ideal.exp (mo (ix2 r (0 : Fin 1)) - mNew S mo (ix2 r (0 : Fin 1))) := rfl

theorem pMat_apply (S : FVec Ideal S512x512 .f32) (mo : Vec Ideal S512x1 .f32) (r c : Fin 512) :
    pMat S mo (ix2 r c) = Ideal.exp (S (ix2 r c) - mNew S mo (ix2 r (0 : Fin 1))) := by
  unfold pMat
  show Ideal.exp (S (ix2 r c) - broadcastTo S512x512 (mNew S mo) broadcasts_S512x1_S512x512 (ix2 r c)) = _
  rw [col_to_rows_apply]

theorem lNew_apply (S : FVec Ideal S512x512 .f32) (mo lo : Vec Ideal S512x1 .f32) (r : Fin 512) :
    lNew S mo lo (ix2 r (0 : Fin 1)) = alpha S mo (ix2 r (0 : Fin 1)) * lo (ix2 r (0 : Fin 1)) + ∑ c : Fin 512, pMat S mo (ix2 r c) := by
  unfold lNew
  rw [addf_apply, mulf_apply, col_of_vec_apply]
  refine congrArg (alpha S mo (ix2 r (0 : Fin 1)) * lo (ix2 r (0 : Fin 1)) + ·) ?_
  refine (Ideal.multiReduction_add_single (a := (1 : Fin S512x512.rank)) (pMat S mo) 0x00000000#32 reduces_S512x512_S512 (.inl rfl) rfl (ix1 r)).trans ?_
  simp only [lift_row]
  rfl

theorem accNew_apply (S : FVec Ideal S512x512 .f32) (mo : Vec Ideal S512x1 .f32) (v : Vec Ideal S1x512x64 .f32) (ao : Vec Ideal S512x64 .f32)
    (r : Fin 512) (d : Fin 64) :
    accNew S mo v ao (ix2 r d) = alpha S mo (ix2 r (0 : Fin 1)) * ao (ix2 r d) + ∑ c : Fin 512, pMat S mo (ix2 r c) * v (ix3 (0 : Fin 1) c d) := by
  unfold accNew
  rw [addf_apply, mulf_apply, col_to_rows64_apply, Cert.LibRows.matmul_plain_apply dot_S512x512_S512x64_S512x64_1_0_0_1_n_n rfl none _ _ r d]
  refine congrArg₂ (· + ·) rfl (Finset.sum_congr rfl fun c _ => ?_)
  simp only [truncf_apply, drop_unit_apply]

theorem outNew_apply (l : Vec Ideal S512x1 .f32) (a : Vec Ideal S512x64 .f32) (r : Fin 512) (d : Fin 64) :
    outNew l a (ix3 (0 : Fin 1) r d) = a (ix2 r d) * Ideal.div 1 (l (ix2 r (0 : Fin 1))) := by
  unfold outNew
  rw [add_unit_apply, mulf_apply, col_to_rows64_apply, divf_apply, broadcast_apply]
  show a (ix2 r d) * Ideal.div (Ideal.ofBits .f32 0x3F800000#32) (l (ix2 r (0 : Fin 1))) = _
  rw [one_word]

end Cert.KernelIdeal.Hand

end
-- ==== Proof.KI.Rows.lean ====
/-
  One tile's update of the accumulators read at an entry, over the extended reals: at row r and head h (the head
  of column `col` is col / 64) the new maximum is the larger of the old one and the row's greatest score of that
  head; the new denominator and numerator are the old ones rescaled by exp(old maximum - new maximum) plus the
  row's weights exp(score - new maximum), summed alone and against the value block's column; the result is the
  numerator times the reciprocal of the denominator.
-/
import proofs.«178927_j55791625175600_2_alg».proof.Proof.KI.Upd
import proofs.«178927_j55791625175600_2_alg».proof.Proof.KI.SpecIdeal

noncomputable section

namespace Cert.KernelIdeal.Hand

open Cert.KernelIdeal Cert.KernelIdeal.Gen
open Idealize.ShloMosaic Idealize.ShloMosaic.TcCoe Idealize.ShloMosaic.ValueIdx

/-- The head of a column of the 1024. -/
abbrev headOf (col : Fin 1024) : Fin 16 := ⟨col.val / 64, by have := col.isLt; omega⟩

theorem ld_rM_apply {Val : EltTy → Type} {e : EltTy} (M : S512x16.Idx → Val e) (h : Fin 16) (r : Fin 512) :
    View.ld M (rM h) (ix2 r (0 : Fin 1)) = M (ix2 r h) := by
  show M ((rM h).idx (ix2 r (0 : Fin 1))) = M (ix2 r h)
  congr 1; funext a; apply Fin.ext; fin_cases a <;> simp [LoadRect.idx_apply, ix2]

theorem ld_rA_apply {Val : EltTy → Type} {e : EltTy} (A : S512x1024.Idx → Val e) (col : Fin 1024) (r : Fin 512) :
    View.ld A (rA (headOf col)) (ix2 r (⟨col.val % 64, Nat.mod_lt _ (by decide)⟩ : Fin 64)) = A (ix2 r col) := by
  show A ((rA (headOf col)).idx (ix2 r (⟨col.val % 64, Nat.mod_lt _ (by decide)⟩ : Fin 64))) = A (ix2 r col)
  congr 1; funext a; apply Fin.ext; fin_cases a <;> simp [LoadRect.idx_apply, ix2, Nat.div_add_mod]

theorem ld_rQ_apply {Val : EltTy → Type} {e : EltTy} (X : S1x512x1024.Idx → Val e) (col : Fin 1024) (r : Fin 512) :
    View.ld X (rQ (headOf col)) (ix3 (0 : Fin 1) r (⟨col.val % 64, Nat.mod_lt _ (by decide)⟩ : Fin 64)) = X (ix3 (0 : Fin 1) r col) := by
  show X ((rQ (headOf col)).idx (ix3 (0 : Fin 1) r (⟨col.val % 64, Nat.mod_lt _ (by decide)⟩ : Fin 64))) = X (ix3 (0 : Fin 1) r col)
  congr 1; funext a; apply Fin.ext; fin_cases a <;> simp [LoadRect.idx_apply, ix3, Nat.div_add_mod]

variable (S : Fin 16 → FVec Ideal S512x512 .f32) (M L : Vec Ideal S512x16 .f32) (A : Vec Ideal S512x1024 .f32) (x2 : Vec Ideal S1x512x1024 .f32)

theorem updM_row (r : Fin 512) (h : Fin 16) :
    updM S M (ix2 r h) = max (M (ix2 r h)) ((Finset.univ : Finset (Fin 512)).sup fun c => S h (ix2 r c)) := by
  show mNew (S h) (View.ld M (rM h)) (ix2 r (0 : Fin 1)) = _
  rw [mNew_apply, ld_rM_apply]

theorem updL_row (r : Fin 512) (h : Fin 16) :
    updL S M L (ix2 r h) = Ideal.exp (M (ix2 r h) - updM S M (ix2 r h)) * L (ix2 r h)
      + ∑ c : Fin 512, Ideal.exp (S h (ix2 r c) - updM S M (ix2 r h)) := by
  show lNew (S h) (View.ld M (rM h)) (View.ld L (rM h)) (ix2 r (0 : Fin 1)) = _
  rw [lNew_apply, alpha_apply, ld_rM_apply, ld_rM_apply]
  simp only [pMat_apply]
  rfl

theorem updA_row (r : Fin 512) (col : Fin 1024) :
    updA S M x2 A (ix2 r col) = Ideal.exp (M (ix2 r (headOf col)) - updM S M (ix2 r (headOf col))) * A (ix2 r col)
      + ∑ c : Fin 512, Ideal.exp (S (headOf col) (ix2 r c) - updM S M (ix2 r (headOf col))) * x2 (ix3 (0 : Fin 1) c col) := by
  show accNew (S (headOf col)) (View.ld M (rM (headOf col))) (View.ld x2 (rQ (headOf col))) (View.ld A (rA (headOf col)))
      (ix2 r (⟨col.val % 64, Nat.mod_lt _ (by decide)⟩ : Fin 64)) = _
  rw [accNew_apply, alpha_apply, ld_rM_apply, ld_rA_apply]
  refine congrArg₂ (· + ·) rfl (Finset.sum_congr rfl fun c _ => ?_)
  rw [pMat_apply, ld_rQ_apply]
  rfl

theorem outO_row (r : Fin 512) (col : Fin 1024) :
    outO L A (ix3 (0 : Fin 1) r col) = A (ix2 r col) * Ideal.div 1 (L (ix2 r (headOf col))) := by
  show outNew (View.ld L (rM (headOf col))) (View.ld A (rA (headOf col))) (ix3 (0 : Fin 1) r (⟨col.val % 64, Nat.mod_lt _ (by decide)⟩ : Fin 64)) = _
  rw [outNew_apply, ld_rA_apply, ld_rM_apply]

end Cert.KernelIdeal.Hand

end
-- ==== Proof.LibWords.lean ====
/-
  The causal mask's comparison on 32-bit words. Positions are small naturals written as words: the word of
  tile·512 + offset is the product and sum of the words, and a signed comparison of two such words (both below
  2³¹) is the comparison of the naturals.
-/
import Idealize.ShloMosaic.PureOps.Float

namespace Cert.LibWords

open Idealize.ShloMosaic

theorem toInt_ofNat_small (a : ℕ) (ha : a < 2 ^ 31) : (BitVec.ofNat 32 a).toInt = (a : ℤ) := by
  rw [BitVec.toInt_eq_toNat_of_lt (by rw [BitVec.toNat_ofNat]; have : a % 2 ^ 32 = a := Nat.mod_eq_of_lt (by omega); omega)]
  rw [BitVec.toNat_ofNat, Nat.mod_eq_of_lt (by omega)]

/-- A signed ≥ of two small positions is the ≥ of the naturals. -/
theorem sge_ofNat (a b : ℕ) (ha : a < 2 ^ 31) (hb : b < 2 ^ 31) :
    IntOp.cmpi .sge (BitVec.ofNat 32 a) (BitVec.ofNat 32 b) = if b ≤ a then 1#1 else 0#1 := by
  unfold IntOp.cmpi
  simp only [BitVec.sle_eq_decide, toInt_ofNat_small a ha, toInt_ofNat_small b hb, Int.ofNat_le]
  by_cases h : b ≤ a <;> simp [h]

/-- Tile number times 512 plus the offset, on words. -/
theorem tile_pos (q r : ℕ) :
    IntOp.addi (IntOp.muli (BitVec.ofNat 32 q) 512#32) (BitVec.ofNat 32 r) = BitVec.ofNat 32 (q * 512 + r) := by
  unfold IntOp.addi IntOp.muli
  rw [show (512#32 : BitVec 32) = BitVec.ofNat 32 512 from rfl, ← BitVec.ofNat_mul, ← BitVec.ofNat_add]

end Cert.LibWords
-- ==== Proof.KI.Mask.lean ====
/-
  The masked scores read entry by entry: on the diagonal tile the entry at (row r, column c) is the score when
  the key position (key tile · 512 + c) does not exceed the query position (query tile · 512 + r), and the
  mask's fill value, which is -∞ at the ideal instance, otherwise.
-/
import proofs.«178927_j55791625175600_2_alg».proof.Proof.KI.SpecIdeal
import proofs.«178927_j55791625175600_2_alg».proof.Proof.LibWords
import Idealize.ShloMosaic.PureOps.IdealRules

noncomputable section

namespace Cert.KernelIdeal.Hand

open Cert.KernelIdeal Cert.KernelIdeal.Gen
open Idealize.ShloMosaic Idealize.ShloMosaic.TcCoe Idealize.ShloMosaic.ValueIdx

theorem neg_big_bot : Named.named (F := Ideal) κ "neg_big" (φ := .f32) 0xFF333332#32 = (⊥ : EReal) :=
  IdealRules.named_const.ideal_named_scalar _ _ _ _ rfl

theorem scDiag_apply (qi ki : ℕ) (hq : qi < 4) (hk : ki < 4) (q k : Vec Ideal S1x512x64 .f32) (r c : Fin 512) :
    scDiag (BitVec.ofNat 32 qi) (BitVec.ofNat 32 ki) q k (ix2 r c)
      = if ki * 512 + c.val ≤ qi * 512 + r.val then scOff q k (ix2 r c) else ⊥ := by
  unfold scDiag
  rw [select_apply]
  have hcmp : cmpi .sge (addi (broadcast S512x512 (Scalar.muli (BitVec.ofNat 32 qi) 512#32)) (iota .tc S512x512 32 [0] iota_S512x512_d0_w32))
        (addi (broadcast S512x512 (Scalar.muli (BitVec.ofNat 32 ki) 512#32)) (iota .tc S512x512 32 [1] iota_S512x512_d1_w32)) (ix2 r c)
      = if ki * 512 + c.val ≤ qi * 512 + r.val then 1#1 else 0#1 := by
    show IntOp.cmpi .sge (IntOp.addi (IntOp.muli (BitVec.ofNat 32 qi) 512#32) (iota .tc S512x512 32 [0] iota_S512x512_d0_w32 (ix2 r c)))
        (IntOp.addi (IntOp.muli (BitVec.ofNat 32 ki) 512#32) (iota .tc S512x512 32 [1] iota_S512x512_d1_w32 (ix2 r c))) = _
    rw [iota_single_apply, iota_single_apply]
    show IntOp.cmpi .sge (IntOp.addi (IntOp.muli (BitVec.ofNat 32 qi) 512#32) (BitVec.ofNat 32 r.val))
        (IntOp.addi (IntOp.muli (BitVec.ofNat 32 ki) 512#32) (BitVec.ofNat 32 c.val)) = _
    rw [Cert.LibWords.tile_pos, Cert.LibWords.tile_pos, Cert.LibWords.sge_ofNat _ _ (by have := r.isLt; omega) (by have := c.isLt; omega)]
  rw [hcmp]
  by_cases h : ki * 512 + c.val ≤ qi * 512 + r.val
  · rw [if_pos h, if_pos h, select_one]
  · rw [if_neg h, if_neg h, select_zero, broadcast_apply, neg_big_bot]

end Cert.KernelIdeal.Hand

end
-- ==== Proof.KI.Blocks.lean ====
/-
  Which part of the arrays a grid point's staged blocks are. Point t is (batch t / 16, query tile t / 4 % 4, key
  tile t % 4). The query block and the result block are rows 512·(query tile) … of batch t / 16; the key and value
  blocks are rows 512·min(key tile, query tile) … (above the diagonal the index map repeats the diagonal block).
-/
import proofs.«178927_j55791625175600_2_alg».proof.Proof.KI.Conds
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx

variable {F : FTy → Type} [FloatOps F] [Named F]
variable (m : (ℓ : Loc nD τ sig) → Buf (Elt F) ℓ)

theorem idx_q : ∀ t : Fin cfg0.N, win0_0.index t (0 : Fin 3) = t.val / 16 ∧ win0_0.index t (1 : Fin 3) = t.val / 4 % 4 ∧ win0_0.index t (2 : Fin 3) = 0 :=
  (by decide +kernel : ∀ t : Fin grid0.N, win0_0.index t (0 : Fin 3) = t.val / 16 ∧ win0_0.index t (1 : Fin 3) = t.val / 4 % 4 ∧ win0_0.index t (2 : Fin 3) = 0)
theorem idx_k : ∀ t : Fin cfg0.N, win0_1.index t (0 : Fin 3) = t.val / 16 ∧ win0_1.index t (1 : Fin 3) = min (t.val % 4) (t.val / 4 % 4) ∧ win0_1.index t (2 : Fin 3) = 0 :=
  (by decide +kernel : ∀ t : Fin grid0.N, win0_1.index t (0 : Fin 3) = t.val / 16 ∧ win0_1.index t (1 : Fin 3) = min (t.val % 4) (t.val / 4 % 4) ∧ win0_1.index t (2 : Fin 3) = 0)
theorem idx_v : ∀ t : Fin cfg0.N, win0_2.index t (0 : Fin 3) = t.val / 16 ∧ win0_2.index t (1 : Fin 3) = min (t.val % 4) (t.val / 4 % 4) ∧ win0_2.index t (2 : Fin 3) = 0 :=
  (by decide +kernel : ∀ t : Fin grid0.N, win0_2.index t (0 : Fin 3) = t.val / 16 ∧ win0_2.index t (1 : Fin 3) = min (t.val % 4) (t.val / 4 % 4) ∧ win0_2.index t (2 : Fin 3) = 0)
theorem idx_o : ∀ t : Fin cfg0.N, win0_3.index t (0 : Fin 3) = t.val / 16 ∧ win0_3.index t (1 : Fin 3) = t.val / 4 % 4 ∧ win0_3.index t (2 : Fin 3) = 0 :=
  (by decide +kernel : ∀ t : Fin grid0.N, win0_3.index t (0 : Fin 3) = t.val / 16 ∧ win0_3.index t (1 : Fin 3) = t.val / 4 % 4 ∧ win0_3.index t (2 : Fin 3) = 0)
theorem coords_t : ∀ t : Fin cfg0.N, ((grid0.coords t) 0).val = t.val / 16 ∧ ((grid0.coords t) 1).val = t.val / 4 % 4 ∧ ((grid0.coords t) 2).val = t.val % 4 :=
  (by decide +kernel : ∀ t : Fin grid0.N, ((grid0.coords t) 0).val = t.val / 16 ∧ ((grid0.coords t) 1).val = t.val / 4 % 4 ∧ ((grid0.coords t) 2).val = t.val % 4)

/-- The query block at point t: rows of the query array. -/
theorem iblk_q (c : Dev nD) (t : Fin cfg0.N) (r : Fin 512) (col : Fin 1024) (b : Fin 4) (row : Fin 2048)
    (hb : b.val = t.val / 16) (hrow : row.val = 512 * (t.val / 4 % 4) + r.val) :
    iblk m c 0 t (ix3 (0 : Fin 1) r col) = V m c main_v0 (ix3 b row col) := by
  unfold iblk
  show V m c main_v0 (((cfg0.win 0).blk t).view.emb (ix3 (0 : Fin 1) r col)) = V m c main_v0 (ix3 b row col)
  obtain ⟨e0, e1, e2⟩ := idx_q t
  congr 1; funext a; apply Fin.ext
  match a with
  | ⟨0, _⟩ => show win0_0.index t (0 : Fin 3) * 1 + 1 * 0 = b.val; omega
  | ⟨1, _⟩ => show win0_0.index t (1 : Fin 3) * 512 + 1 * r.val = row.val; omega
  | ⟨2, _⟩ => show win0_0.index t (2 : Fin 3) * 1024 + 1 * col.val = col.val; omega

/-- The key block at point t. -/
theorem iblk_k (c : Dev nD) (t : Fin cfg0.N) (r : Fin 512) (col : Fin 1024) (b : Fin 4) (row : Fin 2048)
    (hb : b.val = t.val / 16) (hrow : row.val = 512 * min (t.val % 4) (t.val / 4 % 4) + r.val) :
    iblk m c 1 t (ix3 (0 : Fin 1) r col) = V m c main_v1 (ix3 b row col) := by
  unfold iblk
  show V m c main_v1 (((cfg0.win 1).blk t).view.emb (ix3 (0 : Fin 1) r col)) = V m c main_v1 (ix3 b row col)
  obtain ⟨e0, e1, e2⟩ := idx_k t
  congr 1; funext a; apply Fin.ext
  match a with
  | ⟨0, _⟩ => show win0_1.index t (0 : Fin 3) * 1 + 1 * 0 = b.val; omega
  | ⟨1, _⟩ => show win0_1.index t (1 : Fin 3) * 512 + 1 * r.val = row.val; omega
  | ⟨2, _⟩ => show win0_1.index t (2 : Fin 3) * 1024 + 1 * col.val = col.val; omega

/-- The value block at point t. -/
theorem iblk_v (c : Dev nD) (t : Fin cfg0.N) (r : Fin 512) (col : Fin 1024) (b : Fin 4) (row : Fin 2048)
    (hb : b.val = t.val / 16) (hrow : row.val = 512 * min (t.val % 4) (t.val / 4 % 4) + r.val) :
    iblk m c 2 t (ix3 (0 : Fin 1) r col) = V m c main_v2 (ix3 b row col) := by
  unfold iblk
  show V m c main_v2 (((cfg0.win 2).blk t).view.emb (ix3 (0 : Fin 1) r col)) = V m c main_v2 (ix3 b row col)
  obtain ⟨e0, e1, e2⟩ := idx_v t
  congr 1; funext a; apply Fin.ext
  match a with
  | ⟨0, _⟩ => show win0_2.index t (0 : Fin 3) * 1 + 1 * 0 = b.val; omega
  | ⟨1, _⟩ => show win0_2.index t (1 : Fin 3) * 512 + 1 * r.val = row.val; omega
  | ⟨2, _⟩ => show win0_2.index t (2 : Fin 3) * 1024 + 1 * col.val = col.val; omega

end Cert.KernelIdeal.Hand

end
-- ==== Proof.LibOnlineSoftmax.lean ====
/-
  Online softmax over the extended reals.

  Keys k carry a real score s k and a flag ok k; a key that is not ok counts with score -∞, so its weight
  exp(-∞ - M) is 0. For a finite set K of keys seen so far, with at least one ok key, the running state is
    m = max over K of the masked scores (a real M),
    l = Σ_{k ∈ K} w_M k,   a = Σ_{k ∈ K} w_M k · v k,      w_M k = exp(s k - M) if ok k, else 0.
  Seeing a further batch T (disjoint from K) turns (m, l, a) into
    m' = max(m, max_T),  l' = exp(m - m') l + Σ_T exp(σ - m'),  a' = exp(m - m') a + Σ_T exp(σ - m') v,
  which is the state of K ∪ T, because exp(M - M') · exp(s - M) = exp(s - M'). From the reset state
  (-∞, 0, 0) the first batch gives the state of that batch (exp(-∞) = 0). At the end a · (1 / l) is
  Σ_k (w k / Σ w) v k: the whole-row softmax, over any larger key set whose extra keys are not ok.
-/
import Idealize.ShloMosaic.PureOps.Ideal
import Idealize.ShloMosaic.PureOps.Ideal.Laws

noncomputable section

namespace Cert.LibOnlineSoftmax

open Idealize.ShloMosaic Finset

variable {κ : Type} [DecidableEq κ]

/-- A key's score as an extended real: -∞ where the key is masked. -/
def sc (ok : κ → Bool) (s : κ → ℝ) (k : κ) : EReal := if ok k then (s k : EReal) else ⊥

/-- A key's weight relative to the maximum `M`. -/
def wt (ok : κ → Bool) (s : κ → ℝ) (M : ℝ) (k : κ) : ℝ := if ok k then Real.exp (s k - M) else 0

theorem exp_sc_sub (ok : κ → Bool) (s : κ → ℝ) (M : ℝ) (k : κ) :
    Ideal.exp (sc ok s k - (M : EReal)) = ((wt ok s M k : ℝ) : EReal) := by
  unfold sc wt
  by_cases h : ok k = true
  · rw [if_pos h, if_pos h, ← EReal.coe_sub, Ideal.exp_coe]
  · rw [if_neg h, if_neg h, EReal.bot_sub, Ideal.exp_bot, EReal.coe_zero]

theorem coe_sum {ι : Type} (K : Finset ι) (f : ι → ℝ) : ((∑ k ∈ K, f k : ℝ) : EReal) = ∑ k ∈ K, (f k : EReal) := by
  classical
  induction K using Finset.induction_on with
  | empty => simp
  | insert a K ha ih => rw [Finset.sum_insert ha, Finset.sum_insert ha, EReal.coe_add, ih]

theorem wt_rescale (ok : κ → Bool) (s : κ → ℝ) (M M' : ℝ) (k : κ) :
    wt ok s M' k = Real.exp (M - M') * wt ok s M k := by
  unfold wt
  by_cases h : ok k = true
  · rw [if_pos h, if_pos h, ← Real.exp_add]; congr 1; ring
  · rw [if_neg h, if_neg h, mul_zero]

theorem sc_lt_top (ok : κ → Bool) (s : κ → ℝ) (k : κ) : sc ok s k < ⊤ := by
  unfold sc; split
  · exact EReal.coe_lt_top _
  · exact bot_lt_top

/-- The greatest masked score over a set with an ok key is a real. -/
theorem sup_real (ok : κ → Bool) (s : κ → ℝ) (K : Finset κ) (h : ∃ k ∈ K, ok k = true) :
    ∃ M : ℝ, (M : EReal) = K.sup (sc ok s) := by
  obtain ⟨k, hk, hok⟩ := h
  have hbot : K.sup (sc ok s) ≠ ⊥ := by
    have : sc ok s k ≤ K.sup (sc ok s) := Finset.le_sup hk
    unfold sc at this; rw [if_pos hok] at this
    exact fun e => absurd (e ▸ this) (not_le.mpr (EReal.bot_lt_coe _))
  have htop : K.sup (sc ok s) ≠ ⊤ :=
    ne_of_lt ((Finset.sup_lt_iff (bot_lt_top)).mpr fun k _ => sc_lt_top ok s k)
  lift K.sup (sc ok s) to ℝ using ⟨htop, hbot⟩ with M hM
  exact ⟨M, rfl⟩

/-- The running state after the keys of `K`. -/
def Inv (ok : κ → Bool) (s v : κ → ℝ) (K : Finset κ) (m l a : EReal) : Prop :=
  ∃ M : ℝ, m = (M : EReal) ∧ (M : EReal) = K.sup (sc ok s)
    ∧ l = ((∑ k ∈ K, wt ok s M k : ℝ) : EReal) ∧ a = ((∑ k ∈ K, wt ok s M k * v k : ℝ) : EReal)

/-- One more batch of keys. -/
theorem Inv.step {ok : κ → Bool} {s v : κ → ℝ} {K : Finset κ} {m l a : EReal} (h : Inv ok s v K m l a)
    (T : Finset κ) (hd : Disjoint K T) :
    Inv ok s v (K ∪ T) (max m (T.sup (sc ok s)))
      (Ideal.exp (m - max m (T.sup (sc ok s))) * l + ∑ k ∈ T, Ideal.exp (sc ok s k - max m (T.sup (sc ok s))))
      (Ideal.exp (m - max m (T.sup (sc ok s))) * a + ∑ k ∈ T, Ideal.exp (sc ok s k - max m (T.sup (sc ok s))) * (v k : EReal)) := by
  obtain ⟨M, rfl, hM, rfl, rfl⟩ := h
  have hsup : max (M : EReal) (T.sup (sc ok s)) = (K ∪ T).sup (sc ok s) := by
    rw [Finset.sup_union, hM]
  have hbot : (K ∪ T).sup (sc ok s) ≠ ⊥ := by
    rw [← hsup]; exact fun e => absurd (le_max_left (M : EReal) _) (by rw [e]; exact not_le.mpr (EReal.bot_lt_coe _))
  have htop : (K ∪ T).sup (sc ok s) ≠ ⊤ :=
    ne_of_lt ((Finset.sup_lt_iff (bot_lt_top)).mpr fun k _ => sc_lt_top ok s k)
  rw [hsup]
  lift (K ∪ T).sup (sc ok s) to ℝ using ⟨htop, hbot⟩ with M' hM'
  refine ⟨M', rfl, hM', ?_, ?_⟩
  · rw [← EReal.coe_sub, Ideal.exp_coe, ← EReal.coe_mul]
    simp only [exp_sc_sub]
    rw [← coe_sum, ← EReal.coe_add, Finset.sum_union hd, Finset.mul_sum]
    congr 2
    exact Finset.sum_congr rfl fun k _ => (wt_rescale ok s M M' k).symm
  · rw [← EReal.coe_sub, Ideal.exp_coe, ← EReal.coe_mul]
    simp only [exp_sc_sub, ← EReal.coe_mul]
    rw [← coe_sum, ← EReal.coe_add, Finset.sum_union hd, Finset.mul_sum]
    congr 2
    exact Finset.sum_congr rfl fun k _ => by rw [wt_rescale ok s M M' k, mul_assoc]

/-- The first batch, from the reset state. -/
theorem Inv.first (ok : κ → Bool) (s v : κ → ℝ) (T : Finset κ) (hT : ∃ k ∈ T, ok k = true) :
    Inv ok s v T (max ⊥ (T.sup (sc ok s)))
      (Ideal.exp (⊥ - max ⊥ (T.sup (sc ok s))) * 0 + ∑ k ∈ T, Ideal.exp (sc ok s k - max ⊥ (T.sup (sc ok s))))
      (Ideal.exp (⊥ - max ⊥ (T.sup (sc ok s))) * 0 + ∑ k ∈ T, Ideal.exp (sc ok s k - max ⊥ (T.sup (sc ok s))) * (v k : EReal)) := by
  obtain ⟨M, hM⟩ := sup_real ok s T hT
  rw [max_eq_right bot_le, ← hM]
  refine ⟨M, rfl, hM, ?_, ?_⟩
  · rw [mul_zero, zero_add]; simp only [exp_sc_sub]; rw [← coe_sum]
  · rw [mul_zero, zero_add]; simp only [exp_sc_sub, ← EReal.coe_mul]; rw [← coe_sum]

/-- The denominator is positive: the greatest score is attained by an ok key, whose weight is 1. -/
theorem denom_pos (ok : κ → Bool) (s : κ → ℝ) (K : Finset κ) (M : ℝ) (hM : (M : EReal) = K.sup (sc ok s)) :
    0 < ∑ k ∈ K, wt ok s M k := by
  have hne : K.Nonempty := by
    by_contra hK
    rw [Finset.not_nonempty_iff_eq_empty] at hK
    rw [hK, Finset.sup_empty] at hM
    exact EReal.coe_ne_bot M hM
  obtain ⟨k, hk, hkM⟩ := Finset.exists_mem_eq_sup K hne (sc ok s)
  have hokk : ok k = true := by
    by_contra hn
    rw [← hM] at hkM; unfold sc at hkM; rw [if_neg hn] at hkM
    exact EReal.coe_ne_bot M hkM
  have hnonneg : ∀ j ∈ K, 0 ≤ wt ok s M j := fun j _ => by
    unfold wt; split
    · exact (Real.exp_pos _).le
    · exact le_rfl
  have hkpos : 0 < wt ok s M k := by unfold wt; rw [if_pos hokk]; exact Real.exp_pos _
  exact lt_of_lt_of_le hkpos (Finset.single_le_sum hnonneg hk)

/-- The end: numerator times the reciprocal of the denominator is the whole-row softmax against the values, the
    row taken over any key set `U ⊇ K` whose further keys are masked. -/
theorem Inv.quotient {ok : κ → Bool} {s v : κ → ℝ} {K : Finset κ} {m l a : EReal} (h : Inv ok s v K m l a)
    (U : Finset κ) (hKU : K ⊆ U) (hrest : ∀ k ∈ U, k ∉ K → ok k = false) :
    a * Ideal.div 1 l
      = ∑ k ∈ U, Ideal.div (Ideal.exp (sc ok s k - max ⊥ (U.sup (sc ok s))))
            (0 + ∑ j ∈ U, Ideal.exp (sc ok s j - max ⊥ (U.sup (sc ok s)))) * (v k : EReal) := by
  obtain ⟨M, rfl, hM, rfl, rfl⟩ := h
  have hwt0 : ∀ k ∈ U, k ∉ K → wt ok s M k = 0 := fun k hk hn => by unfold wt; rw [if_neg (by rw [hrest k hk hn]; simp)]
  have hsupU : U.sup (sc ok s) = (M : EReal) := by
    rw [hM]
    apply le_antisymm
    · refine Finset.sup_le fun k hk => ?_
      by_cases hkK : k ∈ K
      · exact Finset.le_sup hkK
      · unfold sc; rw [if_neg (by rw [hrest k hk hkK]; simp)]; exact bot_le
    · exact Finset.sup_mono hKU
  have hsumU : ∀ f : κ → ℝ, (∀ k ∈ U, k ∉ K → f k = 0) → ∑ k ∈ U, f k = ∑ k ∈ K, f k := fun f hf =>
    (Finset.sum_subset hKU (fun k hk hn => hf k hk hn)).symm
  have hL := denom_pos ok s K M hM
  set L := ∑ k ∈ K, wt ok s M k with hLdef
  rw [hsupU, max_eq_right bot_le]
  simp only [exp_sc_sub]
  rw [← coe_sum, zero_add, hsumU (wt ok s M) hwt0, ← hLdef]
  rw [Ideal.div_coe hL.ne']
  simp only [Ideal.div_coe hL.ne', ← EReal.coe_mul, ← EReal.coe_one]
  rw [← coe_sum]
  rw [EReal.coe_eq_coe_iff]
  rw [hsumU (fun k => wt ok s M k * (1 / L) * v k) (fun k hk hn => by simp only [hwt0 k hk hn, zero_mul])]
  rw [Finset.sum_mul]
  exact Finset.sum_congr rfl fun k _ => by ring

end Cert.LibOnlineSoftmax

end
-- ==== Proof.KI.Tile.lean ====
/-
  One row of one head on one key tile, over the reals. With every entry of the three staged arrays a real, the
  score of query position q against key position k is s k = (Σ_d Q[b,q,64h+d] · K[b,k,64h+d]) / 8, the key is
  allowed when k ≤ q, and the tile's scores as the kernel forms them — unmasked below the diagonal, masked on it —
  are exactly the masked scores of the tile's keys; the value block's column is the keys' values.
-/
import proofs.«178927_j55791625175600_2_alg».proof.Proof.KI.State
import proofs.«178927_j55791625175600_2_alg».proof.Proof.KI.Rows
import proofs.«178927_j55791625175600_2_alg».proof.Proof.KI.Mask
import proofs.«178927_j55791625175600_2_alg».proof.Proof.KI.Blocks
import proofs.«178927_j55791625175600_2_alg».proof.Proof.LibOnlineSoftmax

noncomputable section

namespace Cert.KernelIdeal.Hand

open Cert.KernelIdeal Cert.KernelIdeal.Gen
open Idealize.ShloMosaic Idealize.ShloMosaic.TcCoe Idealize.ShloMosaic.ValueIdx
open Cert.LibOnlineSoftmax

/-- Column 64h + d of the 1024. -/
abbrev colOf (h : Fin 16) (d : Fin 64) : Fin 1024 := ⟨64 * h.val + d.val, by have := h.isLt; have := d.isLt; omega⟩

theorem ld_rQ_hd {Val : EltTy → Type} {e : EltTy} (X : S1x512x1024.Idx → Val e) (h : Fin 16) (d : Fin 64) (r : Fin 512) :
    View.ld X (rQ h) (ix3 (0 : Fin 1) r d) = X (ix3 (0 : Fin 1) r (colOf h d)) := by
  show X ((rQ h).idx (ix3 (0 : Fin 1) r d)) = X (ix3 (0 : Fin 1) r (colOf h d))
  congr 1; funext a; apply Fin.ext; fin_cases a <;> simp [LoadRect.idx_apply, ix3]

theorem eighth_word : Ideal.ofBits .f32 0x3E000000#32 = (((1 / 8 : ℝ)) : EReal) := by
  simp [Ideal.ofBits, Ideal.ieee]
  first
    | (norm_cast; norm_num)
    | (rw [← EReal.coe_mul]; norm_num)
    | norm_num

/-- Key position 512·j + cc. -/
abbrev keyOf (j : ℕ) (hj : j < 4) (cc : Fin 512) : Fin 2048 := ⟨512 * j + cc.val, by have := cc.isLt; omega⟩

section Row

variable (Qr Kr Vr : S4x2048x1024.Idx → ℝ) (b : Fin 4) (qpos : Fin 2048) (col : Fin 1024)

/-- The score of the row's query against key `k`, for the head of `col`. -/
def rowScore (k : Fin 2048) : ℝ :=
  (∑ d : Fin 64, Qr (ix3 b qpos (colOf (headOf col) d)) * Kr (ix3 b k (colOf (headOf col) d))) * (1 / 8)
/-- The causal mask. -/
def rowOk (k : Fin 2048) : Bool := decide (k.val ≤ qpos.val)
/-- The value column. -/
def rowVal (k : Fin 2048) : ℝ := Vr (ix3 b k col)

/-- The unmasked score the kernel forms, from blocks that are the arrays' rows. -/
theorem scOff_row (q k : Vec Ideal S1x512x64 .f32) (r cc : Fin 512) (key : Fin 2048)
    (hq : ∀ d : Fin 64, q (ix3 (0 : Fin 1) r d) = ((Qr (ix3 b qpos (colOf (headOf col) d)) : ℝ) : EReal))
    (hk : ∀ d : Fin 64, k (ix3 (0 : Fin 1) cc d) = ((Kr (ix3 b key (colOf (headOf col) d)) : ℝ) : EReal)) :
    scOff q k (ix2 r cc) = ((rowScore Qr Kr b qpos col key : ℝ) : EReal) := by
  rw [scOff_apply, eighth_word]
  unfold rowScore
  rw [EReal.coe_mul, coe_sum]
  congr 1
  exact Finset.sum_congr rfl fun d _ => by rw [hq d, hk d, EReal.coe_mul]

end Row

end Cert.KernelIdeal.Hand

end
-- ==== Proof.KI.Online.lean ====
/-
  One key tile advances the online-softmax state of one row: if the tile's scores are the masked scores of the
  tile's 512 keys and the value column is the keys' values, then from the fills the first tile gives the state of
  its keys, and a later tile takes the state of the keys seen to the state of those and its own.
-/
import proofs.«178927_j55791625175600_2_alg».proof.Proof.KI.Tile

noncomputable section

namespace Cert.KernelIdeal.Hand

open Cert.KernelIdeal Cert.KernelIdeal.Gen
open Idealize.ShloMosaic Idealize.ShloMosaic.TcCoe Idealize.ShloMosaic.ValueIdx
open Cert.LibOnlineSoftmax

/-- The keys of tile `j`, as an embedding of the tile's columns. -/
def keyEmb (j : ℕ) (hj : j < 4) : Fin 512 ↪ Fin 2048 :=
  ⟨keyOf j hj, fun a b h => Fin.ext (by have := congrArg Fin.val h; simp only [keyOf] at this; omega)⟩

theorem keyEmb_apply (j : ℕ) (hj : j < 4) (cc : Fin 512) : keyEmb j hj cc = keyOf j hj cc := rfl

/-- The fills at the ideal instance: -∞, 0, 0. -/
theorem fillM_apply (y : S512x16.Idx) : (fillM (F := Ideal)) y = ⊥ := by
  show shapeCast S512x16 (broadcast S512x16 (Scalar.ofBits (F := Ideal) .f32 0xFF800000#32)) shapeCasts_S512x16_S512x16 y = ⊥
  rw [shapeCast_self]; exact neg_inf_word
theorem fillL_apply (y : S512x16.Idx) : (fillL (F := Ideal)) y = 0 := by
  show shapeCast S512x16 (broadcast S512x16 (Scalar.ofBits (F := Ideal) .f32 0x00000000#32)) shapeCasts_S512x16_S512x16 y = 0
  rw [shapeCast_self]; exact Ideal.ofBits_zero_f32
theorem fillA_apply (y : S512x1024.Idx) : (fillA (F := Ideal)) y = 0 := by
  show shapeCast S512x1024 (broadcast S512x1024 (Scalar.ofBits (F := Ideal) .f32 0x00000000#32)) shapeCasts_S512x1024_S512x1024 y = 0
  rw [shapeCast_self]; exact Ideal.ofBits_zero_f32

section Step

variable (S : Fin 16 → FVec Ideal S512x512 .f32) (M L : Vec Ideal S512x16 .f32) (A : Vec Ideal S512x1024 .f32) (x2 : Vec Ideal S1x512x1024 .f32)
variable (ok : Fin 2048 → Bool) (s v : Fin 2048 → ℝ) (j : ℕ) (hj : j < 4) (r : Fin 512) (col : Fin 1024)

theorem sup_tile (hS : ∀ cc, S (headOf col) (ix2 r cc) = sc ok s (keyOf j hj cc)) :
    ((Finset.univ : Finset (Fin 512)).sup fun cc => S (headOf col) (ix2 r cc)) = (Finset.univ.map (keyEmb j hj)).sup (sc ok s) := by
  rw [Finset.sup_map]; exact Finset.sup_congr rfl fun cc _ => hS cc

/-- A later tile. -/
theorem tile_step (K : Finset (Fin 2048))
    (hS : ∀ cc, S (headOf col) (ix2 r cc) = sc ok s (keyOf j hj cc))
    (hx : ∀ cc, x2 (ix3 (0 : Fin 1) cc col) = ((v (keyOf j hj cc) : ℝ) : EReal))
    (hd : ∀ cc, keyOf j hj cc ∉ K)
    (hInv : Inv ok s v K (M (ix2 r (headOf col))) (L (ix2 r (headOf col))) (A (ix2 r col))) :
    Inv ok s v (K ∪ Finset.univ.map (keyEmb j hj)) (updM S M (ix2 r (headOf col))) (updL S M L (ix2 r (headOf col)))
      (updA S M x2 A (ix2 r col)) := by
  have hdisj : Disjoint K (Finset.univ.map (keyEmb j hj)) := by
    rw [Finset.disjoint_right]; intro k hk
    obtain ⟨cc, -, rfl⟩ := Finset.mem_map.mp hk
    exact hd cc
  have hm : updM S M (ix2 r (headOf col))
      = max (M (ix2 r (headOf col))) ((Finset.univ.map (keyEmb j hj)).sup (sc ok s)) := by
    rw [updM_row, sup_tile S ok s j hj r col hS]
  have hl : updL S M L (ix2 r (headOf col))
      = Ideal.exp (M (ix2 r (headOf col)) - updM S M (ix2 r (headOf col))) * L (ix2 r (headOf col))
        + ∑ k ∈ Finset.univ.map (keyEmb j hj), Ideal.exp (sc ok s k - updM S M (ix2 r (headOf col))) := by
    rw [updL_row, Finset.sum_map]
    exact congrArg₂ (· + ·) rfl (Finset.sum_congr rfl fun cc _ => by rw [hS cc]; rfl)
  have ha : updA S M x2 A (ix2 r col)
      = Ideal.exp (M (ix2 r (headOf col)) - updM S M (ix2 r (headOf col))) * A (ix2 r col)
        + ∑ k ∈ Finset.univ.map (keyEmb j hj), Ideal.exp (sc ok s k - updM S M (ix2 r (headOf col))) * ((v k : ℝ) : EReal) := by
    rw [updA_row, Finset.sum_map]
    exact congrArg₂ (· + ·) rfl (Finset.sum_congr rfl fun cc _ => by rw [hS cc, hx cc]; rfl)
  rw [hl, ha, hm]
  exact hInv.step _ hdisj

/-- The first tile, from the fills. -/
theorem tile_first
    (hS : ∀ cc, S (headOf col) (ix2 r cc) = sc ok s (keyOf j hj cc))
    (hx : ∀ cc, x2 (ix3 (0 : Fin 1) cc col) = ((v (keyOf j hj cc) : ℝ) : EReal))
    (hok : ∃ cc, ok (keyOf j hj cc) = true) :
    Inv ok s v (Finset.univ.map (keyEmb j hj)) (updM S fillM (ix2 r (headOf col))) (updL S fillM fillL (ix2 r (headOf col)))
      (updA S fillM x2 fillA (ix2 r col)) := by
  have hm : updM S fillM (ix2 r (headOf col)) = max ⊥ ((Finset.univ.map (keyEmb j hj)).sup (sc ok s)) := by
    rw [updM_row, sup_tile S ok s j hj r col hS, fillM_apply]
  have hl : updL S fillM fillL (ix2 r (headOf col))
      = Ideal.exp (⊥ - updM S fillM (ix2 r (headOf col))) * 0
        + ∑ k ∈ Finset.univ.map (keyEmb j hj), Ideal.exp (sc ok s k - updM S fillM (ix2 r (headOf col))) := by
    rw [updL_row, Finset.sum_map, fillM_apply, fillL_apply]
    exact congrArg₂ (· + ·) rfl (Finset.sum_congr rfl fun cc _ => by rw [hS cc]; rfl)
  have ha : updA S fillM x2 fillA (ix2 r col)
      = Ideal.exp (⊥ - updM S fillM (ix2 r (headOf col))) * 0
        + ∑ k ∈ Finset.univ.map (keyEmb j hj), Ideal.exp (sc ok s k - updM S fillM (ix2 r (headOf col))) * ((v k : ℝ) : EReal) := by
    rw [updA_row, Finset.sum_map, fillM_apply, fillA_apply]
    exact congrArg₂ (· + ·) rfl (Finset.sum_congr rfl fun cc _ => by rw [hS cc, hx cc]; rfl)
  rw [hl, ha, hm]
  obtain ⟨cc, hcc⟩ := hok
  exact Inv.first ok s v _ ⟨keyOf j hj cc, Finset.mem_map.mpr ⟨cc, Finset.mem_univ _, rfl⟩, hcc⟩

end Step

end Cert.KernelIdeal.Hand

end
-- ==== Proof.KI.Chain.lean ====
/-
  The chain over the key tiles of one query tile, for one row and one column of the result. After key tile j ≤
  the query tile, the accumulators' entries are the online-softmax state of the keys of tiles 0 … j; above the
  diagonal nothing changes; on the last key tile the result entry is the numerator times the reciprocal of the
  denominator, which is the whole-row softmax of the masked scores against the values.
-/
import proofs.«178927_j55791625175600_2_alg».proof.Proof.KI.Online

set_option maxRecDepth 16384

noncomputable section

namespace Cert.KernelIdeal.Hand

open Cert.KernelIdeal Cert.KernelIdeal.Gen
open Idealize.ShloMosaic Idealize.ShloMosaic.TcCoe Idealize.ShloMosaic.ValueIdx
open Cert.LibOnlineSoftmax

variable (m : (ℓ : Loc nD τ sig) → Buf (Elt Ideal) ℓ) (c : Dev nD)
variable (Qr Kr Vr : S4x2048x1024.Idx → ℝ)

/-- The staged arrays hold reals. -/
structure RealArrays : Prop where
  hQ : ∀ i : S4x2048x1024.Idx, V m c main_v0 i = ((Qr i : ℝ) : EReal)
  hK : ∀ i : S4x2048x1024.Idx, V m c main_v1 i = ((Kr i : ℝ) : EReal)
  hV : ∀ i : S4x2048x1024.Idx, V m c main_v2 i = ((Vr i : ℝ) : EReal)

/-- The keys of tiles 0 … j. -/
def Kset (j : ℕ) : Finset (Fin 2048) := Finset.univ.filter fun k => k.val < 512 * (j + 1)

theorem mem_Kset (j : ℕ) (k : Fin 2048) : k ∈ Kset j ↔ k.val < 512 * (j + 1) := by
  simp only [Kset, Finset.mem_filter, Finset.mem_univ, true_and]

theorem mem_tile (j : ℕ) (hj : j < 4) (k : Fin 2048) :
    k ∈ Finset.univ.map (keyEmb j hj) ↔ 512 * j ≤ k.val ∧ k.val < 512 * (j + 1) := by
  constructor
  · intro h
    obtain ⟨cc, -, rfl⟩ := Finset.mem_map.mp h
    rw [keyEmb_apply]
    show 512 * j ≤ 512 * j + cc.val ∧ 512 * j + cc.val < 512 * (j + 1)
    have := cc.isLt; constructor <;> omega
  · rintro ⟨h1, h2⟩
    refine Finset.mem_map.mpr ⟨⟨k.val - 512 * j, by omega⟩, Finset.mem_univ _, ?_⟩
    rw [keyEmb_apply]
    exact Fin.ext (by show 512 * j + (k.val - 512 * j) = k.val; omega)

theorem Kset_zero : Kset 0 = Finset.univ.map (keyEmb 0 (by decide)) := by
  ext k; rw [mem_Kset, mem_tile]; omega

theorem Kset_succ (j : ℕ) (hj : j + 1 < 4) : Kset (j + 1) = Kset j ∪ Finset.univ.map (keyEmb (j + 1) hj) := by
  ext k; rw [Finset.mem_union, mem_Kset, mem_Kset, mem_tile]; omega

theorem keyOf_not_mem (j : ℕ) (hj : j + 1 < 4) (cc : Fin 512) : keyOf (j + 1) hj cc ∉ Kset j := by
  rw [mem_Kset]; show ¬ (512 * (j + 1) + cc.val < 512 * (j + 1)); omega

theorem outsAt_congr {n n' : ℕ} (h : n = n') (h1 : n < cfg0.N) (h2 : n' < cfg0.N) : outsAt m c n h1 = outsAt m c n' h2 := by
  subst h; rfl

section Row

variable {m c Qr Kr Vr}
variable (hR : RealArrays m c Qr Kr Vr) (b qi : Fin 4) (r : Fin 512) (col : Fin 1024)

/-- The query position of the row. -/
abbrev qposOf : Fin 2048 := ⟨512 * qi.val + r.val, by have := qi.isLt; have := r.isLt; omega⟩

include hR in
/-- The query rows the point stages are the array's rows. -/
theorem q_row (t : Fin cfg0.N) (hb : t.val / 16 = b.val) (hq : t.val / 4 % 4 = qi.val) (d : Fin 64) :
    View.ld (iblk m c 0 t) (rQ (headOf col)) (ix3 (0 : Fin 1) r d) = ((Qr (ix3 b (qposOf qi r) (colOf (headOf col) d)) : ℝ) : EReal) := by
  rw [ld_rQ_hd, iblk_q m c t r (colOf (headOf col) d) b (qposOf qi r) hb.symm (by show 512 * qi.val + r.val = _; rw [hq]), hR.hQ]

include hR in
theorem k_row (t : Fin cfg0.N) (j : ℕ) (hj : j < 4) (hb : t.val / 16 = b.val) (hk : min (t.val % 4) (t.val / 4 % 4) = j) (cc : Fin 512) (d : Fin 64) :
    View.ld (iblk m c 1 t) (rQ (headOf col)) (ix3 (0 : Fin 1) cc d) = ((Kr (ix3 b (keyOf j hj cc) (colOf (headOf col) d)) : ℝ) : EReal) := by
  rw [ld_rQ_hd, iblk_k m c t cc (colOf (headOf col) d) b (keyOf j hj cc) hb.symm (by show 512 * j + cc.val = _; rw [hk]), hR.hK]

include hR in
theorem v_row (t : Fin cfg0.N) (j : ℕ) (hj : j < 4) (hb : t.val / 16 = b.val) (hk : min (t.val % 4) (t.val / 4 % 4) = j) (cc : Fin 512) :
    iblk m c 2 t (ix3 (0 : Fin 1) cc col) = ((rowVal Vr b col (keyOf j hj cc) : ℝ) : EReal) := by
  rw [iblk_v m c t cc col b (keyOf j hj cc) hb.symm (by show 512 * j + cc.val = _; rw [hk]), hR.hV]; rfl

include hR in
/-- Below the diagonal the tile's scores are the (allowed) keys' scores. -/
theorem off_scores (t : Fin cfg0.N) (j : ℕ) (hj : j < 4) (hb : t.val / 16 = b.val) (hq : t.val / 4 % 4 = qi.val) (hk : t.val % 4 = j) (hlt : j < qi.val)
    (cc : Fin 512) :
    Soff m c t (headOf col) (ix2 r cc)
      = sc (rowOk (qposOf qi r)) (rowScore Qr Kr b (qposOf qi r) col) (keyOf j hj cc) := by
  show scOff (View.ld (iblk m c 0 t) (rQ (headOf col))) (View.ld (iblk m c 1 t) (rQ (headOf col))) (ix2 r cc) = _
  rw [scOff_row Qr Kr b (qposOf qi r) col _ _ r cc (keyOf j hj cc) (q_row hR b qi r col t hb hq)
    (k_row hR b col t j hj hb (by rw [hk, hq]; omega) cc)]
  unfold sc rowOk
  rw [if_pos (by simp only [decide_eq_true_eq, keyOf]; have := cc.isLt; omega)]

include hR in
/-- On the diagonal they are the masked scores. -/
theorem diag_scores (t : Fin cfg0.N) (j : ℕ) (hj : j < 4) (hjq : j = qi.val) (hb : t.val / 16 = b.val) (hq : t.val / 4 % 4 = qi.val) (hk : t.val % 4 = qi.val)
    (cc : Fin 512) :
    Sdg m c t (headOf col) (ix2 r cc)
      = sc (rowOk (qposOf qi r)) (rowScore Qr Kr b (qposOf qi r) col) (keyOf j hj cc) := by
  subst hjq
  obtain ⟨e0, e1, e2⟩ := coords_t t
  show scDiag (BitVec.ofNat 32 ((grid0.coords t) 1).val) (BitVec.ofNat 32 ((grid0.coords t) 2).val)
      (View.ld (iblk m c 0 t) (rQ (headOf col))) (View.ld (iblk m c 1 t) (rQ (headOf col))) (ix2 r cc) = _
  rw [e1, e2, hq, hk, scDiag_apply qi.val qi.val hj hj,
    scOff_row Qr Kr b (qposOf qi r) col _ _ r cc (keyOf qi.val hj cc) (q_row hR b qi r col t hb hq)
      (k_row hR b col t qi.val hj hb (by rw [hk, hq]; omega) cc)]
  unfold sc rowOk
  by_cases h : qi.val * 512 + cc.val ≤ qi.val * 512 + r.val
  · rw [if_pos h, if_pos (by simp only [decide_eq_true_eq, keyOf]; omega)]
  · rw [if_neg h, if_neg (by simp only [decide_eq_true_eq, keyOf]; omega)]

end Row

end Cert.KernelIdeal.Hand

end
-- ==== Proof.KI.Walk.lean ====
/-
  The induction over the key tiles, and the result entry. For key tile j ≤ query tile the accumulators' entries
  are the online-softmax state of the keys of tiles 0 … j; above the diagonal they stay; on the last key tile the
  result entry is the whole-row softmax of the masked scores against the value column.
-/
import proofs.«178927_j55791625175600_2_alg».proof.Proof.KI.Chain

set_option maxRecDepth 16384

noncomputable section

namespace Cert.KernelIdeal.Hand

open Cert.KernelIdeal Cert.KernelIdeal.Gen
open Idealize.ShloMosaic Idealize.ShloMosaic.TcCoe Idealize.ShloMosaic.ValueIdx
open Cert.LibOnlineSoftmax

variable {m : (ℓ : Loc nD τ sig) → Buf (Elt Ideal) ℓ} {c : Dev nD} {Qr Kr Vr : S4x2048x1024.Idx → ℝ}
variable (hR : RealArrays m c Qr Kr Vr) (b qi : Fin 4) (r : Fin 512) (col : Fin 1024)

include hR in
/-- At or below the diagonal. -/
theorem chain : ∀ j, j ≤ qi.val → ∀ t : Fin cfg0.N, t.val = 16 * b.val + 4 * qi.val + j →
    Inv (rowOk (qposOf qi r)) (rowScore Qr Kr b (qposOf qi r) col) (rowVal Vr b col) (Kset j)
      ((outsAt m c t.val t.isLt).2.1 (ix2 r (headOf col))) ((outsAt m c t.val t.isLt).2.2.1 (ix2 r (headOf col)))
      ((outsAt m c t.val t.isLt).2.2.2 (ix2 r col))
  | 0, _, t, ht => by
    have hN : t.val < 64 := lt_of_lt_of_eq t.isLt (show cfg0.N = 64 from N_0)
    have hb4 := b.isLt; have hq4 := qi.isLt
    have h1 : t.val % 4 = 0 := by omega
    have hb : t.val / 16 = b.val := by omega
    have hq : t.val / 4 % 4 = qi.val := by omega
    rw [Kset_zero]
    by_cases hq0 : qi.val = 0
    · have h3 : t.val % 4 = t.val / 4 % 4 := by omega
      rw [outsAt_A m c t hN h1 h3]
      exact tile_first _ _ _ _ _ 0 (by decide) r col
        (fun cc => diag_scores hR b qi r col t 0 (by decide) hq0.symm hb hq (by omega) cc)
        (fun cc => v_row hR b col t 0 (by decide) hb (by omega) cc)
        ⟨⟨0, by decide⟩, by simp [rowOk, keyOf]⟩
    · have h3 : ¬t.val % 4 = t.val / 4 % 4 := by omega
      rw [outsAt_B m c t hN h1 h3]
      exact tile_first _ _ _ _ _ 0 (by decide) r col
        (fun cc => off_scores hR b qi r col t 0 (by decide) hb hq (by omega) (by omega) cc)
        (fun cc => v_row hR b col t 0 (by decide) hb (by omega) cc)
        ⟨⟨0, by decide⟩, by simp [rowOk, keyOf]⟩
  | j + 1, hj, t, ht => by
    have hN : t.val < 64 := lt_of_lt_of_eq t.isLt (show cfg0.N = 64 from N_0)
    have hb4 := b.isLt; have hq4 := qi.isLt
    have hb : t.val / 16 = b.val := by omega
    have hq : t.val / 4 % 4 = qi.val := by omega
    have hk : t.val % 4 = j + 1 := by omega
    have hz : t.val ≠ 0 := by omega
    have h1 : ¬t.val % 4 = 0 := by omega
    have ih := chain j (by omega) ⟨t.val - 1, Nat.lt_of_le_of_lt (Nat.sub_le _ _) t.isLt⟩ (by show t.val - 1 = _; omega)
    have hst : prev m c t = outsAt m c (t.val - 1) (Nat.lt_of_le_of_lt (Nat.sub_le _ _) t.isLt) := prev_pos m c t hz
    rw [Kset_succ j (by omega)]
    by_cases hlt : j + 1 < qi.val
    · have h2 : t.val % 4 < t.val / 4 % 4 := by omega
      rw [outsAt_C m c t hN h1 h2, hst]
      exact tile_step _ _ _ _ _ _ _ _ (j + 1) (by omega) r col (Kset j)
        (fun cc => off_scores hR b qi r col t (j + 1) (by omega) hb hq hk hlt cc)
        (fun cc => v_row hR b col t (j + 1) (by omega) hb (by omega) cc)
        (fun cc => keyOf_not_mem j (by omega) cc) ih
    · have heq : j + 1 = qi.val := by omega
      have h2 : ¬t.val % 4 < t.val / 4 % 4 := by omega
      have h3 : t.val % 4 = t.val / 4 % 4 := by omega
      by_cases h4 : t.val % 4 = 3
      · rw [outsAt_E m c t hN h1 h2 h3 h4, hst]
        exact tile_step _ _ _ _ _ _ _ _ (j + 1) (by omega) r col (Kset j)
          (fun cc => diag_scores hR b qi r col t (j + 1) (by omega) heq hb hq (by omega) cc)
          (fun cc => v_row hR b col t (j + 1) (by omega) hb (by omega) cc)
          (fun cc => keyOf_not_mem j (by omega) cc) ih
      · rw [outsAt_D m c t hN h1 h2 h3 h4, hst]
        exact tile_step _ _ _ _ _ _ _ _ (j + 1) (by omega) r col (Kset j)
          (fun cc => diag_scores hR b qi r col t (j + 1) (by omega) heq hb hq (by omega) cc)
          (fun cc => v_row hR b col t (j + 1) (by omega) hb (by omega) cc)
          (fun cc => keyOf_not_mem j (by omega) cc) ih

include hR in
/-- Above the diagonal the state stays that of the diagonal tile. -/
theorem chain_hi : ∀ n, qi.val + n ≤ 3 → ∀ t : Fin cfg0.N, t.val = 16 * b.val + 4 * qi.val + (qi.val + n) →
    Inv (rowOk (qposOf qi r)) (rowScore Qr Kr b (qposOf qi r) col) (rowVal Vr b col) (Kset qi.val)
      ((outsAt m c t.val t.isLt).2.1 (ix2 r (headOf col))) ((outsAt m c t.val t.isLt).2.2.1 (ix2 r (headOf col)))
      ((outsAt m c t.val t.isLt).2.2.2 (ix2 r col))
  | 0, _, t, ht => chain hR b qi r col qi.val le_rfl t (by omega)
  | n + 1, hn, t, ht => by
    have hN : t.val < 64 := lt_of_lt_of_eq t.isLt (show cfg0.N = 64 from N_0)
    have hb4 := b.isLt; have hq4 := qi.isLt
    have hz : t.val ≠ 0 := by omega
    have hk : t.val % 4 = qi.val + (n + 1) := by omega
    have hq : t.val / 4 % 4 = qi.val := by omega
    have h1 : ¬t.val % 4 = 0 := by omega
    have h2 : ¬t.val % 4 < t.val / 4 % 4 := by rw [hk, hq]; omega
    have h3 : ¬t.val % 4 = t.val / 4 % 4 := by rw [hk, hq]; omega
    have ih := chain_hi n (by omega) ⟨t.val - 1, Nat.lt_of_le_of_lt (Nat.sub_le _ _) t.isLt⟩ (by show t.val - 1 = _; omega)
    have hst : prev m c t = outsAt m c (t.val - 1) (Nat.lt_of_le_of_lt (Nat.sub_le _ _) t.isLt) := prev_pos m c t hz
    by_cases h4 : t.val % 4 = 3
    · rw [outsAt_H m c t hN h1 h2 h3 h4, hst]; exact ih
    · rw [outsAt_G m c t hN h1 h2 h3 h4, hst]; exact ih

/-- On the last key tile the result block is the numerator over the denominator as they stand. -/
theorem out_last (t : Fin cfg0.N) (h4 : t.val % 4 = 3) :
    (outsAt m c t.val t.isLt).1 = outO (outsAt m c t.val t.isLt).2.2.1 (outsAt m c t.val t.isLt).2.2.2 := by
  have hN : t.val < 64 := lt_of_lt_of_eq t.isLt (show cfg0.N = 64 from N_0)
  have h1 : ¬t.val % 4 = 0 := by omega
  by_cases h3 : t.val % 4 = t.val / 4 % 4
  · have h2 : ¬t.val % 4 < t.val / 4 % 4 := by omega
    rw [outsAt_E m c t hN h1 h2 h3 h4]
  · have h2 : ¬t.val % 4 < t.val / 4 % 4 := by omega
    rw [outsAt_H m c t hN h1 h2 h3 h4]

include hR in
/-- THE RESULT ENTRY: the whole-row softmax of the masked scores against the value column. -/
theorem result_entry (t : Fin cfg0.N) (ht : t.val = 16 * b.val + 4 * qi.val + 3) :
    (outsAt m c t.val t.isLt).1 (ix3 (0 : Fin 1) r col)
      = ∑ k : Fin 2048,
          Ideal.div (Ideal.exp (sc (rowOk (qposOf qi r)) (rowScore Qr Kr b (qposOf qi r) col) k
              - max ⊥ ((Finset.univ : Finset (Fin 2048)).sup (sc (rowOk (qposOf qi r)) (rowScore Qr Kr b (qposOf qi r) col)))))
            (0 + ∑ j : Fin 2048, Ideal.exp (sc (rowOk (qposOf qi r)) (rowScore Qr Kr b (qposOf qi r) col) j
              - max ⊥ ((Finset.univ : Finset (Fin 2048)).sup (sc (rowOk (qposOf qi r)) (rowScore Qr Kr b (qposOf qi r) col)))))
          * ((rowVal Vr b col k : ℝ) : EReal) := by
  have hq4 := qi.isLt
  have hInv := chain_hi hR b qi r col (3 - qi.val) (by omega) t (by omega)
  rw [out_last t (by omega), outO_row]
  refine hInv.quotient Finset.univ (Finset.subset_univ _) (fun k _ hk => ?_)
  rw [mem_Kset] at hk
  simp only [rowOk, decide_eq_false_iff_not, not_le]
  have := r.isLt
  show 512 * qi.val + r.val < k.val
  omega

end Cert.KernelIdeal.Hand

end
-- ==== Proof.KI.OutArray.lean ====
/-
  The result array. The result's blocks are written back on the last key tile of each (batch, query tile); they
  tile the array; so after the run the array's entry at (batch, query position, column) is the whole-row softmax
  of that row's masked scores (of the column's head) against the value column.
-/
import proofs.«178927_j55791625175600_2_alg».proof.Proof.KI.Walk

set_option maxRecDepth 16384

noncomputable section

namespace Cert.KernelIdeal.Hand

open Cert.KernelIdeal Cert.KernelIdeal.Gen
open Idealize.ShloMosaic Idealize.ShloMosaic.TcCoe Idealize.ShloMosaic.ValueIdx
open Cert.LibOnlineSoftmax

/-- The whole-row softmax of masked scores against values, in the spelling the reference computes it. -/
def softRow (ok : Fin 2048 → Bool) (s v : Fin 2048 → ℝ) : EReal :=
  ∑ k : Fin 2048,
    Ideal.div (Ideal.exp (sc ok s k - max ⊥ ((Finset.univ : Finset (Fin 2048)).sup (sc ok s))))
      (0 + ∑ j : Fin 2048, Ideal.exp (sc ok s j - max ⊥ ((Finset.univ : Finset (Fin 2048)).sup (sc ok s))))
    * ((v k : ℝ) : EReal)

variable (Qr Kr Vr : S4x2048x1024.Idx → ℝ)

/-- The attention value at (batch, query position, column). -/
def softAt (b : Fin 4) (qpos : Fin 2048) (col : Fin 1024) : EReal :=
  softRow (rowOk qpos) (rowScore Qr Kr b qpos col) (rowVal Vr b col)

/-- The result array. -/
def G3 : S4x2048x1024.Idx → EReal := fun i =>
  softAt Qr Kr Vr ⟨(i 0).val, (i 0).isLt⟩ ⟨(i 1).val, (i 1).isLt⟩ ⟨(i 2).val, (i 2).isLt⟩

variable {m : (ℓ : Loc nD τ sig) → Buf (Elt Ideal) ℓ} {c : Dev nD} {Qr Kr Vr}
variable (hR : RealArrays m c Qr Kr Vr)

include hR in
/-- What a last-key-tile point writes back is its block of the result array. -/
theorem flushed3_eq (t : Fin cfg0.N) (hf : (cfg0.win 3).flush t = true) :
    (dats m 0 c).flushed 3 t = ((cfg0.win 3).blk t).view.read (Elt Ideal) (G3 Qr Kr Vr) := by
  have h3 : t.val % 4 = 3 := (flush0_3 t).mp hf
  have hN : t.val < 64 := lt_of_lt_of_eq t.isLt (show cfg0.N = 64 from N_0)
  show (cfg0.win 3).cut (grid0.coords t) ((dats m 0 c).after 3 t) = _
  rw [after_3]
  obtain ⟨e0, e1, e2⟩ := idx_o t
  funext y
  have hy0 : (y 0).val = 0 := Nat.lt_one_iff.mp (show (y 0).val < 1 from (y 0).isLt)
  have hy : y = ix3 (0 : Fin 1) (⟨(y 1).val, (y 1).isLt⟩ : Fin 512) (⟨(y 2).val, (y 2).isLt⟩ : Fin 1024) := by
    funext a; apply Fin.ext
    match a with
    | ⟨0, _⟩ => exact hy0
    | ⟨1, _⟩ => rfl
    | ⟨2, _⟩ => rfl
  show (outsAt m c t.val t.isLt).1 y = G3 Qr Kr Vr (((cfg0.win 3).blk t).view.emb y)
  rw [hy, result_entry hR ⟨t.val / 16, by omega⟩ ⟨t.val / 4 % 4, by omega⟩ ⟨(y 1).val, (y 1).isLt⟩ ⟨(y 2).val, (y 2).isLt⟩ t (by show t.val = 16 * (t.val / 16) + 4 * (t.val / 4 % 4) + 3; omega)]
  show softAt Qr Kr Vr ⟨t.val / 16, by omega⟩ (qposOf ⟨t.val / 4 % 4, by omega⟩ ⟨(y 1).val, (y 1).isLt⟩) ⟨(y 2).val, (y 2).isLt⟩
      = softAt Qr Kr Vr ⟨((((cfg0.win 3).blk t).view.emb (ix3 (0 : Fin 1) (⟨(y 1).val, (y 1).isLt⟩ : Fin 512) (⟨(y 2).val, (y 2).isLt⟩ : Fin 1024))) 0).val, Fin.isLt _⟩
          ⟨((((cfg0.win 3).blk t).view.emb (ix3 (0 : Fin 1) (⟨(y 1).val, (y 1).isLt⟩ : Fin 512) (⟨(y 2).val, (y 2).isLt⟩ : Fin 1024))) 1).val, Fin.isLt _⟩
          ⟨((((cfg0.win 3).blk t).view.emb (ix3 (0 : Fin 1) (⟨(y 1).val, (y 1).isLt⟩ : Fin 512) (⟨(y 2).val, (y 2).isLt⟩ : Fin 1024))) 2).val, Fin.isLt _⟩
  congr 1
  · exact Fin.ext (by show t.val / 16 = win0_3.index t (0 : Fin 3) * 1 + 1 * 0; omega)
  · exact Fin.ext (by show 512 * (t.val / 4 % 4) + (y 1).val = win0_3.index t (1 : Fin 3) * 512 + 1 * (y 1).val; omega)
  · exact Fin.ext (by show (y 2).val = win0_3.index t (2 : Fin 3) * 1024 + 1 * (y 2).val; omega)

/-- An index of the array is in point t's block iff each coordinate is in the block's range. -/
theorem mem_blk3 (t : Fin cfg0.N) (i : S4x2048x1024.Idx) :
    i ∈ ((cfg0.win 3).blk t).view.set ↔ ∀ a : Fin 3, win0_3.index t a * S1x512x1024.size a ≤ (i a).val ∧ (i a).val < win0_3.index t a * S1x512x1024.size a + S1x512x1024.size a := by
  show i ∈ ((View.whole main_v3).slice (win0_3.rect t)).set ↔ _
  rw [View.set_slice_whole, Rect.mem_set_unit]
  exact Iff.rfl

/-- Every entry is written back by the last key tile of its batch and query tile. -/
theorem covered3 (i : S4x2048x1024.Idx) :
    ∃ t : Fin cfg0.N, (cfg0.win 3).flush t = true ∧ i ∈ ((cfg0.win 3).blk t).view.set := by
  have h0 : (i 0).val < 4 := (i 0).isLt
  have h1 : (i 1).val < 2048 := (i 1).isLt
  have h2 : (i 2).val < 1024 := (i 2).isLt
  refine ⟨⟨16 * (i 0).val + 4 * ((i 1).val / 512) + 3, by rw [show cfg0.N = 64 from N_0]; omega⟩, (flush0_3 _).mpr (by show (16 * (i 0).val + 4 * ((i 1).val / 512) + 3) % 4 = 3; omega), ?_⟩
  rw [mem_blk3]
  obtain ⟨e0, e1, e2⟩ := idx_o ⟨16 * (i 0).val + 4 * ((i 1).val / 512) + 3, by rw [show cfg0.N = 64 from N_0]; omega⟩
  dsimp only at e0 e1 e2
  intro a
  match a with
  | ⟨0, _⟩ => show win0_3.index _ (0 : Fin 3) * 1 ≤ (i 0).val ∧ (i 0).val < win0_3.index _ (0 : Fin 3) * 1 + 1; rw [e0]; show _ * 1 ≤ _ ∧ _; omega
  | ⟨1, _⟩ => show win0_3.index _ (1 : Fin 3) * 512 ≤ (i 1).val ∧ (i 1).val < win0_3.index _ (1 : Fin 3) * 512 + 512; rw [e1]; show _ * 512 ≤ _ ∧ _; omega
  | ⟨2, _⟩ => show win0_3.index _ (2 : Fin 3) * 1024 ≤ (i 2).val ∧ (i 2).val < win0_3.index _ (2 : Fin 3) * 1024 + 1024; rw [e2]; omega

include hR in
/-- THE RESULT ARRAY after the run. -/
theorem final3 : (dats m 0 c).arrAt 3 cfg0.N = G3 Qr Kr Vr :=
  (dats m 0 c).arrAt_eq_of_cover 3 (G3 Qr Kr Vr) (fun t hf => flushed3_eq hR t hf) covered3

end Cert.KernelIdeal.Hand

end
-- ==== Proof.KI.Host.lean ====
/-
  The host operations around the kernel. Before it the three arguments' two minor axes (16 heads × 64) are merged
  into one axis of 1024: entry (b, l, 64h + d) of the merged array is entry (b, l, h, d) of the argument. After it
  the result's axis of 1024 is split back.
-/
import proofs.«178927_j55791625175600_2_alg».proof.Proof.KI.OutArray
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (c : Dev nD)

theorem V_v0 : (V m c main_v0 : S4x2048x1024.Idx → EReal)
    = shapeCast S4x2048x1024 (m ((c : Thread nD τ).loc main_arg0)) shapeCasts_S4x2048x16x64_S4x2048x1024 := by
  show StableHlo.after hostOps0 (fun b => m (c, b)) (Proc.devRef .tc main_v0) = _
  after_results; rfl
theorem V_v1 : (V m c main_v1 : S4x2048x1024.Idx → EReal)
    = shapeCast S4x2048x1024 (m ((c : Thread nD τ).loc main_arg1)) shapeCasts_S4x2048x16x64_S4x2048x1024 := by
  show StableHlo.after hostOps0 (fun b => m (c, b)) (Proc.devRef .tc main_v1) = _
  after_results; rfl
theorem V_v2 : (V m c main_v2 : S4x2048x1024.Idx → EReal)
    = shapeCast S4x2048x1024 (m ((c : Thread nD τ).loc main_arg2)) shapeCasts_S4x2048x16x64_S4x2048x1024 := by
  show StableHlo.after hostOps0 (fun b => m (c, b)) (Proc.devRef .tc main_v2) = _
  after_results; rfl

/-- Merging the two minor axes, read at an entry. -/
theorem merge_apply {α : Type} (x : S4x2048x16x64.Idx → α) (b : Fin 4) (q : Fin 2048) (h : Fin 16) (d : Fin 64) :
    shapeCast S4x2048x1024 x shapeCasts_S4x2048x16x64_S4x2048x1024 (ix3 b q (colOf h d)) = x (ix4 b q h d) :=
  shapeCast_apply x _ (ix3 b q (colOf h d)) (ix4 b q h d) (by
    rw [Shape.rowMajor_val_four, Shape.rowMajor_val_three]; simp [ix3, ix4]; ring)

/-- Splitting them back. -/
theorem split_apply {α : Type} (x : S4x2048x1024.Idx → α) (b : Fin 4) (q : Fin 2048) (h : Fin 16) (d : Fin 64) :
    shapeCast S4x2048x16x64 x shapeCasts_S4x2048x1024_S4x2048x16x64 (ix4 b q h d) = x (ix3 b q (colOf h d)) :=
  shapeCast_apply x _ (ix4 b q h d) (ix3 b q (colOf h d)) (by
    rw [Shape.rowMajor_val_four, Shape.rowMajor_val_three]; simp [ix3, ix4]; ring)

/-- What the host's last operation leaves in the result buffer: the kernel's result array, split back. -/
theorem tail_v4 (dats' : (p : Fin 1) → (c : Dev nD) → Pipeline.Dat τ (Elt Ideal) Unit ℕ (UR sig nD τ) ℕ (cfgs p) c) :
    (Pipeline.afterTail₀ cfgs dats' 0 (V0 m) [hostOps1] c main_v4 : S4x2048x16x64.Idx → EReal)
      = shapeCast S4x2048x16x64 ((dats' 0 c).arrAt 3 cfg0.N) shapeCasts_S4x2048x1024_S4x2048x16x64 := by
  unfold Pipeline.afterTail₀
  show StableHlo.after hostOps1 _ (Proc.devRef .tc main_v4) = _
  after_results
  exact congrArg (fun x => shapeCast S4x2048x16x64 x shapeCasts_S4x2048x1024_S4x2048x16x64)
    (Pipeline.withArrays_arr spec0 launch0.win.arr_inj c _ _ 3)

end Cert.KernelIdeal.Hand

end
-- ==== Proof.Ref.lean ====
/-
  The reference, read entry by entry over the extended reals: the scores are the dot products over the head's 64
  columns times 1/√64 = 1/8, masked to -∞ above the diagonal; the row's maximum, the exponentials, their sum, the
  quotient, and the product with the values — the whole-row softmax of the masked scores against the value column.
-/
import proofs.«178927_j55791625175600_2_alg».proof.Proof.Gen.ReferenceIdeal.Read
import proofs.«178927_j55791625175600_2_alg».proof.Proof.KI.OutArray
import Idealize.ShloMosaic.Lib.IdealHost

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx
open Cert.KernelIdeal.Hand (softAt softRow rowScore rowOk rowVal colOf headOf one_word neg_inf_word)
open Cert.LibOnlineSoftmax

theorem headOf_colOf (h : Fin 16) (d : Fin 64) : headOf (colOf h d) = h :=
  Fin.ext (by show (64 * h.val + d.val) / 64 = h.val; have := d.isLt; omega)

theorem w64 : Ideal.ofBits .f32 0x42800000#32 = (((64 : ℝ)) : EReal) := by
  simp [Ideal.ofBits, Ideal.ieee]
  first
    | (norm_cast; norm_num)
    | (rw [← EReal.coe_mul]; norm_num)
    | norm_num

/-- The reference's scale 1/√64 is 1/8. -/
theorem scale_eq : FloatOps.hostDivf (FloatOps.ofBits (F := Ideal) .f32 0x3F800000#32)
      (FloatOps.hostUnary .sqrt (FloatOps.ofBits (F := Ideal) .f32 0x42800000#32)) = (((1 / 8 : ℝ)) : EReal) := by
  rw [Ideal.hostDivf_def, Ideal.hostUnary_sqrt_def, Ideal.ofBits_def, Ideal.ofBits_def, one_word, w64]
  have hs : Ideal.sqrt (((64 : ℝ)) : EReal) = (((8 : ℝ)) : EReal) := by
    show (if (64 : ℝ) < 0 then (⊥ : EReal) else ((Real.sqrt 64 : ℝ) : EReal)) = _
    rw [if_neg (by norm_num), show (64 : ℝ) = 8 ^ 2 by norm_num, Real.sqrt_sq (by norm_num)]
  rw [hs, Ideal.div_coe (by norm_num : (8 : ℝ) ≠ 0), one_mul]

variable (x0 x1 x2 : (⟨S4x2048x16x64, .f32⟩ : BufTy).Contents (Elt Ideal))
variable (Qr Kr Vr : Cert.KernelIdeal.S4x2048x1024.Idx → ℝ)

/-- The reference's arguments hold the reals of the flat arrays (column 64h + d of the flat array is (h, d)). -/
structure Flat : Prop where
  h0 : ∀ (b : Fin 4) (q : Fin 2048) (h : Fin 16) (d : Fin 64), x0 (ix4 b q h d) = ((Qr (ix3 b q (colOf h d)) : ℝ) : EReal)
  h1 : ∀ (b : Fin 4) (q : Fin 2048) (h : Fin 16) (d : Fin 64), x1 (ix4 b q h d) = ((Kr (ix3 b q (colOf h d)) : ℝ) : EReal)
  h2 : ∀ (b : Fin 4) (q : Fin 2048) (h : Fin 16) (d : Fin 64), x2 (ix4 b q h d) = ((Vr (ix3 b q (colOf h d)) : ℝ) : EReal)

variable {x0 x1 x2 Qr Kr Vr}

/-- The masked, scaled score at (batch, head, query, key). -/
theorem v11_at (hF : Flat x0 x1 x2 Qr Kr Vr) (b : Fin 4) (q : Fin 2048) (h : Fin 16) (d : Fin 64) (i : S4x16x2048x2048.Idx)
    (hb : (i 0).val = b.val) (hh : (i 1).val = h.val) (hq : (i 2).val = q.val) (k : Fin 2048) (hk : (i 3).val = k.val) :
    val_main_v11 (F := Ideal) x0 x1 i = sc (rowOk q) (rowScore Qr Kr b q (colOf h d)) k := by
  have hdot : val_main_v7 (F := Ideal) x0 x1 i = ((rowScore Qr Kr b q (colOf h d) k : ℝ) : EReal) := by
    rw [val_main_v7_apply, val_main_v5_apply, val_main_v6_apply, val_main_v4_apply, val_main_cst_0_apply, val_main_v3_apply,
      val_main_cst_apply, scale_eq]
    unfold rowScore
    rw [headOf_colOf, EReal.coe_mul, coe_sum]
    refine congrArg₂ (· * ·) (Finset.sum_congr rfl fun d' _ => ?_) rfl
    rw [val_main_v0_apply, val_main_v1_apply, EReal.coe_mul]
    have e0 : idx_main_v0 (lidx_main_v5 i d') = ix4 b q h d' := by
      funext a; apply Fin.ext
      match a with
      | ⟨0, _⟩ => exact hb
      | ⟨1, _⟩ => exact hq
      | ⟨2, _⟩ => exact hh
      | ⟨3, _⟩ => rfl
    have e1 : idx_main_v1 (ridx_main_v5 i d') = ix4 b k h d' := by
      funext a; apply Fin.ext
      match a with
      | ⟨0, _⟩ => exact hb
      | ⟨1, _⟩ => exact hk
      | ⟨2, _⟩ => exact hh
      | ⟨3, _⟩ => rfl
    rw [e0, e1, hF.h0, hF.h1]
  rw [val_main_v11_apply, hdot, val_main_call1_v1_apply, val_main_v10_apply, val_main_v9_apply, val_main_call0_v4_apply,
    val_main_call0_v2_apply, val_main_call0_v0_apply, val_main_call0_v1_apply, val_main_call0_c_apply, val_main_call0_v3_apply,
    val_main_v8_apply, val_main_c_apply, val_main_call0_v5_apply, val_main_call0_c_0_apply, val_main_call1_v2_apply,
    val_main_call1_v0_apply, val_main_cst_1_apply]
  show Scalar.select (Scalar.select (IntOp.cmpi .sge (IntOp.addi (BitVec.ofNat 32 (i 2).val) 0#32) (BitVec.ofNat 32 (i 3).val)) 1#1 0#1)
      ((rowScore Qr Kr b q (colOf h d) k : ℝ) : EReal) (FloatOps.ofBits (F := Ideal) .f32 0xFF800000#32) = _
  rw [hq, hk, show IntOp.addi (BitVec.ofNat 32 q.val) 0#32 = BitVec.ofNat 32 q.val from BitVec.add_zero _,
    Cert.LibWords.sge_ofNat _ _ (by have := q.isLt; omega) (by have := k.isLt; omega), Ideal.ofBits_def, neg_inf_word]
  unfold sc rowOk
  by_cases hkq : k.val ≤ q.val
  · rw [if_pos hkq, select_one, select_one, if_pos (by simpa using hkq)]
  · rw [if_neg hkq, select_zero, select_zero, if_neg (by simpa using hkq)]

/-- The row's maximum (with the reference's extra max against -∞). -/
theorem v14_at (hF : Flat x0 x1 x2 Qr Kr Vr) (b : Fin 4) (q : Fin 2048) (h : Fin 16) (d : Fin 64) (i : S4x16x2048.Idx)
    (hb : (i 0).val = b.val) (hh : (i 1).val = h.val) (hq : (i 2).val = q.val) :
    val_main_v14 (F := Ideal) x0 x1 i
      = max ⊥ ((Finset.univ : Finset (Fin 2048)).sup (sc (rowOk q) (rowScore Qr Kr b q (colOf h d)))) := by
  have hred : Shape.Reduces S4x16x2048x2048 [3] S4x16x2048 := by decide
  rw [val_main_v14_apply, val_main_v13_apply, val_main_cst_3_apply, Ideal.maximumf_def, Ideal.ofBits_def, neg_inf_word]
  refine congrArg (max ⊥) ?_
  unfold val_main_v12
  rw [Host.reduce_eq_fold_single (a := (3 : Fin S4x16x2048x2048.rank)) FloatOps.maximumf _ _ reducesTo_S4x16x2048x2048_S4x16x2048_d3 hred h_S_ i]
  have e : (val_main_v11 (F := Ideal) x0 x1 ∘ hred.lift i)
      = fun k : Fin (S4x16x2048x2048.size 3) => sc (rowOk q) (rowScore Qr Kr b q (colOf h d)) (⟨k.val, k.isLt⟩ : Fin 2048) :=
    funext fun k => v11_at hF b q h d (hred.lift i k) hb hh hq ⟨k.val, k.isLt⟩ rfl
  rw [e, val_main_cst_2_apply, Ideal.ofBits_def, neg_inf_word]
  rfl

/-- The exponential of a masked score less the row's maximum. -/
theorem v18_at (hF : Flat x0 x1 x2 Qr Kr Vr) (b : Fin 4) (q : Fin 2048) (h : Fin 16) (d : Fin 64) (i : S4x16x2048x2048.Idx)
    (hb : (i 0).val = b.val) (hh : (i 1).val = h.val) (hq : (i 2).val = q.val) (k : Fin 2048) (hk : (i 3).val = k.val) :
    val_main_v18 (F := Ideal) x0 x1 i
      = Ideal.exp (sc (rowOk q) (rowScore Qr Kr b q (colOf h d)) k
          - max ⊥ ((Finset.univ : Finset (Fin 2048)).sup (sc (rowOk q) (rowScore Qr Kr b q (colOf h d))))) := by
  rw [val_main_v18_apply, val_main_v17_apply, val_main_v16_apply, val_main_v15_apply, Ideal.hostUnary_exp_def, Ideal.subf_def,
    v11_at hF b q h d i hb hh hq k hk, v14_at hF b q h d (idx_main_v15 (idx_main_v16 i)) hb hh hq]

/-- The row's sum of exponentials. -/
theorem v19_at (hF : Flat x0 x1 x2 Qr Kr Vr) (b : Fin 4) (q : Fin 2048) (h : Fin 16) (d : Fin 64) (i : S4x16x2048.Idx)
    (hb : (i 0).val = b.val) (hh : (i 1).val = h.val) (hq : (i 2).val = q.val) :
    val_main_v19 (F := Ideal) x0 x1 i
      = 0 + ∑ j : Fin 2048, Ideal.exp (sc (rowOk q) (rowScore Qr Kr b q (colOf h d)) j
          - max ⊥ ((Finset.univ : Finset (Fin 2048)).sup (sc (rowOk q) (rowScore Qr Kr b q (colOf h d))))) := by
  rw [val_main_v19_apply, val_main_cst_4_apply, Ideal.ofBits_def, Ideal.ofBits_zero_f32]
  refine congrArg (0 + ·) (Finset.sum_congr rfl fun j _ => ?_)
  exact v18_at hF b q h d (idx_main_v19 i j) hb hh hq j rfl

/-- THE REFERENCE'S ENTRY: the whole-row softmax of the masked scores against the value column. -/
theorem ref_entry (hF : Flat x0 x1 x2 Qr Kr Vr) (b : Fin 4) (q : Fin 2048) (h : Fin 16) (d : Fin 64) :
    val_main_v24 (F := Ideal) x0 x1 x2 (ix4 b q h d) = softAt Qr Kr Vr b q (colOf h d) := by
  rw [val_main_v24_apply, val_main_v23_apply]
  unfold softAt softRow
  refine Finset.sum_congr rfl fun k _ => ?_
  rw [val_main_v22_apply, Ideal.hostDivf_def, val_main_v21_apply, val_main_v20_apply,
    v18_at hF b q h d (lidx_main_v23 (idx_main_v24 (ix4 b q h d)) k) rfl rfl rfl k rfl,
    v19_at hF b q h d (idx_main_v20 (idx_main_v21 (lidx_main_v23 (idx_main_v24 (ix4 b q h d)) k))) rfl rfl rfl,
    val_main_v2_apply]
  have e2 : idx_main_v2 (ridx_main_v23 (idx_main_v24 (ix4 b q h d)) k) = ix4 b k h d := by
    funext a; apply Fin.ext
    match a with
    | ⟨0, _⟩ => rfl
    | ⟨1, _⟩ => rfl
    | ⟨2, _⟩ => rfl
    | ⟨3, _⟩ => rfl
  rw [e2, hF.h2]
  rfl

end Cert.ReferenceIdeal.RefValue

end
-- ==== Proof.Finite.lean ====
/-
  The precondition says every entry of the three arguments has absolute value below +∞; over the extended reals
  that is: every entry is a real.
-/
import proofs.«178927_j55791625175600_2_alg».proof.Defs
import proofs.«178927_j55791625175600_2_alg».proof.Proof.Gen.Pre_finite_inputs
import Idealize.ShloMosaic.Lib.ReduceAll
import Idealize.ShloMosaic.Lib.ValueIdx
import Idealize.ShloMosaic.PureOps.Ideal.Laws
import proofs.«178927_j55791625175600_2_alg».proof.Proof.LibRows

noncomputable section

namespace Cert.Pre_finite_inputs.Decode

open Idealize.ShloMosaic Idealize.ShloMosaic.ValueIdx Cert.Pre_finite_inputs

instance : Subsingleton S_.Idx := ⟨fun a b => funext fun d => d.elim0⟩

theorem inf_word : Ideal.ofBits .f32 0x7F800000#32 = ⊤ := by simp [Ideal.ofBits, Ideal.ieee]

/-- An extended real whose absolute value is below +∞ is a real. -/
theorem real_of_abs_lt (x : EReal) (h : Ideal.cmp .olt (max x (-x)) ⊤ = 1#1) : ∃ r : ℝ, x = (r : EReal) := by
  have hlt : max x (-x) < ⊤ := by
    unfold Ideal.cmp at h
    by_contra hn
    simp [hn] at h
  induction x using EReal.rec with
  | bot => simp at hlt
  | coe r => exact ⟨r, rfl⟩
  | top => simp at hlt

variable [Facts]
open Facts

/-- Every entry of each argument is a real. -/
theorem all_real (a0 a1 a2 : FVec Ideal S4x2048x16x64 .f32) (h : fn (F := Ideal) a0 a1 a2 = fun _ => 1#1) :
    (∀ i, ∃ r : ℝ, a0 i = (r : EReal)) ∧ (∀ i, ∃ r : ℝ, a1 i = (r : EReal)) ∧ (∀ i, ∃ r : ℝ, a2 i = (r : EReal)) := by
  have key : ∀ a : FVec Ideal S4x2048x16x64 .f32,
      Host.reduce IntOp.andi (cmpf .olt (Host.absf a) (broadcastInDim S4x2048x16x64 ![] bcast_S_S4x2048x16x64 (constant (F := Ideal) S_ .f32 0x7F800000#32)))
        (constantI S_ 1 1#1) reducesTo_S4x2048x16x64_S_d0_1_2_3 h_S_ ix0 = 1#1 → ∀ i, ∃ r : ℝ, a i = (r : EReal) := by
    intro a ha i
    have hi := Host.reduce_andi_all _ _ _ _ ix0 ha i
    have hb : broadcastInDim S4x2048x16x64 ![] bcast_S_S4x2048x16x64 (constant (F := Ideal) S_ .f32 0x7F800000#32) i = ⊤ := by
      rw [Cert.LibRows.scalarInDim_apply]; exact inf_word
    have h3 : Ideal.cmp .olt (max (a i) (-(a i)))
        (broadcastInDim S4x2048x16x64 ![] bcast_S_S4x2048x16x64 (constant (F := Ideal) S_ .f32 0x7F800000#32) i) = 1#1 := hi
    rw [hb] at h3
    exact real_of_abs_lt (a i) h3
  have h' := congrFun h ix0
  dsimp only [fn] at h'
  change IntOp.andi (IntOp.andi _ _) _ = 1#1 at h'
  obtain ⟨h01, h2⟩ := IntOp.andi_eq_one.mp h'
  obtain ⟨h0, h1⟩ := IntOp.andi_eq_one.mp h01
  exact ⟨key a0 h0, key a1 h1, key a2 h2⟩

end Cert.Pre_finite_inputs.Decode

end
-- ==== Proof.Algebraic.lean ====
/-
  The two idealized programs end with equal results. With every argument entry a real (the precondition), the
  kernel's result buffer holds, at (batch, position, head, d), the whole-row softmax of the masked scaled scores
  of that head against the value column — what the online accumulation over the key tiles comes to — and the
  reference computes exactly that row by row.
-/
import proofs.«178927_j55791625175600_2_alg».proof.Defs
import proofs.«178927_j55791625175600_2_alg».proof.Proof.KI.Host
import proofs.«178927_j55791625175600_2_alg».proof.Proof.Ref
import proofs.«178927_j55791625175600_2_alg».proof.Proof.Finite
import proofs.«178927_j55791625175600_2_alg».proof.Proof.Gen.Kernel
import proofs.«178927_j55791625175600_2_alg».proof.Proof.Gen.KernelIdeal
import proofs.«178927_j55791625175600_2_alg».proof.Proof.Gen.ReferenceIdeal
import proofs.«178927_j55791625175600_2_alg».proof.Proof.Gen.Pre_finite_inputs

set_option maxRecDepth 16384

noncomputable section

namespace Cert.Proof

open Idealize.ShloMosaic Idealize.ShloMosaic.TcCoe Idealize.ShloMosaic.ValueIdx Idealize.SL.Sem
open Cert.KernelIdeal.Hand (softAt colOf G3 RealArrays V_v0 V_v1 V_v2 merge_apply split_apply tail_v4 final3 run_main dats)

/-- The common result at an entry. -/
def attn (Qr Kr Vr : Cert.KernelIdeal.S4x2048x1024.Idx → ℝ) : Cert.KernelIdeal.S4x2048x16x64.Idx → EReal := fun i =>
  softAt Qr Kr Vr ⟨(i 0).val, (i 0).isLt⟩ ⟨(i 1).val, (i 1).isLt⟩ (colOf ⟨(i 2).val, (i 2).isLt⟩ ⟨(i 3).val, (i 3).isLt⟩)

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  -- every argument entry is a real
  have hfin := fun c => Cert.Pre_finite_inputs.Decode.all_real _ _ _ (hpre c)
  -- the merged arrays' reals
  let Qr : Dev Cert.KernelIdeal.nD → Cert.KernelIdeal.S4x2048x1024.Idx → ℝ := fun c i => (Cert.KernelIdeal.Gen.V m c Cert.KernelIdeal.main_v0 i : EReal).toReal
  let Kr : Dev Cert.KernelIdeal.nD → Cert.KernelIdeal.S4x2048x1024.Idx → ℝ := fun c i => (Cert.KernelIdeal.Gen.V m c Cert.KernelIdeal.main_v1 i : EReal).toReal
  let Vr : Dev Cert.KernelIdeal.nD → Cert.KernelIdeal.S4x2048x1024.Idx → ℝ := fun c i => (Cert.KernelIdeal.Gen.V m c Cert.KernelIdeal.main_v2 i : EReal).toReal
  have hreal : ∀ (x : Cert.KernelIdeal.S4x2048x16x64.Idx → EReal), (∀ i, ∃ r : ℝ, x i = (r : EReal)) →
      ∀ i, shapeCast Cert.KernelIdeal.S4x2048x1024 x Cert.KernelIdeal.Facts₀.shapeCasts_S4x2048x16x64_S4x2048x1024 i
        = (((shapeCast Cert.KernelIdeal.S4x2048x1024 x Cert.KernelIdeal.Facts₀.shapeCasts_S4x2048x16x64_S4x2048x1024 i : EReal).toReal : ℝ) : EReal) := by
    intro x hx i
    obtain ⟨r, hr⟩ := hx (Shape.reshapeEquiv _ i)
    have : shapeCast Cert.KernelIdeal.S4x2048x1024 x Cert.KernelIdeal.Facts₀.shapeCasts_S4x2048x16x64_S4x2048x1024 i = (r : EReal) := hr
    rw [this, EReal.toReal_coe]
  have hR : ∀ c, RealArrays m c (Qr c) (Kr c) (Vr c) := fun c =>
    ⟨fun i => by show Cert.KernelIdeal.Gen.V m c Cert.KernelIdeal.main_v0 i = _; rw [V_v0]; exact hreal _ (hfin c).1 i,
     fun i => by show Cert.KernelIdeal.Gen.V m c Cert.KernelIdeal.main_v1 i = _; rw [V_v1]; exact hreal _ (hfin c).2.1 i,
     fun i => by show Cert.KernelIdeal.Gen.V m c Cert.KernelIdeal.main_v2 i = _; rw [V_v2]; exact hreal _ (hfin c).2.2 i⟩
  refine ⟨fun c => attn (Qr c) (Kr c) (Vr c), ?_, ?_⟩
  · -- the kernel
    refine (θ_run Cert.KernelIdeal.defs _ _).mono (fun r h c => ⟨?_, ?_, ?_, ?_⟩) (run_main (F := Ideal) m ρ)
    · rw [(h c).2 Cert.KernelIdeal.main_v4 (Pipeline.mem_restRefs_of Cert.KernelIdeal.main_v4 (by decide) (by decide))]
      funext i
      obtain ⟨b, q, hh, d, rfl⟩ : ∃ (b : Fin 4) (q : Fin 2048) (hh : Fin 16) (d : Fin 64), i = ix4 b q hh d := ⟨i 0, i 1, i 2, i 3, eq_ix4 i⟩
      rw [tail_v4, split_apply, final3 (hR c)]
      rfl
    · exact ((h c).2 Cert.KernelIdeal.main_arg0 (Pipeline.mem_restRefs_of Cert.KernelIdeal.main_arg0 (by decide) (by decide))).trans (Cert.KernelIdeal.Gen.W_main_arg0 m (dats m) c)
    · exact ((h c).2 Cert.KernelIdeal.main_arg1 (Pipeline.mem_restRefs_of Cert.KernelIdeal.main_arg1 (by decide) (by decide))).trans (Cert.KernelIdeal.Gen.W_main_arg1 m (dats m) c)
    · exact ((h c).2 Cert.KernelIdeal.main_arg2 (Pipeline.mem_restRefs_of Cert.KernelIdeal.main_arg2 (by decide) (by decide))).trans (Cert.KernelIdeal.Gen.W_main_arg2 m (dats m) c)
  · -- the reference
    refine (θ_run Cert.ReferenceIdeal.defs _ _).mono (fun r h c => ⟨?_, (h c).2.1, (h c).2.2.1, (h c).2.2.2⟩)
      (Cert.ReferenceIdeal.Value.run (F := Ideal) m' ρ')
    rw [(h c).1, Cert.ReferenceIdeal.Read.val_main_v24_eq]
    have hF : Cert.ReferenceIdeal.RefValue.Flat (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2)) (Qr c) (Kr c) (Vr c) := by
      obtain ⟨e0, e1, e2⟩ := hagree c
      refine ⟨fun b q hh d => ?_, fun b q hh d => ?_, fun b q hh d => ?_⟩
      · rw [e0, ← (hR c).hQ, V_v0, merge_apply]
      · rw [e1, ← (hR c).hK, V_v1, merge_apply]
      · rw [e2, ← (hR c).hV, V_v2, merge_apply]
    funext i
    obtain ⟨b, q, hh, d, rfl⟩ : ∃ (b : Fin 4) (q : Fin 2048) (hh : Fin 16) (d : Fin 64), i = ix4 b q hh d := ⟨i 0, i 1, i 2, i 3, eq_ix4 i⟩
    rw [Cert.ReferenceIdeal.RefValue.ref_entry hF b q hh d]
    rfl

end Cert.Proof

end
-- ==== Proof.lean ====
/-
  Causal multi-head attention, B = 4, L = 2048, H = 16, D = 64. The kernel walks the key tiles of 512 rows below
  and on the diagonal of each query tile, keeping per head a running maximum m, a running denominator l and a
  running numerator acc of the softmax (the "online" form: on a new tile with scores s, m' = max(m, max s),
  l' = exp(m - m') l + Σ exp(s - m'), acc' = exp(m - m') acc + exp(s - m') · v), masks the diagonal tile with a
  constant that at the ideal instance IS -∞, and on the last key tile stores acc · (1 / l). The reference is the
  whole-row softmax of the masked scores times v. Over the extended reals the two agree: a masked score's weight is
  exp(-∞) = 0 on both sides, every processed tile has an unmasked score in every row so each running maximum is
  finite, exp(m - m') exp(s - m) = exp(s - m') folds the tiles' sums into the row's, and the scale 1/8 is 1/√64.

  The three frames: the kernel's (at both instances) from the body run once per kind of grid point
  (Proof/K, Proof/KI); the reference's from its run read back. The idealization's ledger is sixteen
  uses of the one named constant. The equality of the two results is Proof/Algebraic.lean: the kernel's side from
  the pieces each kind of point stores (Proof/KI), the induction over key tiles (Walk) and the online-softmax
  invariant (LibOnlineSoftmax); the reference's side read stage by stage (Ref).
-/
import proofs.«178927_j55791625175600_2_alg».proof.Defs
import proofs.«178927_j55791625175600_2_alg».proof.Proof.Gen.Kernel
import proofs.«178927_j55791625175600_2_alg».proof.Proof.Gen.KernelIdeal
import proofs.«178927_j55791625175600_2_alg».proof.Proof.Gen.ReferenceIdeal
import proofs.«178927_j55791625175600_2_alg».proof.Proof.Gen.ReferenceIdeal.Run
import proofs.«178927_j55791625175600_2_alg».proof.Proof.Gen.ReferenceIdeal.Read
import proofs.«178927_j55791625175600_2_alg».proof.Proof.Gen.Pre_finite_inputs
import proofs.«178927_j55791625175600_2_alg».proof.Proof.K.Frame
import proofs.«178927_j55791625175600_2_alg».proof.Proof.KI.Frame
import proofs.«178927_j55791625175600_2_alg».proof.Proof.Algebraic
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Hand.frame (F := Bits) m ρ

theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The mask's fill value is named -∞ by the certificate's table; each of the sixteen heads' masks uses it once. -/
theorem neg_big : IdealRules.named_const.Statement Cert.KernelIdeal.κ "neg_big" .f32 0xFF333332#32 ⊥ :=
  IdealRules.named_const.statement Cert.KernelIdeal.κ "neg_big" .f32 0xFF333332#32 ⊥ rfl

theorem preserves : Cert.preserves_Kernel_KernelIdeal :=
  ⟨neg_big, neg_big, neg_big, neg_big, neg_big, neg_big, neg_big, neg_big, neg_big, neg_big, neg_big, neg_big, neg_big, neg_big, neg_big, neg_big⟩

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
